-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S204800 : Shape := ⟨1, ![204800]⟩
abbrev S20x128 : Shape := ⟨2, ![20, 128]⟩
abbrev S180x128 : Shape := ⟨2, ![180, 128]⟩
abbrev S_ : Shape := ⟨0, ![]⟩

class Facts : Prop where
  bcast_S_S20x128 : S_.BroadcastsInDim S20x128 (![] : Fin 0 → Fin S20x128.rank)
  reducesTo_S20x128_S_d0_1 : S20x128.ReducesTo [0, 1] S_
  h_S_ : 0 < S_.numel
  bcast_S_S180x128 : S_.BroadcastsInDim S180x128 (![] : Fin 0 → Fin S180x128.rank)
  reducesTo_S180x128_S_d0_1 : S180x128.ReducesTo [0, 1] S_
  bcast_S_S204800 : S_.BroadcastsInDim S204800 (![] : Fin 0 → Fin S204800.rank)
  reducesTo_S204800_S_d0 : S204800.ReducesTo [0] S_

variable [Facts]

def fn {F : FTy → Type} [FloatOps F] (main_arg0 : IVec S204800 32) (main_arg1 : FVec F S20x128 .f32) (main_arg2 : FVec F S180x128 .f32) : IVec S_ 1 :=
  let main_v0 : FVec F S20x128 .f32 := Host.absf main_arg1
  let main_cst : FVec F S_ .f32 := constant S_ .f32 0x7F800000#32
  let main_v1 : FVec F S20x128 .f32 := broadcastInDim S20x128 ![] bcast_S_S20x128 main_cst
  let main_v2 : IVec S20x128 1 := cmpf .olt main_v0 main_v1
  let main_c : IVec S_ 1 := constantI S_ 1 1#1
  let main_v3 : IVec S_ 1 := (fun x v => Host.reduce IntOp.andi x v reducesTo_S20x128_S_d0_1 h_S_) main_v2 main_c
  let main_v4 : FVec F S180x128 .f32 := Host.absf main_arg2
  let main_cst_0 : FVec F S_ .f32 := constant S_ .f32 0x7F800000#32
  let main_v5 : FVec F S180x128 .f32 := broadcastInDim S180x128 ![] bcast_S_S180x128 main_cst_0
  let main_v6 : IVec S180x128 1 := cmpf .olt main_v4 main_v5
  let main_c_1 : IVec S_ 1 := constantI S_ 1 1#1
  let main_v7 : IVec S_ 1 := (fun x v => Host.reduce IntOp.andi x v reducesTo_S180x128_S_d0_1 h_S_) main_v6 main_c_1
  let main_v8 : IVec S_ 1 := andi main_v3 main_v7
  let main_c_2 : IVec S_ 32 := constantI S_ 32 0#32
  let main_v9 : IVec S204800 32 := broadcastInDim S204800 ![] bcast_S_S204800 main_c_2
  let main_v10 : IVec S204800 1 := cmpi .sge main_arg0 main_v9
  let main_c_3 : IVec S_ 32 := constantI S_ 32 199#32
  let main_v11 : IVec S204800 32 := broadcastInDim S204800 ![] bcast_S_S204800 main_c_3
  let main_v12 : IVec S204800 1 := cmpi .sle main_arg0 main_v11
  let main_v13 : IVec S204800 1 := andi main_v10 main_v12
  let main_c_4 : IVec S_ 1 := constantI S_ 1 1#1
  let main_v14 : IVec S_ 1 := (fun x v => Host.reduce IntOp.andi x v reducesTo_S204800_S_d0 h_S_) main_v13 main_c_4
  let main_v15 : IVec S_ 1 := andi main_v8 main_v14
  main_v15
-- ==== Kernel.lean ====
abbrev S204800 : Shape := ⟨1, ![204800]⟩
abbrev S20x128 : Shape := ⟨2, ![20, 128]⟩
abbrev S180x128 : Shape := ⟨2, ![180, 128]⟩
abbrev S204800x128 : Shape := ⟨2, ![204800, 128]⟩
abbrev S200x128 : Shape := ⟨2, ![200, 128]⟩
abbrev S6400 : Shape := ⟨1, ![6400]⟩
abbrev S10x64x128 : Shape := ⟨3, ![10, 64, 128]⟩
abbrev S10 : Shape := ⟨1, ![10]⟩
abbrev S_ : Shape := ⟨0, ![]⟩
abbrev S1x64x128 : Shape := ⟨3, ![1, 64, 128]⟩
abbrev S64x128 : Shape := ⟨2, ![64, 128]⟩
abbrev S64 : Shape := ⟨1, ![64]⟩
abbrev S1 : Shape := ⟨1, ![1]⟩

abbrev nBuf : Table → Nat
  | .hbm => 4
  | .shared => 1
  | .local .scVector .vmem => 2
  | _ => 0

abbrev bufTy : (tb : Table) → Fin (nBuf tb) → BufTy
  | .hbm, ⟨0, _⟩ => ⟨S204800, .i32⟩
  | .hbm, ⟨1, _⟩ => ⟨S20x128, .f32⟩
  | .hbm, ⟨2, _⟩ => ⟨S180x128, .f32⟩
  | .hbm, ⟨3, _⟩ => ⟨S204800x128, .f32⟩
  | .shared, ⟨0, _⟩ => ⟨S200x128, .f32⟩
  | .local .scVector .vmem, ⟨0, _⟩ => ⟨S6400, .i32⟩
  | .local .scVector .vmem, ⟨1, _⟩ => ⟨S10x64x128, .f32⟩
  | _, _ => ⟨S204800, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 5 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
@[reducible] def k0_t1_loop : Scf.Loop 32 :=
  let c0_i32_55 : BitVec 32 := 0#32
  let c9_i32_56 : BitVec 32 := 9#32
  let v66 : BitVec 32 := Scalar.addi c0_i32_55 c9_i32_56
  let c1_i32_57 : BitVec 32 := 1#32
  ⟨c0_i32_55, v66, c1_i32_57⟩
def k0_off2 (k0_t1 : Fin k0_t1_loop.trips) (c0_i32_299 : BitVec 32) : Fin 1 → Nat :=
  let c0_i32_55 : BitVec 32 := 0#32
  let c1_i32_57 : BitVec 32 := 1#32
  let arg11 : BitVec 32 := Scf.iv c0_i32_55 c1_i32_57 k0_t1
  let c10_i32 : BitVec 32 := 10#32
  let v307 : BitVec 32 := Scalar.muli arg11 c10_i32
  let v308 : BitVec 32 := Scalar.addi v307 c0_i32_299
  let c64_i32_300 : BitVec 32 := 64#32
  let v309 : BitVec 32 := Scalar.muli v308 c64_i32_300
  ![v309.toNat]
def k0_off3 (i : grid0.Coords) (k0_t1 : Fin k0_t1_loop.trips) (c0_i32_307 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_55 : BitVec 32 := 0#32
  let c1_i32_57 : BitVec 32 := 1#32
  let arg11 : BitVec 32 := Scf.iv c0_i32_55 c1_i32_57 k0_t1
  let c10_i32 : BitVec 32 := 10#32
  let v307 : BitVec 32 := Scalar.muli arg11 c10_i32
  let v316 : BitVec 32 := Scalar.addi v307 c0_i32_307
  let c64_i32_308 : BitVec 32 := 64#32
  let v317 : BitVec 32 := Scalar.muli v316 c64_i32_308
  let v318 : BitVec 32 := Scalar.addi v2 v317
  let c0_i32_313 : BitVec 32 := 0#32
  ![v318.toNat, 0]
def k0_off4 (k0_t1 : Fin k0_t1_loop.trips) (c0_i32_490 : BitVec 32) : Fin 1 → Nat :=
  let c0_i32_55 : BitVec 32 := 0#32
  let c1_i32_57 : BitVec 32 := 1#32
  let arg11 : BitVec 32 := Scf.iv c0_i32_55 c1_i32_57 k0_t1
  let c10_i32 : BitVec 32 := 10#32
  let v307 : BitVec 32 := Scalar.muli arg11 c10_i32
  let c10_i32_489 : BitVec 32 := 10#32
  let v509 : BitVec 32 := Scalar.addi v307 c10_i32_489
  let v510 : BitVec 32 := Scalar.addi v509 c0_i32_490
  let c64_i32_491 : BitVec 32 := 64#32
  let v511 : BitVec 32 := Scalar.muli v510 c64_i32_491
  ![v511.toNat]
def k0_off5 (i : grid0.Coords) (c5760_i32_65 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v73 : BitVec 32 := Scalar.addi v2 c5760_i32_65
  let c0_i32_70 : BitVec 32 := 0#32
  ![v73.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S200x128_S20x128_0_0 : ∀ a, (![0, 0] : Fin 2 → Nat) a + S20x128.size a ≤ S200x128.size a
  inb_S200x128_S180x128_20_0 : ∀ a, (![20, 0] : Fin 2 → Nat) a + S180x128.size a ≤ S200x128.size a
  inb_S10x64x128_S1x64x128_0_0_0 : ∀ a, (![0, 0, 0] : Fin 3 → Nat) a + S1x64x128.size a ≤ S10x64x128.size a
  squeezes_S1x64x128_S64x128 : S1x64x128.Squeezes S64x128
  inb_S6400_S64_0 : ∀ a, (![0] : Fin 1 → Nat) a + S64.size a ≤ S6400.size a
  inb_S200x128_S200x128_0_0 : ∀ a, (![0, 0] : Fin 2 → Nat) a + S200x128.size a ≤ S200x128.size a
  inb_S10_S1_0 : ∀ a, (![0] : Fin 1 → Nat) a + S1.size a ≤ S10.size a
  squeezes_S1_S_ : S1.Squeezes S_
  gathers_S200x128_S64x128 : S200x128.Gathers 0 S64x128
  inb_S10x64x128_S1x64x128_1_0_0 : ∀ a, (![1, 0, 0] : Fin 3 → Nat) a + S1x64x128.size a ≤ S10x64x128.size a
  inb_S6400_S64_64 : ∀ a, (![64] : Fin 1 → Nat) a + S64.size a ≤ S6400.size a
  inb_S10_S1_1 : ∀ a, (![1] : Fin 1 → Nat) a + S1.size a ≤ S10.size a
  inb_S10x64x128_S1x64x128_2_0_0 : ∀ a, (![2, 0, 0] : Fin 3 → Nat) a + S1x64x128.size a ≤ S10x64x128.size a
  inb_S6400_S64_128 : ∀ a, (![128] : Fin 1 → Nat) a + S64.size a ≤ S6400.size a
  inb_S10_S1_2 : ∀ a, (![2] : Fin 1 → Nat) a + S1.size a ≤ S10.size a
  inb_S10x64x128_S1x64x128_3_0_0 : ∀ a, (![3, 0, 0] : Fin 3 → Nat) a + S1x64x128.size a ≤ S10x64x128.size a
  inb_S6400_S64_192 : ∀ a, (![192] : Fin 1 → Nat) a + S64.size a ≤ S6400.size a
  inb_S10_S1_3 : ∀ a, (![3] : Fin 1 → Nat) a + S1.size a ≤ S10.size a
  inb_S10x64x128_S1x64x128_4_0_0 : ∀ a, (![4, 0, 0] : Fin 3 → Nat) a + S1x64x128.size a ≤ S10x64x128.size a
  inb_S6400_S64_256 : ∀ a, (![256] : Fin 1 → Nat) a + S64.size a ≤ S6400.size a
  inb_S10_S1_4 : ∀ a, (![4] : Fin 1 → Nat) a + S1.size a ≤ S10.size a
  inb_S10x64x128_S1x64x128_5_0_0 : ∀ a, (![5, 0, 0] : Fin 3 → Nat) a + S1x64x128.size a ≤ S10x64x128.size a
  inb_S6400_S64_320 : ∀ a, (![320] : Fin 1 → Nat) a + S64.size a ≤ S6400.size a
  inb_S10_S1_5 : ∀ a, (![5] : Fin 1 → Nat) a + S1.size a ≤ S10.size a
  inb_S10x64x128_S1x64x128_6_0_0 : ∀ a, (![6, 0, 0] : Fin 3 → Nat) a + S1x64x128.size a ≤ S10x64x128.size a
  inb_S6400_S64_384 : ∀ a, (![384] : Fin 1 → Nat) a + S64.size a ≤ S6400.size a
  inb_S10_S1_6 : ∀ a, (![6] : Fin 1 → Nat) a + S1.size a ≤ S10.size a
  inb_S10x64x128_S1x64x128_7_0_0 : ∀ a, (![7, 0, 0] : Fin 3 → Nat) a + S1x64x128.size a ≤ S10x64x128.size a
  inb_S6400_S64_448 : ∀ a, (![448] : Fin 1 → Nat) a + S64.size a ≤ S6400.size a
  inb_S10_S1_7 : ∀ a, (![7] : Fin 1 → Nat) a + S1.size a ≤ S10.size a
  inb_S10x64x128_S1x64x128_8_0_0 : ∀ a, (![8, 0, 0] : Fin 3 → Nat) a + S1x64x128.size a ≤ S10x64x128.size a
  inb_S6400_S64_512 : ∀ a, (![512] : Fin 1 → Nat) a + S64.size a ≤ S6400.size a
  inb_S10_S1_8 : ∀ a, (![8] : Fin 1 → Nat) a + S1.size a ≤ S10.size a
  inb_S10x64x128_S1x64x128_9_0_0 : ∀ a, (![9, 0, 0] : Fin 3 → Nat) a + S1x64x128.size a ≤ S10x64x128.size a
  inb_S6400_S64_576 : ∀ a, (![576] : Fin 1 → Nat) a + S64.size a ≤ S6400.size a
  inb_S10_S1_9 : ∀ a, (![9] : Fin 1 → Nat) a + S1.size a ≤ S10.size a
  inb_S6400_S64_5760 : ∀ a, (![5760] : Fin 1 → Nat) a + S64.size a ≤ S6400.size a
  inb_S6400_S64_5824 : ∀ a, (![5824] : Fin 1 → Nat) a + S64.size a ≤ S6400.size a
  inb_S6400_S64_5888 : ∀ a, (![5888] : Fin 1 → Nat) a + S64.size a ≤ S6400.size a
  inb_S6400_S64_5952 : ∀ a, (![5952] : Fin 1 → Nat) a + S64.size a ≤ S6400.size a
  inb_S6400_S64_6016 : ∀ a, (![6016] : Fin 1 → Nat) a + S64.size a ≤ S6400.size a
  inb_S6400_S64_6080 : ∀ a, (![6080] : Fin 1 → Nat) a + S64.size a ≤ S6400.size a
  inb_S6400_S64_6144 : ∀ a, (![6144] : Fin 1 → Nat) a + S64.size a ≤ S6400.size a
  inb_S6400_S64_6208 : ∀ a, (![6208] : Fin 1 → Nat) a + S64.size a ≤ S6400.size a
  inb_S6400_S64_6272 : ∀ a, (![6272] : Fin 1 → Nat) a + S64.size a ≤ S6400.size a
  inb_S6400_S64_6336 : ∀ a, (![6336] : Fin 1 → Nat) a + S64.size a ≤ S6400.size a
  hcc0_scratch3 : 0 + S10.numel ≤ 23
  hcc0_scratch4 : 10 + S10.numel ≤ 23
  hcc0_scoped0 : 20 + S_.numel ≤ 23
  hcc0_scoped1 : 21 + S_.numel ≤ 23
  hcc0_scoped2 : 22 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S6400.size a ≤ S204800.size a
  k0_t1_ok : k0_t1_loop.OK
  k0_off2_inb : ∀ k0_t1 : Fin k0_t1_loop.trips, ∀ (r : Fin 10), ∀ a, (k0_off2 k0_t1 (BitVec.ofNat 32 r.val)) a + S64.size a ≤ S6400.size a
  k0_off3_inb : ∀ (i : grid0.Coords) (k0_t1 : Fin k0_t1_loop.trips), ∀ (r : Fin 10), ∀ a, (k0_off3 i k0_t1 (BitVec.ofNat 32 r.val)) a + S64x128.size a ≤ S204800x128.size a
  k0_off4_inb : ∀ k0_t1 : Fin k0_t1_loop.trips, ∀ (r : Fin 10), ∀ a, (k0_off4 k0_t1 (BitVec.ofNat 32 r.val)) a + S64.size a ≤ S6400.size a
  k0_off5_inb : ∀ i : grid0.Coords, ∀ (r : Fin 10), ∀ a, (k0_off5 i (BitVec.ofNat 32 (5760 + 64 * r.val))) a + S64x128.size a ≤ S204800x128.size a

variable [Facts₀]

abbrev cc0_scratch3 : DmaSems sig S10 := SemArray.consecutive 0 S10 hcc0_scratch3
abbrev cc0_scratch4 : DmaSems sig S10 := SemArray.consecutive 10 S10 hcc0_scratch4
abbrev cc0_scoped0 : DmaSems sig S_ := SemArray.consecutive 20 S_ hcc0_scoped0
abbrev cc0_scoped1 : DmaSems sig S_ := SemArray.consecutive 21 S_ hcc0_scoped1
abbrev cc0_scoped2 : DmaSems sig S_ := SemArray.consecutive 22 S_ hcc0_scoped2

class Facts : Prop extends Facts₀ where

variable [Facts]
-- ==== ReferenceIdeal.lean ====
abbrev S204800 : Shape := ⟨1, ![204800]⟩
abbrev S20x128 : Shape := ⟨2, ![20, 128]⟩
abbrev S180x128 : Shape := ⟨2, ![180, 128]⟩
abbrev S_ : Shape := ⟨0, ![]⟩
abbrev S204800x1 : Shape := ⟨2, ![204800, 1]⟩
abbrev S1 : Shape := ⟨1, ![1]⟩
abbrev S1x1 : Shape := ⟨2, ![1, 1]⟩
abbrev S204800x128 : Shape := ⟨2, ![204800, 128]⟩

abbrev nBuf : Space → Nat
  | .hbm => 66
  | .vmem => 0
  | .smem => 0
  | _ => 0

abbrev bufTy : (tb : Table) → Fin (tcTables nBuf tb) → BufTy
  | .hbm, ⟨0, _⟩ => ⟨S204800, .i32⟩
  | .hbm, ⟨1, _⟩ => ⟨S20x128, .f32⟩
  | .hbm, ⟨2, _⟩ => ⟨S180x128, .f32⟩
  | .hbm, ⟨3, _⟩ => ⟨S_, .i32⟩
  | .hbm, ⟨4, _⟩ => ⟨S204800, .i32⟩
  | .hbm, ⟨5, _⟩ => ⟨S204800, .i1⟩
  | .hbm, ⟨6, _⟩ => ⟨S_, .i32⟩
  | .hbm, ⟨7, _⟩ => ⟨S_, .i32⟩
  | .hbm, ⟨8, _⟩ => ⟨S204800, .i32⟩
  | .hbm, ⟨9, _⟩ => ⟨S204800, .i32⟩
  | .hbm, ⟨10, _⟩ => ⟨S_, .i32⟩
  | .hbm, ⟨11, _⟩ => ⟨S204800, .i32⟩
  | .hbm, ⟨12, _⟩ => ⟨S204800, .i32⟩
  | .hbm, ⟨13, _⟩ => ⟨S_, .i32⟩
  | .hbm, ⟨14, _⟩ => ⟨S_, .i32⟩
  | .hbm, ⟨15, _⟩ => ⟨S204800, .i32⟩
  | .hbm, ⟨16, _⟩ => ⟨S204800, .i32⟩
  | .hbm, ⟨17, _⟩ => ⟨S_, .i32⟩
  | .hbm, ⟨18, _⟩ => ⟨S204800, .i32⟩
  | .hbm, ⟨19, _⟩ => ⟨S204800, .i1⟩
  | .hbm, ⟨20, _⟩ => ⟨S_, .i32⟩
  | .hbm, ⟨21, _⟩ => ⟨S204800, .i32⟩
  | .hbm, ⟨22, _⟩ => ⟨S204800, .i32⟩
  | .hbm, ⟨23, _⟩ => ⟨S204800, .i32⟩
  | .hbm, ⟨24, _⟩ => ⟨S204800x1, .i32⟩
  | .hbm, ⟨25, _⟩ => ⟨S1, .i32⟩
  | .hbm, ⟨26, _⟩ => ⟨S_, .i32⟩
  | .hbm, ⟨27, _⟩ => ⟨S204800x1, .i32⟩
  | .hbm, ⟨28, _⟩ => ⟨S204800x1, .i1⟩
  | .hbm, ⟨29, _⟩ => ⟨S1x1, .i32⟩
  | .hbm, ⟨30, _⟩ => ⟨S204800x1, .i32⟩
  | .hbm, ⟨31, _⟩ => ⟨S204800x1, .i1⟩
  | .hbm, ⟨32, _⟩ => ⟨S204800x1, .i1⟩
  | .hbm, ⟨33, _⟩ => ⟨S_, .i1⟩
  | .hbm, ⟨34, _⟩ => ⟨S204800, .i1⟩
  | .hbm, ⟨35, _⟩ => ⟨S204800x128, .f32⟩
  | .hbm, ⟨36, _⟩ => ⟨S204800x128, .i1⟩
  | .hbm, ⟨37, _⟩ => ⟨S_, .f32⟩
  | .hbm, ⟨38, _⟩ => ⟨S204800x128, .f32⟩
  | .hbm, ⟨39, _⟩ => ⟨S204800x128, .f32⟩
  | .hbm, ⟨40, _⟩ => ⟨S_, .i32⟩
  | .hbm, ⟨41, _⟩ => ⟨S204800, .i32⟩
  | .hbm, ⟨42, _⟩ => ⟨S204800, .i1⟩
  | .hbm, ⟨43, _⟩ => ⟨S_, .i32⟩
  | .hbm, ⟨44, _⟩ => ⟨S204800, .i32⟩
  | .hbm, ⟨45, _⟩ => ⟨S204800, .i32⟩
  | .hbm, ⟨46, _⟩ => ⟨S204800, .i32⟩
  | .hbm, ⟨47, _⟩ => ⟨S204800x1, .i32⟩
  | .hbm, ⟨48, _⟩ => ⟨S1, .i32⟩
  | .hbm, ⟨49, _⟩ => ⟨S_, .i32⟩
  | .hbm, ⟨50, _⟩ => ⟨S204800x1, .i32⟩
  | .hbm, ⟨51, _⟩ => ⟨S204800x1, .i1⟩
  | .hbm, ⟨52, _⟩ => ⟨S1x1, .i32⟩
  | .hbm, ⟨53, _⟩ => ⟨S204800x1, .i32⟩
  | .hbm, ⟨54, _⟩ => ⟨S204800x1, .i1⟩
  | .hbm, ⟨55, _⟩ => ⟨S204800x1, .i1⟩
  | .hbm, ⟨56, _⟩ => ⟨S_, .i1⟩
  | .hbm, ⟨57, _⟩ => ⟨S204800, .i1⟩
  | .hbm, ⟨58, _⟩ => ⟨S204800x128, .f32⟩
  | .hbm, ⟨59, _⟩ => ⟨S204800x128, .i1⟩
  | .hbm, ⟨60, _⟩ => ⟨S_, .f32⟩
  | .hbm, ⟨61, _⟩ => ⟨S204800x128, .f32⟩
  | .hbm, ⟨62, _⟩ => ⟨S204800x128, .f32⟩
  | .hbm, ⟨63, _⟩ => ⟨S204800x1, .i1⟩
  | .hbm, ⟨64, _⟩ => ⟨S204800x128, .i1⟩
  | .hbm, ⟨65, _⟩ => ⟨S204800x128, .f32⟩
  | _, _ => ⟨S204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v5 : Ref sig .tc := ⟨.hbm, 16, rfl⟩
abbrev main_call2_c : Ref sig .tc := ⟨.hbm, 17, rfl⟩
abbrev main_call2_v0 : Ref sig .tc := ⟨.hbm, 18, rfl⟩
abbrev main_call2_v1 : Ref sig .tc := ⟨.hbm, 19, rfl⟩
abbrev main_call2_c_0 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_v5 : Ref sig .tc := ⟨.hbm, 24, rfl⟩
abbrev main_call2_c_1 : Ref sig .tc := ⟨.hbm, 25, rfl⟩
abbrev main_call2_c_2 : Ref sig .tc := ⟨.hbm, 26, rfl⟩
abbrev main_call2_v6 : Ref sig .tc := ⟨.hbm, 27, rfl⟩
abbrev main_call2_v7 : Ref sig .tc := ⟨.hbm, 28, rfl⟩
abbrev main_call2_v8 : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_3 : Ref sig .tc := ⟨.hbm, 33, rfl⟩
abbrev main_call2_v12 : Ref sig .tc := ⟨.hbm, 34, rfl⟩
abbrev main_call2_v13 : Ref sig .tc := ⟨.hbm, 35, rfl⟩
abbrev main_call2_v14 : Ref sig .tc := ⟨.hbm, 36, rfl⟩
abbrev main_call2_cst : Ref sig .tc := ⟨.hbm, 37, rfl⟩
abbrev main_call2_v15 : Ref sig .tc := ⟨.hbm, 38, rfl⟩
abbrev main_v6 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_v14 : Ref sig .tc := ⟨.hbm, 59, rfl⟩
abbrev main_call3_cst : Ref sig .tc := ⟨.hbm, 60, rfl⟩
abbrev main_call3_v15 : Ref sig .tc := ⟨.hbm, 61, rfl⟩
abbrev main_v7 : Ref sig .tc := ⟨.hbm, 62, rfl⟩
abbrev main_v8 : Ref sig .tc := ⟨.hbm, 63, rfl⟩
abbrev main_call4_v0 : Ref sig .tc := ⟨.hbm, 64, rfl⟩
abbrev main_v9 : Ref sig .tc := ⟨.hbm, 65, rfl⟩

abbrev nD : Nat := 1
abbrev τ : Topo := Topo.v7x

variable {F : FTy → Type} [FloatOps F]

class Facts₀ : Prop where
  bcast_S_S204800 : S_.BroadcastsInDim S204800 (![] : Fin 0 → Fin S204800.rank)
  bcast_S204800_S204800x1_0 : S204800.BroadcastsInDim S204800x1 (![0] : Fin 1 → Fin S204800x1.rank)
  bcast_S_S204800x1 : S_.BroadcastsInDim S204800x1 (![] : Fin 0 → Fin S204800x1.rank)
  bcast_S1_S1x1_1 : S1.BroadcastsInDim S1x1 (![1] : Fin 1 → Fin S1x1.rank)
  bcast_S1x1_S204800x1_0_1 : S1x1.BroadcastsInDim S204800x1 (![0, 1] : Fin 2 → Fin S204800x1.rank)
  reducesTo_S204800x1_S204800_d1 : S204800x1.ReducesTo [1] S204800
  h_S_ : 0 < S_.numel
  bcast_S204800_S204800x128_0 : S204800.BroadcastsInDim S204800x128 (![0] : Fin 1 → Fin S204800x128.rank)
  bcast_S_S204800x128 : S_.BroadcastsInDim S204800x128 (![] : Fin 0 → Fin S204800x128.rank)
  bcast_S204800x1_S204800x128_0_1 : S204800x1.BroadcastsInDim S204800x128 (![0, 1] : Fin 2 → Fin S204800x128.rank)
  gather_S20x128_S204800x1_S204800x128_1_0_n_n_0_1_1128_wf : GatherDims.WF S20x128 S204800x1 S204800x128 [1] [0] [] [0] [] 1 ![1, 128]
  gather_S180x128_S204800x1_S204800x128_1_0_n_n_0_1_1128_wf : GatherDims.WF S180x128 S204800x1 S204800x128 [1] [0] [] [0] [] 1 ![1, 128]

variable [Facts₀]

def gather_S20x128_S204800x1_S204800x128_1_0_n_n_0_1_1128 : GatherDims S20x128 S204800x1 S204800x128 where
  offsetDims := [1]
  collapsedSliceDims := [0]
  operandBatchingDims := []
  startIndicesBatchingDims := []
  startIndexMap := [0]
  indexVectorDim := 1
  sliceSizes := ![1, 128]
  wf := gather_S20x128_S204800x1_S204800x128_1_0_n_n_0_1_1128_wf
def gather_S180x128_S204800x1_S204800x128_1_0_n_n_0_1_1128 : GatherDims S180x128 S204800x1 S204800x128 where
  offsetDims := [1]
  collapsedSliceDims := [0]
  operandBatchingDims := []
  startIndicesBatchingDims := []
  startIndexMap := [0]
  indexVectorDim := 1
  sliceSizes := ![1, 128]
  wf := gather_S180x128_S204800x1_S204800x128_1_0_n_n_0_1_1128_wf

class Facts : Prop extends Facts₀ where

variable [Facts]
-- ==== Proof.Spec.lean ====
/-
  The function both programs compute. The base table (20 rows) and the extended table (180 rows) are read as ONE
  table of 200 rows, the base table's rows first; position `p` names row `p` of it, and row `r` of the result is
  the row of the stacked table that position `r` names. A position word is read as a natural number and cut to
  `0 … 199`; for positions in that range (the precondition) the cut changes nothing.
-/
import Idealize.ShloMosaic.Lib.ValueIdx

namespace Cert.Spec

open Idealize.ShloMosaic Idealize.ShloMosaic.ValueIdx

abbrev SPos : Shape := ⟨1, ![204800]⟩
abbrev SBase : Shape := ⟨2, ![20, 128]⟩
abbrev SExt : Shape := ⟨2, ![180, 128]⟩
abbrev STbl : Shape := ⟨2, ![200, 128]⟩
abbrev SOut : Shape := ⟨2, ![204800, 128]⟩

/-- The two tables stacked: rows `0 … 19` are the base table's, rows `20 … 199` the extended table's rows `0 … 179`. -/
def stacked {α : Type} (base : SBase.Idx → α) (ext : SExt.Idx → α) : STbl.Idx → α :=
  fun j => if h : (j 0).val < 20 then base (ix2 ⟨(j 0).val, h⟩ (j 1))
    else ext (ix2 ⟨(j 0).val - 20, by have := idx2_lt0 j; omega⟩ (j 1))

/-- The row of the stacked table a position word names: its value as a natural number, cut to `0 … 199`. -/
def rowOf (p : BitVec 32) : Fin 200 := ⟨min p.toNat 199, by omega⟩

/-- The embedding lookup: entry `(r, k)` is entry `k` of the stacked table's row named by position `r`. -/
def lookup {α : Type} (pos : SPos.Idx → BitVec 32) (base : SBase.Idx → α) (ext : SExt.Idx → α) : SOut.Idx → α :=
  fun j => stacked base ext (ix2 (rowOf (pos (ix1 (j 0)))) (j 1))

theorem stacked_lt {α : Type} (base : SBase.Idx → α) (ext : SExt.Idx → α) (r : Fin 200) (k : Fin 128) (h : r.val < 20) :
    stacked base ext (ix2 r k) = base (ix2 ⟨r.val, h⟩ k) := by
  unfold stacked; rw [dif_pos (show ((ix2 r k : STbl.Idx) 0).val < 20 from h)]

theorem stacked_ge {α : Type} (base : SBase.Idx → α) (ext : SExt.Idx → α) (r : Fin 200) (k : Fin 128) (h : ¬ r.val < 20) :
    stacked base ext (ix2 r k) = ext (ix2 ⟨r.val - 20, by have := r.isLt; omega⟩ k) := by
  unfold stacked; rw [dif_neg (show ¬ ((ix2 r k : STbl.Idx) 0).val < 20 from h)]

end Cert.Spec
-- ==== Proof.KISetup.lean ====
/-
  The embedding lookup on the SparseCores, set up for the launch theorem. Thirty-two vector subcores (two SparseCores of
  sixteen) each serve 6400 positions: subcore `i` of SparseCore `c` is worker `2 i + c` and owns rows
  `6400 (2 i + c) … 6400 (2 i + c) + 6399` of the position list and of the result, the result's rows in a hundred chunks
  of 64. Subcore 0 of each SparseCore copies the two tables into the SparseCore's shared memory, one above the other, and
  every subcore of that SparseCore then gathers its rows out of the shared table: the subcore barrier is where subcore 0
  hands each subcore a read share of the filled table. This module fixes what each handshake carries (`P`), the barrier's
  schedule (`bRd`: one round per subcore's cell, a unit from every subcore, subcore 0's unit carrying the share) and what
  the proof asks of the positions (`PreOK`: each at most 199).
-/
import proofs.«207546_g72756745994873_cont_9to1_m_541_11_alg».proof.KernelIdeal
import proofs.«207546_g72756745994873_cont_9to1_m_541_11_alg».proof.Proof.Gen.KernelIdeal
import proofs.«207546_g72756745994873_cont_9to1_m_541_11_alg».proof.Proof.Gen.KernelIdeal.Skeleton
import proofs.«207546_g72756745994873_cont_9to1_m_541_11_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the buffers -/

variable (m : (ℓ : Loc nD τ sig) → Buf (Elt F) ℓ) (ρ : Dev nD → PrngReg)

abbrev posLoc (d : Dev nD) : Loc nD τ sig := (SparseCore.T d).loc main_arg0
abbrev baseLoc (d : Dev nD) : Loc nD τ sig := (SparseCore.T d).loc main_arg1
abbrev extLoc (d : Dev nD) : Loc nD τ sig := (SparseCore.T d).loc main_arg2
abbrev outLoc (d : Dev nD) : Loc nD τ sig := (SparseCore.T d).loc main_v0

local notation "pV" => (Memref.whole Cert.KernelIdeal.main_arg0_scv : Memref Cert.KernelIdeal.sig Kind.scVector Space.hbm Cert.KernelIdeal.S204800 EltTy.i32)
local notation "bV" => (Memref.whole Cert.KernelIdeal.main_arg1_scv : Memref Cert.KernelIdeal.sig Kind.scVector Space.hbm Cert.KernelIdeal.S20x128 EltTy.f32)
local notation "eV" => (Memref.whole Cert.KernelIdeal.main_arg2_scv : Memref Cert.KernelIdeal.sig Kind.scVector Space.hbm Cert.KernelIdeal.S180x128 EltTy.f32)
local notation "oV" => (Memref.whole Cert.KernelIdeal.main_v0_scv : Memref Cert.KernelIdeal.sig Kind.scVector Space.hbm Cert.KernelIdeal.S204800x128 EltTy.f32)
local notation "tV" => (Memref.whole Cert.KernelIdeal.cc0_scratch0 : Memref Cert.KernelIdeal.sig Kind.scVector Space.shared Cert.KernelIdeal.S200x128 EltTy.f32)
local notation "iV" => (Memref.whole Cert.KernelIdeal.cc0_scratch1 : Memref Cert.KernelIdeal.sig Kind.scVector Space.vmem Cert.KernelIdeal.S6400 EltTy.i32)
local notation "rV" => (Memref.whole Cert.KernelIdeal.cc0_scratch2 : Memref Cert.KernelIdeal.sig Kind.scVector Space.vmem Cert.KernelIdeal.S10x64x128 EltTy.f32)

theorem nSub_eq : τ.nSub = 16 := rfl
theorem nSC_eq : τ.nSC = 2 := rfl

/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-! ## Workers, their rows, and the chunks of the result -/

/-- The worker number of subcore `i` of SparseCore `c`: `2 i + c`. -/
def wid (c : Fin 2) (i : Fin 16) : Fin 32 := ⟨2 * i.val + c.val, by have := c.isLt; have := i.isLt; omega⟩
/-- Chunk `j` of worker `w`, among the 3200 chunks of 64 rows of the result. -/
def cn (w : Fin 32) (j : Fin 100) : Fin 3200 := ⟨100 * w.val + j.val, by have := w.isLt; have := j.isLt; omega⟩

theorem hdivP : 32 ∣ S204800.size 0 := ⟨6400, rfl⟩
theorem hdivO : 3200 ∣ S204800x128.size 0 := ⟨64, rfl⟩
/-- Worker `w`'s positions: entries `6400 w … 6400 w + 6399`. -/
abbrev posRect (w : Fin 32) : Rect S204800 := Rect.part (s := S204800) (a₀ := 0) hdivP w
abbrev posSet (w : Fin 32) : Finset S204800.Idx := ((pV).view.slice (posRect w)).set
/-- Chunk `n` of the result: rows `64 n … 64 n + 63`. -/
abbrev chunkRect (n : Fin 3200) : Rect S204800x128 := Rect.part (s := S204800x128) (a₀ := 0) hdivO n
abbrev chunkSet (n : Fin 3200) : Finset S204800x128.Idx := ((oV).view.slice (chunkRect n)).set

/-- The stacked table both programs read: the base table's rows above the extended table's, out of the launch memory. -/
def tblF (d : Dev nD) (c : Fin τ.nSC) : Buf (Elt F) (shLoc d c) := Cert.Spec.stacked (m (baseLoc d)) (m (extLoc d))
/-- The result both programs end at: row `r` is the stacked table's row named by position `r`, out of the launch memory. -/
def lookupF (d : Dev nD) : Buf (Elt F) (outLoc d) := Cert.Spec.lookup (m (posLoc d)) (m (baseLoc d)) (m (extLoc d))

/-- What the proof asks of the launch memory: every position is at most 199 (the precondition says so). -/
def PreOK : Prop := ∀ (d : Dev nD) (j : S204800.Idx), (m (posLoc d) j).toNat ≤ 199

/-! ## The barrier cells -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- Subcore `j`'s read share of its SparseCore's shared table at the filled contents. -/
abbrev tblShare (d : Dev nD) (c : Fin τ.nSC) (j : ℕ) : sProp 𝕄 := shLoc d c ↦{shareTokN fullShare j} tblF m d c

/-- What a duty in subcore `j`'s round hands over: subcore 0's, `j`'s read share of the filled table; the others', nothing. -/
def bPay (g : GSem nD τ sig) (n : ℕ) : sProp 𝕄 :=
  match g with
  | ((d, .scVector c j), _) => if n = 0 then tblShare m d c j.val else iprop(emp)
  | _ => iprop(emp)

/-- The barrier cells' schedule: one round on each, of one unit duty per subcore of the SparseCore (named by its number),
    subcore 0's handing over the share. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore `(c, i)` owe for the barrier: a unit on every subcore's cell of its SparseCore, at the
    call's index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

variable [FloatOps F]

/-! ## The subcore's own cells for the barrier: what the launch deals its proof -/

/-- Subcore `(c, i)`'s barrier kit: every subcore's cell invariant of its SparseCore and that each has reached round 0, its
    own position at the origin of round 0, its duty token in every subcore's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev posPts (d : Dev nD) (w : Fin 32) : sProp 𝕄 := posLoc d ↦[posSet w]{fullShare} m (posLoc d)
/-- Worker `w`'s hundred chunks of the result, all at the contents `f`. -/
abbrev outChunks (d : Dev nD) (w : Fin 32) (f : Buf (Elt F) (outLoc d)) : sProp 𝕄 :=
  bigSep Finset.univ fun j : Fin 100 => outLoc d ↦[chunkSet (cn w j)]{fullShare} f
/-- SparseCore `c`'s read shares of the two tables. -/
abbrev tblsShare (d : Dev nD) (c : ℕ) : sProp 𝕄 :=
  iprop((baseLoc d ↦{shareTokN fullShare c} m (baseLoc d)) ∗ (extLoc d ↦{shareTokN fullShare c} m (extLoc d)))

/-- The one call takes, per SparseCore, its sixteen workers' positions and chunks and a read share of each table; each task
    its positions and chunks, subcore 0's also the table shares and the shared table whole; each brings back its positions,
    its chunks at the looked-up rows, and its read share of the filled shared table (subcore 0 also the table shares and what is
    left of the shared table beyond the sixteen read shares); each task's proof consumes its barrier kit; each subcore owes
    its arrivals. -/
def P : (K (F := F)).Pay (nD := nD) (Val := Elt F) (Name := ℕ) (U := UU) where
  st := fun q d c => match q with
    | 0 => iprop((bigSep Finset.univ fun i : Fin 16 => iprop(posPts m d (wid (Fin.cast nCore_zero c) i) ∗ outChunks d (wid (Fin.cast nCore_zero c) i) (m (outLoc d))))
        ∗ tblsShare m d c.val)
  dn := fun q d c => match q with
    | 0 => iprop((bigSep Finset.univ fun i : Fin 16 => iprop(posPts m d (wid (Fin.cast nCore_zero c) i) ∗ outChunks d (wid (Fin.cast nCore_zero c) i) (lookupF m d)))
        ∗ tblsShare m d c.val)
  go := fun q d c i => match q with
    | 0 => iprop(posPts m d (wid (Fin.cast nCore_zero c) (Fin.cast nSub_zero i)) ∗ outChunks d (wid (Fin.cast nCore_zero c) (Fin.cast nSub_zero i)) (m (outLoc d))
        ∗ (if i.val = 0 then iprop(tblsShare m d c.val ∗ ∃ f, shLoc d (coreOf c) ↦{fullShare} f) else iprop(emp)))
  td := fun q d c i => match q with
    | 0 => iprop(posPts m d (wid (Fin.cast nCore_zero c) (Fin.cast nSub_zero i)) ∗ outChunks d (wid (Fin.cast nCore_zero c) (Fin.cast nSub_zero i)) (lookupF m d)
        ∗ tblShare m d (coreOf c) i.val
        ∗ (if i.val = 0 then iprop(tblsShare m d c.val ∗ shLoc d (coreOf c) ↦{shareDrop fullShare 16} tblF m d (coreOf c)) else iprop(emp)))
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with
    | 0 => (inferInstance : BI.Storable (upEmb : UEmb _ 𝕄) iprop((bigSep Finset.univ fun i : Fin 16 => iprop(posPts m d (wid (Fin.cast nCore_zero c) i) ∗ outChunks d (wid (Fin.cast nCore_zero c) i) (m (outLoc d))))
        ∗ tblsShare m d c.val))
  dn q d c := match q with
    | 0 => (inferInstance : BI.Storable (upEmb : UEmb _ 𝕄) iprop((bigSep Finset.univ fun i : Fin 16 => iprop(posPts m d (wid (Fin.cast nCore_zero c) i) ∗ outChunks d (wid (Fin.cast nCore_zero c) i) (lookupF m d)))
        ∗ tblsShare m d c.val))
  go q d c i := match q with
    | 0 => by
      show BI.Storable (upEmb : UEmb _ 𝕄) iprop(posPts m d (wid (Fin.cast nCore_zero c) (Fin.cast nSub_zero i)) ∗ outChunks d (wid (Fin.cast nCore_zero c) (Fin.cast nSub_zero i)) (m (outLoc d))
        ∗ (if i.val = 0 then iprop(tblsShare m d c.val ∗ ∃ f, shLoc d (coreOf c) ↦{fullShare} f) else iprop(emp)))
      split <;> infer_instance
  td q d c i := match q with
    | 0 => by
      show BI.Storable (upEmb : UEmb _ 𝕄) iprop(posPts m d (wid (Fin.cast nCore_zero c) (Fin.cast nSub_zero i)) ∗ outChunks d (wid (Fin.cast nCore_zero c) (Fin.cast nSub_zero i)) (lookupF m d)
        ∗ tblShare m d (coreOf c) i.val
        ∗ (if i.val = 0 then iprop(tblsShare m d c.val ∗ shLoc d (coreOf c) ↦{shareDrop fullShare 16} tblF m d (coreOf c)) else iprop(emp)))
      split <;> infer_instance

end Cert.Proof.KI

end
-- ==== Proof.KILaunch.lean ====
/-
  The launch side of the embedding lookup on the SparseCores: from "each subcore's task is proved" to the run of the whole
  program. Four things are supplied to the launch theorem over the carriers fixed in the set-up module.
  The sets: the thirty-two workers' parts of the position list and the 3200 chunks of the result are pairwise disjoint and
  cover their arrays (they are the parts of a cut along the first axis), and worker and chunk numbers are pairs —
  `w = 2 i + c` is a bijection from (SparseCore, subcore) and `n = 100 w + j` one from (worker, chunk of the worker) — so
  an array held whole is the separating conjunction of its pieces indexed by SparseCore, subcore and chunk.
  The split of a SparseCore's operands among its sixteen tasks: positions and chunks go to their workers as they are; the
  two table shares and the shared table (taken whole, at whatever it holds, out of the sequencer's own buffers) go to
  subcore 0; back come the positions, the chunks at the looked-up rows, the table shares, and the shared table as sixteen
  read tokens and the remainder after sixteen, which join to the table whole at the stacked contents.
  The launch element: the barrier cells' rounds are funded, their invariants allocated at once, and each subcore is dealt
  its kit (the invariants and that every cell has reached round 0, its own position, its duty tokens, its credit).
  @main on the TensorCore: the position list and the result are cut into the pieces the two SparseCores take, each table
  into a read token per SparseCore and a remainder kept aside; after the call the pieces rejoin, the result at the lookup.
  Last, under the state interpretation each of the four arrays held whole pins the final memory.
-/
import proofs.«207546_g72756745994873_cont_9to1_m_541_11_alg».proof.Proof.KISetup
import Idealize.ShloMosaic.Lib.SparseCore.Launch
import Idealize.ShloMosaic.Lib.SparseCore.Threads
import Idealize.ShloMosaic.Lib.Transfers
import Idealize.ShloMosaic.Rules.PointsTo
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

/-! ## The workers' rows and the chunks: disjoint, covering, and regrouped by SparseCore, subcore and chunk -/

theorem posSet_eq (w : Fin 32) : posSet w = (posRect w).set := by
  show ((View.whole (main_arg0_scv : Ref sig .scVector)).slice (posRect w)).set = _
  rw [View.set_slice]; exact Finset.map_refl
theorem chunkSet_eq (n : Fin 3200) : chunkSet n = (chunkRect n).set := by
  show ((View.whole (main_v0_scv : Ref sig .scVector)).slice (chunkRect n)).set = _
  rw [View.set_slice]; exact Finset.map_refl

theorem pos_disjoint : ∀ i ∈ (Finset.univ : Finset (Fin 32)), ∀ j ∈ (Finset.univ : Finset (Fin 32)), i ≠ j → Disjoint (posSet i) (posSet j) :=
  fun i _ j _ h => by rw [posSet_eq, posSet_eq]; exact Rect.part_disjoint hdivP h
theorem pos_cover : (Finset.univ : Finset (Fin 32)).biUnion posSet = Finset.univ :=
  (Finset.biUnion_congr rfl fun i _ => posSet_eq i).trans (Rect.biUnion_part hdivP)
theorem chunk_disjoint : ∀ i ∈ (Finset.univ : Finset (Fin 3200)), ∀ j ∈ (Finset.univ : Finset (Fin 3200)), i ≠ j → Disjoint (chunkSet i) (chunkSet j) :=
  fun i _ j _ h => by rw [chunkSet_eq, chunkSet_eq]; exact Rect.part_disjoint hdivO h
theorem chunk_cover : (Finset.univ : Finset (Fin 3200)).biUnion chunkSet = Finset.univ :=
  (Finset.biUnion_congr rfl fun i _ => chunkSet_eq i).trans (Rect.biUnion_part hdivO)

/-- The position list whole is the thirty-two workers' parts of it. -/
theorem posPts_parts (d : Dev nD) (f : Buf (Elt F) (posLoc d)) :
    (posLoc d ↦{fullShare} f : sProp 𝕄) = bigSep Finset.univ fun w : Fin 32 => posLoc d ↦[posSet w]{fullShare} f := by
  rw [← pointsTo_biUnion Finset.univ (ℓ := posLoc d) posSet pos_disjoint, pos_cover]; try rfl
/-- The result whole is its 3200 chunks. -/
theorem outPts_parts (d : Dev nD) (f : Buf (Elt F) (outLoc d)) :
    (outLoc d ↦{fullShare} f : sProp 𝕄) = bigSep Finset.univ fun n : Fin 3200 => outLoc d ↦[chunkSet n]{fullShare} f := by
  rw [← pointsTo_biUnion Finset.univ (ℓ := outLoc d) chunkSet chunk_disjoint, chunk_cover]; try rfl

/-- Worker numbers are the pairs (SparseCore, subcore): `w = 2 i + c`. -/
def widEquiv : Fin 2 × Fin 16 ≃ Fin 32 where
  toFun p := wid p.1 p.2
  invFun w := (⟨w.val % 2, Nat.mod_lt _ (by decide)⟩, ⟨w.val / 2, by have := w.isLt; omega⟩)
  left_inv := by
    rintro ⟨c, i⟩
    refine Prod.ext (Fin.ext ?_) (Fin.ext ?_)
    · show (2 * i.val + c.val) % 2 = c.val
      have := c.isLt; omega
    · show (2 * i.val + c.val) / 2 = i.val
      have := c.isLt; omega
  right_inv := by
    intro w; refine Fin.ext ?_
    show 2 * (w.val / 2) + w.val % 2 = w.val
    omega

/-- Chunk numbers are the pairs (worker, chunk of the worker): `n = 100 w + j`. -/
def cnEquiv : Fin 32 × Fin 100 ≃ Fin 3200 where
  toFun p := cn p.1 p.2
  invFun n := (⟨n.val / 100, by have := n.isLt; omega⟩, ⟨n.val % 100, Nat.mod_lt _ (by decide)⟩)
  left_inv := by
    rintro ⟨w, j⟩
    refine Prod.ext (Fin.ext ?_) (Fin.ext ?_)
    · show (100 * w.val + j.val) / 100 = w.val
      have := j.isLt; omega
    · show (100 * w.val + j.val) % 100 = j.val
      have := j.isLt; omega
  right_inv := by
    intro n; refine Fin.ext ?_
    show 100 * (n.val / 100) + n.val % 100 = n.val
    omega

theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl
theorem bigSep_chunks (Ψ : Fin 3200 → sProp 𝕄) :
    bigSep Finset.univ Ψ = bigSep Finset.univ fun w : Fin 32 => bigSep Finset.univ fun j : Fin 100 => Ψ (cn w j) := by
  rw [bigSep_univ_equiv cnEquiv Ψ, bigSep_univ_prod]; rfl

/-- The position list whole, by SparseCore and subcore. -/
theorem posPts_split (d : Dev nD) (f : Buf (Elt F) (posLoc d)) :
    (posLoc d ↦{fullShare} f : sProp 𝕄)
      = bigSep Finset.univ fun c : Fin 2 => bigSep Finset.univ fun i : Fin 16 => posLoc d ↦[posSet (wid c i)]{fullShare} f := by
  rw [posPts_parts, bigSep_workers]
/-- The result whole, by SparseCore, subcore and chunk. -/
theorem outPts_split (d : Dev nD) (f : Buf (Elt F) (outLoc d)) :
    (outLoc d ↦{fullShare} f : sProp 𝕄)
      = bigSep Finset.univ fun c : Fin 2 => bigSep Finset.univ fun i : Fin 16 => bigSep Finset.univ fun j : Fin 100 => outLoc d ↦[chunkSet (cn (wid c i) j)]{fullShare} f := by
  rw [outPts_parts, bigSep_chunks, bigSep_workers]

/-! ## The call's operands among the tasks -/

theorem launch_P_st (d : Dev nD) (c : Fin ((K (F := F)).nCore 0)) : (P (F := F) m).st 0 d c
    = iprop((bigSep Finset.univ fun i : Fin 16 => iprop(posPts m d (wid (Fin.cast nCore_zero c) i) ∗ outChunks d (wid (Fin.cast nCore_zero c) i) (m (outLoc d))))
        ∗ tblsShare m d c.val) := rfl
theorem launch_P_dn (d : Dev nD) (c : Fin ((K (F := F)).nCore 0)) : (P (F := F) m).dn 0 d c
    = iprop((bigSep Finset.univ fun i : Fin 16 => iprop(posPts m d (wid (Fin.cast nCore_zero c) i) ∗ outChunks d (wid (Fin.cast nCore_zero c) i) (lookupF m d)))
        ∗ tblsShare m d c.val) := rfl
theorem launch_P_go (d : Dev nD) (c : Fin ((K (F := F)).nCore 0)) (i : Fin ((K (F := F)).nSub 0)) : (P (F := F) m).go 0 d c i
    = iprop(posPts m d (wid (Fin.cast nCore_zero c) (Fin.cast nSub_zero i)) ∗ outChunks d (wid (Fin.cast nCore_zero c) (Fin.cast nSub_zero i)) (m (outLoc d))
        ∗ (if (Fin.cast nSub_zero i).val = 0 then iprop(tblsShare m d c.val ∗ ∃ f, shLoc d (coreOf c) ↦{fullShare} f) else iprop(emp))) := rfl
theorem launch_P_td (d : Dev nD) (c : Fin ((K (F := F)).nCore 0)) (i : Fin ((K (F := F)).nSub 0)) : (P (F := F) m).td 0 d c i
    = iprop(posPts m d (wid (Fin.cast nCore_zero c) (Fin.cast nSub_zero i)) ∗ outChunks d (wid (Fin.cast nCore_zero c) (Fin.cast nSub_zero i)) (lookupF m d)
        ∗ tblShare m d (coreOf c) (Fin.cast nSub_zero i).val
        ∗ (if (Fin.cast nSub_zero i).val = 0 then iprop(tblsShare m d c.val ∗ shLoc d (coreOf c) ↦{shareDrop fullShare 16} tblF m d (coreOf c)) else iprop(emp))) := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What only subcore 0 carries is, over the sixteen subcores, that. -/
theorem bigSep_first (X : sProp 𝕄) : (bigSep Finset.univ fun i : Fin 16 => if i.val = 0 then X else iprop(emp)) = X := by
  have h : (bigSep ((Finset.univ : Finset (Fin 16)).erase 0) fun i : Fin 16 => if i.val = 0 then X else iprop(emp)) = (iprop(emp) : sProp 𝕄) := by
    rw [bigSep_congr (s := (Finset.univ : Finset (Fin 16)).erase 0) (Φ := fun i : Fin 16 => if i.val = 0 then X else iprop(emp)) (Ψ := fun _ => (iprop(emp) : sProp 𝕄))
      fun i hi => if_neg fun h => (Finset.mem_erase.mp hi).1 (Fin.ext h)]
    exact bigSep_emp' _
  rw [bigSep_univ_at (fun i : Fin 16 => if i.val = 0 then X else iprop(emp)) 0, h]
  show iprop(X ∗ emp) = X
  exact equiv_iff.mp sep_emp

/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F]

theorem vecSplit : (K (F := F)).VecSplit (P m) 0 := by
  intro d c
  rw [launch_P_st, launch_P_dn]
  simp only [launch_P_go, launch_P_td]
  rw [bigSep_tasks (F := F) (fun i => iprop(posPts m d (wid (Fin.cast nCore_zero c) i) ∗ outChunks d (wid (Fin.cast nCore_zero c) i) (m (outLoc d))
      ∗ (if i.val = 0 then iprop(tblsShare m d c.val ∗ ∃ f, shLoc d (coreOf c) ↦{fullShare} f) else iprop(emp)))),
    bigSep_tasks (F := F) (fun i => iprop(posPts m d (wid (Fin.cast nCore_zero c) i) ∗ outChunks d (wid (Fin.cast nCore_zero c) i) (lookupF m d)
      ∗ tblShare m d (coreOf c) i.val
      ∗ (if i.val = 0 then iprop(tblsShare m d c.val ∗ shLoc d (coreOf c) ↦{shareDrop fullShare 16} tblF m d (coreOf c)) else iprop(emp))))]
  simp only [bigSep_sep', bigSep_first, ownBufs_S]
  iintro ⟨⟨⟨Hp, Ho⟩, Ht⟩, Hsh, Hrest⟩; imodintro
  isplitl [Hp Ho Ht Hsh]
  · isplitl [Hp]; · iexact Hp
    isplitl [Ho]; · iexact Ho
    isplitl [Ht]; · iexact Ht
    iexact Hsh
  iintro ⟨Hp, Ho, Htok, Ht, Hdrop⟩
  isplitl [Hp Ho Ht]
  · isplitl [Hp Ho]
    · isplitl [Hp]; · iexact Hp
      iexact Ho
    iexact Ht
  isplitl [Htok Hdrop]
  · iexists tblF m d (coreOf c)
    iapply (Transfers.pointsTo_toks_join (ℓ := shLoc d (coreOf c)) (S := Finset.univ) (f := tblF m d (coreOf c)) fullShare 16)
    isplitl [Hdrop]; · iexact Hdrop
    iexact Htok
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev kitShared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev kitMine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One subcore's kit out of those. -/
theorem kit_intro (dci : DCI) : iprop(kitShared (F := F) m ∗ kitMine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each subcore its kit. -/
theorem kits_deal :
    iprop(kitShared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := kitShared (F := F) m) (Φ := kitMine (F := F)) fun dci _ => kit_intro (F := F) m dci)
  isplitr; · iexact Hsh
  unfold kitMine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((posLoc d ↦{fullShare} W main_arg0) ∗ (baseLoc d ↦{fullShare} W main_arg1) ∗ (extLoc d ↦{fullShare} W main_arg2) ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The two SparseCores' operands together: the position list and the result whole, and a read share of each table per
    SparseCore. -/
theorem calls_eq (d : Dev nD) (f : Buf (Elt F) (outLoc d)) :
    (bigSep Finset.univ fun c : Fin 2 => iprop((bigSep Finset.univ fun i : Fin 16 => iprop(posPts m d (wid c i) ∗ outChunks d (wid c i) f)) ∗ tblsShare m d c.val))
      = iprop(((posLoc d ↦{fullShare} m (posLoc d)) ∗ (outLoc d ↦{fullShare} f))
          ∗ ((bigSep Finset.univ fun c : Fin 2 => baseLoc d ↦{shareTokN fullShare c.val} m (baseLoc d))
            ∗ bigSep Finset.univ fun c : Fin 2 => extLoc d ↦{shareTokN fullShare c.val} m (extLoc d))) := by
  rw [posPts_split, outPts_split]
  simp only [posPts, outChunks, tblsShare, bigSep_sep']

theorem launch_P_st' (d : Dev nD) (c : Fin ((K (F := F)).nCore 0)) : (P (F := F) m).st 0 d c
    = iprop((bigSep Finset.univ fun i : Fin 16 => iprop(posPts m d (wid (Fin.cast nCore_zero c) i) ∗ outChunks d (wid (Fin.cast nCore_zero c) i) (m (outLoc d))))
        ∗ tblsShare m d (Fin.cast nCore_zero c).val) := rfl
theorem launch_P_dn' (d : Dev nD) (c : Fin ((K (F := F)).nCore 0)) : (P (F := F) m).dn 0 d c
    = iprop((bigSep Finset.univ fun i : Fin 16 => iprop(posPts m d (wid (Fin.cast nCore_zero c) i) ∗ outChunks d (wid (Fin.cast nCore_zero c) i) (lookupF m d)))
        ∗ tblsShare m d (Fin.cast nCore_zero c).val) := rfl

theorem st0_eq (d : Dev nD) : (bigSep Finset.univ fun c : Fin ((K (F := F)).nCore 0) => (P m).st 0 d c)
    = iprop(((posLoc d ↦{fullShare} m (posLoc d)) ∗ (outLoc d ↦{fullShare} m (outLoc d)))
        ∗ ((bigSep Finset.univ fun c : Fin 2 => baseLoc d ↦{shareTokN fullShare c.val} m (baseLoc d))
          ∗ bigSep Finset.univ fun c : Fin 2 => extLoc d ↦{shareTokN fullShare c.val} m (extLoc d))) := by
  simp only [launch_P_st']
  rw [bigSep_cores (F := F) (fun c => iprop((bigSep Finset.univ fun i : Fin 16 => iprop(posPts m d (wid c i) ∗ outChunks d (wid c i) (m (outLoc d)))) ∗ tblsShare m d c.val)),
    calls_eq]
theorem dn0_eq (d : Dev nD) : (bigSep Finset.univ fun c : Fin ((K (F := F)).nCore 0) => (P m).dn 0 d c)
    = iprop(((posLoc d ↦{fullShare} m (posLoc d)) ∗ (outLoc d ↦{fullShare} lookupF m d))
        ∗ ((bigSep Finset.univ fun c : Fin 2 => baseLoc d ↦{shareTokN fullShare c.val} m (baseLoc d))
          ∗ bigSep Finset.univ fun c : Fin 2 => extLoc d ↦{shareTokN fullShare c.val} m (extLoc d))) := by
  simp only [launch_P_dn']
  rw [bigSep_cores (F := F) (fun c => iprop((bigSep Finset.univ fun i : Fin 16 => iprop(posPts m d (wid c i) ∗ outChunks d (wid c i) (lookupF m d))) ∗ tblsShare m d c.val)),
    calls_eq]

/-- What @main ends with: the three arguments as they were and the result at the looked-up rows. -/
abbrev FIN (d : Dev nD) : sProp 𝕄 :=
  iprop((posLoc d ↦{fullShare} m (posLoc d)) ∗ (baseLoc d ↦{fullShare} m (baseLoc d)) ∗ (extLoc d ↦{fullShare} m (extLoc d)) ∗ outLoc d ↦{fullShare} lookupF m d)

/-- @main on device `d`'s TensorCore: the one call, from the four arrays; the arguments kept, the result the lookup. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Hba, Hex, Ho⟩, -, -⟩, -⟩
  ihave Hba' := (Transfers.pointsTo_toks_split (ℓ := baseLoc d) (S := Finset.univ) (f := m (baseLoc d)) fullShare 2) $$ Hba
  icases Hba' with ⟨Hbd, Hbt⟩
  ihave Hex' := (Transfers.pointsTo_toks_split (ℓ := extLoc d) (S := Finset.univ) (f := m (extLoc d)) fullShare 2) $$ Hex
  icases Hex' with ⟨Hed, Het⟩
  iapply ((K (F := F)).wp_run (D (F := F)) 𝒱 (EH := EH) (P := P m) κ d 0) $$ [Hst Hp Ho Hbt Het Hbd Hed]
  isplitr; · iexact Hctx
  isplitl [Hst]; · iexact Hst
  isplitl [Hp Ho Hbt Het]
  · rw [st0_eq]
    isplitl [Hp Ho]
    · isplitl [Hp]; · iexact Hp
      iexact Ho
    isplitl [Hbt]; · iexact Hbt
    iexact Het
  iintro ⟨Hst, Hdn⟩
  ihave Hdn' := (Entails.of_eq (dn0_eq m d)) $$ Hdn
  icases Hdn' with ⟨⟨Hp, Ho⟩, Hbt, Het⟩
  imodintro
  isplitl [Hst]; · iexact Hst
  isplitl [Hp]; · iexact Hp
  isplitl [Hbd Hbt]
  · iapply (Transfers.pointsTo_toks_join (ℓ := baseLoc d) (S := Finset.univ) (f := m (baseLoc d)) fullShare 2)
    isplitl [Hbd]; · iexact Hbd
    iexact Hbt
  isplitl [Hed Het]
  · iapply (Transfers.pointsTo_toks_join (ℓ := extLoc d) (S := Finset.univ) (f := m (extLoc d)) fullShare 2)
    isplitl [Hed]; · iexact Hed
    iexact Het
  iexact Ho

/-! ## The final memory, the program's run -/

def fq (d : Dev nD) (s' : Phys nD τ sig (Elt F)) : Prop :=
  s'.mem.mem (outLoc d) = lookupF m d ∧ s'.mem.mem (posLoc d) = m (posLoc d) ∧ s'.mem.mem (baseLoc d) = m (baseLoc d) ∧ s'.mem.mem (extLoc d) = m (extLoc d)

omit [FloatOps F] in
/-- Under the state interpretation a whole array held at `f` is at `f`. -/
theorem SI_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m d ∗ SI s') ⊢ (⌜fq m d s'⌝ : sProp 𝕄) := by
  have hp : iprop(FIN m d ∗ SI s') ⊢ (⌜s'.mem.mem (posLoc d) = m (posLoc d)⌝ : sProp 𝕄) := by
    refine BIBase.Entails.trans ?_ (SI_whole s' (posLoc d) (m (posLoc d)))
    iintro ⟨⟨Hp, -, -, -⟩, HSI⟩
    isplitl [Hp] <;> iassumption
  have hb : iprop(FIN m d ∗ SI s') ⊢ (⌜s'.mem.mem (baseLoc d) = m (baseLoc d)⌝ : sProp 𝕄) := by
    refine BIBase.Entails.trans ?_ (SI_whole s' (baseLoc d) (m (baseLoc d)))
    iintro ⟨⟨-, Hb, -, -⟩, HSI⟩
    isplitl [Hb] <;> iassumption
  have he : iprop(FIN m d ∗ SI s') ⊢ (⌜s'.mem.mem (extLoc d) = m (extLoc d)⌝ : sProp 𝕄) := by
    refine BIBase.Entails.trans ?_ (SI_whole s' (extLoc d) (m (extLoc d)))
    iintro ⟨⟨-, -, He, -⟩, HSI⟩
    isplitl [He] <;> iassumption
  have ho : iprop(FIN m d ∗ SI s') ⊢ (⌜s'.mem.mem (outLoc d) = lookupF m d⌝ : sProp 𝕄) := by
    refine BIBase.Entails.trans ?_ (SI_whole s' (outLoc d) (lookupF m d))
    iintro ⟨⟨-, -, -, Ho⟩, HSI⟩
    isplitl [Ho] <;> iassumption
  exact Laws.pure_elim _ ho fun h1 => Laws.pure_elim _ hp fun h2 => Laws.pure_elim _ hb fun h3 => Laws.pure_elim _ he fun h4 =>
    Laws.pure_intro ⟨h1, h2, h3, h4⟩

/-- What the run ends at, on every device: the result is the lookup, the three arguments are as they were. -/
def QC : PUnit × MemSt nD τ sig (Elt F) → Prop := fun r => ∀ c : Dev nD,
  r.2.mem (outLoc c) = lookupF m c ∧ r.2.mem (posLoc c) = m (posLoc c) ∧ r.2.mem (baseLoc c) = m (baseLoc c) ∧ r.2.mem (extLoc c) = m (extLoc c)

theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KI

end
-- ==== Proof.KBSetup.lean ====
/-
  The embedding lookup on the SparseCores, set up for the launch theorem. Thirty-two vector subcores (two SparseCores of
  sixteen) each serve 6400 positions: subcore `i` of SparseCore `c` is worker `2 i + c` and owns rows
  `6400 (2 i + c) … 6400 (2 i + c) + 6399` of the position list and of the result, the result's rows in a hundred chunks
  of 64. Subcore 0 of each SparseCore copies the two tables into the SparseCore's shared memory, one above the other, and
  every subcore of that SparseCore then gathers its rows out of the shared table: the subcore barrier is where subcore 0
  hands each subcore a read share of the filled table. This module fixes what each handshake carries (`P`), the barrier's
  schedule (`bRd`: one round per subcore's cell, a unit from every subcore, subcore 0's unit carrying the share) and what
  the proof asks of the positions (`PreOK`: each at most 199).
-/
import proofs.«207546_g72756745994873_cont_9to1_m_541_11_alg».proof.Kernel
import proofs.«207546_g72756745994873_cont_9to1_m_541_11_alg».proof.Proof.Gen.Kernel
import proofs.«207546_g72756745994873_cont_9to1_m_541_11_alg».proof.Proof.Gen.Kernel.Skeleton
import proofs.«207546_g72756745994873_cont_9to1_m_541_11_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory and the buffers -/

variable (m : (ℓ : Loc nD τ sig) → Buf (Elt F) ℓ) (ρ : Dev nD → PrngReg)

abbrev posLoc (d : Dev nD) : Loc nD τ sig := (SparseCore.T d).loc main_arg0
abbrev baseLoc (d : Dev nD) : Loc nD τ sig := (SparseCore.T d).loc main_arg1
abbrev extLoc (d : Dev nD) : Loc nD τ sig := (SparseCore.T d).loc main_arg2
abbrev outLoc (d : Dev nD) : Loc nD τ sig := (SparseCore.T d).loc main_v0

local notation "pV" => (Memref.whole Cert.Kernel.main_arg0_scv : Memref Cert.Kernel.sig Kind.scVector Space.hbm Cert.Kernel.S204800 EltTy.i32)
local notation "bV" => (Memref.whole Cert.Kernel.main_arg1_scv : Memref Cert.Kernel.sig Kind.scVector Space.hbm Cert.Kernel.S20x128 EltTy.f32)
local notation "eV" => (Memref.whole Cert.Kernel.main_arg2_scv : Memref Cert.Kernel.sig Kind.scVector Space.hbm Cert.Kernel.S180x128 EltTy.f32)
local notation "oV" => (Memref.whole Cert.Kernel.main_v0_scv : Memref Cert.Kernel.sig Kind.scVector Space.hbm Cert.Kernel.S204800x128 EltTy.f32)
local notation "tV" => (Memref.whole Cert.Kernel.cc0_scratch0 : Memref Cert.Kernel.sig Kind.scVector Space.shared Cert.Kernel.S200x128 EltTy.f32)
local notation "iV" => (Memref.whole Cert.Kernel.cc0_scratch1 : Memref Cert.Kernel.sig Kind.scVector Space.vmem Cert.Kernel.S6400 EltTy.i32)
local notation "rV" => (Memref.whole Cert.Kernel.cc0_scratch2 : Memref Cert.Kernel.sig Kind.scVector Space.vmem Cert.Kernel.S10x64x128 EltTy.f32)

theorem nSub_eq : τ.nSub = 16 := rfl
theorem nSC_eq : τ.nSC = 2 := rfl

/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-! ## Workers, their rows, and the chunks of the result -/

/-- The worker number of subcore `i` of SparseCore `c`: `2 i + c`. -/
def wid (c : Fin 2) (i : Fin 16) : Fin 32 := ⟨2 * i.val + c.val, by have := c.isLt; have := i.isLt; omega⟩
/-- Chunk `j` of worker `w`, among the 3200 chunks of 64 rows of the result. -/
def cn (w : Fin 32) (j : Fin 100) : Fin 3200 := ⟨100 * w.val + j.val, by have := w.isLt; have := j.isLt; omega⟩

theorem hdivP : 32 ∣ S204800.size 0 := ⟨6400, rfl⟩
theorem hdivO : 3200 ∣ S204800x128.size 0 := ⟨64, rfl⟩
/-- Worker `w`'s positions: entries `6400 w … 6400 w + 6399`. -/
abbrev posRect (w : Fin 32) : Rect S204800 := Rect.part (s := S204800) (a₀ := 0) hdivP w
abbrev posSet (w : Fin 32) : Finset S204800.Idx := ((pV).view.slice (posRect w)).set
/-- Chunk `n` of the result: rows `64 n … 64 n + 63`. -/
abbrev chunkRect (n : Fin 3200) : Rect S204800x128 := Rect.part (s := S204800x128) (a₀ := 0) hdivO n
abbrev chunkSet (n : Fin 3200) : Finset S204800x128.Idx := ((oV).view.slice (chunkRect n)).set

/-- The stacked table both programs read: the base table's rows above the extended table's, out of the launch memory. -/
def tblF (d : Dev nD) (c : Fin τ.nSC) : Buf (Elt F) (shLoc d c) := Cert.Spec.stacked (m (baseLoc d)) (m (extLoc d))
/-- The result both programs end at: row `r` is the stacked table's row named by position `r`, out of the launch memory. -/
def lookupF (d : Dev nD) : Buf (Elt F) (outLoc d) := Cert.Spec.lookup (m (posLoc d)) (m (baseLoc d)) (m (extLoc d))

/-- What the proof asks of the launch memory: every position is at most 199 (the precondition says so). -/
def PreOK : Prop := ∀ (d : Dev nD) (j : S204800.Idx), (m (posLoc d) j).toNat ≤ 199

/-! ## The barrier cells -/

/-- Subcore `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- Subcore `j`'s read share of its SparseCore's shared table at the filled contents. -/
abbrev tblShare (d : Dev nD) (c : Fin τ.nSC) (j : ℕ) : sProp 𝕄 := shLoc d c ↦{shareTokN fullShare j} tblF m d c

/-- What a duty in subcore `j`'s round hands over: subcore 0's, `j`'s read share of the filled table; the others', nothing. -/
def bPay (g : GSem nD τ sig) (n : ℕ) : sProp 𝕄 :=
  match g with
  | ((d, .scVector c j), _) => if n = 0 then tblShare m d c j.val else iprop(emp)
  | _ => iprop(emp)

/-- The barrier cells' schedule: one round on each, of one unit duty per subcore of the SparseCore (named by its number),
    subcore 0's handing over the share. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore `(c, i)` owe for the barrier: a unit on every subcore's cell of its SparseCore, at the
    call's index. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

variable [FloatOps F]

/-! ## The subcore's own cells for the barrier: what the launch deals its proof -/

/-- Subcore `(c, i)`'s barrier kit: every subcore's cell invariant of its SparseCore and that each has reached round 0, its
    own position at the origin of round 0, its duty token in every subcore's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

abbrev posPts (d : Dev nD) (w : Fin 32) : sProp 𝕄 := posLoc d ↦[posSet w]{fullShare} m (posLoc d)
/-- Worker `w`'s hundred chunks of the result, all at the contents `f`. -/
abbrev outChunks (d : Dev nD) (w : Fin 32) (f : Buf (Elt F) (outLoc d)) : sProp 𝕄 :=
  bigSep Finset.univ fun j : Fin 100 => outLoc d ↦[chunkSet (cn w j)]{fullShare} f
/-- SparseCore `c`'s read shares of the two tables. -/
abbrev tblsShare (d : Dev nD) (c : ℕ) : sProp 𝕄 :=
  iprop((baseLoc d ↦{shareTokN fullShare c} m (baseLoc d)) ∗ (extLoc d ↦{shareTokN fullShare c} m (extLoc d)))

/-- The one call takes, per SparseCore, its sixteen workers' positions and chunks and a read share of each table; each task
    its positions and chunks, subcore 0's also the table shares and the shared table whole; each brings back its positions,
    its chunks at the looked-up rows, and its read share of the filled shared table (subcore 0 also the table shares and what is
    left of the shared table beyond the sixteen read shares); each task's proof consumes its barrier kit; each subcore owes
    its arrivals. -/
def P : (K (F := F)).Pay (nD := nD) (Val := Elt F) (Name := ℕ) (U := UU) where
  st := fun q d c => match q with
    | 0 => iprop((bigSep Finset.univ fun i : Fin 16 => iprop(posPts m d (wid (Fin.cast nCore_zero c) i) ∗ outChunks d (wid (Fin.cast nCore_zero c) i) (m (outLoc d))))
        ∗ tblsShare m d c.val)
  dn := fun q d c => match q with
    | 0 => iprop((bigSep Finset.univ fun i : Fin 16 => iprop(posPts m d (wid (Fin.cast nCore_zero c) i) ∗ outChunks d (wid (Fin.cast nCore_zero c) i) (lookupF m d)))
        ∗ tblsShare m d c.val)
  go := fun q d c i => match q with
    | 0 => iprop(posPts m d (wid (Fin.cast nCore_zero c) (Fin.cast nSub_zero i)) ∗ outChunks d (wid (Fin.cast nCore_zero c) (Fin.cast nSub_zero i)) (m (outLoc d))
        ∗ (if i.val = 0 then iprop(tblsShare m d c.val ∗ ∃ f, shLoc d (coreOf c) ↦{fullShare} f) else iprop(emp)))
  td := fun q d c i => match q with
    | 0 => iprop(posPts m d (wid (Fin.cast nCore_zero c) (Fin.cast nSub_zero i)) ∗ outChunks d (wid (Fin.cast nCore_zero c) (Fin.cast nSub_zero i)) (lookupF m d)
        ∗ tblShare m d (coreOf c) i.val
        ∗ (if i.val = 0 then iprop(tblsShare m d c.val ∗ shLoc d (coreOf c) ↦{shareDrop fullShare 16} tblF m d (coreOf c)) else iprop(emp)))
  x := fun _ thr => match thr with
    | (d, .scVector c i) => if c.val < 2 then bkit m d c i else iprop(emp)
    | _ => iprop(emp)
  ox := fun _ thr => match thr with
    | (d, .scVector c _) => if c.val < 2 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE hsub0) (show (sc_bar0 : Sem sig) ≠ (K (F := F)).go from sc_bar0_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance P_storable : (P (F := F) m).IsStorable where
  st q d c := match q with
    | 0 => (inferInstance : BI.Storable (upEmb : UEmb _ 𝕄) iprop((bigSep Finset.univ fun i : Fin 16 => iprop(posPts m d (wid (Fin.cast nCore_zero c) i) ∗ outChunks d (wid (Fin.cast nCore_zero c) i) (m (outLoc d))))
        ∗ tblsShare m d c.val))
  dn q d c := match q with
    | 0 => (inferInstance : BI.Storable (upEmb : UEmb _ 𝕄) iprop((bigSep Finset.univ fun i : Fin 16 => iprop(posPts m d (wid (Fin.cast nCore_zero c) i) ∗ outChunks d (wid (Fin.cast nCore_zero c) i) (lookupF m d)))
        ∗ tblsShare m d c.val))
  go q d c i := match q with
    | 0 => by
      show BI.Storable (upEmb : UEmb _ 𝕄) iprop(posPts m d (wid (Fin.cast nCore_zero c) (Fin.cast nSub_zero i)) ∗ outChunks d (wid (Fin.cast nCore_zero c) (Fin.cast nSub_zero i)) (m (outLoc d))
        ∗ (if i.val = 0 then iprop(tblsShare m d c.val ∗ ∃ f, shLoc d (coreOf c) ↦{fullShare} f) else iprop(emp)))
      split <;> infer_instance
  td q d c i := match q with
    | 0 => by
      show BI.Storable (upEmb : UEmb _ 𝕄) iprop(posPts m d (wid (Fin.cast nCore_zero c) (Fin.cast nSub_zero i)) ∗ outChunks d (wid (Fin.cast nCore_zero c) (Fin.cast nSub_zero i)) (lookupF m d)
        ∗ tblShare m d (coreOf c) i.val
        ∗ (if i.val = 0 then iprop(tblsShare m d c.val ∗ shLoc d (coreOf c) ↦{shareDrop fullShare 16} tblF m d (coreOf c)) else iprop(emp)))
      split <;> infer_instance

end Cert.Proof.KB

end
-- ==== Proof.KBLaunch.lean ====
/-
  The launch side of the embedding lookup on the SparseCores: from "each subcore's task is proved" to the run of the whole
  program. Four things are supplied to the launch theorem over the carriers fixed in the set-up module.
  The sets: the thirty-two workers' parts of the position list and the 3200 chunks of the result are pairwise disjoint and
  cover their arrays (they are the parts of a cut along the first axis), and worker and chunk numbers are pairs —
  `w = 2 i + c` is a bijection from (SparseCore, subcore) and `n = 100 w + j` one from (worker, chunk of the worker) — so
  an array held whole is the separating conjunction of its pieces indexed by SparseCore, subcore and chunk.
  The split of a SparseCore's operands among its sixteen tasks: positions and chunks go to their workers as they are; the
  two table shares and the shared table (taken whole, at whatever it holds, out of the sequencer's own buffers) go to
  subcore 0; back come the positions, the chunks at the looked-up rows, the table shares, and the shared table as sixteen
  read tokens and the remainder after sixteen, which join to the table whole at the stacked contents.
  The launch element: the barrier cells' rounds are funded, their invariants allocated at once, and each subcore is dealt
  its kit (the invariants and that every cell has reached round 0, its own position, its duty tokens, its credit).
  @main on the TensorCore: the position list and the result are cut into the pieces the two SparseCores take, each table
  into a read token per SparseCore and a remainder kept aside; after the call the pieces rejoin, the result at the lookup.
  Last, under the state interpretation each of the four arrays held whole pins the final memory.
-/
import proofs.«207546_g72756745994873_cont_9to1_m_541_11_alg».proof.Proof.KBSetup
import Idealize.ShloMosaic.Lib.SparseCore.Launch
import Idealize.ShloMosaic.Lib.SparseCore.Threads
import Idealize.ShloMosaic.Lib.Transfers
import Idealize.ShloMosaic.Rules.PointsTo
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

/-! ## The workers' rows and the chunks: disjoint, covering, and regrouped by SparseCore, subcore and chunk -/

theorem posSet_eq (w : Fin 32) : posSet w = (posRect w).set := by
  show ((View.whole (main_arg0_scv : Ref sig .scVector)).slice (posRect w)).set = _
  rw [View.set_slice]; exact Finset.map_refl
theorem chunkSet_eq (n : Fin 3200) : chunkSet n = (chunkRect n).set := by
  show ((View.whole (main_v0_scv : Ref sig .scVector)).slice (chunkRect n)).set = _
  rw [View.set_slice]; exact Finset.map_refl

theorem pos_disjoint : ∀ i ∈ (Finset.univ : Finset (Fin 32)), ∀ j ∈ (Finset.univ : Finset (Fin 32)), i ≠ j → Disjoint (posSet i) (posSet j) :=
  fun i _ j _ h => by rw [posSet_eq, posSet_eq]; exact Rect.part_disjoint hdivP h
theorem pos_cover : (Finset.univ : Finset (Fin 32)).biUnion posSet = Finset.univ :=
  (Finset.biUnion_congr rfl fun i _ => posSet_eq i).trans (Rect.biUnion_part hdivP)
theorem chunk_disjoint : ∀ i ∈ (Finset.univ : Finset (Fin 3200)), ∀ j ∈ (Finset.univ : Finset (Fin 3200)), i ≠ j → Disjoint (chunkSet i) (chunkSet j) :=
  fun i _ j _ h => by rw [chunkSet_eq, chunkSet_eq]; exact Rect.part_disjoint hdivO h
theorem chunk_cover : (Finset.univ : Finset (Fin 3200)).biUnion chunkSet = Finset.univ :=
  (Finset.biUnion_congr rfl fun i _ => chunkSet_eq i).trans (Rect.biUnion_part hdivO)

/-- The position list whole is the thirty-two workers' parts of it. -/
theorem posPts_parts (d : Dev nD) (f : Buf (Elt F) (posLoc d)) :
    (posLoc d ↦{fullShare} f : sProp 𝕄) = bigSep Finset.univ fun w : Fin 32 => posLoc d ↦[posSet w]{fullShare} f := by
  rw [← pointsTo_biUnion Finset.univ (ℓ := posLoc d) posSet pos_disjoint, pos_cover]; try rfl
/-- The result whole is its 3200 chunks. -/
theorem outPts_parts (d : Dev nD) (f : Buf (Elt F) (outLoc d)) :
    (outLoc d ↦{fullShare} f : sProp 𝕄) = bigSep Finset.univ fun n : Fin 3200 => outLoc d ↦[chunkSet n]{fullShare} f := by
  rw [← pointsTo_biUnion Finset.univ (ℓ := outLoc d) chunkSet chunk_disjoint, chunk_cover]; try rfl

/-- Worker numbers are the pairs (SparseCore, subcore): `w = 2 i + c`. -/
def widEquiv : Fin 2 × Fin 16 ≃ Fin 32 where
  toFun p := wid p.1 p.2
  invFun w := (⟨w.val % 2, Nat.mod_lt _ (by decide)⟩, ⟨w.val / 2, by have := w.isLt; omega⟩)
  left_inv := by
    rintro ⟨c, i⟩
    refine Prod.ext (Fin.ext ?_) (Fin.ext ?_)
    · show (2 * i.val + c.val) % 2 = c.val
      have := c.isLt; omega
    · show (2 * i.val + c.val) / 2 = i.val
      have := c.isLt; omega
  right_inv := by
    intro w; refine Fin.ext ?_
    show 2 * (w.val / 2) + w.val % 2 = w.val
    omega

/-- Chunk numbers are the pairs (worker, chunk of the worker): `n = 100 w + j`. -/
def cnEquiv : Fin 32 × Fin 100 ≃ Fin 3200 where
  toFun p := cn p.1 p.2
  invFun n := (⟨n.val / 100, by have := n.isLt; omega⟩, ⟨n.val % 100, Nat.mod_lt _ (by decide)⟩)
  left_inv := by
    rintro ⟨w, j⟩
    refine Prod.ext (Fin.ext ?_) (Fin.ext ?_)
    · show (100 * w.val + j.val) / 100 = w.val
      have := j.isLt; omega
    · show (100 * w.val + j.val) % 100 = j.val
      have := j.isLt; omega
  right_inv := by
    intro n; refine Fin.ext ?_
    show 100 * (n.val / 100) + n.val % 100 = n.val
    omega

theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl
theorem bigSep_chunks (Ψ : Fin 3200 → sProp 𝕄) :
    bigSep Finset.univ Ψ = bigSep Finset.univ fun w : Fin 32 => bigSep Finset.univ fun j : Fin 100 => Ψ (cn w j) := by
  rw [bigSep_univ_equiv cnEquiv Ψ, bigSep_univ_prod]; rfl

/-- The position list whole, by SparseCore and subcore. -/
theorem posPts_split (d : Dev nD) (f : Buf (Elt F) (posLoc d)) :
    (posLoc d ↦{fullShare} f : sProp 𝕄)
      = bigSep Finset.univ fun c : Fin 2 => bigSep Finset.univ fun i : Fin 16 => posLoc d ↦[posSet (wid c i)]{fullShare} f := by
  rw [posPts_parts, bigSep_workers]
/-- The result whole, by SparseCore, subcore and chunk. -/
theorem outPts_split (d : Dev nD) (f : Buf (Elt F) (outLoc d)) :
    (outLoc d ↦{fullShare} f : sProp 𝕄)
      = bigSep Finset.univ fun c : Fin 2 => bigSep Finset.univ fun i : Fin 16 => bigSep Finset.univ fun j : Fin 100 => outLoc d ↦[chunkSet (cn (wid c i) j)]{fullShare} f := by
  rw [outPts_parts, bigSep_chunks, bigSep_workers]

/-! ## The call's operands among the tasks -/

theorem launch_P_st (d : Dev nD) (c : Fin ((K (F := F)).nCore 0)) : (P (F := F) m).st 0 d c
    = iprop((bigSep Finset.univ fun i : Fin 16 => iprop(posPts m d (wid (Fin.cast nCore_zero c) i) ∗ outChunks d (wid (Fin.cast nCore_zero c) i) (m (outLoc d))))
        ∗ tblsShare m d c.val) := rfl
theorem launch_P_dn (d : Dev nD) (c : Fin ((K (F := F)).nCore 0)) : (P (F := F) m).dn 0 d c
    = iprop((bigSep Finset.univ fun i : Fin 16 => iprop(posPts m d (wid (Fin.cast nCore_zero c) i) ∗ outChunks d (wid (Fin.cast nCore_zero c) i) (lookupF m d)))
        ∗ tblsShare m d c.val) := rfl
theorem launch_P_go (d : Dev nD) (c : Fin ((K (F := F)).nCore 0)) (i : Fin ((K (F := F)).nSub 0)) : (P (F := F) m).go 0 d c i
    = iprop(posPts m d (wid (Fin.cast nCore_zero c) (Fin.cast nSub_zero i)) ∗ outChunks d (wid (Fin.cast nCore_zero c) (Fin.cast nSub_zero i)) (m (outLoc d))
        ∗ (if (Fin.cast nSub_zero i).val = 0 then iprop(tblsShare m d c.val ∗ ∃ f, shLoc d (coreOf c) ↦{fullShare} f) else iprop(emp))) := rfl
theorem launch_P_td (d : Dev nD) (c : Fin ((K (F := F)).nCore 0)) (i : Fin ((K (F := F)).nSub 0)) : (P (F := F) m).td 0 d c i
    = iprop(posPts m d (wid (Fin.cast nCore_zero c) (Fin.cast nSub_zero i)) ∗ outChunks d (wid (Fin.cast nCore_zero c) (Fin.cast nSub_zero i)) (lookupF m d)
        ∗ tblShare m d (coreOf c) (Fin.cast nSub_zero i).val
        ∗ (if (Fin.cast nSub_zero i).val = 0 then iprop(tblsShare m d c.val ∗ shLoc d (coreOf c) ↦{shareDrop fullShare 16} tblF m d (coreOf c)) else iprop(emp))) := rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What only subcore 0 carries is, over the sixteen subcores, that. -/
theorem bigSep_first (X : sProp 𝕄) : (bigSep Finset.univ fun i : Fin 16 => if i.val = 0 then X else iprop(emp)) = X := by
  have h : (bigSep ((Finset.univ : Finset (Fin 16)).erase 0) fun i : Fin 16 => if i.val = 0 then X else iprop(emp)) = (iprop(emp) : sProp 𝕄) := by
    rw [bigSep_congr (s := (Finset.univ : Finset (Fin 16)).erase 0) (Φ := fun i : Fin 16 => if i.val = 0 then X else iprop(emp)) (Ψ := fun _ => (iprop(emp) : sProp 𝕄))
      fun i hi => if_neg fun h => (Finset.mem_erase.mp hi).1 (Fin.ext h)]
    exact bigSep_emp' _
  rw [bigSep_univ_at (fun i : Fin 16 => if i.val = 0 then X else iprop(emp)) 0, h]
  show iprop(X ∗ emp) = X
  exact equiv_iff.mp sep_emp

/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

variable [FloatOps F]

theorem vecSplit : (K (F := F)).VecSplit (P m) 0 := by
  intro d c
  rw [launch_P_st, launch_P_dn]
  simp only [launch_P_go, launch_P_td]
  rw [bigSep_tasks (F := F) (fun i => iprop(posPts m d (wid (Fin.cast nCore_zero c) i) ∗ outChunks d (wid (Fin.cast nCore_zero c) i) (m (outLoc d))
      ∗ (if i.val = 0 then iprop(tblsShare m d c.val ∗ ∃ f, shLoc d (coreOf c) ↦{fullShare} f) else iprop(emp)))),
    bigSep_tasks (F := F) (fun i => iprop(posPts m d (wid (Fin.cast nCore_zero c) i) ∗ outChunks d (wid (Fin.cast nCore_zero c) i) (lookupF m d)
      ∗ tblShare m d (coreOf c) i.val
      ∗ (if i.val = 0 then iprop(tblsShare m d c.val ∗ shLoc d (coreOf c) ↦{shareDrop fullShare 16} tblF m d (coreOf c)) else iprop(emp))))]
  simp only [bigSep_sep', bigSep_first, ownBufs_S]
  iintro ⟨⟨⟨Hp, Ho⟩, Ht⟩, Hsh, Hrest⟩; imodintro
  isplitl [Hp Ho Ht Hsh]
  · isplitl [Hp]; · iexact Hp
    isplitl [Ho]; · iexact Ho
    isplitl [Ht]; · iexact Ht
    iexact Hsh
  iintro ⟨Hp, Ho, Htok, Ht, Hdrop⟩
  isplitl [Hp Ho Ht]
  · isplitl [Hp Ho]
    · isplitl [Hp]; · iexact Hp
      iexact Ho
    iexact Ht
  isplitl [Htok Hdrop]
  · iexists tblF m d (coreOf c)
    iapply (Transfers.pointsTo_toks_join (ℓ := shLoc d (coreOf c)) (S := Finset.univ) (f := tblF m d (coreOf c)) fullShare 16)
    isplitl [Hdrop]; · iexact Hdrop
    iexact Htok
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((P (F := F) m).oxCred : sProp 𝕄)
    ⊢ bigSep Finset.univ fun dci : DCI => if dci.2.1.val < 2 then cred (tallyAt (bcell₃ dci) (some 0) (grid0.bound 1)) else (BI.emp : sProp 𝕄) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => if dci.2.1.val < 2 then (cred (tallyAt (bcell₃ dci) (some 0) (grid0.bound 1)) : sProp 𝕄) else BI.emp)]
  refine bigSep_mono fun d _ => ?_
  rw [bigSep_univ_prod, bigSep_univ_prod (fun ci : Fin τ.nSC × Fin τ.nSub => if ci.1.val < 2 then (cred (tallyAt (bcell₃ (d, ci)) (some 0) (grid0.bound 1)) : sProp 𝕄) else BI.emp)]
  refine bigSep_mono fun c _ => ?_
  dsimp only
  by_cases hc : c.val < 2
  · simp only [hc, ↓reduceIte]
    have hox : ∀ i, (P (F := F) m).oxFrom 0 (V d c i) = oxV d c := fun i => by
      rw [show (0 : ℕ) = (0 : Fin 1).val from rfl, (P m).oxFrom_step, (P m).oxFrom_end _ (n := (0 : Fin 1).val + 1) le_rfl, add_zero]; exact if_pos hc
    simp only [hox]
    unfold oxV
    rw [SparseCore.Cfg.cred_finsum, bigSep_univ_comm]
    refine bigSep_mono fun j _ => ?_
    rw [← SparseCore.Cfg.cred_finsum, sum_tallyAt_one]; rfl
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = if c.val < 2 then bkit m d c i else iprop(emp) :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev kitShared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each subcore is handed of its own: its position, its tokens, its credit. -/
abbrev kitMine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ (if dci.2.1.val < 2 then cred (tallyAt (bcell₃ dci) (some 0) (grid0.bound 1)) else BI.emp))

/-- One subcore's kit out of those. -/
theorem kit_intro (dci : DCI) : iprop(kitShared (F := F) m ∗ kitMine dci) ⊢ (if dci.2.1.val < 2 then bkit (F := F) m dci.1 dci.2.1 dci.2.2 else iprop(emp) : sProp 𝕄) := by
  obtain ⟨d, c, i⟩ := dci
  iintro ⟨⟨#Hinv, #Hr⟩, Hat, Htok, Hcred⟩
  dsimp only
  split
  · unfold bkit
    isplitr
    · icases Hinv with ⟨%κ, Hinv⟩
      iexists κ
      iapply (SparseCore.ent (bigSep_mono_frame (s := (Finset.univ : Finset (Fin (grid0.bound 1)))) (Φ := fun _ => iprop(emp))
        (R := bigSep Finset.univ fun x : DCI => cellInv EB (bRd (F := F) m) (κ (bcell₃ x)) (bcell₃ x)) fun j _ =>
          sep_elim_left.trans (bigSep_elim (Φ := fun x : DCI => (cellInv EB (bRd (F := F) m) (κ (bcell₃ x)) (bcell₃ x) : sProp 𝕄))
            (i := (d, c, Fin.castLE hsub0 j)) (Finset.mem_univ _))))
      isplitl; · iexact Hinv
      rw [bigSep_emp']; iempintro
    isplitl [Htok]; · iexact Htok
    isplitr
    · iapply (SparseCore.ent (bigSep_mono_frame (s := (Finset.univ : Finset (Fin (grid0.bound 1)))) (Φ := fun _ => iprop(emp))
        (R := bigSep Finset.univ fun x : DCI => reached EB (bcell₃ x) 0) fun j _ =>
          sep_elim_left.trans (bigSep_elim (Φ := fun x : DCI => (reached EB (bcell₃ x) 0 : sProp 𝕄)) (i := (d, c, Fin.castLE hsub0 j)) (Finset.mem_univ _))))
      isplitl; · iexact Hr
      rw [bigSep_emp']; iempintro
    isplitl [Hat]; · iexact Hat
    iexact Hcred
  · iempintro

/-- Each subcore its kit. -/
theorem kits_deal :
    iprop(kitShared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => if dci.2.1.val < 2 then cred (tallyAt (bcell₃ dci) (some 0) (grid0.bound 1)) else BI.emp))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := kitShared (F := F) m) (Φ := kitMine (F := F)) fun dci _ => kit_intro (F := F) m dci)
  isplitr; · iexact Hsh
  unfold kitMine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## @main on the TensorCore -/

omit [FloatOps F] in
theorem unscopedBufs_eq (d : Dev nD) (W : (b : Ref sig .tc) → Buf (Elt F) ((d.tc : Thread nD τ).loc b)) :
    (unscopedBufs d W : sProp 𝕄)
      = iprop((posLoc d ↦{fullShare} W main_arg0) ∗ (baseLoc d ↦{fullShare} W main_arg1) ∗ (extLoc d ↦{fullShare} W main_arg2) ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- The two SparseCores' operands together: the position list and the result whole, and a read share of each table per
    SparseCore. -/
theorem calls_eq (d : Dev nD) (f : Buf (Elt F) (outLoc d)) :
    (bigSep Finset.univ fun c : Fin 2 => iprop((bigSep Finset.univ fun i : Fin 16 => iprop(posPts m d (wid c i) ∗ outChunks d (wid c i) f)) ∗ tblsShare m d c.val))
      = iprop(((posLoc d ↦{fullShare} m (posLoc d)) ∗ (outLoc d ↦{fullShare} f))
          ∗ ((bigSep Finset.univ fun c : Fin 2 => baseLoc d ↦{shareTokN fullShare c.val} m (baseLoc d))
            ∗ bigSep Finset.univ fun c : Fin 2 => extLoc d ↦{shareTokN fullShare c.val} m (extLoc d))) := by
  rw [posPts_split, outPts_split]
  simp only [posPts, outChunks, tblsShare, bigSep_sep']

theorem launch_P_st' (d : Dev nD) (c : Fin ((K (F := F)).nCore 0)) : (P (F := F) m).st 0 d c
    = iprop((bigSep Finset.univ fun i : Fin 16 => iprop(posPts m d (wid (Fin.cast nCore_zero c) i) ∗ outChunks d (wid (Fin.cast nCore_zero c) i) (m (outLoc d))))
        ∗ tblsShare m d (Fin.cast nCore_zero c).val) := rfl
theorem launch_P_dn' (d : Dev nD) (c : Fin ((K (F := F)).nCore 0)) : (P (F := F) m).dn 0 d c
    = iprop((bigSep Finset.univ fun i : Fin 16 => iprop(posPts m d (wid (Fin.cast nCore_zero c) i) ∗ outChunks d (wid (Fin.cast nCore_zero c) i) (lookupF m d)))
        ∗ tblsShare m d (Fin.cast nCore_zero c).val) := rfl

theorem st0_eq (d : Dev nD) : (bigSep Finset.univ fun c : Fin ((K (F := F)).nCore 0) => (P m).st 0 d c)
    = iprop(((posLoc d ↦{fullShare} m (posLoc d)) ∗ (outLoc d ↦{fullShare} m (outLoc d)))
        ∗ ((bigSep Finset.univ fun c : Fin 2 => baseLoc d ↦{shareTokN fullShare c.val} m (baseLoc d))
          ∗ bigSep Finset.univ fun c : Fin 2 => extLoc d ↦{shareTokN fullShare c.val} m (extLoc d))) := by
  simp only [launch_P_st']
  rw [bigSep_cores (F := F) (fun c => iprop((bigSep Finset.univ fun i : Fin 16 => iprop(posPts m d (wid c i) ∗ outChunks d (wid c i) (m (outLoc d)))) ∗ tblsShare m d c.val)),
    calls_eq]
theorem dn0_eq (d : Dev nD) : (bigSep Finset.univ fun c : Fin ((K (F := F)).nCore 0) => (P m).dn 0 d c)
    = iprop(((posLoc d ↦{fullShare} m (posLoc d)) ∗ (outLoc d ↦{fullShare} lookupF m d))
        ∗ ((bigSep Finset.univ fun c : Fin 2 => baseLoc d ↦{shareTokN fullShare c.val} m (baseLoc d))
          ∗ bigSep Finset.univ fun c : Fin 2 => extLoc d ↦{shareTokN fullShare c.val} m (extLoc d))) := by
  simp only [launch_P_dn']
  rw [bigSep_cores (F := F) (fun c => iprop((bigSep Finset.univ fun i : Fin 16 => iprop(posPts m d (wid c i) ∗ outChunks d (wid c i) (lookupF m d))) ∗ tblsShare m d c.val)),
    calls_eq]

/-- What @main ends with: the three arguments as they were and the result at the looked-up rows. -/
abbrev FIN (d : Dev nD) : sProp 𝕄 :=
  iprop((posLoc d ↦{fullShare} m (posLoc d)) ∗ (baseLoc d ↦{fullShare} m (baseLoc d)) ∗ (extLoc d ↦{fullShare} m (extLoc d)) ∗ outLoc d ↦{fullShare} lookupF m d)

/-- @main on device `d`'s TensorCore: the one call, from the four arrays; the arguments kept, the result the lookup. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Hba, Hex, Ho⟩, -, -⟩, -⟩
  ihave Hba' := (Transfers.pointsTo_toks_split (ℓ := baseLoc d) (S := Finset.univ) (f := m (baseLoc d)) fullShare 2) $$ Hba
  icases Hba' with ⟨Hbd, Hbt⟩
  ihave Hex' := (Transfers.pointsTo_toks_split (ℓ := extLoc d) (S := Finset.univ) (f := m (extLoc d)) fullShare 2) $$ Hex
  icases Hex' with ⟨Hed, Het⟩
  iapply ((K (F := F)).wp_run (D (F := F)) 𝒱 (EH := EH) (P := P m) κ d 0) $$ [Hst Hp Ho Hbt Het Hbd Hed]
  isplitr; · iexact Hctx
  isplitl [Hst]; · iexact Hst
  isplitl [Hp Ho Hbt Het]
  · rw [st0_eq]
    isplitl [Hp Ho]
    · isplitl [Hp]; · iexact Hp
      iexact Ho
    isplitl [Hbt]; · iexact Hbt
    iexact Het
  iintro ⟨Hst, Hdn⟩
  ihave Hdn' := (Entails.of_eq (dn0_eq m d)) $$ Hdn
  icases Hdn' with ⟨⟨Hp, Ho⟩, Hbt, Het⟩
  imodintro
  isplitl [Hst]; · iexact Hst
  isplitl [Hp]; · iexact Hp
  isplitl [Hbd Hbt]
  · iapply (Transfers.pointsTo_toks_join (ℓ := baseLoc d) (S := Finset.univ) (f := m (baseLoc d)) fullShare 2)
    isplitl [Hbd]; · iexact Hbd
    iexact Hbt
  isplitl [Hed Het]
  · iapply (Transfers.pointsTo_toks_join (ℓ := extLoc d) (S := Finset.univ) (f := m (extLoc d)) fullShare 2)
    isplitl [Hed]; · iexact Hed
    iexact Het
  iexact Ho

/-! ## The final memory, the program's run -/

def fq (d : Dev nD) (s' : Phys nD τ sig (Elt F)) : Prop :=
  s'.mem.mem (outLoc d) = lookupF m d ∧ s'.mem.mem (posLoc d) = m (posLoc d) ∧ s'.mem.mem (baseLoc d) = m (baseLoc d) ∧ s'.mem.mem (extLoc d) = m (extLoc d)

omit [FloatOps F] in
/-- Under the state interpretation a whole array held at `f` is at `f`. -/
theorem SI_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m d ∗ SI s') ⊢ (⌜fq m d s'⌝ : sProp 𝕄) := by
  have hp : iprop(FIN m d ∗ SI s') ⊢ (⌜s'.mem.mem (posLoc d) = m (posLoc d)⌝ : sProp 𝕄) := by
    refine BIBase.Entails.trans ?_ (SI_whole s' (posLoc d) (m (posLoc d)))
    iintro ⟨⟨Hp, -, -, -⟩, HSI⟩
    isplitl [Hp] <;> iassumption
  have hb : iprop(FIN m d ∗ SI s') ⊢ (⌜s'.mem.mem (baseLoc d) = m (baseLoc d)⌝ : sProp 𝕄) := by
    refine BIBase.Entails.trans ?_ (SI_whole s' (baseLoc d) (m (baseLoc d)))
    iintro ⟨⟨-, Hb, -, -⟩, HSI⟩
    isplitl [Hb] <;> iassumption
  have he : iprop(FIN m d ∗ SI s') ⊢ (⌜s'.mem.mem (extLoc d) = m (extLoc d)⌝ : sProp 𝕄) := by
    refine BIBase.Entails.trans ?_ (SI_whole s' (extLoc d) (m (extLoc d)))
    iintro ⟨⟨-, -, He, -⟩, HSI⟩
    isplitl [He] <;> iassumption
  have ho : iprop(FIN m d ∗ SI s') ⊢ (⌜s'.mem.mem (outLoc d) = lookupF m d⌝ : sProp 𝕄) := by
    refine BIBase.Entails.trans ?_ (SI_whole s' (outLoc d) (lookupF m d))
    iintro ⟨⟨-, -, -, Ho⟩, HSI⟩
    isplitl [Ho] <;> iassumption
  exact Laws.pure_elim _ ho fun h1 => Laws.pure_elim _ hp fun h2 => Laws.pure_elim _ hb fun h3 => Laws.pure_elim _ he fun h4 =>
    Laws.pure_intro ⟨h1, h2, h3, h4⟩

/-- What the run ends at, on every device: the result is the lookup, the three arguments are as they were. -/
def QC : PUnit × MemSt nD τ sig (Elt F) → Prop := fun r => ∀ c : Dev nD,
  r.2.mem (outLoc c) = lookupF m c ∧ r.2.mem (posLoc c) = m (posLoc c) ∧ r.2.mem (baseLoc c) = m (baseLoc c) ∧ r.2.mem (extLoc c) = m (extLoc c)

theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (hu₀ m) (hmain m ρ) (fq m) (hfin m) (QC m) (fun _ h => h)

end Cert.Proof.KB

end
-- ==== Proof.KIDefs.lean ====
/-
  The vocabulary of one vector subcore's task: its worker number and rows; its scoped semaphores and scratch buffers as the
  launch hands them over; the kernel's slices (its row of the position list, the hundred windows of the position scratch, the
  ten slots of the row scratch, the shared table through its whole-table slice, the 64-row chunks of the result) identified
  with the parts of the partitions the launch deals in; the barrier's payloads; that the fetched positions are in range; and
  what a slot holds once a chunk's rows are gathered into it.
-/
import proofs.«207546_g72756745994873_cont_9to1_m_541_11_alg».proof.Proof.KISetup
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

local notation "pV" => (Memref.whole Cert.KernelIdeal.main_arg0_scv : Memref Cert.KernelIdeal.sig Kind.scVector Space.hbm Cert.KernelIdeal.S204800 EltTy.i32)
local notation "bV" => (Memref.whole Cert.KernelIdeal.main_arg1_scv : Memref Cert.KernelIdeal.sig Kind.scVector Space.hbm Cert.KernelIdeal.S20x128 EltTy.f32)
local notation "eV" => (Memref.whole Cert.KernelIdeal.main_arg2_scv : Memref Cert.KernelIdeal.sig Kind.scVector Space.hbm Cert.KernelIdeal.S180x128 EltTy.f32)
local notation "oV" => (Memref.whole Cert.KernelIdeal.main_v0_scv : Memref Cert.KernelIdeal.sig Kind.scVector Space.hbm Cert.KernelIdeal.S204800x128 EltTy.f32)
local notation "tV" => (Memref.whole Cert.KernelIdeal.cc0_scratch0 : Memref Cert.KernelIdeal.sig Kind.scVector Space.shared Cert.KernelIdeal.S200x128 EltTy.f32)
local notation "iV" => (Memref.whole Cert.KernelIdeal.cc0_scratch1 : Memref Cert.KernelIdeal.sig Kind.scVector Space.vmem Cert.KernelIdeal.S6400 EltTy.i32)
local notation "rV" => (Memref.whole Cert.KernelIdeal.cc0_scratch2 : Memref Cert.KernelIdeal.sig Kind.scVector Space.vmem Cert.KernelIdeal.S10x64x128 EltTy.f32)

variable [FloatOps F]
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the subcore at grid coordinates `L`: `2 (L 1) + L 0`. -/
def wL (L : grid0.Coords) : Fin 32 := ⟨2 * (L 1).val + (L 0).val, by
  have h0 : (L 0).val < 2 := (L 0).isLt
  have h1 : (L 1).val < 16 := (L 1).isLt
  omega⟩
omit [FloatOps F] in
theorem wL_eq : wL L = wid (Fin.cast bound_zero (L 0)) (Fin.cast bound_one (L 1)) := Fin.ext rfl

/-- The subcore's scoped DMA semaphore number `k` (the ten gather semaphores, the ten write-back semaphores, and the three
    of the blocking copies). -/
abbrev dcell (d : Dev nD) (c : Fin τ.nSC) (i : Fin τ.nSub) (k : Fin 23) : GSem nD τ sig := (V d c i, .dma k)

omit [FloatOps F] in
theorem ownCells_V (c : Fin τ.nSC) (i : Fin τ.nSub) : ownCells (V d c i) = (Finset.univ : Finset (Fin 23)).image (dcell d c i) := by
  have hreg : ∀ s : Sem sig, (SemLoc.reg s : SemLoc sig).isScoped .scVector = false := by decide
  ext g
  rw [mem_ownCells, Finset.mem_image]
  constructor
  · rintro ⟨h1, h⟩
    rcases g with ⟨thr, sm⟩
    dsimp only at h1; subst h1
    cases sm with
    | reg s => exact absurd (show (SemLoc.reg s : SemLoc sig).isScoped .scVector = true from h) (by rw [hreg s]; decide)
    | dma k => exact ⟨k, Finset.mem_univ _, rfl⟩
  · rintro ⟨k, -, rfl⟩
    exact ⟨rfl, by show (SemLoc.dma k : SemLoc sig).isScoped .scVector = true; revert k; decide⟩

omit [FloatOps F] in
theorem bigSep_fin23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) := by
  rw [show (Finset.univ : Finset (Fin 23)) = {0, 1, 2, 3, 4, 5, 6, 7, 8, 9, 10, 11, 12, 13, 14, 15, 16, 17, 18, 19, 20, 21, 22} by decide]
  repeat rw [SparseCore.bigSep_insert' (by decide)]
  rw [bigSep_singleton]

omit [FloatOps F] in
theorem ownSems0_V (c : Fin τ.nSC) (i : Fin τ.nSub) :
    (ownSems0 (V d c i) : sProp 𝕄) = bigSep Finset.univ fun k : Fin 23 => semVal (dcell d c i k) 0 := by
  unfold SparseCore.Cfg.ownSems0
  rw [ownCells_V, SparseCore.bigSep_image_of_injOn (fun a _ b _ e => by simpa [dcell] using e)]

omit [FloatOps F] in
/-- The position scratch and the row scratch are the subcore's own: they are they, at some contents, and the rest. -/
theorem ownBufs_V (c : Fin τ.nSC) (i : Fin τ.nSub) :
    (ownBufs (V d c i) : sProp 𝕄)
      = iprop((∃ f, (V d c i).loc cc0_scratch1 ↦{fullShare} f) ∗ (∃ f, (V d c i).loc cc0_scratch2 ↦{fullShare} f)
          ∗ bigSep (((ownRefs (τ := τ) (.scVector c i)).erase ((Proc.scVector c i).devRef cc0_scratch1)).erase ((Proc.scVector c i).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc0_scratch1) rfl)]
  rw [SparseCore.bigSep_erase' (Finset.mem_erase.mpr ⟨fun e => absurd (Proc.devRef_injective _ e) (show (cc0_scratch2 : Ref sig .scVector) ≠ cc0_scratch1 by decide),
    SparseCore.Cfg.mem_ownRefs_of_owner (p := Proc.scVector c i) (b := (Proc.scVector c i).devRef cc0_scratch2) rfl⟩)]

/-! ## The kernel's slices are the workers' rows and chunks -/

/-- The positions row of the subcore, as the kernel slices it. -/
abbrev posRectK (L : grid0.Coords) : Rect S204800 := Rect.unit (s := S204800) (k0_off1 L) S6400.size (k0_off1_inb L)
abbrev posK (L : grid0.Coords) : Memref sig .scVector .hbm S6400 .i32 := (pV).slice (posRectK L) (fun _ => rfl)

omit [FloatOps F] in
theorem posRectK_eq : posRectK L = posRect (wL L) := by
  unfold posRectK posRect Rect.part Rect.block
  congr 1 <;> funext a
  · rw [k0_off1_eq]
    match a with
    | 0 => simp [Shape.partIx, Shape.partSize, wL]; omega
  · match a with
    | 0 => simp [Shape.partSize]

omit [FloatOps F] in
theorem set_posK : (posK L).view.set = posSet (wL L) := by
  show ((pV).view.slice (posRectK L)).set = ((pV).view.slice (posRect (wL L))).set
  rw [posRectK_eq]

omit [FloatOps F] in
theorem pts_posK (f : Buf (Elt F) (posLoc d)) :
    ((posK L).view.loc (V d (cV L) (jV L)) ↦[(posK L).view.set]{fullShare} f : sProp 𝕄) = posLoc d ↦[posSet (wL L)]{fullShare} f := by
  rw [set_posK]
omit [FloatOps F] in
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
omit [FloatOps F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-! ## The barrier's payloads -/

omit [FloatOps F] in
/-- A subcore other than 0 hands nothing over at the barrier. -/
theorem pays_intro_other (h : ¬ (jV L).val = 0) : (iprop(emp) : sProp 𝕄)
    ⊢ (bigSep Finset.univ fun j : Fin (grid0.bound 1) => (bRd (F := F) m).payload (bcell d (cV L) (j.castLE hsub0)) 0 (jV L).val : sProp 𝕄) := by
  rw [show (fun j : Fin (grid0.bound 1) => (bRd (F := F) m).payload (bcell d (cV L) (j.castLE hsub0)) 0 (jV L).val) = fun _ => (iprop(emp) : sProp 𝕄) from
    funext fun j => if_neg h, bigSep_emp']

omit [FloatOps F] in
/-- After the barrier, what a subcore's own round collected holds its read share of the filled table. -/
theorem pays_elim : (bigSep ((bRd (F := F) m).duties (bcell d (cV L) (jV L)) 0 \ ∅) fun n => (bRd (F := F) m).payload (bcell d (cV L) (jV L)) 0 n)
    ⊢ (tblShare m d (cV L) (jV L).val : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

/-! ## A unit-stride slice at a multiple of the part's thickness is a part -/

omit [FloatOps F] in
theorem slice_unit_set_eq_part {κ : Kind} {sp : Space} {s : Shape} {e : EltTy} (mr : Memref sig κ sp s e) {a₀ : Fin s.rank} {n : Nat} (hn : n ∣ s.size a₀) (j : Fin n)
    (off size : Fin s.rank → Nat) (inb : ∀ a, off a + size a ≤ s.size a) (hoff : off = fun a => s.partIx a₀ j a * s.partSize a₀ n a) (hsz : size = s.partSize a₀ n) :
    (mr.view.slice (Rect.unit off size inb)).set = (mr.view.slice (Rect.part hn j)).set := by
  subst hoff hsz; rfl

omit [FloatOps F] in
theorem unit_eq_part {s : Shape} {a₀ : Fin s.rank} {n : Nat} (hn : n ∣ s.size a₀) (j : Fin n) (off size : Fin s.rank → Nat)
    (inb : ∀ a, off a + size a ≤ s.size a) (hoff : off = fun a => s.partIx a₀ j a * s.partSize a₀ n a) (hsz : size = s.partSize a₀ n) :
    Rect.unit off size inb = Rect.part hn j := by
  subst hoff hsz; rfl

/-! ## The position scratch in a hundred windows of 64, the row scratch in ten slots -/

theorem hdivI : 100 ∣ S6400.size 0 := ⟨64, rfl⟩
abbrev idxRect (j : Fin 100) : Rect S6400 := Rect.part (s := S6400) (a₀ := 0) hdivI j
abbrev idxSet (j : Fin 100) : Finset S6400.Idx := ((iV).view.slice (idxRect j)).set
theorem hdivR : 10 ∣ S10x64x128.size 0 := ⟨1, rfl⟩
abbrev slotRect (b : Fin 10) : Rect S10x64x128 := Rect.part (s := S10x64x128) (a₀ := 0) hdivR b
abbrev slotSet (b : Fin 10) : Finset S10x64x128.Idx := ((rV).view.slice (slotRect b)).set

omit [FloatOps F] in
theorem idxSet_eq (j : Fin 100) : idxSet j = (idxRect j).set := by
  show ((View.whole (cc0_scratch1 : Ref sig .scVector)).slice (idxRect j)).set = _
  rw [View.set_slice]; exact Finset.map_refl
omit [FloatOps F] in
theorem idx_disjoint : ∀ i ∈ (Finset.univ : Finset (Fin 100)), ∀ j ∈ (Finset.univ : Finset (Fin 100)), i ≠ j → Disjoint (idxSet i) (idxSet j) :=
  fun i _ j _ h => by rw [idxSet_eq, idxSet_eq]; exact Rect.part_disjoint hdivI h
omit [FloatOps F] in
theorem idx_cover : (Finset.univ : Finset (Fin 100)).biUnion idxSet = Finset.univ :=
  (Finset.biUnion_congr rfl fun i _ => idxSet_eq i).trans (Rect.biUnion_part hdivI)
omit [FloatOps F] in
theorem iPts_windows (f : Buf (Elt F) ((V d (cV L) (jV L)).loc cc0_scratch1)) :
    ((iV).view.loc (V d (cV L) (jV L)) ↦{fullShare} f : sProp 𝕄) = bigSep Finset.univ fun j : Fin 100 => (iV).view.loc (V d (cV L) (jV L)) ↦[idxSet j]{fullShare} f := by
  rw [← pointsTo_biUnion Finset.univ (ℓ := (iV).view.loc (V d (cV L) (jV L))) idxSet idx_disjoint, idx_cover]; try rfl

omit [FloatOps F] in
theorem slotSet_eq (b : Fin 10) : slotSet b = (slotRect b).set := by
  show ((View.whole (cc0_scratch2 : Ref sig .scVector)).slice (slotRect b)).set = _
  rw [View.set_slice]; exact Finset.map_refl
omit [FloatOps F] in
theorem slot_disjoint : ∀ i ∈ (Finset.univ : Finset (Fin 10)), ∀ j ∈ (Finset.univ : Finset (Fin 10)), i ≠ j → Disjoint (slotSet i) (slotSet j) :=
  fun i _ j _ h => by rw [slotSet_eq, slotSet_eq]; exact Rect.part_disjoint hdivR h
omit [FloatOps F] in
theorem slot_cover : (Finset.univ : Finset (Fin 10)).biUnion slotSet = Finset.univ :=
  (Finset.biUnion_congr rfl fun i _ => slotSet_eq i).trans (Rect.biUnion_part hdivR)
omit [FloatOps F] in
theorem rPts_slots (f : Buf (Elt F) ((V d (cV L) (jV L)).loc cc0_scratch2)) :
    ((rV).view.loc (V d (cV L) (jV L)) ↦{fullShare} f : sProp 𝕄) = bigSep Finset.univ fun b : Fin 10 => (rV).view.loc (V d (cV L) (jV L)) ↦[slotSet b]{fullShare} f := by
  rw [← pointsTo_biUnion Finset.univ (ℓ := (rV).view.loc (V d (cV L) (jV L))) slotSet slot_disjoint, slot_cover]; try rfl

/-- A window of the position scratch, as the kernel slices it at offset `off`. -/
abbrev idxK (off : Fin 1 → Nat) (h : ∀ a, off a + S64.size a ≤ S6400.size a) : Memref sig .scVector .vmem S64 .i32 :=
  (iV).slice (Rect.unit (s := S6400) off S64.size h) (fun _ => rfl)
/-- A slot of the row scratch, as the kernel slices and squeezes it. -/
abbrev slotK (off : Fin 3 → Nat) (h : ∀ a, off a + S1x64x128.size a ≤ S10x64x128.size a) : Memref sig .scVector .vmem S64x128 .f32 :=
  ((rV).slice (Rect.unit (s := S10x64x128) off S1x64x128.size h) (fun _ => rfl)).squeeze S64x128 squeezes_S1x64x128_S64x128
/-- The shared table through the kernel's whole-table slice. -/
abbrev tblK : Memref sig .scVector .shared S200x128 .f32 :=
  (tV).slice (Rect.unit (s := S200x128) ![0, 0] S200x128.size inb_S200x128_S200x128_0_0) (fun _ => rfl)

omit [FloatOps F] in
theorem set_idxK (off : Fin 1 → Nat) (h : ∀ a, off a + S64.size a ≤ S6400.size a) (j : Fin 100) (e : off 0 = 64 * j.val) :
    (idxK off h).view.set = idxSet j := by
  show ((iV).view.slice (Rect.unit (s := S6400) off S64.size h)).set = ((iV).view.slice (idxRect j)).set
  rw [unit_eq_part hdivI j off S64.size h (funext fun a => by
      match a with
      | 0 => simp [Shape.partIx, Shape.partSize, e]; omega) (funext fun a => by
      match a with
      | 0 => simp [Shape.partSize])]

omit [FloatOps F] in
theorem set_slotK (off : Fin 3 → Nat) (h : ∀ a, off a + S1x64x128.size a ≤ S10x64x128.size a) (b : Fin 10) (e0 : off 0 = b.val) (e1 : off 1 = 0) (e2 : off 2 = 0) :
    (slotK off h).view.set = slotSet b := by
  show (((rV).view.slice (Rect.unit (s := S10x64x128) off S1x64x128.size h)).reshape S64x128 squeezes_S1x64x128_S64x128.numel_eq).set = ((rV).view.slice (slotRect b)).set
  rw [View.set_reshape]
  exact (slice_unit_set_eq_part (rV) hdivR b off S1x64x128.size h (funext fun a => by
      match a with
      | 0 => exact e0.trans (Nat.mul_one _).symm
      | 1 => exact e1
      | 2 => exact e2) (funext fun a => by
      match a with
      | 0 => rfl
      | 1 => rfl
      | 2 => rfl))

omit [FloatOps F] in
theorem set_tblK : (tblK).view.set = Finset.univ := by
  show ((View.whole (cc0_scratch0 : Ref sig .scVector)).slice (Rect.unit (s := S200x128) ![0, 0] S200x128.size inb_S200x128_S200x128_0_0)).set = _
  rw [View.set_slice_whole]
  refine Finset.eq_univ_iff_forall.mpr fun i => Rect.mem_set_unit.mpr fun a => ?_
  match a with
  | 0 => exact ⟨Nat.zero_le _, by show (i 0).val < 0 + S200x128.size 0; rw [Nat.zero_add]; exact (i 0).isLt⟩
  | 1 => exact ⟨Nat.zero_le _, by show (i 1).val < 0 + S200x128.size 1; rw [Nat.zero_add]; exact (i 1).isLt⟩

omit [FloatOps F] in
theorem bigSep_range10 (Φ : ℕ → sProp 𝕄) : bigSep (Finset.range 10) Φ = iprop(Φ 0 ∗ Φ 1 ∗ Φ 2 ∗ Φ 3 ∗ Φ 4 ∗ Φ 5 ∗ Φ 6 ∗ Φ 7 ∗ Φ 8 ∗ Φ 9) := by
  rw [show Finset.range 10 = {0, 1, 2, 3, 4, 5, 6, 7, 8, 9} by decide]
  repeat rw [SparseCore.bigSep_insert' (by decide)]
  rw [bigSep_singleton]

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  repeat rw [SparseCore.bigSep_insert' (by decide)]
  rw [bigSep_singleton]

omit [FloatOps F] in
theorem pts_tblK (q : PosShare TreeShare) (f : Buf (Elt F) (shLoc d (cV L))) :
    ((tblK).view.loc (V d (cV L) (jV L)) ↦[(tblK).view.set]{q} f : sProp 𝕄) = shLoc d (cV L) ↦{q} f := by
  rw [set_tblK]; rfl

/-- The positions a subcore fetched are in range: what the fetch landed in the position scratch is the subcore's row of
    the position list, each word at most 199, whatever window of the scratch is read. -/
theorem hin_of_pre (hpre : PreOK m) (fs : Buf (Elt F) ((V d (cV L) (jV L)).loc cc0_scratch1)) (pay : S6400.Idx → Elt F .i32)
    (hpay : pay = (posK L).view.read (Elt F) (m (posLoc d))) (off : Fin 1 → Nat) (h : ∀ a, off a + S64.size a ≤ S6400.size a) :
    ∀ x, ((idxK off h).view.read (Elt F) (View.write (Elt F) (iV).view fs pay Finset.univ) x).toNat < S200x128.size gathers_S200x128_S64x128.axis := by
  subst hpay; intro x
  rw [View.write_whole_univ]
  refine Nat.lt_of_le_of_lt ?_ (show 199 < S200x128.size gathers_S200x128_S64x128.axis by decide)
  rw [show ∀ (g : S6400.Idx → Elt F .i32) y, (idxK off h).view.read (Elt F) g y = g ((idxK off h).view.emb y) from fun g y => (View.read_apply _ _).trans (cast_eq _ _),
    show ∀ j, (posK L).view.read (Elt F) (m (posLoc d)) j = m (posLoc d) ((posK L).view.emb j) from fun j => (View.read_apply _ _).trans (cast_eq _ _)]
  exact hpre d _

omit [FloatOps F] in
/-- A read share is its remainder after ten tokens and the ten tokens. -/
theorem toks10_split {ℓ : Loc nD τ sig} {S : Finset (Idx ℓ)} {f : Buf (Elt F) ℓ} (q : PosShare TreeShare) :
    (ℓ ↦[S]{q} f : sProp 𝕄) ⊣⊢ iprop((ℓ ↦[S]{shareDrop q 10} f) ∗ (ℓ ↦[S]{shareTokN q 0} f) ∗ (ℓ ↦[S]{shareTokN q 1} f) ∗ (ℓ ↦[S]{shareTokN q 2} f)
      ∗ (ℓ ↦[S]{shareTokN q 3} f) ∗ (ℓ ↦[S]{shareTokN q 4} f) ∗ (ℓ ↦[S]{shareTokN q 5} f) ∗ (ℓ ↦[S]{shareTokN q 6} f) ∗ (ℓ ↦[S]{shareTokN q 7} f)
      ∗ (ℓ ↦[S]{shareTokN q 8} f) ∗ (ℓ ↦[S]{shareTokN q 9} f)) := by
  rw [← bigSep_range10 (fun i => (ℓ ↦[S]{shareTokN q i} f : sProp 𝕄))]; exact Transfers.pointsTo_toks_range q 10

/-- Slot `b` of the row scratch, as the kernel addresses it. -/
abbrev slotB (b : Fin 10) : Memref sig .scVector .vmem S64x128 .f32 :=
  slotK ![b.val, 0, 0] (fun a => by
    match a with
    | 0 => have := b.isLt; show b.val + 1 ≤ 10; omega
    | 1 => exact Nat.le_refl _
    | 2 => exact Nat.le_refl _)

omit [FloatOps F] in
theorem set_slotB (b : Fin 10) : (slotB b).view.set = slotSet b := set_slotK _ _ b rfl rfl rfl

omit [FloatOps F] in
/-- The row scratch whole is its ten slots, each as the kernel addresses it. -/
theorem rPts_slotsB (f : Buf (Elt F) ((V d (cV L) (jV L)).loc cc0_scratch2)) :
    ((rV).view.loc (V d (cV L) (jV L)) ↦{fullShare} f : sProp 𝕄)
      = bigSep Finset.univ fun b : Fin 10 => (slotB b).view.loc (V d (cV L) (jV L)) ↦[(slotB b).view.set]{fullShare} f := by
  rw [rPts_slots]
  exact bigSep_congr fun b _ => by rw [set_slotB]

/-! ## Chunks by round and slot -/

/-- Chunk `10 k + b`: the one slot `b` serves in round `k`. -/
def ch (k b : Fin 10) : Fin 100 := ⟨10 * k.val + b.val, by have := k.isLt; have := b.isLt; omega⟩

def chEquiv : Fin 10 × Fin 10 ≃ Fin 100 where
  toFun p := ch p.1 p.2
  invFun n := (⟨n.val / 10, by have := n.isLt; omega⟩, ⟨n.val % 10, Nat.mod_lt _ (by decide)⟩)
  left_inv := by
    rintro ⟨k, b⟩
    refine Prod.ext (Fin.ext ?_) (Fin.ext ?_)
    · show (10 * k.val + b.val) / 10 = k.val
      have := b.isLt; omega
    · show (10 * k.val + b.val) % 10 = b.val
      have := b.isLt; omega
  right_inv := by
    intro n; refine Fin.ext ?_
    show 10 * (n.val / 10) + n.val % 10 = n.val
    omega

omit [FloatOps F] in
theorem bigSep_rounds (Φ : Fin 100 → sProp 𝕄) :
    bigSep Finset.univ Φ = bigSep Finset.univ fun k : Fin 10 => bigSep Finset.univ fun b : Fin 10 => Φ (ch k b) := by
  rw [bigSep_univ_equiv chEquiv Φ, bigSep_univ_prod]; rfl

/-- The position scratch's windows of the rounds in `s`, all at the contents `f`. -/
abbrev idxPool (s : Finset (Fin 10)) (f : Buf (Elt F) ((V d (cV L) (jV L)).loc cc0_scratch1)) : sProp 𝕄 :=
  bigSep s fun k : Fin 10 => bigSep Finset.univ fun b : Fin 10 => (iV).view.loc (V d (cV L) (jV L)) ↦[idxSet (ch k b)]{fullShare} f

omit [FloatOps F] in
theorem iPts_pool (f : Buf (Elt F) ((V d (cV L) (jV L)).loc cc0_scratch1)) :
    ((iV).view.loc (V d (cV L) (jV L)) ↦{fullShare} f : sProp 𝕄) = idxPool d L Finset.univ f := by
  rw [iPts_windows, bigSep_rounds]

omit [FloatOps F] in
/-- A window of the position scratch held by its elements is held as the kernel addresses it at the window's offset. -/
theorem idxWin_respell (off : Fin 1 → Nat) (h : ∀ a, off a + S64.size a ≤ S6400.size a) (j : Fin 100) (e : off 0 = 64 * j.val)
    (f : Buf (Elt F) ((V d (cV L) (jV L)).loc cc0_scratch1)) :
    ((iV).view.loc (V d (cV L) (jV L)) ↦[idxSet j]{fullShare} f : sProp 𝕄)
      = ((idxK off h).view.loc (V d (cV L) (jV L)) ↦[(idxK off h).view.set]{fullShare} f) := by
  rw [set_idxK off h j e]

/-! ## The result's chunks, as the kernel slices them -/

/-- A 64-row chunk of the result, as the kernel slices it at offset `off`. -/
abbrev outK (off : Fin 2 → Nat) (h : ∀ a, off a + S64x128.size a ≤ S204800x128.size a) : Memref sig .scVector .hbm S64x128 .f32 :=
  (oV).slice (Rect.unit (s := S204800x128) off S64x128.size h) (fun _ => rfl)

omit [FloatOps F] in
theorem set_outK (off : Fin 2 → Nat) (h : ∀ a, off a + S64x128.size a ≤ S204800x128.size a) (n : Fin 3200) (e0 : off 0 = 64 * n.val) (e1 : off 1 = 0) :
    (outK off h).view.set = chunkSet n := by
  show ((oV).view.slice (Rect.unit (s := S204800x128) off S64x128.size h)).set = ((oV).view.slice (chunkRect n)).set
  exact slice_unit_set_eq_part (oV) hdivO n off S64x128.size h (funext fun a => by
      match a with
      | 0 => exact e0.trans (Nat.mul_comm _ _)
      | 1 => exact e1) (funext fun a => by
      match a with
      | 0 => rfl
      | 1 => rfl)

omit [FloatOps F] in
/-- A chunk of the result held by its elements is held as the kernel addresses it at the chunk's offset. -/
theorem outWin_respell (off : Fin 2 → Nat) (h : ∀ a, off a + S64x128.size a ≤ S204800x128.size a) (n : Fin 3200) (e0 : off 0 = 64 * n.val) (e1 : off 1 = 0)
    (f : Buf (Elt F) (outLoc d)) :
    (outLoc d ↦[chunkSet n]{fullShare} f : sProp 𝕄)
      = ((outK off h).view.loc (V d (cV L) (jV L)) ↦[(outK off h).view.set]{fullShare} f) := by
  rw [set_outK off h n e0 e1]

/-! ## What a slot holds once a chunk's rows are gathered -/

/-- The place in the position list of row `r` of chunk `j` of the subcore at `L`. -/
def posAt (L : grid0.Coords) (j : Fin 100) (r : Fin 64) : S204800.Idx :=
  ValueIdx.ix1 ⟨6400 * (wL L).val + 64 * j.val + r.val, by have := (wL L).isLt; have := j.isLt; have := r.isLt; omega⟩

/-- A slot's contents once chunk `j`'s rows are gathered into it: row `r` is the stacked table's row that position `r` of the
    chunk names (whichever slot it is: the first coordinate plays no part). -/
def slotF (j : Fin 100) : Buf (Elt F) ((V d (cV L) (jV L)).loc cc0_scratch2) :=
  fun x => tblF m d (cV L) (ValueIdx.ix2 (Cert.Spec.rowOf (m (posLoc d) (posAt L j (x 1)))) (x 2))

end Cert.Proof.KI

end
-- ==== Proof.KITile0.lean ====
/-
  Subcore 0's part of the embedding lookup: it alone fills its SparseCore's shared table, and at the subcore barrier it
  hands every subcore of the SparseCore a read share of the filled table.
  The branch: the kernel's test "subcore number = 0" is the word `ne (zext (eq n 0)) 0`, which is 1 exactly for `n = 0`.
  The table is filled by two copies, the base table onto rows 0 … 19 and the extended table onto rows 20 … 199; those two
  row ranges are disjoint and cover the table, so the table held whole is the two pieces held separately, each as the
  kernel slices it. What the copies leave on a piece is the piece's prior contents overwritten by the source table; on rows
  below 20 that is the stacked table's value (the base table's entry), on rows from 20 on it is too (the extended table's
  entry at row − 20); so the two pieces rejoin to the table whole at the stacked contents.
  At the barrier the whole table at the stacked contents is cut into sixteen read tokens, one for each subcore's round —
  subcore 0's duty in every round carries that round's token — and the remainder after sixteen, which subcore 0 keeps.
-/
import proofs.«207546_g72756745994873_cont_9to1_m_541_11_alg».proof.Proof.KISetup
import Idealize.ShloMosaic.Lib.SparseCore.Launch
import Idealize.ShloMosaic.Lib.SparseCore.Threads
import Idealize.ShloMosaic.Lib.Transfers
import Idealize.ShloMosaic.Rules.PointsTo
import Idealize.ShloMosaic.Lib.Writes
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

local notation "bV" => (Memref.whole Cert.KernelIdeal.main_arg1_scv : Memref Cert.KernelIdeal.sig Kind.scVector Space.hbm Cert.KernelIdeal.S20x128 EltTy.f32)
local notation "eV" => (Memref.whole Cert.KernelIdeal.main_arg2_scv : Memref Cert.KernelIdeal.sig Kind.scVector Space.hbm Cert.KernelIdeal.S180x128 EltTy.f32)
local notation "tV" => (Memref.whole Cert.KernelIdeal.cc0_scratch0 : Memref Cert.KernelIdeal.sig Kind.scVector Space.shared Cert.KernelIdeal.S200x128 EltTy.f32)

variable [FloatOps F]
variable (d : Dev nD) (L : grid0.Coords)

/-- The SparseCore and the subcore at grid coordinates `L`. -/
abbrev t0c (L : grid0.Coords) : Fin τ.nSC := (L 0).castLE hcore0
abbrev t0j (L : grid0.Coords) : Fin τ.nSub := (L 1).castLE hsub0

/-! ## Subcore 0: the two table copies -/

omit [FloatOps F] in
theorem hc_zero (n : ℕ) (h : n = 0) : Scalar.cmpi .ne (Scalar.extui (Scalar.cmpi .eq (BitVec.ofNat 32 n) 0#32)) 0#32 = 1#1 := by
  subst h; decide
omit [FloatOps F] in
theorem hc_nonzero (n : ℕ) (h0 : n ≠ 0) (hlt : n < 16) : ¬ Scalar.cmpi .ne (Scalar.extui (Scalar.cmpi .eq (BitVec.ofNat 32 n) 0#32)) 0#32 = 1#1 := by
  interval_cases n
  · exact absurd rfl h0
  all_goals decide

/-- The base table's rows of the shared table and the extended table's, as the kernel slices them. -/
abbrev tblLoK : Memref sig .scVector .shared S20x128 .f32 :=
  (tV).slice (Rect.unit (s := S200x128) ![0, 0] S20x128.size inb_S200x128_S20x128_0_0) (fun _ => rfl)
abbrev tblHiK : Memref sig .scVector .shared S180x128 .f32 :=
  (tV).slice (Rect.unit (s := S200x128) ![20, 0] S180x128.size inb_S200x128_S180x128_20_0) (fun _ => rfl)

omit [FloatOps F] in
theorem mem_loSet (i : S200x128.Idx) : i ∈ (tblLoK).view.set ↔ (i 0).val < 20 := by
  show i ∈ ((View.whole (cc0_scratch0 : Ref sig .scVector)).slice (Rect.unit (s := S200x128) ![0, 0] S20x128.size inb_S200x128_S20x128_0_0)).set ↔ _
  rw [View.set_slice_whole, Rect.mem_set_unit]
  constructor
  · intro h; have := (h 0).2; simpa using this
  · intro h a
    match a with
    | 0 => exact ⟨Nat.zero_le _, by show (i 0).val < 0 + 20; omega⟩
    | 1 => exact ⟨Nat.zero_le _, by show (i 1).val < 0 + 128; have h1 : (i 1).val < 128 := (i 1).isLt; omega⟩
omit [FloatOps F] in
theorem mem_hiSet (i : S200x128.Idx) : i ∈ (tblHiK).view.set ↔ 20 ≤ (i 0).val := by
  show i ∈ ((View.whole (cc0_scratch0 : Ref sig .scVector)).slice (Rect.unit (s := S200x128) ![20, 0] S180x128.size inb_S200x128_S180x128_20_0)).set ↔ _
  rw [View.set_slice_whole, Rect.mem_set_unit]
  constructor
  · intro h; have := (h 0).1; simpa using this
  · intro h a
    match a with
    | 0 => exact ⟨h, by show (i 0).val < 20 + 180; have h0 : (i 0).val < 200 := (i 0).isLt; omega⟩
    | 1 => exact ⟨Nat.zero_le _, by show (i 1).val < 0 + 128; have h1 : (i 1).val < 128 := (i 1).isLt; omega⟩
omit [FloatOps F] in
theorem hiSet_eq : (Finset.univ : Finset S200x128.Idx) \ (tblLoK).view.set = (tblHiK).view.set := by
  ext i; rw [Finset.mem_sdiff, mem_loSet, mem_hiSet]; simp

omit [FloatOps F] in
theorem pts_bV (q : PosShare TreeShare) (f : Buf (Elt F) (baseLoc d)) :
    ((bV).view.loc (V d (t0c L) (t0j L)) ↦{q} f : sProp 𝕄) = baseLoc d ↦{q} f := rfl
omit [FloatOps F] in
theorem pts_eV (q : PosShare TreeShare) (f : Buf (Elt F) (extLoc d)) :
    ((eV).view.loc (V d (t0c L) (t0j L)) ↦{q} f : sProp 𝕄) = extLoc d ↦{q} f := rfl
omit [FloatOps F] in
theorem pts_tblLoK (f : Buf (Elt F) (shLoc d (t0c L))) :
    ((tblLoK).view.loc (V d (t0c L) (t0j L)) ↦[(tblLoK).view.set]{fullShare} f : sProp 𝕄) = shLoc d (t0c L) ↦[(tblLoK).view.set]{fullShare} f := rfl
omit [FloatOps F] in
theorem pts_tblHiK (f : Buf (Elt F) (shLoc d (t0c L))) :
    ((tblHiK).view.loc (V d (t0c L) (t0j L)) ↦[(tblHiK).view.set]{fullShare} f : sProp 𝕄) = shLoc d (t0c L) ↦[(tblHiK).view.set]{fullShare} f := rfl

omit [FloatOps F] in
/-- The shared table whole is its base rows and its extended rows, each as the kernel slices it. -/
theorem tbl_split (f : Buf (Elt F) (shLoc d (t0c L))) :
    (shLoc d (t0c L) ↦{fullShare} f : sProp 𝕄)
      ⊣⊢ iprop(((tblLoK).view.loc (V d (t0c L) (t0j L)) ↦[(tblLoK).view.set]{fullShare} f) ∗ (tblHiK).view.loc (V d (t0c L) (t0j L)) ↦[(tblHiK).view.set]{fullShare} f) := by
  rw [pts_tblLoK, pts_tblHiK, ← hiSet_eq]
  exact pointsTo_split_subset (Finset.subset_univ _)

/-! ## What the two copies leave is the stacked table -/

omit [FloatOps F] in
/-- On the base rows what the first copy left is the stacked table. -/
theorem lo_contents (f0 : Buf (Elt F) (shLoc d (t0c L))) (pay0 : S20x128.Idx → Elt F .f32)
    (hpay0 : pay0 = (bV).view.read (Elt F) (m (baseLoc d))) :
    ∀ i ∈ (tblLoK).view.set, (tblLoK).view.writes (Elt F) f0 [⟨Rect.whole S20x128, pay0⟩] i = tblF m d (t0c L) i := by
  intro i hi
  have hlt : (i 0).val < 20 := (mem_loSet i).mp hi
  obtain ⟨x, -, rfl⟩ := Finset.mem_map.mp hi
  have h1 := View.read_writes_cons_emb (tblLoK).view f0 (Rect.whole S20x128) pay0 [] x
  rw [Rect.emb_whole_apply] at h1
  have h2 : (tblLoK).view.writes (Elt F) f0 [⟨Rect.whole S20x128, pay0⟩] ((tblLoK).view.emb x) = pay0 x := h1
  rw [h2, hpay0]
  show m (baseLoc d) x = Cert.Spec.stacked (m (baseLoc d)) (m (extLoc d)) ((tblLoK).view.emb x)
  unfold Cert.Spec.stacked
  rw [dif_pos hlt]
  congr 1
  funext a
  match a with
  | 0 => exact Fin.ext (by show (x 0).val = 0 + 1 * (x 0).val; omega)
  | 1 => exact Fin.ext (by show (x 1).val = 0 + 1 * (x 1).val; omega)

omit [FloatOps F] in
/-- On the extended rows what the second copy left is the stacked table. -/
theorem hi_contents (f1 : Buf (Elt F) (shLoc d (t0c L))) (pay1 : S180x128.Idx → Elt F .f32)
    (hpay1 : pay1 = (eV).view.read (Elt F) (m (extLoc d))) :
    ∀ i ∈ (tblHiK).view.set, (tblHiK).view.writes (Elt F) f1 [⟨Rect.whole S180x128, pay1⟩] i = tblF m d (t0c L) i := by
  intro i hi
  have hge : 20 ≤ (i 0).val := (mem_hiSet i).mp hi
  obtain ⟨x, -, rfl⟩ := Finset.mem_map.mp hi
  have h1 := View.read_writes_cons_emb (tblHiK).view f1 (Rect.whole S180x128) pay1 [] x
  rw [Rect.emb_whole_apply] at h1
  have h2 : (tblHiK).view.writes (Elt F) f1 [⟨Rect.whole S180x128, pay1⟩] ((tblHiK).view.emb x) = pay1 x := h1
  rw [h2, hpay1]
  show m (extLoc d) x = Cert.Spec.stacked (m (baseLoc d)) (m (extLoc d)) ((tblHiK).view.emb x)
  unfold Cert.Spec.stacked
  rw [dif_neg (Nat.not_lt.mpr hge)]
  congr 1
  funext a
  match a with
  | 0 => exact Fin.ext (by show (x 0).val = (20 + 1 * (x 0).val) - 20; omega)
  | 1 => exact Fin.ext (by show (x 1).val = 0 + 1 * (x 1).val; omega)

omit [FloatOps F] in
/-- The two pieces of the shared table, as the two copies left them, are the table whole at the stacked contents. -/
theorem tbl_filled (f0 f1 : Buf (Elt F) (shLoc d (t0c L))) (pay0 : S20x128.Idx → Elt F .f32) (pay1 : S180x128.Idx → Elt F .f32)
    (hpay0 : pay0 = (bV).view.read (Elt F) (m (baseLoc d))) (hpay1 : pay1 = (eV).view.read (Elt F) (m (extLoc d))) :
    iprop(((tblLoK).view.loc (V d (t0c L) (t0j L)) ↦[(tblLoK).view.set]{fullShare} (tblLoK).view.writes (Elt F) f0 [⟨Rect.whole S20x128, pay0⟩])
        ∗ (tblHiK).view.loc (V d (t0c L) (t0j L)) ↦[(tblHiK).view.set]{fullShare} (tblHiK).view.writes (Elt F) f1 [⟨Rect.whole S180x128, pay1⟩])
      ⊢ (shLoc d (t0c L) ↦{fullShare} tblF m d (t0c L) : sProp 𝕄) := by
  have hj : iprop((shLoc d (t0c L) ↦[(tblLoK).view.set]{fullShare} tblF m d (t0c L)) ∗ shLoc d (t0c L) ↦[(tblHiK).view.set]{fullShare} tblF m d (t0c L))
      ⊢ (shLoc d (t0c L) ↦{fullShare} tblF m d (t0c L) : sProp 𝕄) := by
    rw [← hiSet_eq]; exact (pointsTo_split_subset (Finset.subset_univ _)).2
  rw [pts_tblLoK, pts_tblHiK]
  iintro ⟨Hlo, Hhi⟩
  ihave Hlo' := (Entails.of_eq (pointsTo_congr (ℓ := shLoc d (t0c L)) (I := (tblLoK).view.set) (q := fullShare) (lo_contents m d L f0 pay0 hpay0))) $$ Hlo
  ihave Hhi' := (Entails.of_eq (pointsTo_congr (ℓ := shLoc d (t0c L)) (I := (tblHiK).view.set) (q := fullShare) (hi_contents m d L f1 pay1 hpay1))) $$ Hhi
  iapply hj
  isplitl [Hlo']; · iexact Hlo'
  iexact Hhi'

/-! ## Subcore 0's duty at the barrier -/

omit [FloatOps F] in
/-- Subcore 0 hands every subcore its read share of the filled table and keeps the remainder after sixteen. -/
theorem pays_intro_zero (h : (t0j L).val = 0) :
    (shLoc d (t0c L) ↦{fullShare} tblF m d (t0c L) : sProp 𝕄)
      ⊢ iprop((bigSep Finset.univ fun j : Fin (grid0.bound 1) => (bRd (F := F) m).payload (bcell d (t0c L) (j.castLE hsub0)) 0 (t0j L).val)
          ∗ shLoc d (t0c L) ↦{shareDrop fullShare 16} tblF m d (t0c L)) := by
  have e : (fun j : Fin (grid0.bound 1) => (bRd (F := F) m).payload (bcell d (t0c L) (j.castLE hsub0)) 0 (t0j L).val)
      = fun j : Fin (grid0.bound 1) => (shLoc d (t0c L) ↦{shareTokN fullShare j.val} tblF m d (t0c L) : sProp 𝕄) :=
    funext fun j => by
      show bPay m (bcell d (t0c L) (j.castLE hsub0)) (t0j L).val = _
      unfold bPay; dsimp only; rw [if_pos h]
      rfl
  rw [e]
  refine (Transfers.pointsTo_toks (ℓ := shLoc d (t0c L)) (S := Finset.univ) (f := tblF m d (t0c L)) fullShare 16).1.trans ?_
  exact sep_comm.1

end Cert.Proof.KI

end
-- ==== Proof.KIValue.lean ====
/-
  The values of one subcore's gathers and write-backs. A slot of the row scratch, after the rows that a window of 64
  fetched positions names are gathered into it out of the shared stacked table, holds at entry (r, c) the stacked table's
  row named by position 6400 w + 64 j + r of the list, at column c (w the subcore's worker number, j the chunk): the
  window's entry r is the list's position 6400 w + 64 j + r, a position in range names the row its value spells, and the
  squeezed slot places entry (r, c) at coordinates (r, c) behind the slot's number. Writing that slot back to rows
  6400 w + 64 j … 6400 w + 64 j + 63 of the result leaves there those rows of the embedding lookup, the stacked table
  being the table the lookup reads. Each statement is given for a one-piece whole write kept as a list and for the raw
  unmasked write.
-/
import proofs.«207546_g72756745994873_cont_9to1_m_541_11_alg».proof.Proof.KIDefs
import Idealize.ShloMosaic.Lib.ValueIdx
import Idealize.ShloMosaic.Lib.Writes
import Idealize.ShloMosaic.Lib.SparseCore.Stream

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "pV" => (Memref.whole Cert.KernelIdeal.main_arg0_scv : Memref Cert.KernelIdeal.sig Kind.scVector Space.hbm Cert.KernelIdeal.S204800 EltTy.i32)
local notation "bV" => (Memref.whole Cert.KernelIdeal.main_arg1_scv : Memref Cert.KernelIdeal.sig Kind.scVector Space.hbm Cert.KernelIdeal.S20x128 EltTy.f32)
local notation "eV" => (Memref.whole Cert.KernelIdeal.main_arg2_scv : Memref Cert.KernelIdeal.sig Kind.scVector Space.hbm Cert.KernelIdeal.S180x128 EltTy.f32)
local notation "oV" => (Memref.whole Cert.KernelIdeal.main_v0_scv : Memref Cert.KernelIdeal.sig Kind.scVector Space.hbm Cert.KernelIdeal.S204800x128 EltTy.f32)
local notation "tV" => (Memref.whole Cert.KernelIdeal.cc0_scratch0 : Memref Cert.KernelIdeal.sig Kind.scVector Space.shared Cert.KernelIdeal.S200x128 EltTy.f32)
local notation "iV" => (Memref.whole Cert.KernelIdeal.cc0_scratch1 : Memref Cert.KernelIdeal.sig Kind.scVector Space.vmem Cert.KernelIdeal.S6400 EltTy.i32)
local notation "rV" => (Memref.whole Cert.KernelIdeal.cc0_scratch2 : Memref Cert.KernelIdeal.sig Kind.scVector Space.vmem Cert.KernelIdeal.S10x64x128 EltTy.f32)

variable [FloatOps F]
variable (d : Dev nD) (L : grid0.Coords)

/-! ## Reading back a one-piece whole write -/

omit [FloatOps F] in
/-- A one-piece write of the whole shape through a view, read at the element under index `z`, is the payload at `z`. -/
theorem val_writes_whole_emb {κ : Kind} {sp : Space} {s : Shape} {e : EltTy} (v : View sig κ sp s e) (f : v.ty.Contents (Elt F))
    (w : s.Idx → Elt F e) (z : s.Idx) :
    v.writes (Elt F) f [⟨Rect.whole s, w⟩] (v.emb z) = _root_.cast (congrArg (Elt F) v.elt_eq.symm) (w z) := by
  rw [View.writes_singleton]
  have he : v.emb z = (v.slice (Rect.whole s)).emb z := by
    show v.emb z = v.emb ((Rect.whole s).emb z)
    rw [Rect.emb_whole_apply]
  rw [he]
  exact View.write_emb_of_mem _ _ (Finset.mem_univ _)

/-! ## The embeddings of the kernel's slices, by coordinates -/

omit [FloatOps F] in
/-- Dropping the unit leading axis: index `(r, c)` of the 64 × 128 shape is index `(0, r, c)` of the 1 × 64 × 128 shape. -/
theorem val_squeeze_eq (h : S64x128.numel = S1x64x128.numel) (z : S64x128.Idx) :
    Shape.reshapeEquiv h z = (ix3 (n0 := 1) (n1 := 64) (n2 := 128) ⟨0, Nat.one_pos⟩ (z 0) (z 1) : S1x64x128.Idx) :=
  Shape.reshapeEquiv_eq_of_rowMajor h (by
    rw [Shape.rowMajor_val_three, Shape.rowMajor_val_two]
    show ((0 * 64 + (z 0).val) * 128 + (z 1).val) = (z 0).val * 128 + (z 1).val
    omega)

omit [FloatOps F] in
theorem val_slotB_emb1 (b : Fin 10) (z : S64x128.Idx) : (((slotB b).view.emb z) 1).val = (z 0).val := by
  show ((Rect.unit (s := S10x64x128) ![b.val, 0, 0] S1x64x128.size _).emb (Shape.reshapeEquiv squeezes_S1x64x128_S64x128.numel_eq z) 1).val = _
  rw [val_squeeze_eq]
  show 0 + 1 * (z 0).val = _
  omega

omit [FloatOps F] in
theorem val_slotB_emb2 (b : Fin 10) (z : S64x128.Idx) : (((slotB b).view.emb z) 2).val = (z 1).val := by
  show ((Rect.unit (s := S10x64x128) ![b.val, 0, 0] S1x64x128.size _).emb (Shape.reshapeEquiv squeezes_S1x64x128_S64x128.numel_eq z) 2).val = _
  rw [val_squeeze_eq]
  show 0 + 1 * (z 1).val = _
  omega

omit [FloatOps F] in
/-- The shared table's whole-table slice places every index at itself. -/
theorem val_tblK_emb (y : S200x128.Idx) : (tblK).view.emb y = y := by
  funext a
  match a with
  | 0 => exact Fin.ext (show 0 + 1 * (y 0).val = (y 0).val by omega)
  | 1 => exact Fin.ext (show 0 + 1 * (y 1).val = (y 1).val by omega)

omit [FloatOps F] in
/-- The place in the position list of entry `k` of the window at offset `64 j` of the subcore's position row. -/
theorem val_pos_emb (j : Fin 100) (off : Fin 1 → Nat) (h : ∀ a, off a + S64.size a ≤ S6400.size a) (e : off 0 = 64 * j.val)
    (k r : Fin 64) (hr : r.val = k.val) :
    (posK L).view.emb ((idxK off h).view.emb (ix1 k)) = posAt L j r := by
  funext a
  match a with
  | 0 =>
    refine Fin.ext ?_
    show (k0_off1 L) 0 + 1 * (off 0 + 1 * k.val) = 6400 * (wL L).val + 64 * j.val + r.val
    rw [k0_off1_eq, e, hr]
    show 12800 * (L 1).val + 6400 * (L 0).val + 1 * (64 * j.val + 1 * k.val) = 6400 * (2 * (L 1).val + (L 0).val) + 64 * j.val + k.val
    omega

omit [FloatOps F] in
/-- Entry `k` of a rank-one offset list names the row its `k`-th word spells. -/
theorem val_rows_eq {o z : ℕ} (idx : S64.Idx → Elt F .i32) (hn : S64.numel = o) (h : ∀ x, (idx x).toNat < z) (k : Fin o) (k' : Fin 64) (hk : k'.val = k.val) :
    (SparseCore.rows idx hn h k).val = (idx (ix1 k')).toNat := by
  unfold SparseCore.rows
  show (idx (S64.rowMajor.symm (k.cast hn.symm))).toNat = _
  congr 2
  refine (Equiv.symm_apply_eq _).mpr (Fin.ext ?_)
  rw [Shape.rowMajor_val_one]
  exact hk.symm

/-- A position in range names the row its value spells. -/
theorem val_rowOf_eq (p : BitVec 32) (hp : p.toNat ≤ 199) : (Cert.Spec.rowOf p).val = p.toNat := by
  show min p.toNat 199 = p.toNat
  omega

omit [FloatOps F] in
theorem val_slotB_writes (b : Fin 10) (fr : Buf (Elt F) ((V d (cV L) (jV L)).loc cc0_scratch2)) (w : S64x128.Idx → Elt F .f32) (z : S64x128.Idx) :
    (slotB b).view.writes (Elt F) fr [⟨Rect.whole S64x128, w⟩] ((slotB b).view.emb z) = w z :=
  (val_writes_whole_emb _ _ _ _).trans (cast_eq _ _)

omit [FloatOps F] in
theorem val_slotB_write (b : Fin 10) (fr : Buf (Elt F) ((V d (cV L) (jV L)).loc cc0_scratch2)) (w : S64x128.Idx → Elt F .f32) (z : S64x128.Idx) :
    View.write (Elt F) (slotB b).view fr w Finset.univ ((slotB b).view.emb z) = w z :=
  (View.write_emb_of_mem _ _ (Finset.mem_univ _)).trans (cast_eq _ _)

/-- What a gather of chunk `j` leaves at entry `z` of a slot: the stacked table's row that position `z 0` of the chunk names, at column `z 1`. -/
theorem val_gather_at (hpre : PreOK m) (b : Fin 10) (j : Fin 100) (off : Fin 1 → Nat) (h : ∀ a, off a + S64.size a ≤ S6400.size a) (e : off 0 = 64 * j.val)
    (fI : Buf (Elt F) ((V d (cV L) (jV L)).loc cc0_scratch1))
    (hfI : ∀ y : S6400.Idx, fI y = m (posLoc d) ((posK L).view.emb y))
    (hn : S64.numel = S64x128.size gathers_S200x128_S64x128.axis')
    (hin : ∀ x, ((idxK off h).view.read (Elt F) fI x).toNat < S200x128.size gathers_S200x128_S64x128.axis) (z : S64x128.Idx) :
    SparseCore.gatherPayload gathers_S200x128_S64x128 ((tblK).view.read (Elt F) (tblF m d (cV L))) (SparseCore.rows ((idxK off h).view.read (Elt F) fI) hn hin) z
      = slotF m d L j ((slotB b).view.emb z) := by
  show (tblK).view.read (Elt F) (tblF m d (cV L)) (gathers_S200x128_S64x128.idx (SparseCore.rows ((idxK off h).view.read (Elt F) fI) hn hin) z) = _
  rw [show ∀ y, (tblK).view.read (Elt F) (tblF m d (cV L)) y = tblF m d (cV L) ((tblK).view.emb y) from fun y => (View.read_apply _ _).trans (cast_eq _ _), val_tblK_emb]
  show tblF m d (cV L) _ = tblF m d (cV L) _
  congr 1
  funext a
  match a with
  | 0 =>
    refine Fin.ext ?_
    have hax := Shape.Gathers.idx_axis gathers_S200x128_S64x128 (SparseCore.rows ((idxK off h).view.read (Elt F) fI) hn hin) z
    have h0 : (gathers_S200x128_S64x128.idx (SparseCore.rows ((idxK off h).view.read (Elt F) fI) hn hin) z 0).val
        = (SparseCore.rows ((idxK off h).view.read (Elt F) fI) hn hin (z 0)).val := congrArg Fin.val hax
    rw [h0, val_rows_eq _ hn hin (z 0) (z 0) rfl]
    rw [show ∀ y, (idxK off h).view.read (Elt F) fI y = fI ((idxK off h).view.emb y) from fun y => (View.read_apply _ _).trans (cast_eq _ _), hfI,
      val_pos_emb L j off h e (z 0) (((slotB b).view.emb z) 1) (val_slotB_emb1 b z)]
    exact (val_rowOf_eq _ (hpre d _)).symm
  | 1 =>
    refine Fin.ext ?_
    rw [Shape.Gathers.idx_of_ne gathers_S200x128_S64x128 _ z 1 (by decide)]
    exact (val_slotB_emb2 b z).symm

/-- After an indirect gather of chunk `j` into slot `b`, the slot holds the chunk's rows. -/
theorem slot_gather_eq (hpre : PreOK m) (b : Fin 10) (j : Fin 100) (off : Fin 1 → Nat) (h : ∀ a, off a + S64.size a ≤ S6400.size a) (e : off 0 = 64 * j.val)
    (fr : Buf (Elt F) ((V d (cV L) (jV L)).loc cc0_scratch2)) (fI : Buf (Elt F) ((V d (cV L) (jV L)).loc cc0_scratch1))
    (hfI : ∀ y : S6400.Idx, fI y = m (posLoc d) ((posK L).view.emb y))
    (hn : S64.numel = S64x128.size gathers_S200x128_S64x128.axis')
    (hin : ∀ x, ((idxK off h).view.read (Elt F) fI x).toNat < S200x128.size gathers_S200x128_S64x128.axis) :
    ∀ x ∈ (slotB b).view.set,
      ((slotB b).view.writes (Elt F) fr [⟨Rect.whole S64x128, SparseCore.gatherPayload gathers_S200x128_S64x128 ((tblK).view.read (Elt F) (tblF m d (cV L))) (SparseCore.rows ((idxK off h).view.read (Elt F) fI) hn hin)⟩]) x
        = slotF m d L j x := by
  intro x hx
  obtain ⟨z, -, rfl⟩ := Finset.mem_map.mp hx
  rw [val_slotB_writes]
  exact val_gather_at m d L hpre b j off h e fI hfI hn hin z

/-- The same for the raw unmasked write of the gather's payload through the slot. -/
theorem slot_gather_eq' (hpre : PreOK m) (b : Fin 10) (j : Fin 100) (off : Fin 1 → Nat) (h : ∀ a, off a + S64.size a ≤ S6400.size a) (e : off 0 = 64 * j.val)
    (fr : Buf (Elt F) ((V d (cV L) (jV L)).loc cc0_scratch2)) (fI : Buf (Elt F) ((V d (cV L) (jV L)).loc cc0_scratch1))
    (hfI : ∀ y : S6400.Idx, fI y = m (posLoc d) ((posK L).view.emb y))
    (hn : S64.numel = S64x128.size gathers_S200x128_S64x128.axis')
    (hin : ∀ x, ((idxK off h).view.read (Elt F) fI x).toNat < S200x128.size gathers_S200x128_S64x128.axis) :
    ∀ x ∈ (slotB b).view.set,
      (View.write (Elt F) (slotB b).view fr (SparseCore.gatherPayload gathers_S200x128_S64x128 ((tblK).view.read (Elt F) (tblF m d (cV L))) (SparseCore.rows ((idxK off h).view.read (Elt F) fI) hn hin)) Finset.univ) x
        = slotF m d L j x := by
  intro x hx
  obtain ⟨z, -, rfl⟩ := Finset.mem_map.mp hx
  rw [val_slotB_write]
  exact val_gather_at m d L hpre b j off h e fI hfI hn hin z

/-! ## The write-back -/

omit [FloatOps F] in
theorem val_outK_emb0 (off : Fin 2 → Nat) (h : ∀ a, off a + S64x128.size a ≤ S204800x128.size a) (z : S64x128.Idx) :
    (((outK off h).view.emb z) 0).val = off 0 + (z 0).val := by
  show off 0 + 1 * (z 0).val = _
  omega

omit [FloatOps F] in
theorem val_outK_emb1 (off : Fin 2 → Nat) (h : ∀ a, off a + S64x128.size a ≤ S204800x128.size a) (z : S64x128.Idx) :
    (((outK off h).view.emb z) 1).val = off 1 + (z 1).val := by
  show off 1 + 1 * (z 1).val = _
  omega

omit [FloatOps F] in
theorem val_outK_writes (off : Fin 2 → Nat) (h : ∀ a, off a + S64x128.size a ≤ S204800x128.size a) (fo : Buf (Elt F) (outLoc d))
    (w : S64x128.Idx → Elt F .f32) (z : S64x128.Idx) :
    (outK off h).view.writes (Elt F) fo [⟨Rect.whole S64x128, w⟩] ((outK off h).view.emb z) = w z :=
  (val_writes_whole_emb _ _ _ _).trans (cast_eq _ _)

omit [FloatOps F] in
theorem val_outK_write (off : Fin 2 → Nat) (h : ∀ a, off a + S64x128.size a ≤ S204800x128.size a) (fo : Buf (Elt F) (outLoc d))
    (w : S64x128.Idx → Elt F .f32) (z : S64x128.Idx) :
    View.write (Elt F) (outK off h).view fo w Finset.univ ((outK off h).view.emb z) = w z :=
  (View.write_emb_of_mem _ _ (Finset.mem_univ _)).trans (cast_eq _ _)

/-- Entry `z` of a slot holding chunk `j`'s rows is the looked-up result at row `6400 w + 64 j + z 0`, column `z 1`. -/
theorem val_writeback_at (b : Fin 10) (j : Fin 100) (off : Fin 2 → Nat) (h : ∀ a, off a + S64x128.size a ≤ S204800x128.size a)
    (e0 : off 0 = 6400 * (wL L).val + 64 * j.val) (e1 : off 1 = 0) (z : S64x128.Idx) :
    (slotB b).view.read (Elt F) (slotF m d L j) z = lookupF m d ((outK off h).view.emb z) := by
  rw [show ∀ y, (slotB b).view.read (Elt F) (slotF m d L j) y = slotF m d L j ((slotB b).view.emb y) from fun y => (View.read_apply _ _).trans (cast_eq _ _)]
  unfold slotF lookupF tblF Cert.Spec.lookup
  show Cert.Spec.stacked (m (baseLoc d)) (m (extLoc d)) _ = Cert.Spec.stacked (m (baseLoc d)) (m (extLoc d)) _
  congr 1
  have hp : posAt L j (((slotB b).view.emb z) 1) = ix1 (((outK off h).view.emb z) 0) := by
    funext a
    match a with
    | 0 =>
      refine Fin.ext ?_
      show 6400 * (wL L).val + 64 * j.val + (((slotB b).view.emb z) 1).val = (((outK off h).view.emb z) 0).val
      rw [val_slotB_emb1, val_outK_emb0, e0]
  funext a
  match a with
  | 0 =>
    exact congrArg (fun p => Cert.Spec.rowOf (m (posLoc d) p)) hp
  | 1 =>
    refine Fin.ext ?_
    show (((slotB b).view.emb z) 2).val = (((outK off h).view.emb z) 1).val
    rw [val_slotB_emb2, val_outK_emb1, e1]
    omega

/-- Writing slot `b`, holding chunk `j`'s rows, back to rows `6400 w + 64 j …` of the result leaves the looked-up rows there. -/
theorem chunk_writeback_eq (hpre : PreOK m) (b : Fin 10) (j : Fin 100) (off : Fin 2 → Nat) (h : ∀ a, off a + S64x128.size a ≤ S204800x128.size a)
    (e0 : off 0 = 6400 * (wL L).val + 64 * j.val) (e1 : off 1 = 0) (fo : Buf (Elt F) (outLoc d))
    (pay : S64x128.Idx → Elt F .f32) (hpay : pay = (slotB b).view.read (Elt F) (slotF m d L j)) :
    ∀ y ∈ (outK off h).view.set, ((outK off h).view.writes (Elt F) fo [⟨Rect.whole S64x128, pay⟩]) y = lookupF m d y := by
  subst hpay
  intro y hy
  obtain ⟨z, -, rfl⟩ := Finset.mem_map.mp hy
  rw [val_outK_writes]
  exact val_writeback_at m d L b j off h e0 e1 z

/-- The same for the raw unmasked write of the slot's contents through the chunk. -/
theorem chunk_writeback_eq' (hpre : PreOK m) (b : Fin 10) (j : Fin 100) (off : Fin 2 → Nat) (h : ∀ a, off a + S64x128.size a ≤ S204800x128.size a)
    (e0 : off 0 = 6400 * (wL L).val + 64 * j.val) (e1 : off 1 = 0) (fo : Buf (Elt F) (outLoc d))
    (pay : S64x128.Idx → Elt F .f32) (hpay : pay = (slotB b).view.read (Elt F) (slotF m d L j)) :
    ∀ y ∈ (outK off h).view.set, (View.write (Elt F) (outK off h).view fo pay Finset.univ) y = lookupF m d y := by
  subst hpay
  intro y hy
  obtain ⟨z, -, rfl⟩ := Finset.mem_map.mp hy
  rw [val_outK_write]
  exact val_writeback_at m d L b j off h e0 e1 z

end Cert.Proof.KI

end
-- ==== Proof.KIBody.lean ====
/-
  One vector subcore's task of the embedding lookup, proved: the obligation the launch theorem asks of the kernel's body.
  The loop over the rounds is opened at an invariant: at the start of round `k` the ten gathers of round `k` are in flight,
  slot `b`'s delivering the slot at the stacked table's rows that chunk `10 k + b`'s positions name, the chunk's window of the
  position scratch, and the token of the table's read share it reads through; the write-back semaphores are at zero; the
  windows of the other rounds are at hand; and the result's chunks of the rounds before `k` hold the looked-up rows. A trip
  waits for each slot's gather and writes the slot back to its chunk of the result — which then holds the looked-up rows,
  because the slot's rows are the stacked table's rows the chunk's positions name —, then waits for each write-back and
  starts the slot's gather of round `k + 1`. After the loop the last round is written back the same way, and the scratch
  buffers, the semaphores and the read share of the table are handed back whole.
-/
import proofs.«207546_g72756745994873_cont_9to1_m_541_11_alg».proof.Proof.KIDefs
import proofs.«207546_g72756745994873_cont_9to1_m_541_11_alg».proof.Proof.KITile0
import proofs.«207546_g72756745994873_cont_9to1_m_541_11_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

local notation "pV" => (Memref.whole Cert.KernelIdeal.main_arg0_scv : Memref Cert.KernelIdeal.sig Kind.scVector Space.hbm Cert.KernelIdeal.S204800 EltTy.i32)
local notation "bV" => (Memref.whole Cert.KernelIdeal.main_arg1_scv : Memref Cert.KernelIdeal.sig Kind.scVector Space.hbm Cert.KernelIdeal.S20x128 EltTy.f32)
local notation "eV" => (Memref.whole Cert.KernelIdeal.main_arg2_scv : Memref Cert.KernelIdeal.sig Kind.scVector Space.hbm Cert.KernelIdeal.S180x128 EltTy.f32)
local notation "oV" => (Memref.whole Cert.KernelIdeal.main_v0_scv : Memref Cert.KernelIdeal.sig Kind.scVector Space.hbm Cert.KernelIdeal.S204800x128 EltTy.f32)
local notation "tV" => (Memref.whole Cert.KernelIdeal.cc0_scratch0 : Memref Cert.KernelIdeal.sig Kind.scVector Space.shared Cert.KernelIdeal.S200x128 EltTy.f32)
local notation "iV" => (Memref.whole Cert.KernelIdeal.cc0_scratch1 : Memref Cert.KernelIdeal.sig Kind.scVector Space.vmem Cert.KernelIdeal.S6400 EltTy.i32)
local notation "rV" => (Memref.whole Cert.KernelIdeal.cc0_scratch2 : Memref Cert.KernelIdeal.sig Kind.scVector Space.vmem Cert.KernelIdeal.S10x64x128 EltTy.f32)

variable [FloatOps F]
variable (d : Dev nD) (L : grid0.Coords)

/-! ## The loop's invariant -/

/-- The gather semaphore and the write-back semaphore of slot `b`, among the subcore's scoped DMA semaphores. -/
abbrev gix (b : Fin 10) : Fin 23 := ⟨b.val, by have := b.isLt; omega⟩
abbrev wix (b : Fin 10) : Fin 23 := ⟨10 + b.val, by have := b.isLt; omega⟩
/-- Round `k` as a round number below ten. -/
def rk (k : ℕ) : Fin 10 := ⟨k % 10, Nat.mod_lt _ (by decide)⟩

/-- Token `b` of the subcore's read share of the filled table: the one the gather into slot `b` reads through. -/
abbrev tokq (L : grid0.Coords) (b : ℕ) : PosShare TreeShare := shareTokN (shareTokN fullShare (jV L).val) b

/-- What a gather of chunk `j` into slot `b` delivers: the slot at the chunk's gathered rows, the chunk's window of the
    position scratch, and the table token it read through. -/
abbrev Dg (fI : Buf (Elt F) ((V d (cV L) (jV L)).loc cc0_scratch1)) (b : Fin 10) (j : Fin 100) : sProp 𝕄 :=
  iprop((((slotB b).view.loc (V d (cV L) (jV L)) ↦[(slotB b).view.set]{fullShare} slotF m d L j)
      ∗ ((iV).view.loc (V d (cV L) (jV L)) ↦[idxSet j]{fullShare} fI))
    ∗ ((tblK).view.loc (V d (cV L) (jV L)) ↦[(tblK).view.set]{tokq L b.val} tblF m d (cV L)))

/-- Round `k'` of the result's chunks of the subcore, all at the contents `f`. -/
abbrev outRound (k' : Fin 10) (f : Buf (Elt F) (outLoc d)) : sProp 𝕄 :=
  bigSep Finset.univ fun b : Fin 10 => outLoc d ↦[chunkSet (cn (wL L) (ch k' b))]{fullShare} f

omit [FloatOps F] in
theorem outChunks_rounds (f : Buf (Elt F) (outLoc d)) : outChunks d (wL L) f = bigSep Finset.univ fun k' : Fin 10 => outRound d L k' f :=
  bigSep_rounds (fun j : Fin 100 => (outLoc d ↦[chunkSet (cn (wL L) j)]{fullShare} f : sProp 𝕄))

/-- The result's chunks of the subcore by round: the rounds before `k` hold the looked-up rows, the others what they held. -/
abbrev outRounds (k : ℕ) : sProp 𝕄 :=
  bigSep Finset.univ fun k' : Fin 10 => outRound d L k' (if k'.val < k then lookupF m d else m (outLoc d))

/-- At the start of trip `k`: the ten gathers of round `k` in flight, each slot's write-back semaphore at zero, the windows
    of the other rounds at hand, the result's rounds before `k` done. -/
def inv (fI : Buf (Elt F) ((V d (cV L) (jV L)).loc cc0_scratch1)) (O : CellTallies nD τ sig (HIx 1)) (W : Waits sig (HIx 1)) (k : ℕ) (_ : PUnit) : sProp 𝕄 :=
  iprop(Transfers.MayWaits (V d (cV L) (jV L)) (default : HIx 1) O
    ∗ (bigSep Finset.univ fun b : Fin 10 => Transfers.Flight countersEmb (V d (cV L) (jV L)) (SemLoc.dma (gix b)) (default : HIx 1) 262144 (Dg m d L fI b (ch (rk k) b)))
    ∗ (bigSep Finset.univ fun b : Fin 10 => (tblK).view.loc (V d (cV L) (jV L)) ↦[(tblK).view.set \ (tblK).view.set]{tokq L b.val} tblF m d (cV L))
    ∗ (bigSep Finset.univ fun b : Fin 10 => semVal (dcell d (cV L) (jV L) (wix b)) 0)
    ∗ idxPool d L (Finset.univ.erase (rk k)) fI
    ∗ outRounds m d L k
    ∗ ∃ W', ⌜∀ p ∈ W', p ∈ W ∨ p.2 = none ∨ p.2 = some (0 : Fin 1)⌝ ∗ owes (V d (cV L) (jV L)) O W')

omit [FloatOps F] in
/-- Of a family over the ten rounds, the rounds before `k` at one value and the others at another: round `k` taken out. -/
theorem rounds_take {X : Type} (A : Fin 10 → X → sProp 𝕄) (f0 f1 : X) (k : ℕ) (hk : k < 10) :
    (bigSep Finset.univ fun k' : Fin 10 => A k' (if k'.val < k then f1 else f0))
      = iprop(A ⟨k, hk⟩ f0 ∗ bigSep (Finset.univ.erase (⟨k, hk⟩ : Fin 10)) fun k' : Fin 10 => A k' (if k'.val < k then f1 else f0)) := by
  have e : (if (⟨k, hk⟩ : Fin 10).val < k then f1 else f0) = f0 := if_neg (Nat.lt_irrefl k)
  rw [SparseCore.bigSep_erase' (Finset.mem_univ (⟨k, hk⟩ : Fin 10)), e]

omit [FloatOps F] in
/-- Round `k` put back at the other value: the rounds before `k + 1` are at it. -/
theorem rounds_put {X : Type} (A : Fin 10 → X → sProp 𝕄) (f0 f1 : X) (k : ℕ) (hk : k < 10) :
    iprop(A ⟨k, hk⟩ f1 ∗ bigSep (Finset.univ.erase (⟨k, hk⟩ : Fin 10)) fun k' : Fin 10 => A k' (if k'.val < k then f1 else f0))
      = bigSep Finset.univ fun k' : Fin 10 => A k' (if k'.val < k + 1 then f1 else f0) := by
  have e : (if (⟨k, hk⟩ : Fin 10).val < k + 1 then f1 else f0) = f1 := if_pos (Nat.lt_succ_self k)
  rw [SparseCore.bigSep_erase' (Finset.mem_univ (⟨k, hk⟩ : Fin 10)) (Φ := fun k' : Fin 10 => A k' (if k'.val < k + 1 then f1 else f0)), e]
  refine congrArg (fun R => iprop(A ⟨k, hk⟩ f1 ∗ R)) (bigSep_congr fun k' hk' => ?_)
  have hne : k'.val ≠ k := fun e' => (Finset.mem_erase.mp hk').1 (Fin.ext e')
  by_cases h : k'.val < k
  · rw [if_pos h, if_pos (Nat.lt_succ_of_lt h)]
  · rw [if_neg h, if_neg (by omega)]

omit [FloatOps F] in
theorem rounds_zero {X : Type} (A : Fin 10 → X → sProp 𝕄) (f0 f1 : X) :
    (bigSep Finset.univ fun k' : Fin 10 => A k' f0) = bigSep Finset.univ fun k' : Fin 10 => A k' (if k'.val < 0 then f1 else f0) :=
  bigSep_congr fun k' _ => by rw [if_neg (Nat.not_lt_zero _)]

omit [FloatOps F] in
/-- A round taken out of the pool while another is out, then that other put back. -/
theorem pool_swap {R : Fin 10 → sProp 𝕄} (a b : Fin 10) (hab : a ≠ b) :
    iprop(R a ∗ bigSep ((Finset.univ.erase a).erase b) R) = bigSep (Finset.univ.erase b) R := by
  rw [Finset.erase_right_comm, ← SparseCore.bigSep_erase' (Finset.mem_erase.mpr ⟨hab, Finset.mem_univ a⟩)]

/-- The positions fetched are in range, whatever window of the scratch is read, from what the scratch holds entry by entry. -/
theorem hin_of_fI (hpre : PreOK m) (fI : Buf (Elt F) ((V d (cV L) (jV L)).loc cc0_scratch1))
    (hfI : ∀ y : S6400.Idx, fI y = m (posLoc d) ((posK L).view.emb y)) (off : Fin 1 → Nat) (h : ∀ a, off a + S64.size a ≤ S6400.size a) :
    ∀ x, ((idxK off h).view.read (Elt F) fI x).toNat < S200x128.size gathers_S200x128_S64x128.axis := by
  intro x
  refine Nat.lt_of_le_of_lt ?_ (show 199 < S200x128.size gathers_S200x128_S64x128.axis by decide)
  rw [show (idxK off h).view.read (Elt F) fI x = fI ((idxK off h).view.emb x) from (View.read_apply _ _).trans (cast_eq _ _), hfI]
  exact hpre d _

/-! ## The kernel's offsets name the chunks -/

omit [FloatOps F] in
theorem trips_le : k0_t1_loop.trips ≤ 9 := k0_t1_abs.2.1

omit [FloatOps F] in
theorem trips_eq : k0_t1_loop.trips = 9 := by decide +kernel

omit [FloatOps F] in
theorem cn_val (w : Fin 32) (j : Fin 100) : 64 * (cn w j).val = 6400 * w.val + 64 * j.val := by
  show 64 * (100 * w.val + j.val) = _; omega

omit [FloatOps F] in
/-- Trip `k`'s write-back of slot `b` goes to chunk `10 k + b` of the subcore. -/
theorem off3_e0 (k : Fin k0_t1_loop.trips) (b : Fin 10) (hk : k.val < 10) :
    (k0_off3 L k (BitVec.ofNat 32 b.val)) 0 = 6400 * (wL L).val + 64 * (ch ⟨k.val, hk⟩ b).val := by
  rw [k0_off3_eq L k b]
  show 12800 * (L 1).val + 6400 * (L 0).val + 640 * k.val + 64 * b.val = 6400 * (2 * (L 1).val + (L 0).val) + 64 * (10 * k.val + b.val)
  omega
omit [FloatOps F] in
theorem off3_e1 (k : Fin k0_t1_loop.trips) (b : Fin 10) : (k0_off3 L k (BitVec.ofNat 32 b.val)) 1 = 0 := by
  rw [k0_off3_eq L k b]; rfl

omit [FloatOps F] in
/-- Trip `k`'s gather into slot `b` reads the window of chunk `10 (k + 1) + b`. -/
theorem off4_e (k : Fin k0_t1_loop.trips) (b : Fin 10) : (k0_off4 k (BitVec.ofNat 32 b.val)) 0 = 64 * (ch (rk (k.val + 1)) b).val := by
  rw [k0_off4_eq k b]
  have hk : k.val < 9 := Nat.lt_of_lt_of_le k.isLt trips_le
  show 640 * k.val + 64 * b.val + 640 = 64 * (10 * ((k.val + 1) % 10) + b.val)
  rw [Nat.mod_eq_of_lt (by omega)]; omega

omit [FloatOps F] in
/-- The last round's write-back of slot `b` goes to chunk `90 + b` of the subcore. -/
theorem off5_e0 (b : Fin 10) : (k0_off5 L (BitVec.ofNat 32 (5760 + 64 * b.val))) 0 = 6400 * (wL L).val + 64 * (ch 9 b).val := by
  rw [k0_off5_eq L b]
  show 12800 * (L 1).val + 6400 * (L 0).val + 64 * b.val + 5760 = 6400 * (2 * (L 1).val + (L 0).val) + 64 * (10 * 9 + b.val)
  omega
omit [FloatOps F] in
theorem off5_e1 (b : Fin 10) : (k0_off5 L (BitVec.ofNat 32 (5760 + 64 * b.val))) 1 = 0 := by
  rw [k0_off5_eq L b]; rfl

omit [FloatOps F] in
theorem rk_of_lt (k : ℕ) (hk : k < 10) : rk k = ⟨k, hk⟩ := Fin.ext (Nat.mod_eq_of_lt hk)

/-! ## A gather's flight, restated at the canonical contents -/

theorem flight_canon (hpre : PreOK m) (fI : Buf (Elt F) ((V d (cV L) (jV L)).loc cc0_scratch1))
    (hfI : ∀ y : S6400.Idx, fI y = m (posLoc d) ((posK L).view.emb y)) (fr : Buf (Elt F) ((V d (cV L) (jV L)).loc cc0_scratch2))
    (b : Fin 10) (j : Fin 100) (off : Fin 1 → Nat) (h : ∀ a, off a + S64.size a ≤ S6400.size a) (e : off 0 = 64 * j.val)
    (hn : S64.numel = S64x128.size gathers_S200x128_S64x128.axis')
    (hin : ∀ x, ((idxK off h).view.read (Elt F) fI x).toNat < S200x128.size gathers_S200x128_S64x128.axis) (N : ℕ) :
    (Transfers.Flight countersEmb (V d (cV L) (jV L)) (SemLoc.dma (gix b)) (default : HIx 1) N
      iprop((((slotB b).view.loc (V d (cV L) (jV L)) ↦[(slotB b).view.set]{fullShare}
            (slotB b).view.writes (Elt F) fr [⟨Rect.whole S64x128, SparseCore.gatherPayload gathers_S200x128_S64x128 ((tblK).view.read (Elt F) (tblF m d (cV L)))
              (SparseCore.rows ((idxK off h).view.read (Elt F) fI) hn hin)⟩])
          ∗ ((idxK off h).view.loc (V d (cV L) (jV L)) ↦[(idxK off h).view.set]{fullShare} fI))
        ∗ ((tblK).view.loc (V d (cV L) (jV L)) ↦[(tblK).view.set]{tokq L b.val} tblF m d (cV L))) : sProp 𝕄)
      ⊢ Transfers.Flight countersEmb (V d (cV L) (jV L)) (SemLoc.dma (gix b)) (default : HIx 1) N (Dg m d L fI b j) := by
  refine Transfers.Flight_mono countersEmb _ ?_
  iintro ⟨⟨Hs, Hi⟩, Ht⟩
  isplitl [Hs Hi]
  · isplitl [Hs]
    · iapply (Entails.of_eq (pointsTo_congr (slot_gather_eq m d L hpre b j off h e fr fI hfI hn hin)))
      iexact Hs
    · iapply (Entails.of_eq (idxWin_respell (F := F) d L off h j e fI).symm)
      iexact Hi
  · iexact Ht

/-! ## A written-back chunk holds the looked-up rows -/

omit [FloatOps F] in
theorem off3_e0r (k : Fin k0_t1_loop.trips) (b : Fin 10) :
    (k0_off3 L k (BitVec.ofNat 32 b.val)) 0 = 6400 * (wL L).val + 64 * (ch (rk k.val) b).val := by
  have hk : k.val < 10 := Nat.lt_of_lt_of_le k.isLt (Nat.le_trans trips_le (by decide))
  rw [rk_of_lt k.val hk]; exact off3_e0 L k b hk

theorem chunk_done (hpre : PreOK m) (b : Fin 10) (j : Fin 100) (off : Fin 2 → Nat) (h : ∀ a, off a + S64x128.size a ≤ S204800x128.size a)
    (e0 : off 0 = 6400 * (wL L).val + 64 * j.val) (e1 : off 1 = 0) (fo : Buf (Elt F) (outLoc d))
    (pay : S64x128.Idx → Elt F .f32) (hpay : pay = (slotB b).view.read (Elt F) (slotF m d L j)) :
    ((outK off h).view.loc (V d (cV L) (jV L)) ↦[(outK off h).view.set]{fullShare} (outK off h).view.writes (Elt F) fo [⟨Rect.whole S64x128, pay⟩] : sProp 𝕄)
      ⊢ outLoc d ↦[chunkSet (cn (wL L) j)]{fullShare} lookupF m d := by
  rw [pointsTo_congr (chunk_writeback_eq m d L hpre b j off h e0 e1 fo pay hpay)]
  exact Entails.of_eq (outWin_respell (F := F) d L off h (cn (wL L) j) (e0.trans (cn_val _ _).symm) e1 _).symm

/-! ## The row scratch rejoined; the ten read tokens rejoined -/

/-- The ten slots of the row scratch, each at contents of its own, are the scratch whole at some contents. -/
theorem slots_join (d : Dev nD) (L : grid0.Coords) :
    (bigSep Finset.univ fun b : Fin 10 => iprop(∃ f, (slotB b).view.loc (V d (cV L) (jV L)) ↦[(slotB b).view.set]{fullShare} f))
      ⊢ (iprop(∃ f, (V d (cV L) (jV L)).loc cc0_scratch2 ↦{fullShare} f) : sProp 𝕄) := by
  have e : (fun b : Fin 10 => (iprop(∃ f, (slotB b).view.loc (V d (cV L) (jV L)) ↦[(slotB b).view.set]{fullShare} f) : sProp 𝕄))
      = fun b : Fin 10 => iprop(∃ f : Buf (Elt F) ((V d (cV L) (jV L)).loc cc0_scratch2), (rV).view.loc (V d (cV L) (jV L)) ↦[slotSet b]{fullShare} f) :=
    funext fun b => by rw [set_slotB]
  have hj : ∀ fs : Fin 10 → Buf (Elt F) ((V d (cV L) (jV L)).loc cc0_scratch2),
      (bigSep Finset.univ fun b : Fin 10 => ((rV).view.loc (V d (cV L) (jV L)) ↦[slotSet b]{fullShare} fs b : sProp 𝕄))
        ⊢ iprop(∃ g, (rV).view.loc (V d (cV L) (jV L)) ↦{fullShare} g) := fun fs => by
    refine (pointsTo_biUnion_join (ℓ := (rV).view.loc (V d (cV L) (jV L))) Finset.univ slotSet fs (fs 0) slot_disjoint).trans ?_
    rw [slot_cover]
    iintro ⟨%g, -, Hg⟩
    iexists g; iexact Hg
  rw [e]
  refine (bigSep_exists_pi Finset.univ (fun (b : Fin 10) (f : Buf (Elt F) ((V d (cV L) (jV L)).loc cc0_scratch2)) =>
    ((rV).view.loc (V d (cV L) (jV L)) ↦[slotSet b]{fullShare} f : sProp 𝕄))).trans ?_
  iintro ⟨%fs, H⟩
  ihave H' := (hj fs) $$ H
  icases H' with ⟨%g, Hg⟩
  iexists g
  iapply (Entails.of_eq (pts_rV (F := F) d L g)); iexact Hg

omit [FloatOps F] in
/-- A read share of the shared table, held through the whole-table slice as its remainder after ten tokens and the ten tokens,
    is the share. -/
theorem tbl_toks_join (q : PosShare TreeShare) (f : Buf (Elt F) (shLoc d (cV L))) :
    iprop(((tblK).view.loc (V d (cV L) (jV L)) ↦[(tblK).view.set]{shareDrop q 10} f)
        ∗ ((tblK).view.loc (V d (cV L) (jV L)) ↦[(tblK).view.set]{shareTokN q 0} f)
        ∗ ((tblK).view.loc (V d (cV L) (jV L)) ↦[(tblK).view.set]{shareTokN q 1} f)
        ∗ ((tblK).view.loc (V d (cV L) (jV L)) ↦[(tblK).view.set]{shareTokN q 2} f)
        ∗ ((tblK).view.loc (V d (cV L) (jV L)) ↦[(tblK).view.set]{shareTokN q 3} f)
        ∗ ((tblK).view.loc (V d (cV L) (jV L)) ↦[(tblK).view.set]{shareTokN q 4} f)
        ∗ ((tblK).view.loc (V d (cV L) (jV L)) ↦[(tblK).view.set]{shareTokN q 5} f)
        ∗ ((tblK).view.loc (V d (cV L) (jV L)) ↦[(tblK).view.set]{shareTokN q 6} f)
        ∗ ((tblK).view.loc (V d (cV L) (jV L)) ↦[(tblK).view.set]{shareTokN q 7} f)
        ∗ ((tblK).view.loc (V d (cV L) (jV L)) ↦[(tblK).view.set]{shareTokN q 8} f)
        ∗ ((tblK).view.loc (V d (cV L) (jV L)) ↦[(tblK).view.set]{shareTokN q 9} f))
      ⊢ (shLoc d (cV L) ↦{q} f : sProp 𝕄) := by
  rw [set_tblK]
  exact (toks10_split (F := F) (ℓ := shLoc d (cV L)) (S := Finset.univ) (f := f) q).2

set_option maxHeartbeats 32000000 in
/-- The task on vector subcore `(L 0, L 1)` of device `d`. Subcore 0 first copies the two tables into the shared table, one
    above the other. Every subcore fetches its 6400 positions, meets the others at the barrier — where subcore 0 hands each
    subcore a read share of the filled table —, starts the gathers of its first ten chunks (one per slot, each through its own
    token of the read share), and then, round by round, waits for a slot's gather, writes the slot back to its chunk of the
    result, waits for the write-back and starts the slot's gather of the next round; the last round is written back without a
    next. Each chunk of the result ends at the stacked table's rows its positions name. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (posPts m d (wL L) ∗ outChunks d (wL L) (m (outLoc d))
            ∗ (if (L 1).val = 0 then iprop(tblsShare m d (L 0).val ∗ ∃ f, shLoc d (cV L) ↦{fullShare} f) else iprop(emp)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_embed L pV (Memref.isWhole_whole _) bV (Memref.isWhole_whole _) eV (Memref.isWhole_whole _) oV (Memref.isWhole_whole _)
            tV (Memref.isWhole_whole _) iV (Memref.isWhole_whole _) rV (Memref.isWhole_whole _) cc0_scratch3 cc0_scratch4 cc0_scoped0 cc0_scoped1 cc0_scoped2)
          fun _ => iprop((posPts m d (wL L) ∗ outChunks d (wL L) (lookupF m d) ∗ tblShare m d (cV L) (L 1).val
              ∗ (if (L 1).val = 0 then iprop(tblsShare m d (L 0).val ∗ shLoc d (cV L) ↦{shareDrop fullShare 16} tblF m d (cV L)) else iprop(emp)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__sc_embed_eq_skeleton]; unfold cc0__sc_embed_skel
  rw [(K (F := F)).scopedBufs_V hF d (cV L) (jV L), SparseCore.Cfg.scopedSems0_V (Val := Elt F) d (cV L) (jV L), ownSems0_V, ownBufs_V, bigSep_fin23]
  unfold bkit
  by_cases hL : (L 1).val = 0
  case' pos =>
    rw [if_pos hL, if_pos hL]
    iintro ⟨#Hlv, ⟨⟨%κ, #Hinv⟩, Htoks, #Hrch, Hat, Hcred⟩, ⟨Hp, Hout, ⟨Hbs, Hes⟩, ⟨%ft, Hsh⟩⟩, ⟨⟨%fi, Hi⟩, ⟨%fr, Hr⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22⟩, HO⟩
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hp' := (Entails.of_eq (pts_posK (F := F) d L _).symm) $$ Hp
    ihave Hi' := (Entails.of_eq (pts_iV (F := F) d L _).symm) $$ Hi
    ihave Hr' := (Entails.of_eq (pts_rV (F := F) d L _).symm) $$ Hr
    -- subcore 0: the two tables into the shared table, one above the other
    ihave Hbs' := (Entails.of_eq (pts_bV (F := F) d L _ _).symm) $$ Hbs
    ihave Hes' := (Entails.of_eq (pts_eV (F := F) d L _ _).symm) $$ Hes
    ihave Hsh' := (tbl_split (F := F) d L ft).1 $$ Hsh
    icases Hsh' with ⟨Hlo, Hhi⟩
    have hc : Scalar.cmpi .ne (Scalar.extui (Scalar.cmpi .eq (BitVec.ofNat 32 (L 1).val) 0#32)) 0#32 = 1#1 := hc_zero _ hL
    sl_exec
    ihave Htblw := (tbl_filled (F := F) m d L ft ft _ _ rfl rfl) $$ [Hlo Hhi]
    · isplitl [Hlo]; · iexact Hlo
      iexact Hhi
    ihave Hpz := (pays_intro_zero (F := F) m d L hL) $$ Htblw
    icases Hpz with ⟨Hpays, Hdrop⟩
    ihave Hextra := (show iprop(((bV).view.loc (V d (cV L) (jV L)) ↦{shareTokN fullShare (L 0).val} m (baseLoc d)) ∗ ((eV).view.loc (V d (cV L) (jV L)) ↦{shareTokN fullShare (L 0).val} m (extLoc d))
        ∗ shLoc d (cV L) ↦{shareDrop fullShare 16} tblF m d (cV L)) ⊢ (iprop(tblsShare m d (L 0).val ∗ shLoc d (cV L) ↦{shareDrop fullShare 16} tblF m d (cV L)) : sProp 𝕄) from by
      iintro ⟨Hb, He, Hd⟩
      isplitl [Hb He]
      · isplitl [Hb]; · iexact Hb
        iexact He
      · iexact Hd) $$ [Hbs' Hes' Hdrop]
    · isplitl [Hbs']; · iexact Hbs'
      isplitl [Hes']; · iexact Hes'
      iexact Hdrop
    -- what the position scratch now holds, entry by entry
    generalize hfI0 : View.write (Elt F) (iV).view fi (_) Finset.univ = fI
    have hfI : ∀ y : S6400.Idx, fI y = m (posLoc d) ((posK L).view.emb y) := by
      subst hfI0; intro y; rw [View.write_whole_univ]; exact (View.read_apply _ _).trans (cast_eq _ _)
    have hin := hin_of_fI m d L hpre fI hfI

  case' neg =>
    rw [if_neg hL, if_neg hL]
    iintro ⟨#Hlv, ⟨⟨%κ, #Hinv⟩, Htoks, #Hrch, Hat, Hcred⟩, ⟨Hp, Hout, Hextra⟩, ⟨⟨%fi, Hi⟩, ⟨%fr, Hr⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22⟩, HO⟩
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hp' := (Entails.of_eq (pts_posK (F := F) d L _).symm) $$ Hp
    ihave Hi' := (Entails.of_eq (pts_iV (F := F) d L _).symm) $$ Hi
    ihave Hr' := (Entails.of_eq (pts_rV (F := F) d L _).symm) $$ Hr
    have hc : ¬ (Scalar.cmpi .ne (Scalar.extui (Scalar.cmpi .eq (BitVec.ofNat 32 (L 1).val) 0#32)) 0#32 = 1#1) := hc_nonzero _ hL (L 1).isLt
    sl_exec
    -- a subcore other than 0 hands nothing over at the barrier
    ihave Hpays := (pays_intro_other (F := F) m d L hL) $$ []
    · iempintro
    -- what the position scratch now holds, entry by entry
    generalize hfI0 : View.write (Elt F) (iV).view fi (_) Finset.univ = fI
    have hfI : ∀ y : S6400.Idx, fI y = m (posLoc d) ((posK L).view.emb y) := by
      subst hfI0; intro y; rw [View.write_whole_univ]; exact (View.read_apply _ _).trans (cast_eq _ _)
    have hin := hin_of_fI m d L hpre fI hfI

  all_goals (
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Htbl := (pays_elim (F := F) m d L) $$ Hgot

    ihave Htbl' := (Entails.of_eq (pts_tblK (F := F) d L _ _).symm) $$ Htbl
    ihave Ht := (toks10_split (F := F) (shareTokN fullShare (jV L).val)).1 $$ Htbl'
    icases Ht with ⟨Htd, Ht0, Ht1, Ht2, Ht3, Ht4, Ht5, Ht6, Ht7, Ht8, Ht9⟩
    ihave Hrs := (Entails.of_eq ((rPts_slotsB (F := F) d L _).trans (bigSep_fin10 _))) $$ Hr'
    icases Hrs with ⟨Hr0, Hr1, Hr2, Hr3, Hr4, Hr5, Hr6, Hr7, Hr8, Hr9⟩
    ihave Hiw := (Entails.of_eq ((iPts_pool (F := F) d L _).trans (SparseCore.bigSep_erase' (Finset.mem_univ (0 : Fin 10))))) $$ Hi'
    icases Hiw with ⟨Hiw0, Hpool⟩
    ihave Hiw0' := (Entails.of_eq (bigSep_fin10 _)) $$ Hiw0
    icases Hiw0' with ⟨Hi0, Hi1, Hi2, Hi3, Hi4, Hi5, Hi6, Hi7, Hi8, Hi9⟩
    ihave Hi0' := (Entails.of_eq (idxWin_respell (F := F) d L ![0] inb_S6400_S64_0 (ch 0 0) rfl _)) $$ Hi0
    ihave Hi1' := (Entails.of_eq (idxWin_respell (F := F) d L ![64] inb_S6400_S64_64 (ch 0 1) rfl _)) $$ Hi1
    ihave Hi2' := (Entails.of_eq (idxWin_respell (F := F) d L ![128] inb_S6400_S64_128 (ch 0 2) rfl _)) $$ Hi2
    ihave Hi3' := (Entails.of_eq (idxWin_respell (F := F) d L ![192] inb_S6400_S64_192 (ch 0 3) rfl _)) $$ Hi3
    ihave Hi4' := (Entails.of_eq (idxWin_respell (F := F) d L ![256] inb_S6400_S64_256 (ch 0 4) rfl _)) $$ Hi4
    ihave Hi5' := (Entails.of_eq (idxWin_respell (F := F) d L ![320] inb_S6400_S64_320 (ch 0 5) rfl _)) $$ Hi5
    ihave Hi6' := (Entails.of_eq (idxWin_respell (F := F) d L ![384] inb_S6400_S64_384 (ch 0 6) rfl _)) $$ Hi6
    ihave Hi7' := (Entails.of_eq (idxWin_respell (F := F) d L ![448] inb_S6400_S64_448 (ch 0 7) rfl _)) $$ Hi7
    ihave Hi8' := (Entails.of_eq (idxWin_respell (F := F) d L ![512] inb_S6400_S64_512 (ch 0 8) rfl _)) $$ Hi8
    ihave Hi9' := (Entails.of_eq (idxWin_respell (F := F) d L ![576] inb_S6400_S64_576 (ch 0 9) rfl _)) $$ Hi9
    sl_exec
    -- the ten gathers in flight, each restated at what it will deliver
    ihave Hf0 := (flight_canon m d L hpre fI hfI fr 0 (ch (rk 0) 0) ![0] inb_S6400_S64_0 rfl (by decide) (hin _ _) 262144) $$ [Hs0]
    · iexact Hs0
    ihave Hf1 := (flight_canon m d L hpre fI hfI fr 1 (ch (rk 0) 1) ![64] inb_S6400_S64_64 rfl (by decide) (hin _ _) 262144) $$ [Hs1]
    · iexact Hs1
    ihave Hf2 := (flight_canon m d L hpre fI hfI fr 2 (ch (rk 0) 2) ![128] inb_S6400_S64_128 rfl (by decide) (hin _ _) 262144) $$ [Hs2]
    · iexact Hs2
    ihave Hf3 := (flight_canon m d L hpre fI hfI fr 3 (ch (rk 0) 3) ![192] inb_S6400_S64_192 rfl (by decide) (hin _ _) 262144) $$ [Hs3]
    · iexact Hs3
    ihave Hf4 := (flight_canon m d L hpre fI hfI fr 4 (ch (rk 0) 4) ![256] inb_S6400_S64_256 rfl (by decide) (hin _ _) 262144) $$ [Hs4]
    · iexact Hs4
    ihave Hf5 := (flight_canon m d L hpre fI hfI fr 5 (ch (rk 0) 5) ![320] inb_S6400_S64_320 rfl (by decide) (hin _ _) 262144) $$ [Hs5]
    · iexact Hs5
    ihave Hf6 := (flight_canon m d L hpre fI hfI fr 6 (ch (rk 0) 6) ![384] inb_S6400_S64_384 rfl (by decide) (hin _ _) 262144) $$ [Hs6]
    · iexact Hs6
    ihave Hf7 := (flight_canon m d L hpre fI hfI fr 7 (ch (rk 0) 7) ![448] inb_S6400_S64_448 rfl (by decide) (hin _ _) 262144) $$ [Hs7]
    · iexact Hs7
    ihave Hf8 := (flight_canon m d L hpre fI hfI fr 8 (ch (rk 0) 8) ![512] inb_S6400_S64_512 rfl (by decide) (hin _ _) 262144) $$ [Hs8]
    · iexact Hs8
    ihave Hf9 := (flight_canon m d L hpre fI hfI fr 9 (ch (rk 0) 9) ![576] inb_S6400_S64_576 rfl (by decide) (hin _ _) 262144) $$ [Hs9]
    · iexact Hs9
    ihave Hfl := (Entails.of_eq (bigSep_fin10 (fun b : Fin 10 => Transfers.Flight countersEmb (V d (cV L) (jV L)) (SemLoc.dma (gix b)) (default : HIx 1) 262144 (Dg m d L fI b (ch (rk 0) b)))).symm) $$ [Hf0 Hf1 Hf2 Hf3 Hf4 Hf5 Hf6 Hf7 Hf8 Hf9]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      iexact Hf9
    ihave Hz := (Entails.of_eq (bigSep_fin10 (fun b : Fin 10 => ((tblK).view.loc (V d (cV L) (jV L)) ↦[(tblK).view.set \ (tblK).view.set]{tokq L b.val} tblF m d (cV L) : sProp 𝕄))).symm) $$ [Ht0 Ht1 Ht2 Ht3 Ht4 Ht5 Ht6 Ht7 Ht8 Ht9]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      iexact Ht9
    ihave Hw := (Entails.of_eq (bigSep_fin10 (fun b : Fin 10 => (semVal (dcell d (cV L) (jV L) (wix b)) 0 : sProp 𝕄))).symm) $$ [Hs10 Hs11 Hs12 Hs13 Hs14 Hs15 Hs16 Hs17 Hs18 Hs19]
    · isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ihave Hout' := (Entails.of_eq ((outChunks_rounds (F := F) d L _).trans (rounds_zero (fun k' f => outRound d L k' f) (m (outLoc d)) (lookupF m d)))) $$ Hout
    sl_for (inv m d L fI O W) $$ [Hmw2 Hfl Hz Hw Hpool Hout' HO]
    case region =>
      intro k _
      have hk9 : k.val < 9 := Nat.lt_of_lt_of_le k.isLt trips_le
      have hk10 : k.val < 10 := by omega
      unfold inv
      iintro ⟨Hmw, Hfl, Hz, Hw, Hpool, Hout, %W', %hW', HO⟩
      ihave Hfl' := (Entails.of_eq (bigSep_fin10 _)) $$ Hfl
      icases Hfl' with ⟨Hf0, Hf1, Hf2, Hf3, Hf4, Hf5, Hf6, Hf7, Hf8, Hf9⟩
      unfold Dg
      ihave Hz' := (Entails.of_eq (bigSep_fin10 _)) $$ Hz
      icases Hz' with ⟨Hz0, Hz1, Hz2, Hz3, Hz4, Hz5, Hz6, Hz7, Hz8, Hz9⟩
      ihave Hw' := (Entails.of_eq (bigSep_fin10 _)) $$ Hw
      icases Hw' with ⟨Hw0, Hw1, Hw2, Hw3, Hw4, Hw5, Hw6, Hw7, Hw8, Hw9⟩
      -- round k's chunks of the result, as the write-backs address them
      ihave Ho := (Entails.of_eq (rounds_take (fun k' f => outRound d L k' f) (m (outLoc d)) (lookupF m d) k.val hk10)) $$ Hout
      icases Ho with ⟨Hok, Horest⟩
      ihave Hok' := (Entails.of_eq (bigSep_fin10 _)) $$ Hok
      icases Hok' with ⟨Ho0, Ho1, Ho2, Ho3, Ho4, Ho5, Ho6, Ho7, Ho8, Ho9⟩
      ihave Ho0' := (Entails.of_eq (outWin_respell (F := F) d L (k0_off3 L k 0#32) (k0_off3_inb L k 0) (cn (wL L) (ch ⟨k.val, hk10⟩ 0)) ((off3_e0 L k 0 hk10).trans (cn_val _ _).symm) (off3_e1 L k 0) _)) $$ Ho0
      ihave Ho1' := (Entails.of_eq (outWin_respell (F := F) d L (k0_off3 L k 1#32) (k0_off3_inb L k 1) (cn (wL L) (ch ⟨k.val, hk10⟩ 1)) ((off3_e0 L k 1 hk10).trans (cn_val _ _).symm) (off3_e1 L k 1) _)) $$ Ho1
      ihave Ho2' := (Entails.of_eq (outWin_respell (F := F) d L (k0_off3 L k 2#32) (k0_off3_inb L k 2) (cn (wL L) (ch ⟨k.val, hk10⟩ 2)) ((off3_e0 L k 2 hk10).trans (cn_val _ _).symm) (off3_e1 L k 2) _)) $$ Ho2
      ihave Ho3' := (Entails.of_eq (outWin_respell (F := F) d L (k0_off3 L k 3#32) (k0_off3_inb L k 3) (cn (wL L) (ch ⟨k.val, hk10⟩ 3)) ((off3_e0 L k 3 hk10).trans (cn_val _ _).symm) (off3_e1 L k 3) _)) $$ Ho3
      ihave Ho4' := (Entails.of_eq (outWin_respell (F := F) d L (k0_off3 L k 4#32) (k0_off3_inb L k 4) (cn (wL L) (ch ⟨k.val, hk10⟩ 4)) ((off3_e0 L k 4 hk10).trans (cn_val _ _).symm) (off3_e1 L k 4) _)) $$ Ho4
      ihave Ho5' := (Entails.of_eq (outWin_respell (F := F) d L (k0_off3 L k 5#32) (k0_off3_inb L k 5) (cn (wL L) (ch ⟨k.val, hk10⟩ 5)) ((off3_e0 L k 5 hk10).trans (cn_val _ _).symm) (off3_e1 L k 5) _)) $$ Ho5
      ihave Ho6' := (Entails.of_eq (outWin_respell (F := F) d L (k0_off3 L k 6#32) (k0_off3_inb L k 6) (cn (wL L) (ch ⟨k.val, hk10⟩ 6)) ((off3_e0 L k 6 hk10).trans (cn_val _ _).symm) (off3_e1 L k 6) _)) $$ Ho6
      ihave Ho7' := (Entails.of_eq (outWin_respell (F := F) d L (k0_off3 L k 7#32) (k0_off3_inb L k 7) (cn (wL L) (ch ⟨k.val, hk10⟩ 7)) ((off3_e0 L k 7 hk10).trans (cn_val _ _).symm) (off3_e1 L k 7) _)) $$ Ho7
      ihave Ho8' := (Entails.of_eq (outWin_respell (F := F) d L (k0_off3 L k 8#32) (k0_off3_inb L k 8) (cn (wL L) (ch ⟨k.val, hk10⟩ 8)) ((off3_e0 L k 8 hk10).trans (cn_val _ _).symm) (off3_e1 L k 8) _)) $$ Ho8
      ihave Ho9' := (Entails.of_eq (outWin_respell (F := F) d L (k0_off3 L k 9#32) (k0_off3_inb L k 9) (cn (wL L) (ch ⟨k.val, hk10⟩ 9)) ((off3_e0 L k 9 hk10).trans (cn_val _ _).symm) (off3_e1 L k 9) _)) $$ Ho9
      -- round k + 1's windows of the position scratch, as the gathers address them
      have hne : rk (k.val + 1) ≠ rk k.val := by
        intro e; have e' := congrArg Fin.val e
        simp only [rk] at e'; rw [Nat.mod_eq_of_lt (by omega : k.val + 1 < 10), Nat.mod_eq_of_lt hk10] at e'; omega
      ihave Hp1 := (Entails.of_eq (SparseCore.bigSep_erase' (Finset.mem_erase.mpr ⟨hne, Finset.mem_univ _⟩))) $$ Hpool
      icases Hp1 with ⟨Hnext, Hpool⟩
      ihave Hnext' := (Entails.of_eq (bigSep_fin10 _)) $$ Hnext
      icases Hnext' with ⟨Hi0, Hi1, Hi2, Hi3, Hi4, Hi5, Hi6, Hi7, Hi8, Hi9⟩
      ihave Hi0' := (Entails.of_eq (idxWin_respell (F := F) d L (k0_off4 k 0#32) (k0_off4_inb k 0) (ch (rk (k.val + 1)) 0) (off4_e k 0) _)) $$ Hi0
      ihave Hi1' := (Entails.of_eq (idxWin_respell (F := F) d L (k0_off4 k 1#32) (k0_off4_inb k 1) (ch (rk (k.val + 1)) 1) (off4_e k 1) _)) $$ Hi1
      ihave Hi2' := (Entails.of_eq (idxWin_respell (F := F) d L (k0_off4 k 2#32) (k0_off4_inb k 2) (ch (rk (k.val + 1)) 2) (off4_e k 2) _)) $$ Hi2
      ihave Hi3' := (Entails.of_eq (idxWin_respell (F := F) d L (k0_off4 k 3#32) (k0_off4_inb k 3) (ch (rk (k.val + 1)) 3) (off4_e k 3) _)) $$ Hi3
      ihave Hi4' := (Entails.of_eq (idxWin_respell (F := F) d L (k0_off4 k 4#32) (k0_off4_inb k 4) (ch (rk (k.val + 1)) 4) (off4_e k 4) _)) $$ Hi4
      ihave Hi5' := (Entails.of_eq (idxWin_respell (F := F) d L (k0_off4 k 5#32) (k0_off4_inb k 5) (ch (rk (k.val + 1)) 5) (off4_e k 5) _)) $$ Hi5
      ihave Hi6' := (Entails.of_eq (idxWin_respell (F := F) d L (k0_off4 k 6#32) (k0_off4_inb k 6) (ch (rk (k.val + 1)) 6) (off4_e k 6) _)) $$ Hi6
      ihave Hi7' := (Entails.of_eq (idxWin_respell (F := F) d L (k0_off4 k 7#32) (k0_off4_inb k 7) (ch (rk (k.val + 1)) 7) (off4_e k 7) _)) $$ Hi7
      ihave Hi8' := (Entails.of_eq (idxWin_respell (F := F) d L (k0_off4 k 8#32) (k0_off4_inb k 8) (ch (rk (k.val + 1)) 8) (off4_e k 8) _)) $$ Hi8
      ihave Hi9' := (Entails.of_eq (idxWin_respell (F := F) d L (k0_off4 k 9#32) (k0_off4_inb k 9) (ch (rk (k.val + 1)) 9) (off4_e k 9) _)) $$ Hi9
      sl_exec

      -- the gathers of round k + 1 in flight, each restated at what it will deliver
      ihave Hg0 := (flight_canon m d L hpre fI hfI _ 0 (ch (rk (k.val + 1)) 0) (k0_off4 k 0#32) (k0_off4_inb k 0) (off4_e k 0) (by decide) (hin _ _) 262144) $$ [Hf0]
      · iexact Hf0
      ihave Hg1 := (flight_canon m d L hpre fI hfI _ 1 (ch (rk (k.val + 1)) 1) (k0_off4 k 1#32) (k0_off4_inb k 1) (off4_e k 1) (by decide) (hin _ _) 262144) $$ [Hf1]
      · iexact Hf1
      ihave Hg2 := (flight_canon m d L hpre fI hfI _ 2 (ch (rk (k.val + 1)) 2) (k0_off4 k 2#32) (k0_off4_inb k 2) (off4_e k 2) (by decide) (hin _ _) 262144) $$ [Hf2]
      · iexact Hf2
      ihave Hg3 := (flight_canon m d L hpre fI hfI _ 3 (ch (rk (k.val + 1)) 3) (k0_off4 k 3#32) (k0_off4_inb k 3) (off4_e k 3) (by decide) (hin _ _) 262144) $$ [Hf3]
      · iexact Hf3
      ihave Hg4 := (flight_canon m d L hpre fI hfI _ 4 (ch (rk (k.val + 1)) 4) (k0_off4 k 4#32) (k0_off4_inb k 4) (off4_e k 4) (by decide) (hin _ _) 262144) $$ [Hf4]
      · iexact Hf4
      ihave Hg5 := (flight_canon m d L hpre fI hfI _ 5 (ch (rk (k.val + 1)) 5) (k0_off4 k 5#32) (k0_off4_inb k 5) (off4_e k 5) (by decide) (hin _ _) 262144) $$ [Hf5]
      · iexact Hf5
      ihave Hg6 := (flight_canon m d L hpre fI hfI _ 6 (ch (rk (k.val + 1)) 6) (k0_off4 k 6#32) (k0_off4_inb k 6) (off4_e k 6) (by decide) (hin _ _) 262144) $$ [Hf6]
      · iexact Hf6
      ihave Hg7 := (flight_canon m d L hpre fI hfI _ 7 (ch (rk (k.val + 1)) 7) (k0_off4 k 7#32) (k0_off4_inb k 7) (off4_e k 7) (by decide) (hin _ _) 262144) $$ [Hf7]
      · iexact Hf7
      ihave Hg8 := (flight_canon m d L hpre fI hfI _ 8 (ch (rk (k.val + 1)) 8) (k0_off4 k 8#32) (k0_off4_inb k 8) (off4_e k 8) (by decide) (hin _ _) 262144) $$ [Hf8]
      · iexact Hf8
      ihave Hg9 := (flight_canon m d L hpre fI hfI _ 9 (ch (rk (k.val + 1)) 9) (k0_off4 k 9#32) (k0_off4_inb k 9) (off4_e k 9) (by decide) (hin _ _) 262144) $$ [Hf9]
      · iexact Hf9
      -- round k's chunks of the result hold the looked-up rows
      ihave Hd0 := (chunk_done m d L hpre 0 (ch (rk k.val) 0) (k0_off3 L k 0#32) (k0_off3_inb L k 0) (off3_e0r L k 0) (off3_e1 L k 0) _ _ rfl) $$ [Ho0']
      · iexact Ho0'
      ihave Hd1 := (chunk_done m d L hpre 1 (ch (rk k.val) 1) (k0_off3 L k 1#32) (k0_off3_inb L k 1) (off3_e0r L k 1) (off3_e1 L k 1) _ _ rfl) $$ [Ho1']
      · iexact Ho1'
      ihave Hd2 := (chunk_done m d L hpre 2 (ch (rk k.val) 2) (k0_off3 L k 2#32) (k0_off3_inb L k 2) (off3_e0r L k 2) (off3_e1 L k 2) _ _ rfl) $$ [Ho2']
      · iexact Ho2'
      ihave Hd3 := (chunk_done m d L hpre 3 (ch (rk k.val) 3) (k0_off3 L k 3#32) (k0_off3_inb L k 3) (off3_e0r L k 3) (off3_e1 L k 3) _ _ rfl) $$ [Ho3']
      · iexact Ho3'
      ihave Hd4 := (chunk_done m d L hpre 4 (ch (rk k.val) 4) (k0_off3 L k 4#32) (k0_off3_inb L k 4) (off3_e0r L k 4) (off3_e1 L k 4) _ _ rfl) $$ [Ho4']
      · iexact Ho4'
      ihave Hd5 := (chunk_done m d L hpre 5 (ch (rk k.val) 5) (k0_off3 L k 5#32) (k0_off3_inb L k 5) (off3_e0r L k 5) (off3_e1 L k 5) _ _ rfl) $$ [Ho5']
      · iexact Ho5'
      ihave Hd6 := (chunk_done m d L hpre 6 (ch (rk k.val) 6) (k0_off3 L k 6#32) (k0_off3_inb L k 6) (off3_e0r L k 6) (off3_e1 L k 6) _ _ rfl) $$ [Ho6']
      · iexact Ho6'
      ihave Hd7 := (chunk_done m d L hpre 7 (ch (rk k.val) 7) (k0_off3 L k 7#32) (k0_off3_inb L k 7) (off3_e0r L k 7) (off3_e1 L k 7) _ _ rfl) $$ [Ho7']
      · iexact Ho7'
      ihave Hd8 := (chunk_done m d L hpre 8 (ch (rk k.val) 8) (k0_off3 L k 8#32) (k0_off3_inb L k 8) (off3_e0r L k 8) (off3_e1 L k 8) _ _ rfl) $$ [Ho8']
      · iexact Ho8'
      ihave Hd9 := (chunk_done m d L hpre 9 (ch (rk k.val) 9) (k0_off3 L k 9#32) (k0_off3_inb L k 9) (off3_e0r L k 9) (off3_e1 L k 9) _ _ rfl) $$ [Ho9']
      · iexact Ho9'
      ihave Hdone := (Entails.of_eq ((bigSep_fin10 (fun b : Fin 10 => (outLoc d ↦[chunkSet (cn (wL L) (ch (rk k.val) b))]{fullShare} lookupF m d : sProp 𝕄))).symm.trans
          (congrArg (fun r => outRound d L r (lookupF m d)) (rk_of_lt k.val hk10)))) $$ [Hd0 Hd1 Hd2 Hd3 Hd4 Hd5 Hd6 Hd7 Hd8 Hd9]
      · isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        iexact Hd9
      ihave Hout2 := (Entails.of_eq (rounds_put (fun k' f => outRound d L k' f) (m (outLoc d)) (lookupF m d) k.val hk10)) $$ [Hdone Horest]
      · isplitl [Hdone]; · iexact Hdone
        iexact Horest
      -- round k's windows go back to the pool
      ihave Hback := (Entails.of_eq (bigSep_fin10 (fun b : Fin 10 => ((iV).view.loc (V d (cV L) (jV L)) ↦[idxSet (ch (rk k.val) b)]{fullShare} fI : sProp 𝕄))).symm) $$ [Hf0_dst_and Hf1_dst_and Hf2_dst_and Hf3_dst_and Hf4_dst_and Hf5_dst_and Hf6_dst_and Hf7_dst_and Hf8_dst_and Hf9_dst_and]
      · isplitl [Hf0_dst_and]; · iexact Hf0_dst_and
        isplitl [Hf1_dst_and]; · iexact Hf1_dst_and
        isplitl [Hf2_dst_and]; · iexact Hf2_dst_and
        isplitl [Hf3_dst_and]; · iexact Hf3_dst_and
        isplitl [Hf4_dst_and]; · iexact Hf4_dst_and
        isplitl [Hf5_dst_and]; · iexact Hf5_dst_and
        isplitl [Hf6_dst_and]; · iexact Hf6_dst_and
        isplitl [Hf7_dst_and]; · iexact Hf7_dst_and
        isplitl [Hf8_dst_and]; · iexact Hf8_dst_and
        iexact Hf9_dst_and
      ihave Hpool2 := (Entails.of_eq (pool_swap (R := fun k' : Fin 10 => bigSep Finset.univ fun b : Fin 10 => ((iV).view.loc (V d (cV L) (jV L)) ↦[idxSet (ch k' b)]{fullShare} fI : sProp 𝕄)) (rk k.val) (rk (k.val + 1)) hne.symm)) $$ [Hback Hpool]
      · isplitl [Hback]; · iexact Hback
        iexact Hpool
      sl_step
      isplitl [Hmw]; · iexact Hmw
      isplitl [Hg0 Hg1 Hg2 Hg3 Hg4 Hg5 Hg6 Hg7 Hg8 Hg9]
      · iapply (Entails.of_eq (bigSep_fin10 (fun b : Fin 10 => Transfers.Flight countersEmb (V d (cV L) (jV L)) (SemLoc.dma (gix b)) (default : HIx 1) 262144 (Dg m d L fI b (ch (rk (k.val + 1)) b)))).symm)
        isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [Hg7]; · iexact Hg7
        isplitl [Hg8]; · iexact Hg8
        iexact Hg9
      isplitl [Hz0 Hz1 Hz2 Hz3 Hz4 Hz5 Hz6 Hz7 Hz8 Hz9]
      · iapply (Entails.of_eq (bigSep_fin10 (fun b : Fin 10 => ((tblK).view.loc (V d (cV L) (jV L)) ↦[(tblK).view.set \ (tblK).view.set]{tokq L b.val} tblF m d (cV L) : sProp 𝕄))).symm)
        isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        isplitl [Hz7]; · iexact Hz7
        isplitl [Hz8]; · iexact Hz8
        iexact Hz9
      isplitl [Hw0 Hw1 Hw2 Hw3 Hw4 Hw5 Hw6 Hw7 Hw8 Hw9]
      · iapply (Entails.of_eq (bigSep_fin10 (fun b : Fin 10 => (semVal (dcell d (cV L) (jV L) (wix b)) 0 : sProp 𝕄))).symm)
        isplitl [Hw0]; · iexact Hw0
        isplitl [Hw1]; · iexact Hw1
        isplitl [Hw2]; · iexact Hw2
        isplitl [Hw3]; · iexact Hw3
        isplitl [Hw4]; · iexact Hw4
        isplitl [Hw5]; · iexact Hw5
        isplitl [Hw6]; · iexact Hw6
        isplitl [Hw7]; · iexact Hw7
        isplitl [Hw8]; · iexact Hw8
        iexact Hw9
      isplitl [Hpool2]; · iexact Hpool2
      isplitl [Hout2]; · iexact Hout2
      iexists _; isplitr
      swap; · iexact HO
      ipureintro; intro p hp
      repeat (rcases Finset.mem_insert.mp hp with h | hp; · exact .inr (.inl (h ▸ rfl)))
      exact hW' p hp
    · unfold inv
      isplitl [Hmw2]; · iexact Hmw2
      isplitl [Hfl]; · iexact Hfl
      isplitl [Hz]; · iexact Hz
      isplitl [Hw]; · iexact Hw
      isplitl [Hpool]; · iexact Hpool
      isplitl [Hout']; · iexact Hout'
      iexists _; isplitr
      swap; · iexact HO
      ipureintro; intro p hp
      repeat (rcases Finset.mem_insert.mp hp with h | hp; · first | exact .inr (.inl (h ▸ rfl)) | exact .inr (.inr (h ▸ rfl)))
      exact .inl hp
    -- after the loop: the invariant at the ninth round
    iintro %u HI
    have eT : Scf.trips k0_t1_loop.lb k0_t1_loop.ub k0_t1_loop.st = 9 := trips_eq
    ihave HI' := (Entails.of_eq (congrArg (fun k => inv m d L fI O W k u) eT)) $$ HI
    unfold inv
    icases HI' with ⟨Hmw, Hfl, Hz, Hw, Hpool, Hout, %W', %hW', HO⟩
    ihave Hfl' := (Entails.of_eq (bigSep_fin10 _)) $$ Hfl
    icases Hfl' with ⟨Hf0, Hf1, Hf2, Hf3, Hf4, Hf5, Hf6, Hf7, Hf8, Hf9⟩
    unfold Dg
    ihave Hz' := (Entails.of_eq (bigSep_fin10 _)) $$ Hz
    icases Hz' with ⟨Hz0, Hz1, Hz2, Hz3, Hz4, Hz5, Hz6, Hz7, Hz8, Hz9⟩
    ihave Hw' := (Entails.of_eq (bigSep_fin10 _)) $$ Hw
    icases Hw' with ⟨Hw0, Hw1, Hw2, Hw3, Hw4, Hw5, Hw6, Hw7, Hw8, Hw9⟩
    -- the last round's chunks of the result, as the write-backs address them
    ihave Ho := (Entails.of_eq (rounds_take (fun k' f => outRound d L k' f) (m (outLoc d)) (lookupF m d) 9 (by decide))) $$ Hout
    icases Ho with ⟨Hok, Horest⟩
    ihave Hok' := (Entails.of_eq (bigSep_fin10 _)) $$ Hok
    icases Hok' with ⟨Ho0, Ho1, Ho2, Ho3, Ho4, Ho5, Ho6, Ho7, Ho8, Ho9⟩
    ihave Ho0' := (Entails.of_eq (outWin_respell (F := F) d L (k0_off5 L 5760#32) (k0_off5_inb L 0) (cn (wL L) (ch ⟨9, (show 9 < 10 by decide)⟩ 0)) ((off5_e0 L 0).trans (cn_val _ _).symm) (off5_e1 L 0) _)) $$ Ho0
    ihave Ho1' := (Entails.of_eq (outWin_respell (F := F) d L (k0_off5 L 5824#32) (k0_off5_inb L 1) (cn (wL L) (ch ⟨9, (show 9 < 10 by decide)⟩ 1)) ((off5_e0 L 1).trans (cn_val _ _).symm) (off5_e1 L 1) _)) $$ Ho1
    ihave Ho2' := (Entails.of_eq (outWin_respell (F := F) d L (k0_off5 L 5888#32) (k0_off5_inb L 2) (cn (wL L) (ch ⟨9, (show 9 < 10 by decide)⟩ 2)) ((off5_e0 L 2).trans (cn_val _ _).symm) (off5_e1 L 2) _)) $$ Ho2
    ihave Ho3' := (Entails.of_eq (outWin_respell (F := F) d L (k0_off5 L 5952#32) (k0_off5_inb L 3) (cn (wL L) (ch ⟨9, (show 9 < 10 by decide)⟩ 3)) ((off5_e0 L 3).trans (cn_val _ _).symm) (off5_e1 L 3) _)) $$ Ho3
    ihave Ho4' := (Entails.of_eq (outWin_respell (F := F) d L (k0_off5 L 6016#32) (k0_off5_inb L 4) (cn (wL L) (ch ⟨9, (show 9 < 10 by decide)⟩ 4)) ((off5_e0 L 4).trans (cn_val _ _).symm) (off5_e1 L 4) _)) $$ Ho4
    ihave Ho5' := (Entails.of_eq (outWin_respell (F := F) d L (k0_off5 L 6080#32) (k0_off5_inb L 5) (cn (wL L) (ch ⟨9, (show 9 < 10 by decide)⟩ 5)) ((off5_e0 L 5).trans (cn_val _ _).symm) (off5_e1 L 5) _)) $$ Ho5
    ihave Ho6' := (Entails.of_eq (outWin_respell (F := F) d L (k0_off5 L 6144#32) (k0_off5_inb L 6) (cn (wL L) (ch ⟨9, (show 9 < 10 by decide)⟩ 6)) ((off5_e0 L 6).trans (cn_val _ _).symm) (off5_e1 L 6) _)) $$ Ho6
    ihave Ho7' := (Entails.of_eq (outWin_respell (F := F) d L (k0_off5 L 6208#32) (k0_off5_inb L 7) (cn (wL L) (ch ⟨9, (show 9 < 10 by decide)⟩ 7)) ((off5_e0 L 7).trans (cn_val _ _).symm) (off5_e1 L 7) _)) $$ Ho7
    ihave Ho8' := (Entails.of_eq (outWin_respell (F := F) d L (k0_off5 L 6272#32) (k0_off5_inb L 8) (cn (wL L) (ch ⟨9, (show 9 < 10 by decide)⟩ 8)) ((off5_e0 L 8).trans (cn_val _ _).symm) (off5_e1 L 8) _)) $$ Ho8
    ihave Ho9' := (Entails.of_eq (outWin_respell (F := F) d L (k0_off5 L 6336#32) (k0_off5_inb L 9) (cn (wL L) (ch ⟨9, (show 9 < 10 by decide)⟩ 9)) ((off5_e0 L 9).trans (cn_val _ _).symm) (off5_e1 L 9) _)) $$ Ho9
    sl_exec
    -- the last round's chunks of the result hold the looked-up rows
    ihave Hd0 := (chunk_done m d L hpre 0 (ch (rk 9) 0) (k0_off5 L 5760#32) (k0_off5_inb L 0) (off5_e0 L 0) (off5_e1 L 0) _ _ rfl) $$ [Ho0']
    · iexact Ho0'
    ihave Hd1 := (chunk_done m d L hpre 1 (ch (rk 9) 1) (k0_off5 L 5824#32) (k0_off5_inb L 1) (off5_e0 L 1) (off5_e1 L 1) _ _ rfl) $$ [Ho1']
    · iexact Ho1'
    ihave Hd2 := (chunk_done m d L hpre 2 (ch (rk 9) 2) (k0_off5 L 5888#32) (k0_off5_inb L 2) (off5_e0 L 2) (off5_e1 L 2) _ _ rfl) $$ [Ho2']
    · iexact Ho2'
    ihave Hd3 := (chunk_done m d L hpre 3 (ch (rk 9) 3) (k0_off5 L 5952#32) (k0_off5_inb L 3) (off5_e0 L 3) (off5_e1 L 3) _ _ rfl) $$ [Ho3']
    · iexact Ho3'
    ihave Hd4 := (chunk_done m d L hpre 4 (ch (rk 9) 4) (k0_off5 L 6016#32) (k0_off5_inb L 4) (off5_e0 L 4) (off5_e1 L 4) _ _ rfl) $$ [Ho4']
    · iexact Ho4'
    ihave Hd5 := (chunk_done m d L hpre 5 (ch (rk 9) 5) (k0_off5 L 6080#32) (k0_off5_inb L 5) (off5_e0 L 5) (off5_e1 L 5) _ _ rfl) $$ [Ho5']
    · iexact Ho5'
    ihave Hd6 := (chunk_done m d L hpre 6 (ch (rk 9) 6) (k0_off5 L 6144#32) (k0_off5_inb L 6) (off5_e0 L 6) (off5_e1 L 6) _ _ rfl) $$ [Ho6']
    · iexact Ho6'
    ihave Hd7 := (chunk_done m d L hpre 7 (ch (rk 9) 7) (k0_off5 L 6208#32) (k0_off5_inb L 7) (off5_e0 L 7) (off5_e1 L 7) _ _ rfl) $$ [Ho7']
    · iexact Ho7'
    ihave Hd8 := (chunk_done m d L hpre 8 (ch (rk 9) 8) (k0_off5 L 6272#32) (k0_off5_inb L 8) (off5_e0 L 8) (off5_e1 L 8) _ _ rfl) $$ [Ho8']
    · iexact Ho8'
    ihave Hd9 := (chunk_done m d L hpre 9 (ch (rk 9) 9) (k0_off5 L 6336#32) (k0_off5_inb L 9) (off5_e0 L 9) (off5_e1 L 9) _ _ rfl) $$ [Ho9']
    · iexact Ho9'
    ihave Hdone := (Entails.of_eq ((bigSep_fin10 (fun b : Fin 10 => (outLoc d ↦[chunkSet (cn (wL L) (ch (rk 9) b))]{fullShare} lookupF m d : sProp 𝕄))).symm.trans
        (congrArg (fun r => outRound d L r (lookupF m d)) (rk_of_lt 9 (by decide))))) $$ [Hd0 Hd1 Hd2 Hd3 Hd4 Hd5 Hd6 Hd7 Hd8 Hd9]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      iexact Hd9
    ihave Hout2 := (Entails.of_eq (rounds_put (fun k' f => outRound d L k' f) (m (outLoc d)) (lookupF m d) 9 (by decide))) $$ [Hdone Horest]
    · isplitl [Hdone]; · iexact Hdone
      iexact Horest
    ihave Hout3 := (Entails.of_eq ((bigSep_congr (s := (Finset.univ : Finset (Fin 10))) (Φ := fun k' : Fin 10 => outRound d L k' (if k'.val < 9 + 1 then lookupF m d else m (outLoc d)))
        (Ψ := fun k' : Fin 10 => outRound d L k' (lookupF m d)) fun k' _ => by rw [if_pos k'.isLt]).trans (outChunks_rounds (F := F) d L (lookupF m d)).symm)) $$ Hout2
    -- the last round's windows back to the pool, and the position scratch whole
    ihave Hback := (Entails.of_eq (bigSep_fin10 (fun b : Fin 10 => ((iV).view.loc (V d (cV L) (jV L)) ↦[idxSet (ch (rk 9) b)]{fullShare} fI : sProp 𝕄))).symm) $$ [Hf0_dst_and Hf1_dst_and Hf2_dst_and Hf3_dst_and Hf4_dst_and Hf5_dst_and Hf6_dst_and Hf7_dst_and Hf8_dst_and Hf9_dst_and]
    · isplitl [Hf0_dst_and]; · iexact Hf0_dst_and
      isplitl [Hf1_dst_and]; · iexact Hf1_dst_and
      isplitl [Hf2_dst_and]; · iexact Hf2_dst_and
      isplitl [Hf3_dst_and]; · iexact Hf3_dst_and
      isplitl [Hf4_dst_and]; · iexact Hf4_dst_and
      isplitl [Hf5_dst_and]; · iexact Hf5_dst_and
      isplitl [Hf6_dst_and]; · iexact Hf6_dst_and
      isplitl [Hf7_dst_and]; · iexact Hf7_dst_and
      isplitl [Hf8_dst_and]; · iexact Hf8_dst_and
      iexact Hf9_dst_and
    ihave Hiall := (Entails.of_eq ((SparseCore.bigSep_erase' (Finset.mem_univ (rk 9)) (Φ := fun k' : Fin 10 => bigSep Finset.univ fun b : Fin 10 => ((iV).view.loc (V d (cV L) (jV L)) ↦[idxSet (ch k' b)]{fullShare} fI : sProp 𝕄))).symm.trans
        ((iPts_pool (F := F) d L fI).symm.trans (pts_iV (F := F) d L fI)))) $$ [Hback Hpool]
    · isplitl [Hback]; · iexact Hback
      iexact Hpool
    -- the row scratch whole at some contents; the subcore's read share of the table whole
    ihave Hslots := (slots_join (F := F) d L) $$ [Hf0_dst Hf1_dst Hf2_dst Hf3_dst Hf4_dst Hf5_dst Hf6_dst Hf7_dst Hf8_dst Hf9_dst]
    · iapply (Entails.of_eq (bigSep_fin10 (fun b : Fin 10 => (iprop(∃ f, (slotB b).view.loc (V d (cV L) (jV L)) ↦[(slotB b).view.set]{fullShare} f) : sProp 𝕄))).symm)
      isplitl [Hf0_dst]; · iexists _; iexact Hf0_dst
      isplitl [Hf1_dst]; · iexists _; iexact Hf1_dst
      isplitl [Hf2_dst]; · iexists _; iexact Hf2_dst
      isplitl [Hf3_dst]; · iexists _; iexact Hf3_dst
      isplitl [Hf4_dst]; · iexists _; iexact Hf4_dst
      isplitl [Hf5_dst]; · iexists _; iexact Hf5_dst
      isplitl [Hf6_dst]; · iexists _; iexact Hf6_dst
      isplitl [Hf7_dst]; · iexists _; iexact Hf7_dst
      isplitl [Hf8_dst]; · iexists _; iexact Hf8_dst
      iexists _; iexact Hf9_dst
    ihave Htbl2 := (tbl_toks_join (F := F) d L (shareTokN fullShare (jV L).val) (tblF m d (cV L))) $$ [Htd Hz0 Hz1 Hz2 Hz3 Hz4 Hz5 Hz6 Hz7 Hz8 Hz9]
    · isplitl [Htd]; · iexact Htd
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      iexact Hz9
    sl_step
    isplitl [Hp' Hout3 Htbl2 Hextra]
    · isplitl [Hp']; · iapply (Entails.of_eq (pts_posK (F := F) d L _)); iexact Hp'
      isplitl [Hout3]; · iexact Hout3
      isplitl [Htbl2]; · iexact Htbl2
      iexact Hextra
    isplitl [Hiall Hslots Hbufs]
    · isplitl [Hiall]; · iexists _; iexact Hiall
      isplitl [Hslots]; · iexact Hslots
      iexact Hbufs
    isplitl [Hf0 Hf1 Hf2 Hf3 Hf4 Hf5 Hf6 Hf7 Hf8 Hf9 Hw0 Hw1 Hw2 Hw3 Hw4 Hw5 Hw6 Hw7 Hw8 Hw9 Hs20 Hs21 Hs22]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      isplitl [Hf9]; · iexact Hf9
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hs20]; · iexact Hs20
      isplitl [Hs21]; · iexact Hs21
      iexact Hs22
    iexists _; isplitr
    swap; · iexact HO
    ipureintro; intro p hp
    repeat (rcases Finset.mem_insert.mp hp with h | hp; · exact .inr (.inl (h ▸ rfl)))
    exact hW' p hp
  )

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_embed (coordsV c s)
          pV (Memref.isWhole_whole _) bV (Memref.isWhole_whole _) eV (Memref.isWhole_whole _) oV (Memref.isWhole_whole _)
          tV (Memref.isWhole_whole _) iV (Memref.isWhole_whole _) rV (Memref.isWhole_whole _) cc0_scratch3 cc0_scratch4 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.KI

end
-- ==== Proof.KBDefs.lean ====
/-
  The vocabulary of one vector subcore's task: its worker number and rows; its scoped semaphores and scratch buffers as the
  launch hands them over; the kernel's slices (its row of the position list, the hundred windows of the position scratch, the
  ten slots of the row scratch, the shared table through its whole-table slice, the 64-row chunks of the result) identified
  with the parts of the partitions the launch deals in; the barrier's payloads; that the fetched positions are in range; and
  what a slot holds once a chunk's rows are gathered into it.
-/
import proofs.«207546_g72756745994873_cont_9to1_m_541_11_alg».proof.Proof.KBSetup
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

local notation "pV" => (Memref.whole Cert.Kernel.main_arg0_scv : Memref Cert.Kernel.sig Kind.scVector Space.hbm Cert.Kernel.S204800 EltTy.i32)
local notation "bV" => (Memref.whole Cert.Kernel.main_arg1_scv : Memref Cert.Kernel.sig Kind.scVector Space.hbm Cert.Kernel.S20x128 EltTy.f32)
local notation "eV" => (Memref.whole Cert.Kernel.main_arg2_scv : Memref Cert.Kernel.sig Kind.scVector Space.hbm Cert.Kernel.S180x128 EltTy.f32)
local notation "oV" => (Memref.whole Cert.Kernel.main_v0_scv : Memref Cert.Kernel.sig Kind.scVector Space.hbm Cert.Kernel.S204800x128 EltTy.f32)
local notation "tV" => (Memref.whole Cert.Kernel.cc0_scratch0 : Memref Cert.Kernel.sig Kind.scVector Space.shared Cert.Kernel.S200x128 EltTy.f32)
local notation "iV" => (Memref.whole Cert.Kernel.cc0_scratch1 : Memref Cert.Kernel.sig Kind.scVector Space.vmem Cert.Kernel.S6400 EltTy.i32)
local notation "rV" => (Memref.whole Cert.Kernel.cc0_scratch2 : Memref Cert.Kernel.sig Kind.scVector Space.vmem Cert.Kernel.S10x64x128 EltTy.f32)

variable [FloatOps F]
variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The worker number of the subcore at grid coordinates `L`: `2 (L 1) + L 0`. -/
def wL (L : grid0.Coords) : Fin 32 := ⟨2 * (L 1).val + (L 0).val, by
  have h0 : (L 0).val < 2 := (L 0).isLt
  have h1 : (L 1).val < 16 := (L 1).isLt
  omega⟩
omit [FloatOps F] in
theorem wL_eq : wL L = wid (Fin.cast bound_zero (L 0)) (Fin.cast bound_one (L 1)) := Fin.ext rfl

/-- The subcore's scoped DMA semaphore number `k` (the ten gather semaphores, the ten write-back semaphores, and the three
    of the blocking copies). -/
abbrev dcell (d : Dev nD) (c : Fin τ.nSC) (i : Fin τ.nSub) (k : Fin 23) : GSem nD τ sig := (V d c i, .dma k)

omit [FloatOps F] in
theorem ownCells_V (c : Fin τ.nSC) (i : Fin τ.nSub) : ownCells (V d c i) = (Finset.univ : Finset (Fin 23)).image (dcell d c i) := by
  have hreg : ∀ s : Sem sig, (SemLoc.reg s : SemLoc sig).isScoped .scVector = false := by decide
  ext g
  rw [mem_ownCells, Finset.mem_image]
  constructor
  · rintro ⟨h1, h⟩
    rcases g with ⟨thr, sm⟩
    dsimp only at h1; subst h1
    cases sm with
    | reg s => exact absurd (show (SemLoc.reg s : SemLoc sig).isScoped .scVector = true from h) (by rw [hreg s]; decide)
    | dma k => exact ⟨k, Finset.mem_univ _, rfl⟩
  · rintro ⟨k, -, rfl⟩
    exact ⟨rfl, by show (SemLoc.dma k : SemLoc sig).isScoped .scVector = true; revert k; decide⟩

omit [FloatOps F] in
theorem bigSep_fin23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9
    ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) := by
  rw [show (Finset.univ : Finset (Fin 23)) = {0, 1, 2, 3, 4, 5, 6, 7, 8, 9, 10, 11, 12, 13, 14, 15, 16, 17, 18, 19, 20, 21, 22} by decide]
  repeat rw [SparseCore.bigSep_insert' (by decide)]
  rw [bigSep_singleton]

omit [FloatOps F] in
theorem ownSems0_V (c : Fin τ.nSC) (i : Fin τ.nSub) :
    (ownSems0 (V d c i) : sProp 𝕄) = bigSep Finset.univ fun k : Fin 23 => semVal (dcell d c i k) 0 := by
  unfold SparseCore.Cfg.ownSems0
  rw [ownCells_V, SparseCore.bigSep_image_of_injOn (fun a _ b _ e => by simpa [dcell] using e)]

omit [FloatOps F] in
/-- The position scratch and the row scratch are the subcore's own: they are they, at some contents, and the rest. -/
theorem ownBufs_V (c : Fin τ.nSC) (i : Fin τ.nSub) :
    (ownBufs (V d c i) : sProp 𝕄)
      = iprop((∃ f, (V d c i).loc cc0_scratch1 ↦{fullShare} f) ∗ (∃ f, (V d c i).loc cc0_scratch2 ↦{fullShare} f)
          ∗ bigSep (((ownRefs (τ := τ) (.scVector c i)).erase ((Proc.scVector c i).devRef cc0_scratch1)).erase ((Proc.scVector c i).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector c i) (b := (Proc.scVector c i).devRef cc0_scratch1) rfl)]
  rw [SparseCore.bigSep_erase' (Finset.mem_erase.mpr ⟨fun e => absurd (Proc.devRef_injective _ e) (show (cc0_scratch2 : Ref sig .scVector) ≠ cc0_scratch1 by decide),
    SparseCore.Cfg.mem_ownRefs_of_owner (p := Proc.scVector c i) (b := (Proc.scVector c i).devRef cc0_scratch2) rfl⟩)]

/-! ## The kernel's slices are the workers' rows and chunks -/

/-- The positions row of the subcore, as the kernel slices it. -/
abbrev posRectK (L : grid0.Coords) : Rect S204800 := Rect.unit (s := S204800) (k0_off1 L) S6400.size (k0_off1_inb L)
abbrev posK (L : grid0.Coords) : Memref sig .scVector .hbm S6400 .i32 := (pV).slice (posRectK L) (fun _ => rfl)

omit [FloatOps F] in
theorem posRectK_eq : posRectK L = posRect (wL L) := by
  unfold posRectK posRect Rect.part Rect.block
  congr 1 <;> funext a
  · rw [k0_off1_eq]
    match a with
    | 0 => simp [Shape.partIx, Shape.partSize, wL]; omega
  · match a with
    | 0 => simp [Shape.partSize]

omit [FloatOps F] in
theorem set_posK : (posK L).view.set = posSet (wL L) := by
  show ((pV).view.slice (posRectK L)).set = ((pV).view.slice (posRect (wL L))).set
  rw [posRectK_eq]

omit [FloatOps F] in
theorem pts_posK (f : Buf (Elt F) (posLoc d)) :
    ((posK L).view.loc (V d (cV L) (jV L)) ↦[(posK L).view.set]{fullShare} f : sProp 𝕄) = posLoc d ↦[posSet (wL L)]{fullShare} f := by
  rw [set_posK]
omit [FloatOps F] in
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
omit [FloatOps F] in
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-! ## The barrier's payloads -/

omit [FloatOps F] in
/-- A subcore other than 0 hands nothing over at the barrier. -/
theorem pays_intro_other (h : ¬ (jV L).val = 0) : (iprop(emp) : sProp 𝕄)
    ⊢ (bigSep Finset.univ fun j : Fin (grid0.bound 1) => (bRd (F := F) m).payload (bcell d (cV L) (j.castLE hsub0)) 0 (jV L).val : sProp 𝕄) := by
  rw [show (fun j : Fin (grid0.bound 1) => (bRd (F := F) m).payload (bcell d (cV L) (j.castLE hsub0)) 0 (jV L).val) = fun _ => (iprop(emp) : sProp 𝕄) from
    funext fun j => if_neg h, bigSep_emp']

omit [FloatOps F] in
/-- After the barrier, what a subcore's own round collected holds its read share of the filled table. -/
theorem pays_elim : (bigSep ((bRd (F := F) m).duties (bcell d (cV L) (jV L)) 0 \ ∅) fun n => (bRd (F := F) m).payload (bcell d (cV L) (jV L)) 0 n)
    ⊢ (tblShare m d (cV L) (jV L).val : sProp 𝕄) := by
  rw [Finset.sdiff_empty, bRd_duties₀]
  refine (bigSep_elim (i := 0) (Finset.mem_image.mpr ⟨(⟨0, by decide⟩ : Fin τ.nSub), Finset.mem_univ _, rfl⟩)).trans ?_
  show bPay m (bcell d (cV L) (jV L)) 0 ⊢ _
  unfold bPay; dsimp only
  rw [if_pos rfl]

/-! ## A unit-stride slice at a multiple of the part's thickness is a part -/

omit [FloatOps F] in
theorem slice_unit_set_eq_part {κ : Kind} {sp : Space} {s : Shape} {e : EltTy} (mr : Memref sig κ sp s e) {a₀ : Fin s.rank} {n : Nat} (hn : n ∣ s.size a₀) (j : Fin n)
    (off size : Fin s.rank → Nat) (inb : ∀ a, off a + size a ≤ s.size a) (hoff : off = fun a => s.partIx a₀ j a * s.partSize a₀ n a) (hsz : size = s.partSize a₀ n) :
    (mr.view.slice (Rect.unit off size inb)).set = (mr.view.slice (Rect.part hn j)).set := by
  subst hoff hsz; rfl

omit [FloatOps F] in
theorem unit_eq_part {s : Shape} {a₀ : Fin s.rank} {n : Nat} (hn : n ∣ s.size a₀) (j : Fin n) (off size : Fin s.rank → Nat)
    (inb : ∀ a, off a + size a ≤ s.size a) (hoff : off = fun a => s.partIx a₀ j a * s.partSize a₀ n a) (hsz : size = s.partSize a₀ n) :
    Rect.unit off size inb = Rect.part hn j := by
  subst hoff hsz; rfl

/-! ## The position scratch in a hundred windows of 64, the row scratch in ten slots -/

theorem hdivI : 100 ∣ S6400.size 0 := ⟨64, rfl⟩
abbrev idxRect (j : Fin 100) : Rect S6400 := Rect.part (s := S6400) (a₀ := 0) hdivI j
abbrev idxSet (j : Fin 100) : Finset S6400.Idx := ((iV).view.slice (idxRect j)).set
theorem hdivR : 10 ∣ S10x64x128.size 0 := ⟨1, rfl⟩
abbrev slotRect (b : Fin 10) : Rect S10x64x128 := Rect.part (s := S10x64x128) (a₀ := 0) hdivR b
abbrev slotSet (b : Fin 10) : Finset S10x64x128.Idx := ((rV).view.slice (slotRect b)).set

omit [FloatOps F] in
theorem idxSet_eq (j : Fin 100) : idxSet j = (idxRect j).set := by
  show ((View.whole (cc0_scratch1 : Ref sig .scVector)).slice (idxRect j)).set = _
  rw [View.set_slice]; exact Finset.map_refl
omit [FloatOps F] in
theorem idx_disjoint : ∀ i ∈ (Finset.univ : Finset (Fin 100)), ∀ j ∈ (Finset.univ : Finset (Fin 100)), i ≠ j → Disjoint (idxSet i) (idxSet j) :=
  fun i _ j _ h => by rw [idxSet_eq, idxSet_eq]; exact Rect.part_disjoint hdivI h
omit [FloatOps F] in
theorem idx_cover : (Finset.univ : Finset (Fin 100)).biUnion idxSet = Finset.univ :=
  (Finset.biUnion_congr rfl fun i _ => idxSet_eq i).trans (Rect.biUnion_part hdivI)
omit [FloatOps F] in
theorem iPts_windows (f : Buf (Elt F) ((V d (cV L) (jV L)).loc cc0_scratch1)) :
    ((iV).view.loc (V d (cV L) (jV L)) ↦{fullShare} f : sProp 𝕄) = bigSep Finset.univ fun j : Fin 100 => (iV).view.loc (V d (cV L) (jV L)) ↦[idxSet j]{fullShare} f := by
  rw [← pointsTo_biUnion Finset.univ (ℓ := (iV).view.loc (V d (cV L) (jV L))) idxSet idx_disjoint, idx_cover]; try rfl

omit [FloatOps F] in
theorem slotSet_eq (b : Fin 10) : slotSet b = (slotRect b).set := by
  show ((View.whole (cc0_scratch2 : Ref sig .scVector)).slice (slotRect b)).set = _
  rw [View.set_slice]; exact Finset.map_refl
omit [FloatOps F] in
theorem slot_disjoint : ∀ i ∈ (Finset.univ : Finset (Fin 10)), ∀ j ∈ (Finset.univ : Finset (Fin 10)), i ≠ j → Disjoint (slotSet i) (slotSet j) :=
  fun i _ j _ h => by rw [slotSet_eq, slotSet_eq]; exact Rect.part_disjoint hdivR h
omit [FloatOps F] in
theorem slot_cover : (Finset.univ : Finset (Fin 10)).biUnion slotSet = Finset.univ :=
  (Finset.biUnion_congr rfl fun i _ => slotSet_eq i).trans (Rect.biUnion_part hdivR)
omit [FloatOps F] in
theorem rPts_slots (f : Buf (Elt F) ((V d (cV L) (jV L)).loc cc0_scratch2)) :
    ((rV).view.loc (V d (cV L) (jV L)) ↦{fullShare} f : sProp 𝕄) = bigSep Finset.univ fun b : Fin 10 => (rV).view.loc (V d (cV L) (jV L)) ↦[slotSet b]{fullShare} f := by
  rw [← pointsTo_biUnion Finset.univ (ℓ := (rV).view.loc (V d (cV L) (jV L))) slotSet slot_disjoint, slot_cover]; try rfl

/-- A window of the position scratch, as the kernel slices it at offset `off`. -/
abbrev idxK (off : Fin 1 → Nat) (h : ∀ a, off a + S64.size a ≤ S6400.size a) : Memref sig .scVector .vmem S64 .i32 :=
  (iV).slice (Rect.unit (s := S6400) off S64.size h) (fun _ => rfl)
/-- A slot of the row scratch, as the kernel slices and squeezes it. -/
abbrev slotK (off : Fin 3 → Nat) (h : ∀ a, off a + S1x64x128.size a ≤ S10x64x128.size a) : Memref sig .scVector .vmem S64x128 .f32 :=
  ((rV).slice (Rect.unit (s := S10x64x128) off S1x64x128.size h) (fun _ => rfl)).squeeze S64x128 squeezes_S1x64x128_S64x128
/-- The shared table through the kernel's whole-table slice. -/
abbrev tblK : Memref sig .scVector .shared S200x128 .f32 :=
  (tV).slice (Rect.unit (s := S200x128) ![0, 0] S200x128.size inb_S200x128_S200x128_0_0) (fun _ => rfl)

omit [FloatOps F] in
theorem set_idxK (off : Fin 1 → Nat) (h : ∀ a, off a + S64.size a ≤ S6400.size a) (j : Fin 100) (e : off 0 = 64 * j.val) :
    (idxK off h).view.set = idxSet j := by
  show ((iV).view.slice (Rect.unit (s := S6400) off S64.size h)).set = ((iV).view.slice (idxRect j)).set
  rw [unit_eq_part hdivI j off S64.size h (funext fun a => by
      match a with
      | 0 => simp [Shape.partIx, Shape.partSize, e]; omega) (funext fun a => by
      match a with
      | 0 => simp [Shape.partSize])]

omit [FloatOps F] in
theorem set_slotK (off : Fin 3 → Nat) (h : ∀ a, off a + S1x64x128.size a ≤ S10x64x128.size a) (b : Fin 10) (e0 : off 0 = b.val) (e1 : off 1 = 0) (e2 : off 2 = 0) :
    (slotK off h).view.set = slotSet b := by
  show (((rV).view.slice (Rect.unit (s := S10x64x128) off S1x64x128.size h)).reshape S64x128 squeezes_S1x64x128_S64x128.numel_eq).set = ((rV).view.slice (slotRect b)).set
  rw [View.set_reshape]
  exact (slice_unit_set_eq_part (rV) hdivR b off S1x64x128.size h (funext fun a => by
      match a with
      | 0 => exact e0.trans (Nat.mul_one _).symm
      | 1 => exact e1
      | 2 => exact e2) (funext fun a => by
      match a with
      | 0 => rfl
      | 1 => rfl
      | 2 => rfl))

omit [FloatOps F] in
theorem set_tblK : (tblK).view.set = Finset.univ := by
  show ((View.whole (cc0_scratch0 : Ref sig .scVector)).slice (Rect.unit (s := S200x128) ![0, 0] S200x128.size inb_S200x128_S200x128_0_0)).set = _
  rw [View.set_slice_whole]
  refine Finset.eq_univ_iff_forall.mpr fun i => Rect.mem_set_unit.mpr fun a => ?_
  match a with
  | 0 => exact ⟨Nat.zero_le _, by show (i 0).val < 0 + S200x128.size 0; rw [Nat.zero_add]; exact (i 0).isLt⟩
  | 1 => exact ⟨Nat.zero_le _, by show (i 1).val < 0 + S200x128.size 1; rw [Nat.zero_add]; exact (i 1).isLt⟩

omit [FloatOps F] in
theorem bigSep_range10 (Φ : ℕ → sProp 𝕄) : bigSep (Finset.range 10) Φ = iprop(Φ 0 ∗ Φ 1 ∗ Φ 2 ∗ Φ 3 ∗ Φ 4 ∗ Φ 5 ∗ Φ 6 ∗ Φ 7 ∗ Φ 8 ∗ Φ 9) := by
  rw [show Finset.range 10 = {0, 1, 2, 3, 4, 5, 6, 7, 8, 9} by decide]
  repeat rw [SparseCore.bigSep_insert' (by decide)]
  rw [bigSep_singleton]

omit [FloatOps F] in
theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  repeat rw [SparseCore.bigSep_insert' (by decide)]
  rw [bigSep_singleton]

omit [FloatOps F] in
theorem pts_tblK (q : PosShare TreeShare) (f : Buf (Elt F) (shLoc d (cV L))) :
    ((tblK).view.loc (V d (cV L) (jV L)) ↦[(tblK).view.set]{q} f : sProp 𝕄) = shLoc d (cV L) ↦{q} f := by
  rw [set_tblK]; rfl

/-- The positions a subcore fetched are in range: what the fetch landed in the position scratch is the subcore's row of
    the position list, each word at most 199, whatever window of the scratch is read. -/
theorem hin_of_pre (hpre : PreOK m) (fs : Buf (Elt F) ((V d (cV L) (jV L)).loc cc0_scratch1)) (pay : S6400.Idx → Elt F .i32)
    (hpay : pay = (posK L).view.read (Elt F) (m (posLoc d))) (off : Fin 1 → Nat) (h : ∀ a, off a + S64.size a ≤ S6400.size a) :
    ∀ x, ((idxK off h).view.read (Elt F) (View.write (Elt F) (iV).view fs pay Finset.univ) x).toNat < S200x128.size gathers_S200x128_S64x128.axis := by
  subst hpay; intro x
  rw [View.write_whole_univ]
  refine Nat.lt_of_le_of_lt ?_ (show 199 < S200x128.size gathers_S200x128_S64x128.axis by decide)
  rw [show ∀ (g : S6400.Idx → Elt F .i32) y, (idxK off h).view.read (Elt F) g y = g ((idxK off h).view.emb y) from fun g y => (View.read_apply _ _).trans (cast_eq _ _),
    show ∀ j, (posK L).view.read (Elt F) (m (posLoc d)) j = m (posLoc d) ((posK L).view.emb j) from fun j => (View.read_apply _ _).trans (cast_eq _ _)]
  exact hpre d _

omit [FloatOps F] in
/-- A read share is its remainder after ten tokens and the ten tokens. -/
theorem toks10_split {ℓ : Loc nD τ sig} {S : Finset (Idx ℓ)} {f : Buf (Elt F) ℓ} (q : PosShare TreeShare) :
    (ℓ ↦[S]{q} f : sProp 𝕄) ⊣⊢ iprop((ℓ ↦[S]{shareDrop q 10} f) ∗ (ℓ ↦[S]{shareTokN q 0} f) ∗ (ℓ ↦[S]{shareTokN q 1} f) ∗ (ℓ ↦[S]{shareTokN q 2} f)
      ∗ (ℓ ↦[S]{shareTokN q 3} f) ∗ (ℓ ↦[S]{shareTokN q 4} f) ∗ (ℓ ↦[S]{shareTokN q 5} f) ∗ (ℓ ↦[S]{shareTokN q 6} f) ∗ (ℓ ↦[S]{shareTokN q 7} f)
      ∗ (ℓ ↦[S]{shareTokN q 8} f) ∗ (ℓ ↦[S]{shareTokN q 9} f)) := by
  rw [← bigSep_range10 (fun i => (ℓ ↦[S]{shareTokN q i} f : sProp 𝕄))]; exact Transfers.pointsTo_toks_range q 10

/-- Slot `b` of the row scratch, as the kernel addresses it. -/
abbrev slotB (b : Fin 10) : Memref sig .scVector .vmem S64x128 .f32 :=
  slotK ![b.val, 0, 0] (fun a => by
    match a with
    | 0 => have := b.isLt; show b.val + 1 ≤ 10; omega
    | 1 => exact Nat.le_refl _
    | 2 => exact Nat.le_refl _)

omit [FloatOps F] in
theorem set_slotB (b : Fin 10) : (slotB b).view.set = slotSet b := set_slotK _ _ b rfl rfl rfl

omit [FloatOps F] in
/-- The row scratch whole is its ten slots, each as the kernel addresses it. -/
theorem rPts_slotsB (f : Buf (Elt F) ((V d (cV L) (jV L)).loc cc0_scratch2)) :
    ((rV).view.loc (V d (cV L) (jV L)) ↦{fullShare} f : sProp 𝕄)
      = bigSep Finset.univ fun b : Fin 10 => (slotB b).view.loc (V d (cV L) (jV L)) ↦[(slotB b).view.set]{fullShare} f := by
  rw [rPts_slots]
  exact bigSep_congr fun b _ => by rw [set_slotB]

/-! ## Chunks by round and slot -/

/-- Chunk `10 k + b`: the one slot `b` serves in round `k`. -/
def ch (k b : Fin 10) : Fin 100 := ⟨10 * k.val + b.val, by have := k.isLt; have := b.isLt; omega⟩

def chEquiv : Fin 10 × Fin 10 ≃ Fin 100 where
  toFun p := ch p.1 p.2
  invFun n := (⟨n.val / 10, by have := n.isLt; omega⟩, ⟨n.val % 10, Nat.mod_lt _ (by decide)⟩)
  left_inv := by
    rintro ⟨k, b⟩
    refine Prod.ext (Fin.ext ?_) (Fin.ext ?_)
    · show (10 * k.val + b.val) / 10 = k.val
      have := b.isLt; omega
    · show (10 * k.val + b.val) % 10 = b.val
      have := b.isLt; omega
  right_inv := by
    intro n; refine Fin.ext ?_
    show 10 * (n.val / 10) + n.val % 10 = n.val
    omega

omit [FloatOps F] in
theorem bigSep_rounds (Φ : Fin 100 → sProp 𝕄) :
    bigSep Finset.univ Φ = bigSep Finset.univ fun k : Fin 10 => bigSep Finset.univ fun b : Fin 10 => Φ (ch k b) := by
  rw [bigSep_univ_equiv chEquiv Φ, bigSep_univ_prod]; rfl

/-- The position scratch's windows of the rounds in `s`, all at the contents `f`. -/
abbrev idxPool (s : Finset (Fin 10)) (f : Buf (Elt F) ((V d (cV L) (jV L)).loc cc0_scratch1)) : sProp 𝕄 :=
  bigSep s fun k : Fin 10 => bigSep Finset.univ fun b : Fin 10 => (iV).view.loc (V d (cV L) (jV L)) ↦[idxSet (ch k b)]{fullShare} f

omit [FloatOps F] in
theorem iPts_pool (f : Buf (Elt F) ((V d (cV L) (jV L)).loc cc0_scratch1)) :
    ((iV).view.loc (V d (cV L) (jV L)) ↦{fullShare} f : sProp 𝕄) = idxPool d L Finset.univ f := by
  rw [iPts_windows, bigSep_rounds]

omit [FloatOps F] in
/-- A window of the position scratch held by its elements is held as the kernel addresses it at the window's offset. -/
theorem idxWin_respell (off : Fin 1 → Nat) (h : ∀ a, off a + S64.size a ≤ S6400.size a) (j : Fin 100) (e : off 0 = 64 * j.val)
    (f : Buf (Elt F) ((V d (cV L) (jV L)).loc cc0_scratch1)) :
    ((iV).view.loc (V d (cV L) (jV L)) ↦[idxSet j]{fullShare} f : sProp 𝕄)
      = ((idxK off h).view.loc (V d (cV L) (jV L)) ↦[(idxK off h).view.set]{fullShare} f) := by
  rw [set_idxK off h j e]

/-! ## The result's chunks, as the kernel slices them -/

/-- A 64-row chunk of the result, as the kernel slices it at offset `off`. -/
abbrev outK (off : Fin 2 → Nat) (h : ∀ a, off a + S64x128.size a ≤ S204800x128.size a) : Memref sig .scVector .hbm S64x128 .f32 :=
  (oV).slice (Rect.unit (s := S204800x128) off S64x128.size h) (fun _ => rfl)

omit [FloatOps F] in
theorem set_outK (off : Fin 2 → Nat) (h : ∀ a, off a + S64x128.size a ≤ S204800x128.size a) (n : Fin 3200) (e0 : off 0 = 64 * n.val) (e1 : off 1 = 0) :
    (outK off h).view.set = chunkSet n := by
  show ((oV).view.slice (Rect.unit (s := S204800x128) off S64x128.size h)).set = ((oV).view.slice (chunkRect n)).set
  exact slice_unit_set_eq_part (oV) hdivO n off S64x128.size h (funext fun a => by
      match a with
      | 0 => exact e0.trans (Nat.mul_comm _ _)
      | 1 => exact e1) (funext fun a => by
      match a with
      | 0 => rfl
      | 1 => rfl)

omit [FloatOps F] in
/-- A chunk of the result held by its elements is held as the kernel addresses it at the chunk's offset. -/
theorem outWin_respell (off : Fin 2 → Nat) (h : ∀ a, off a + S64x128.size a ≤ S204800x128.size a) (n : Fin 3200) (e0 : off 0 = 64 * n.val) (e1 : off 1 = 0)
    (f : Buf (Elt F) (outLoc d)) :
    (outLoc d ↦[chunkSet n]{fullShare} f : sProp 𝕄)
      = ((outK off h).view.loc (V d (cV L) (jV L)) ↦[(outK off h).view.set]{fullShare} f) := by
  rw [set_outK off h n e0 e1]

/-! ## What a slot holds once a chunk's rows are gathered -/

/-- The place in the position list of row `r` of chunk `j` of the subcore at `L`. -/
def posAt (L : grid0.Coords) (j : Fin 100) (r : Fin 64) : S204800.Idx :=
  ValueIdx.ix1 ⟨6400 * (wL L).val + 64 * j.val + r.val, by have := (wL L).isLt; have := j.isLt; have := r.isLt; omega⟩

/-- A slot's contents once chunk `j`'s rows are gathered into it: row `r` is the stacked table's row that position `r` of the
    chunk names (whichever slot it is: the first coordinate plays no part). -/
def slotF (j : Fin 100) : Buf (Elt F) ((V d (cV L) (jV L)).loc cc0_scratch2) :=
  fun x => tblF m d (cV L) (ValueIdx.ix2 (Cert.Spec.rowOf (m (posLoc d) (posAt L j (x 1)))) (x 2))

end Cert.Proof.KB

end
-- ==== Proof.KBTile0.lean ====
/-
  Subcore 0's part of the embedding lookup: it alone fills its SparseCore's shared table, and at the subcore barrier it
  hands every subcore of the SparseCore a read share of the filled table.
  The branch: the kernel's test "subcore number = 0" is the word `ne (zext (eq n 0)) 0`, which is 1 exactly for `n = 0`.
  The table is filled by two copies, the base table onto rows 0 … 19 and the extended table onto rows 20 … 199; those two
  row ranges are disjoint and cover the table, so the table held whole is the two pieces held separately, each as the
  kernel slices it. What the copies leave on a piece is the piece's prior contents overwritten by the source table; on rows
  below 20 that is the stacked table's value (the base table's entry), on rows from 20 on it is too (the extended table's
  entry at row − 20); so the two pieces rejoin to the table whole at the stacked contents.
  At the barrier the whole table at the stacked contents is cut into sixteen read tokens, one for each subcore's round —
  subcore 0's duty in every round carries that round's token — and the remainder after sixteen, which subcore 0 keeps.
-/
import proofs.«207546_g72756745994873_cont_9to1_m_541_11_alg».proof.Proof.KBSetup
import Idealize.ShloMosaic.Lib.SparseCore.Launch
import Idealize.ShloMosaic.Lib.SparseCore.Threads
import Idealize.ShloMosaic.Lib.Transfers
import Idealize.ShloMosaic.Rules.PointsTo
import Idealize.ShloMosaic.Lib.Writes
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

local notation "bV" => (Memref.whole Cert.Kernel.main_arg1_scv : Memref Cert.Kernel.sig Kind.scVector Space.hbm Cert.Kernel.S20x128 EltTy.f32)
local notation "eV" => (Memref.whole Cert.Kernel.main_arg2_scv : Memref Cert.Kernel.sig Kind.scVector Space.hbm Cert.Kernel.S180x128 EltTy.f32)
local notation "tV" => (Memref.whole Cert.Kernel.cc0_scratch0 : Memref Cert.Kernel.sig Kind.scVector Space.shared Cert.Kernel.S200x128 EltTy.f32)

variable [FloatOps F]
variable (d : Dev nD) (L : grid0.Coords)

/-- The SparseCore and the subcore at grid coordinates `L`. -/
abbrev t0c (L : grid0.Coords) : Fin τ.nSC := (L 0).castLE hcore0
abbrev t0j (L : grid0.Coords) : Fin τ.nSub := (L 1).castLE hsub0

/-! ## Subcore 0: the two table copies -/

omit [FloatOps F] in
theorem hc_zero (n : ℕ) (h : n = 0) : Scalar.cmpi .ne (Scalar.extui (Scalar.cmpi .eq (BitVec.ofNat 32 n) 0#32)) 0#32 = 1#1 := by
  subst h; decide
omit [FloatOps F] in
theorem hc_nonzero (n : ℕ) (h0 : n ≠ 0) (hlt : n < 16) : ¬ Scalar.cmpi .ne (Scalar.extui (Scalar.cmpi .eq (BitVec.ofNat 32 n) 0#32)) 0#32 = 1#1 := by
  interval_cases n
  · exact absurd rfl h0
  all_goals decide

/-- The base table's rows of the shared table and the extended table's, as the kernel slices them. -/
abbrev tblLoK : Memref sig .scVector .shared S20x128 .f32 :=
  (tV).slice (Rect.unit (s := S200x128) ![0, 0] S20x128.size inb_S200x128_S20x128_0_0) (fun _ => rfl)
abbrev tblHiK : Memref sig .scVector .shared S180x128 .f32 :=
  (tV).slice (Rect.unit (s := S200x128) ![20, 0] S180x128.size inb_S200x128_S180x128_20_0) (fun _ => rfl)

omit [FloatOps F] in
theorem mem_loSet (i : S200x128.Idx) : i ∈ (tblLoK).view.set ↔ (i 0).val < 20 := by
  show i ∈ ((View.whole (cc0_scratch0 : Ref sig .scVector)).slice (Rect.unit (s := S200x128) ![0, 0] S20x128.size inb_S200x128_S20x128_0_0)).set ↔ _
  rw [View.set_slice_whole, Rect.mem_set_unit]
  constructor
  · intro h; have := (h 0).2; simpa using this
  · intro h a
    match a with
    | 0 => exact ⟨Nat.zero_le _, by show (i 0).val < 0 + 20; omega⟩
    | 1 => exact ⟨Nat.zero_le _, by show (i 1).val < 0 + 128; have h1 : (i 1).val < 128 := (i 1).isLt; omega⟩
omit [FloatOps F] in
theorem mem_hiSet (i : S200x128.Idx) : i ∈ (tblHiK).view.set ↔ 20 ≤ (i 0).val := by
  show i ∈ ((View.whole (cc0_scratch0 : Ref sig .scVector)).slice (Rect.unit (s := S200x128) ![20, 0] S180x128.size inb_S200x128_S180x128_20_0)).set ↔ _
  rw [View.set_slice_whole, Rect.mem_set_unit]
  constructor
  · intro h; have := (h 0).1; simpa using this
  · intro h a
    match a with
    | 0 => exact ⟨h, by show (i 0).val < 20 + 180; have h0 : (i 0).val < 200 := (i 0).isLt; omega⟩
    | 1 => exact ⟨Nat.zero_le _, by show (i 1).val < 0 + 128; have h1 : (i 1).val < 128 := (i 1).isLt; omega⟩
omit [FloatOps F] in
theorem hiSet_eq : (Finset.univ : Finset S200x128.Idx) \ (tblLoK).view.set = (tblHiK).view.set := by
  ext i; rw [Finset.mem_sdiff, mem_loSet, mem_hiSet]; simp

omit [FloatOps F] in
theorem pts_bV (q : PosShare TreeShare) (f : Buf (Elt F) (baseLoc d)) :
    ((bV).view.loc (V d (t0c L) (t0j L)) ↦{q} f : sProp 𝕄) = baseLoc d ↦{q} f := rfl
omit [FloatOps F] in
theorem pts_eV (q : PosShare TreeShare) (f : Buf (Elt F) (extLoc d)) :
    ((eV).view.loc (V d (t0c L) (t0j L)) ↦{q} f : sProp 𝕄) = extLoc d ↦{q} f := rfl
omit [FloatOps F] in
theorem pts_tblLoK (f : Buf (Elt F) (shLoc d (t0c L))) :
    ((tblLoK).view.loc (V d (t0c L) (t0j L)) ↦[(tblLoK).view.set]{fullShare} f : sProp 𝕄) = shLoc d (t0c L) ↦[(tblLoK).view.set]{fullShare} f := rfl
omit [FloatOps F] in
theorem pts_tblHiK (f : Buf (Elt F) (shLoc d (t0c L))) :
    ((tblHiK).view.loc (V d (t0c L) (t0j L)) ↦[(tblHiK).view.set]{fullShare} f : sProp 𝕄) = shLoc d (t0c L) ↦[(tblHiK).view.set]{fullShare} f := rfl

omit [FloatOps F] in
/-- The shared table whole is its base rows and its extended rows, each as the kernel slices it. -/
theorem tbl_split (f : Buf (Elt F) (shLoc d (t0c L))) :
    (shLoc d (t0c L) ↦{fullShare} f : sProp 𝕄)
      ⊣⊢ iprop(((tblLoK).view.loc (V d (t0c L) (t0j L)) ↦[(tblLoK).view.set]{fullShare} f) ∗ (tblHiK).view.loc (V d (t0c L) (t0j L)) ↦[(tblHiK).view.set]{fullShare} f) := by
  rw [pts_tblLoK, pts_tblHiK, ← hiSet_eq]
  exact pointsTo_split_subset (Finset.subset_univ _)

/-! ## What the two copies leave is the stacked table -/

omit [FloatOps F] in
/-- On the base rows what the first copy left is the stacked table. -/
theorem lo_contents (f0 : Buf (Elt F) (shLoc d (t0c L))) (pay0 : S20x128.Idx → Elt F .f32)
    (hpay0 : pay0 = (bV).view.read (Elt F) (m (baseLoc d))) :
    ∀ i ∈ (tblLoK).view.set, (tblLoK).view.writes (Elt F) f0 [⟨Rect.whole S20x128, pay0⟩] i = tblF m d (t0c L) i := by
  intro i hi
  have hlt : (i 0).val < 20 := (mem_loSet i).mp hi
  obtain ⟨x, -, rfl⟩ := Finset.mem_map.mp hi
  have h1 := View.read_writes_cons_emb (tblLoK).view f0 (Rect.whole S20x128) pay0 [] x
  rw [Rect.emb_whole_apply] at h1
  have h2 : (tblLoK).view.writes (Elt F) f0 [⟨Rect.whole S20x128, pay0⟩] ((tblLoK).view.emb x) = pay0 x := h1
  rw [h2, hpay0]
  show m (baseLoc d) x = Cert.Spec.stacked (m (baseLoc d)) (m (extLoc d)) ((tblLoK).view.emb x)
  unfold Cert.Spec.stacked
  rw [dif_pos hlt]
  congr 1
  funext a
  match a with
  | 0 => exact Fin.ext (by show (x 0).val = 0 + 1 * (x 0).val; omega)
  | 1 => exact Fin.ext (by show (x 1).val = 0 + 1 * (x 1).val; omega)

omit [FloatOps F] in
/-- On the extended rows what the second copy left is the stacked table. -/
theorem hi_contents (f1 : Buf (Elt F) (shLoc d (t0c L))) (pay1 : S180x128.Idx → Elt F .f32)
    (hpay1 : pay1 = (eV).view.read (Elt F) (m (extLoc d))) :
    ∀ i ∈ (tblHiK).view.set, (tblHiK).view.writes (Elt F) f1 [⟨Rect.whole S180x128, pay1⟩] i = tblF m d (t0c L) i := by
  intro i hi
  have hge : 20 ≤ (i 0).val := (mem_hiSet i).mp hi
  obtain ⟨x, -, rfl⟩ := Finset.mem_map.mp hi
  have h1 := View.read_writes_cons_emb (tblHiK).view f1 (Rect.whole S180x128) pay1 [] x
  rw [Rect.emb_whole_apply] at h1
  have h2 : (tblHiK).view.writes (Elt F) f1 [⟨Rect.whole S180x128, pay1⟩] ((tblHiK).view.emb x) = pay1 x := h1
  rw [h2, hpay1]
  show m (extLoc d) x = Cert.Spec.stacked (m (baseLoc d)) (m (extLoc d)) ((tblHiK).view.emb x)
  unfold Cert.Spec.stacked
  rw [dif_neg (Nat.not_lt.mpr hge)]
  congr 1
  funext a
  match a with
  | 0 => exact Fin.ext (by show (x 0).val = (20 + 1 * (x 0).val) - 20; omega)
  | 1 => exact Fin.ext (by show (x 1).val = 0 + 1 * (x 1).val; omega)

omit [FloatOps F] in
/-- The two pieces of the shared table, as the two copies left them, are the table whole at the stacked contents. -/
theorem tbl_filled (f0 f1 : Buf (Elt F) (shLoc d (t0c L))) (pay0 : S20x128.Idx → Elt F .f32) (pay1 : S180x128.Idx → Elt F .f32)
    (hpay0 : pay0 = (bV).view.read (Elt F) (m (baseLoc d))) (hpay1 : pay1 = (eV).view.read (Elt F) (m (extLoc d))) :
    iprop(((tblLoK).view.loc (V d (t0c L) (t0j L)) ↦[(tblLoK).view.set]{fullShare} (tblLoK).view.writes (Elt F) f0 [⟨Rect.whole S20x128, pay0⟩])
        ∗ (tblHiK).view.loc (V d (t0c L) (t0j L)) ↦[(tblHiK).view.set]{fullShare} (tblHiK).view.writes (Elt F) f1 [⟨Rect.whole S180x128, pay1⟩])
      ⊢ (shLoc d (t0c L) ↦{fullShare} tblF m d (t0c L) : sProp 𝕄) := by
  have hj : iprop((shLoc d (t0c L) ↦[(tblLoK).view.set]{fullShare} tblF m d (t0c L)) ∗ shLoc d (t0c L) ↦[(tblHiK).view.set]{fullShare} tblF m d (t0c L))
      ⊢ (shLoc d (t0c L) ↦{fullShare} tblF m d (t0c L) : sProp 𝕄) := by
    rw [← hiSet_eq]; exact (pointsTo_split_subset (Finset.subset_univ _)).2
  rw [pts_tblLoK, pts_tblHiK]
  iintro ⟨Hlo, Hhi⟩
  ihave Hlo' := (Entails.of_eq (pointsTo_congr (ℓ := shLoc d (t0c L)) (I := (tblLoK).view.set) (q := fullShare) (lo_contents m d L f0 pay0 hpay0))) $$ Hlo
  ihave Hhi' := (Entails.of_eq (pointsTo_congr (ℓ := shLoc d (t0c L)) (I := (tblHiK).view.set) (q := fullShare) (hi_contents m d L f1 pay1 hpay1))) $$ Hhi
  iapply hj
  isplitl [Hlo']; · iexact Hlo'
  iexact Hhi'

/-! ## Subcore 0's duty at the barrier -/

omit [FloatOps F] in
/-- Subcore 0 hands every subcore its read share of the filled table and keeps the remainder after sixteen. -/
theorem pays_intro_zero (h : (t0j L).val = 0) :
    (shLoc d (t0c L) ↦{fullShare} tblF m d (t0c L) : sProp 𝕄)
      ⊢ iprop((bigSep Finset.univ fun j : Fin (grid0.bound 1) => (bRd (F := F) m).payload (bcell d (t0c L) (j.castLE hsub0)) 0 (t0j L).val)
          ∗ shLoc d (t0c L) ↦{shareDrop fullShare 16} tblF m d (t0c L)) := by
  have e : (fun j : Fin (grid0.bound 1) => (bRd (F := F) m).payload (bcell d (t0c L) (j.castLE hsub0)) 0 (t0j L).val)
      = fun j : Fin (grid0.bound 1) => (shLoc d (t0c L) ↦{shareTokN fullShare j.val} tblF m d (t0c L) : sProp 𝕄) :=
    funext fun j => by
      show bPay m (bcell d (t0c L) (j.castLE hsub0)) (t0j L).val = _
      unfold bPay; dsimp only; rw [if_pos h]
      rfl
  rw [e]
  refine (Transfers.pointsTo_toks (ℓ := shLoc d (t0c L)) (S := Finset.univ) (f := tblF m d (t0c L)) fullShare 16).1.trans ?_
  exact sep_comm.1

end Cert.Proof.KB

end
-- ==== Proof.KBValue.lean ====
/-
  The values of one subcore's gathers and write-backs. A slot of the row scratch, after the rows that a window of 64
  fetched positions names are gathered into it out of the shared stacked table, holds at entry (r, c) the stacked table's
  row named by position 6400 w + 64 j + r of the list, at column c (w the subcore's worker number, j the chunk): the
  window's entry r is the list's position 6400 w + 64 j + r, a position in range names the row its value spells, and the
  squeezed slot places entry (r, c) at coordinates (r, c) behind the slot's number. Writing that slot back to rows
  6400 w + 64 j … 6400 w + 64 j + 63 of the result leaves there those rows of the embedding lookup, the stacked table
  being the table the lookup reads. Each statement is given for a one-piece whole write kept as a list and for the raw
  unmasked write.
-/
import proofs.«207546_g72756745994873_cont_9to1_m_541_11_alg».proof.Proof.KBDefs
import Idealize.ShloMosaic.Lib.ValueIdx
import Idealize.ShloMosaic.Lib.Writes
import Idealize.ShloMosaic.Lib.SparseCore.Stream

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "pV" => (Memref.whole Cert.Kernel.main_arg0_scv : Memref Cert.Kernel.sig Kind.scVector Space.hbm Cert.Kernel.S204800 EltTy.i32)
local notation "bV" => (Memref.whole Cert.Kernel.main_arg1_scv : Memref Cert.Kernel.sig Kind.scVector Space.hbm Cert.Kernel.S20x128 EltTy.f32)
local notation "eV" => (Memref.whole Cert.Kernel.main_arg2_scv : Memref Cert.Kernel.sig Kind.scVector Space.hbm Cert.Kernel.S180x128 EltTy.f32)
local notation "oV" => (Memref.whole Cert.Kernel.main_v0_scv : Memref Cert.Kernel.sig Kind.scVector Space.hbm Cert.Kernel.S204800x128 EltTy.f32)
local notation "tV" => (Memref.whole Cert.Kernel.cc0_scratch0 : Memref Cert.Kernel.sig Kind.scVector Space.shared Cert.Kernel.S200x128 EltTy.f32)
local notation "iV" => (Memref.whole Cert.Kernel.cc0_scratch1 : Memref Cert.Kernel.sig Kind.scVector Space.vmem Cert.Kernel.S6400 EltTy.i32)
local notation "rV" => (Memref.whole Cert.Kernel.cc0_scratch2 : Memref Cert.Kernel.sig Kind.scVector Space.vmem Cert.Kernel.S10x64x128 EltTy.f32)

variable [FloatOps F]
variable (d : Dev nD) (L : grid0.Coords)

/-! ## Reading back a one-piece whole write -/

omit [FloatOps F] in
/-- A one-piece write of the whole shape through a view, read at the element under index `z`, is the payload at `z`. -/
theorem val_writes_whole_emb {κ : Kind} {sp : Space} {s : Shape} {e : EltTy} (v : View sig κ sp s e) (f : v.ty.Contents (Elt F))
    (w : s.Idx → Elt F e) (z : s.Idx) :
    v.writes (Elt F) f [⟨Rect.whole s, w⟩] (v.emb z) = _root_.cast (congrArg (Elt F) v.elt_eq.symm) (w z) := by
  rw [View.writes_singleton]
  have he : v.emb z = (v.slice (Rect.whole s)).emb z := by
    show v.emb z = v.emb ((Rect.whole s).emb z)
    rw [Rect.emb_whole_apply]
  rw [he]
  exact View.write_emb_of_mem _ _ (Finset.mem_univ _)

/-! ## The embeddings of the kernel's slices, by coordinates -/

omit [FloatOps F] in
/-- Dropping the unit leading axis: index `(r, c)` of the 64 × 128 shape is index `(0, r, c)` of the 1 × 64 × 128 shape. -/
theorem val_squeeze_eq (h : S64x128.numel = S1x64x128.numel) (z : S64x128.Idx) :
    Shape.reshapeEquiv h z = (ix3 (n0 := 1) (n1 := 64) (n2 := 128) ⟨0, Nat.one_pos⟩ (z 0) (z 1) : S1x64x128.Idx) :=
  Shape.reshapeEquiv_eq_of_rowMajor h (by
    rw [Shape.rowMajor_val_three, Shape.rowMajor_val_two]
    show ((0 * 64 + (z 0).val) * 128 + (z 1).val) = (z 0).val * 128 + (z 1).val
    omega)

omit [FloatOps F] in
theorem val_slotB_emb1 (b : Fin 10) (z : S64x128.Idx) : (((slotB b).view.emb z) 1).val = (z 0).val := by
  show ((Rect.unit (s := S10x64x128) ![b.val, 0, 0] S1x64x128.size _).emb (Shape.reshapeEquiv squeezes_S1x64x128_S64x128.numel_eq z) 1).val = _
  rw [val_squeeze_eq]
  show 0 + 1 * (z 0).val = _
  omega

omit [FloatOps F] in
theorem val_slotB_emb2 (b : Fin 10) (z : S64x128.Idx) : (((slotB b).view.emb z) 2).val = (z 1).val := by
  show ((Rect.unit (s := S10x64x128) ![b.val, 0, 0] S1x64x128.size _).emb (Shape.reshapeEquiv squeezes_S1x64x128_S64x128.numel_eq z) 2).val = _
  rw [val_squeeze_eq]
  show 0 + 1 * (z 1).val = _
  omega

omit [FloatOps F] in
/-- The shared table's whole-table slice places every index at itself. -/
theorem val_tblK_emb (y : S200x128.Idx) : (tblK).view.emb y = y := by
  funext a
  match a with
  | 0 => exact Fin.ext (show 0 + 1 * (y 0).val = (y 0).val by omega)
  | 1 => exact Fin.ext (show 0 + 1 * (y 1).val = (y 1).val by omega)

omit [FloatOps F] in
/-- The place in the position list of entry `k` of the window at offset `64 j` of the subcore's position row. -/
theorem val_pos_emb (j : Fin 100) (off : Fin 1 → Nat) (h : ∀ a, off a + S64.size a ≤ S6400.size a) (e : off 0 = 64 * j.val)
    (k r : Fin 64) (hr : r.val = k.val) :
    (posK L).view.emb ((idxK off h).view.emb (ix1 k)) = posAt L j r := by
  funext a
  match a with
  | 0 =>
    refine Fin.ext ?_
    show (k0_off1 L) 0 + 1 * (off 0 + 1 * k.val) = 6400 * (wL L).val + 64 * j.val + r.val
    rw [k0_off1_eq, e, hr]
    show 12800 * (L 1).val + 6400 * (L 0).val + 1 * (64 * j.val + 1 * k.val) = 6400 * (2 * (L 1).val + (L 0).val) + 64 * j.val + k.val
    omega

omit [FloatOps F] in
/-- Entry `k` of a rank-one offset list names the row its `k`-th word spells. -/
theorem val_rows_eq {o z : ℕ} (idx : S64.Idx → Elt F .i32) (hn : S64.numel = o) (h : ∀ x, (idx x).toNat < z) (k : Fin o) (k' : Fin 64) (hk : k'.val = k.val) :
    (SparseCore.rows idx hn h k).val = (idx (ix1 k')).toNat := by
  unfold SparseCore.rows
  show (idx (S64.rowMajor.symm (k.cast hn.symm))).toNat = _
  congr 2
  refine (Equiv.symm_apply_eq _).mpr (Fin.ext ?_)
  rw [Shape.rowMajor_val_one]
  exact hk.symm

/-- A position in range names the row its value spells. -/
theorem val_rowOf_eq (p : BitVec 32) (hp : p.toNat ≤ 199) : (Cert.Spec.rowOf p).val = p.toNat := by
  show min p.toNat 199 = p.toNat
  omega

omit [FloatOps F] in
theorem val_slotB_writes (b : Fin 10) (fr : Buf (Elt F) ((V d (cV L) (jV L)).loc cc0_scratch2)) (w : S64x128.Idx → Elt F .f32) (z : S64x128.Idx) :
    (slotB b).view.writes (Elt F) fr [⟨Rect.whole S64x128, w⟩] ((slotB b).view.emb z) = w z :=
  (val_writes_whole_emb _ _ _ _).trans (cast_eq _ _)

omit [FloatOps F] in
theorem val_slotB_write (b : Fin 10) (fr : Buf (Elt F) ((V d (cV L) (jV L)).loc cc0_scratch2)) (w : S64x128.Idx → Elt F .f32) (z : S64x128.Idx) :
    View.write (Elt F) (slotB b).view fr w Finset.univ ((slotB b).view.emb z) = w z :=
  (View.write_emb_of_mem _ _ (Finset.mem_univ _)).trans (cast_eq _ _)

/-- What a gather of chunk `j` leaves at entry `z` of a slot: the stacked table's row that position `z 0` of the chunk names, at column `z 1`. -/
theorem val_gather_at (hpre : PreOK m) (b : Fin 10) (j : Fin 100) (off : Fin 1 → Nat) (h : ∀ a, off a + S64.size a ≤ S6400.size a) (e : off 0 = 64 * j.val)
    (fI : Buf (Elt F) ((V d (cV L) (jV L)).loc cc0_scratch1))
    (hfI : ∀ y : S6400.Idx, fI y = m (posLoc d) ((posK L).view.emb y))
    (hn : S64.numel = S64x128.size gathers_S200x128_S64x128.axis')
    (hin : ∀ x, ((idxK off h).view.read (Elt F) fI x).toNat < S200x128.size gathers_S200x128_S64x128.axis) (z : S64x128.Idx) :
    SparseCore.gatherPayload gathers_S200x128_S64x128 ((tblK).view.read (Elt F) (tblF m d (cV L))) (SparseCore.rows ((idxK off h).view.read (Elt F) fI) hn hin) z
      = slotF m d L j ((slotB b).view.emb z) := by
  show (tblK).view.read (Elt F) (tblF m d (cV L)) (gathers_S200x128_S64x128.idx (SparseCore.rows ((idxK off h).view.read (Elt F) fI) hn hin) z) = _
  rw [show ∀ y, (tblK).view.read (Elt F) (tblF m d (cV L)) y = tblF m d (cV L) ((tblK).view.emb y) from fun y => (View.read_apply _ _).trans (cast_eq _ _), val_tblK_emb]
  show tblF m d (cV L) _ = tblF m d (cV L) _
  congr 1
  funext a
  match a with
  | 0 =>
    refine Fin.ext ?_
    have hax := Shape.Gathers.idx_axis gathers_S200x128_S64x128 (SparseCore.rows ((idxK off h).view.read (Elt F) fI) hn hin) z
    have h0 : (gathers_S200x128_S64x128.idx (SparseCore.rows ((idxK off h).view.read (Elt F) fI) hn hin) z 0).val
        = (SparseCore.rows ((idxK off h).view.read (Elt F) fI) hn hin (z 0)).val := congrArg Fin.val hax
    rw [h0, val_rows_eq _ hn hin (z 0) (z 0) rfl]
    rw [show ∀ y, (idxK off h).view.read (Elt F) fI y = fI ((idxK off h).view.emb y) from fun y => (View.read_apply _ _).trans (cast_eq _ _), hfI,
      val_pos_emb L j off h e (z 0) (((slotB b).view.emb z) 1) (val_slotB_emb1 b z)]
    exact (val_rowOf_eq _ (hpre d _)).symm
  | 1 =>
    refine Fin.ext ?_
    rw [Shape.Gathers.idx_of_ne gathers_S200x128_S64x128 _ z 1 (by decide)]
    exact (val_slotB_emb2 b z).symm

/-- After an indirect gather of chunk `j` into slot `b`, the slot holds the chunk's rows. -/
theorem slot_gather_eq (hpre : PreOK m) (b : Fin 10) (j : Fin 100) (off : Fin 1 → Nat) (h : ∀ a, off a + S64.size a ≤ S6400.size a) (e : off 0 = 64 * j.val)
    (fr : Buf (Elt F) ((V d (cV L) (jV L)).loc cc0_scratch2)) (fI : Buf (Elt F) ((V d (cV L) (jV L)).loc cc0_scratch1))
    (hfI : ∀ y : S6400.Idx, fI y = m (posLoc d) ((posK L).view.emb y))
    (hn : S64.numel = S64x128.size gathers_S200x128_S64x128.axis')
    (hin : ∀ x, ((idxK off h).view.read (Elt F) fI x).toNat < S200x128.size gathers_S200x128_S64x128.axis) :
    ∀ x ∈ (slotB b).view.set,
      ((slotB b).view.writes (Elt F) fr [⟨Rect.whole S64x128, SparseCore.gatherPayload gathers_S200x128_S64x128 ((tblK).view.read (Elt F) (tblF m d (cV L))) (SparseCore.rows ((idxK off h).view.read (Elt F) fI) hn hin)⟩]) x
        = slotF m d L j x := by
  intro x hx
  obtain ⟨z, -, rfl⟩ := Finset.mem_map.mp hx
  rw [val_slotB_writes]
  exact val_gather_at m d L hpre b j off h e fI hfI hn hin z

/-- The same for the raw unmasked write of the gather's payload through the slot. -/
theorem slot_gather_eq' (hpre : PreOK m) (b : Fin 10) (j : Fin 100) (off : Fin 1 → Nat) (h : ∀ a, off a + S64.size a ≤ S6400.size a) (e : off 0 = 64 * j.val)
    (fr : Buf (Elt F) ((V d (cV L) (jV L)).loc cc0_scratch2)) (fI : Buf (Elt F) ((V d (cV L) (jV L)).loc cc0_scratch1))
    (hfI : ∀ y : S6400.Idx, fI y = m (posLoc d) ((posK L).view.emb y))
    (hn : S64.numel = S64x128.size gathers_S200x128_S64x128.axis')
    (hin : ∀ x, ((idxK off h).view.read (Elt F) fI x).toNat < S200x128.size gathers_S200x128_S64x128.axis) :
    ∀ x ∈ (slotB b).view.set,
      (View.write (Elt F) (slotB b).view fr (SparseCore.gatherPayload gathers_S200x128_S64x128 ((tblK).view.read (Elt F) (tblF m d (cV L))) (SparseCore.rows ((idxK off h).view.read (Elt F) fI) hn hin)) Finset.univ) x
        = slotF m d L j x := by
  intro x hx
  obtain ⟨z, -, rfl⟩ := Finset.mem_map.mp hx
  rw [val_slotB_write]
  exact val_gather_at m d L hpre b j off h e fI hfI hn hin z

/-! ## The write-back -/

omit [FloatOps F] in
theorem val_outK_emb0 (off : Fin 2 → Nat) (h : ∀ a, off a + S64x128.size a ≤ S204800x128.size a) (z : S64x128.Idx) :
    (((outK off h).view.emb z) 0).val = off 0 + (z 0).val := by
  show off 0 + 1 * (z 0).val = _
  omega

omit [FloatOps F] in
theorem val_outK_emb1 (off : Fin 2 → Nat) (h : ∀ a, off a + S64x128.size a ≤ S204800x128.size a) (z : S64x128.Idx) :
    (((outK off h).view.emb z) 1).val = off 1 + (z 1).val := by
  show off 1 + 1 * (z 1).val = _
  omega

omit [FloatOps F] in
theorem val_outK_writes (off : Fin 2 → Nat) (h : ∀ a, off a + S64x128.size a ≤ S204800x128.size a) (fo : Buf (Elt F) (outLoc d))
    (w : S64x128.Idx → Elt F .f32) (z : S64x128.Idx) :
    (outK off h).view.writes (Elt F) fo [⟨Rect.whole S64x128, w⟩] ((outK off h).view.emb z) = w z :=
  (val_writes_whole_emb _ _ _ _).trans (cast_eq _ _)

omit [FloatOps F] in
theorem val_outK_write (off : Fin 2 → Nat) (h : ∀ a, off a + S64x128.size a ≤ S204800x128.size a) (fo : Buf (Elt F) (outLoc d))
    (w : S64x128.Idx → Elt F .f32) (z : S64x128.Idx) :
    View.write (Elt F) (outK off h).view fo w Finset.univ ((outK off h).view.emb z) = w z :=
  (View.write_emb_of_mem _ _ (Finset.mem_univ _)).trans (cast_eq _ _)

/-- Entry `z` of a slot holding chunk `j`'s rows is the looked-up result at row `6400 w + 64 j + z 0`, column `z 1`. -/
theorem val_writeback_at (b : Fin 10) (j : Fin 100) (off : Fin 2 → Nat) (h : ∀ a, off a + S64x128.size a ≤ S204800x128.size a)
    (e0 : off 0 = 6400 * (wL L).val + 64 * j.val) (e1 : off 1 = 0) (z : S64x128.Idx) :
    (slotB b).view.read (Elt F) (slotF m d L j) z = lookupF m d ((outK off h).view.emb z) := by
  rw [show ∀ y, (slotB b).view.read (Elt F) (slotF m d L j) y = slotF m d L j ((slotB b).view.emb y) from fun y => (View.read_apply _ _).trans (cast_eq _ _)]
  unfold slotF lookupF tblF Cert.Spec.lookup
  show Cert.Spec.stacked (m (baseLoc d)) (m (extLoc d)) _ = Cert.Spec.stacked (m (baseLoc d)) (m (extLoc d)) _
  congr 1
  have hp : posAt L j (((slotB b).view.emb z) 1) = ix1 (((outK off h).view.emb z) 0) := by
    funext a
    match a with
    | 0 =>
      refine Fin.ext ?_
      show 6400 * (wL L).val + 64 * j.val + (((slotB b).view.emb z) 1).val = (((outK off h).view.emb z) 0).val
      rw [val_slotB_emb1, val_outK_emb0, e0]
  funext a
  match a with
  | 0 =>
    exact congrArg (fun p => Cert.Spec.rowOf (m (posLoc d) p)) hp
  | 1 =>
    refine Fin.ext ?_
    show (((slotB b).view.emb z) 2).val = (((outK off h).view.emb z) 1).val
    rw [val_slotB_emb2, val_outK_emb1, e1]
    omega

/-- Writing slot `b`, holding chunk `j`'s rows, back to rows `6400 w + 64 j …` of the result leaves the looked-up rows there. -/
theorem chunk_writeback_eq (hpre : PreOK m) (b : Fin 10) (j : Fin 100) (off : Fin 2 → Nat) (h : ∀ a, off a + S64x128.size a ≤ S204800x128.size a)
    (e0 : off 0 = 6400 * (wL L).val + 64 * j.val) (e1 : off 1 = 0) (fo : Buf (Elt F) (outLoc d))
    (pay : S64x128.Idx → Elt F .f32) (hpay : pay = (slotB b).view.read (Elt F) (slotF m d L j)) :
    ∀ y ∈ (outK off h).view.set, ((outK off h).view.writes (Elt F) fo [⟨Rect.whole S64x128, pay⟩]) y = lookupF m d y := by
  subst hpay
  intro y hy
  obtain ⟨z, -, rfl⟩ := Finset.mem_map.mp hy
  rw [val_outK_writes]
  exact val_writeback_at m d L b j off h e0 e1 z

/-- The same for the raw unmasked write of the slot's contents through the chunk. -/
theorem chunk_writeback_eq' (hpre : PreOK m) (b : Fin 10) (j : Fin 100) (off : Fin 2 → Nat) (h : ∀ a, off a + S64x128.size a ≤ S204800x128.size a)
    (e0 : off 0 = 6400 * (wL L).val + 64 * j.val) (e1 : off 1 = 0) (fo : Buf (Elt F) (outLoc d))
    (pay : S64x128.Idx → Elt F .f32) (hpay : pay = (slotB b).view.read (Elt F) (slotF m d L j)) :
    ∀ y ∈ (outK off h).view.set, (View.write (Elt F) (outK off h).view fo pay Finset.univ) y = lookupF m d y := by
  subst hpay
  intro y hy
  obtain ⟨z, -, rfl⟩ := Finset.mem_map.mp hy
  rw [val_outK_write]
  exact val_writeback_at m d L b j off h e0 e1 z

end Cert.Proof.KB

end
-- ==== Proof.KBBody.lean ====
/-
  One vector subcore's task of the embedding lookup, proved: the obligation the launch theorem asks of the kernel's body.
  The loop over the rounds is opened at an invariant: at the start of round `k` the ten gathers of round `k` are in flight,
  slot `b`'s delivering the slot at the stacked table's rows that chunk `10 k + b`'s positions name, the chunk's window of the
  position scratch, and the token of the table's read share it reads through; the write-back semaphores are at zero; the
  windows of the other rounds are at hand; and the result's chunks of the rounds before `k` hold the looked-up rows. A trip
  waits for each slot's gather and writes the slot back to its chunk of the result — which then holds the looked-up rows,
  because the slot's rows are the stacked table's rows the chunk's positions name —, then waits for each write-back and
  starts the slot's gather of round `k + 1`. After the loop the last round is written back the same way, and the scratch
  buffers, the semaphores and the read share of the table are handed back whole.
-/
import proofs.«207546_g72756745994873_cont_9to1_m_541_11_alg».proof.Proof.KBDefs
import proofs.«207546_g72756745994873_cont_9to1_m_541_11_alg».proof.Proof.KBTile0
import proofs.«207546_g72756745994873_cont_9to1_m_541_11_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTokN shareDrop)

variable {F : FTy → Type}

local notation "𝕄" => MT nD τ sig (HIx 1) (Elt F) ℕ UU ℕ

variable (m : (ℓ : Loc nD τ sig) → Buf (Elt F) ℓ) (ρ : Dev nD → PrngReg)

local notation "pV" => (Memref.whole Cert.Kernel.main_arg0_scv : Memref Cert.Kernel.sig Kind.scVector Space.hbm Cert.Kernel.S204800 EltTy.i32)
local notation "bV" => (Memref.whole Cert.Kernel.main_arg1_scv : Memref Cert.Kernel.sig Kind.scVector Space.hbm Cert.Kernel.S20x128 EltTy.f32)
local notation "eV" => (Memref.whole Cert.Kernel.main_arg2_scv : Memref Cert.Kernel.sig Kind.scVector Space.hbm Cert.Kernel.S180x128 EltTy.f32)
local notation "oV" => (Memref.whole Cert.Kernel.main_v0_scv : Memref Cert.Kernel.sig Kind.scVector Space.hbm Cert.Kernel.S204800x128 EltTy.f32)
local notation "tV" => (Memref.whole Cert.Kernel.cc0_scratch0 : Memref Cert.Kernel.sig Kind.scVector Space.shared Cert.Kernel.S200x128 EltTy.f32)
local notation "iV" => (Memref.whole Cert.Kernel.cc0_scratch1 : Memref Cert.Kernel.sig Kind.scVector Space.vmem Cert.Kernel.S6400 EltTy.i32)
local notation "rV" => (Memref.whole Cert.Kernel.cc0_scratch2 : Memref Cert.Kernel.sig Kind.scVector Space.vmem Cert.Kernel.S10x64x128 EltTy.f32)

variable [FloatOps F]
variable (d : Dev nD) (L : grid0.Coords)

/-! ## The loop's invariant -/

/-- The gather semaphore and the write-back semaphore of slot `b`, among the subcore's scoped DMA semaphores. -/
abbrev gix (b : Fin 10) : Fin 23 := ⟨b.val, by have := b.isLt; omega⟩
abbrev wix (b : Fin 10) : Fin 23 := ⟨10 + b.val, by have := b.isLt; omega⟩
/-- Round `k` as a round number below ten. -/
def rk (k : ℕ) : Fin 10 := ⟨k % 10, Nat.mod_lt _ (by decide)⟩

/-- Token `b` of the subcore's read share of the filled table: the one the gather into slot `b` reads through. -/
abbrev tokq (L : grid0.Coords) (b : ℕ) : PosShare TreeShare := shareTokN (shareTokN fullShare (jV L).val) b

/-- What a gather of chunk `j` into slot `b` delivers: the slot at the chunk's gathered rows, the chunk's window of the
    position scratch, and the table token it read through. -/
abbrev Dg (fI : Buf (Elt F) ((V d (cV L) (jV L)).loc cc0_scratch1)) (b : Fin 10) (j : Fin 100) : sProp 𝕄 :=
  iprop((((slotB b).view.loc (V d (cV L) (jV L)) ↦[(slotB b).view.set]{fullShare} slotF m d L j)
      ∗ ((iV).view.loc (V d (cV L) (jV L)) ↦[idxSet j]{fullShare} fI))
    ∗ ((tblK).view.loc (V d (cV L) (jV L)) ↦[(tblK).view.set]{tokq L b.val} tblF m d (cV L)))

/-- Round `k'` of the result's chunks of the subcore, all at the contents `f`. -/
abbrev outRound (k' : Fin 10) (f : Buf (Elt F) (outLoc d)) : sProp 𝕄 :=
  bigSep Finset.univ fun b : Fin 10 => outLoc d ↦[chunkSet (cn (wL L) (ch k' b))]{fullShare} f

omit [FloatOps F] in
theorem outChunks_rounds (f : Buf (Elt F) (outLoc d)) : outChunks d (wL L) f = bigSep Finset.univ fun k' : Fin 10 => outRound d L k' f :=
  bigSep_rounds (fun j : Fin 100 => (outLoc d ↦[chunkSet (cn (wL L) j)]{fullShare} f : sProp 𝕄))

/-- The result's chunks of the subcore by round: the rounds before `k` hold the looked-up rows, the others what they held. -/
abbrev outRounds (k : ℕ) : sProp 𝕄 :=
  bigSep Finset.univ fun k' : Fin 10 => outRound d L k' (if k'.val < k then lookupF m d else m (outLoc d))

/-- At the start of trip `k`: the ten gathers of round `k` in flight, each slot's write-back semaphore at zero, the windows
    of the other rounds at hand, the result's rounds before `k` done. -/
def inv (fI : Buf (Elt F) ((V d (cV L) (jV L)).loc cc0_scratch1)) (O : CellTallies nD τ sig (HIx 1)) (W : Waits sig (HIx 1)) (k : ℕ) (_ : PUnit) : sProp 𝕄 :=
  iprop(Transfers.MayWaits (V d (cV L) (jV L)) (default : HIx 1) O
    ∗ (bigSep Finset.univ fun b : Fin 10 => Transfers.Flight countersEmb (V d (cV L) (jV L)) (SemLoc.dma (gix b)) (default : HIx 1) 262144 (Dg m d L fI b (ch (rk k) b)))
    ∗ (bigSep Finset.univ fun b : Fin 10 => (tblK).view.loc (V d (cV L) (jV L)) ↦[(tblK).view.set \ (tblK).view.set]{tokq L b.val} tblF m d (cV L))
    ∗ (bigSep Finset.univ fun b : Fin 10 => semVal (dcell d (cV L) (jV L) (wix b)) 0)
    ∗ idxPool d L (Finset.univ.erase (rk k)) fI
    ∗ outRounds m d L k
    ∗ ∃ W', ⌜∀ p ∈ W', p ∈ W ∨ p.2 = none ∨ p.2 = some (0 : Fin 1)⌝ ∗ owes (V d (cV L) (jV L)) O W')

omit [FloatOps F] in
/-- Of a family over the ten rounds, the rounds before `k` at one value and the others at another: round `k` taken out. -/
theorem rounds_take {X : Type} (A : Fin 10 → X → sProp 𝕄) (f0 f1 : X) (k : ℕ) (hk : k < 10) :
    (bigSep Finset.univ fun k' : Fin 10 => A k' (if k'.val < k then f1 else f0))
      = iprop(A ⟨k, hk⟩ f0 ∗ bigSep (Finset.univ.erase (⟨k, hk⟩ : Fin 10)) fun k' : Fin 10 => A k' (if k'.val < k then f1 else f0)) := by
  have e : (if (⟨k, hk⟩ : Fin 10).val < k then f1 else f0) = f0 := if_neg (Nat.lt_irrefl k)
  rw [SparseCore.bigSep_erase' (Finset.mem_univ (⟨k, hk⟩ : Fin 10)), e]

omit [FloatOps F] in
/-- Round `k` put back at the other value: the rounds before `k + 1` are at it. -/
theorem rounds_put {X : Type} (A : Fin 10 → X → sProp 𝕄) (f0 f1 : X) (k : ℕ) (hk : k < 10) :
    iprop(A ⟨k, hk⟩ f1 ∗ bigSep (Finset.univ.erase (⟨k, hk⟩ : Fin 10)) fun k' : Fin 10 => A k' (if k'.val < k then f1 else f0))
      = bigSep Finset.univ fun k' : Fin 10 => A k' (if k'.val < k + 1 then f1 else f0) := by
  have e : (if (⟨k, hk⟩ : Fin 10).val < k + 1 then f1 else f0) = f1 := if_pos (Nat.lt_succ_self k)
  rw [SparseCore.bigSep_erase' (Finset.mem_univ (⟨k, hk⟩ : Fin 10)) (Φ := fun k' : Fin 10 => A k' (if k'.val < k + 1 then f1 else f0)), e]
  refine congrArg (fun R => iprop(A ⟨k, hk⟩ f1 ∗ R)) (bigSep_congr fun k' hk' => ?_)
  have hne : k'.val ≠ k := fun e' => (Finset.mem_erase.mp hk').1 (Fin.ext e')
  by_cases h : k'.val < k
  · rw [if_pos h, if_pos (Nat.lt_succ_of_lt h)]
  · rw [if_neg h, if_neg (by omega)]

omit [FloatOps F] in
theorem rounds_zero {X : Type} (A : Fin 10 → X → sProp 𝕄) (f0 f1 : X) :
    (bigSep Finset.univ fun k' : Fin 10 => A k' f0) = bigSep Finset.univ fun k' : Fin 10 => A k' (if k'.val < 0 then f1 else f0) :=
  bigSep_congr fun k' _ => by rw [if_neg (Nat.not_lt_zero _)]

omit [FloatOps F] in
/-- A round taken out of the pool while another is out, then that other put back. -/
theorem pool_swap {R : Fin 10 → sProp 𝕄} (a b : Fin 10) (hab : a ≠ b) :
    iprop(R a ∗ bigSep ((Finset.univ.erase a).erase b) R) = bigSep (Finset.univ.erase b) R := by
  rw [Finset.erase_right_comm, ← SparseCore.bigSep_erase' (Finset.mem_erase.mpr ⟨hab, Finset.mem_univ a⟩)]

/-- The positions fetched are in range, whatever window of the scratch is read, from what the scratch holds entry by entry. -/
theorem hin_of_fI (hpre : PreOK m) (fI : Buf (Elt F) ((V d (cV L) (jV L)).loc cc0_scratch1))
    (hfI : ∀ y : S6400.Idx, fI y = m (posLoc d) ((posK L).view.emb y)) (off : Fin 1 → Nat) (h : ∀ a, off a + S64.size a ≤ S6400.size a) :
    ∀ x, ((idxK off h).view.read (Elt F) fI x).toNat < S200x128.size gathers_S200x128_S64x128.axis := by
  intro x
  refine Nat.lt_of_le_of_lt ?_ (show 199 < S200x128.size gathers_S200x128_S64x128.axis by decide)
  rw [show (idxK off h).view.read (Elt F) fI x = fI ((idxK off h).view.emb x) from (View.read_apply _ _).trans (cast_eq _ _), hfI]
  exact hpre d _

/-! ## The kernel's offsets name the chunks -/

omit [FloatOps F] in
theorem trips_le : k0_t1_loop.trips ≤ 9 := k0_t1_abs.2.1

omit [FloatOps F] in
theorem trips_eq : k0_t1_loop.trips = 9 := by decide +kernel

omit [FloatOps F] in
theorem cn_val (w : Fin 32) (j : Fin 100) : 64 * (cn w j).val = 6400 * w.val + 64 * j.val := by
  show 64 * (100 * w.val + j.val) = _; omega

omit [FloatOps F] in
/-- Trip `k`'s write-back of slot `b` goes to chunk `10 k + b` of the subcore. -/
theorem off3_e0 (k : Fin k0_t1_loop.trips) (b : Fin 10) (hk : k.val < 10) :
    (k0_off3 L k (BitVec.ofNat 32 b.val)) 0 = 6400 * (wL L).val + 64 * (ch ⟨k.val, hk⟩ b).val := by
  rw [k0_off3_eq L k b]
  show 12800 * (L 1).val + 6400 * (L 0).val + 640 * k.val + 64 * b.val = 6400 * (2 * (L 1).val + (L 0).val) + 64 * (10 * k.val + b.val)
  omega
omit [FloatOps F] in
theorem off3_e1 (k : Fin k0_t1_loop.trips) (b : Fin 10) : (k0_off3 L k (BitVec.ofNat 32 b.val)) 1 = 0 := by
  rw [k0_off3_eq L k b]; rfl

omit [FloatOps F] in
/-- Trip `k`'s gather into slot `b` reads the window of chunk `10 (k + 1) + b`. -/
theorem off4_e (k : Fin k0_t1_loop.trips) (b : Fin 10) : (k0_off4 k (BitVec.ofNat 32 b.val)) 0 = 64 * (ch (rk (k.val + 1)) b).val := by
  rw [k0_off4_eq k b]
  have hk : k.val < 9 := Nat.lt_of_lt_of_le k.isLt trips_le
  show 640 * k.val + 64 * b.val + 640 = 64 * (10 * ((k.val + 1) % 10) + b.val)
  rw [Nat.mod_eq_of_lt (by omega)]; omega

omit [FloatOps F] in
/-- The last round's write-back of slot `b` goes to chunk `90 + b` of the subcore. -/
theorem off5_e0 (b : Fin 10) : (k0_off5 L (BitVec.ofNat 32 (5760 + 64 * b.val))) 0 = 6400 * (wL L).val + 64 * (ch 9 b).val := by
  rw [k0_off5_eq L b]
  show 12800 * (L 1).val + 6400 * (L 0).val + 64 * b.val + 5760 = 6400 * (2 * (L 1).val + (L 0).val) + 64 * (10 * 9 + b.val)
  omega
omit [FloatOps F] in
theorem off5_e1 (b : Fin 10) : (k0_off5 L (BitVec.ofNat 32 (5760 + 64 * b.val))) 1 = 0 := by
  rw [k0_off5_eq L b]; rfl

omit [FloatOps F] in
theorem rk_of_lt (k : ℕ) (hk : k < 10) : rk k = ⟨k, hk⟩ := Fin.ext (Nat.mod_eq_of_lt hk)

/-! ## A gather's flight, restated at the canonical contents -/

theorem flight_canon (hpre : PreOK m) (fI : Buf (Elt F) ((V d (cV L) (jV L)).loc cc0_scratch1))
    (hfI : ∀ y : S6400.Idx, fI y = m (posLoc d) ((posK L).view.emb y)) (fr : Buf (Elt F) ((V d (cV L) (jV L)).loc cc0_scratch2))
    (b : Fin 10) (j : Fin 100) (off : Fin 1 → Nat) (h : ∀ a, off a + S64.size a ≤ S6400.size a) (e : off 0 = 64 * j.val)
    (hn : S64.numel = S64x128.size gathers_S200x128_S64x128.axis')
    (hin : ∀ x, ((idxK off h).view.read (Elt F) fI x).toNat < S200x128.size gathers_S200x128_S64x128.axis) (N : ℕ) :
    (Transfers.Flight countersEmb (V d (cV L) (jV L)) (SemLoc.dma (gix b)) (default : HIx 1) N
      iprop((((slotB b).view.loc (V d (cV L) (jV L)) ↦[(slotB b).view.set]{fullShare}
            (slotB b).view.writes (Elt F) fr [⟨Rect.whole S64x128, SparseCore.gatherPayload gathers_S200x128_S64x128 ((tblK).view.read (Elt F) (tblF m d (cV L)))
              (SparseCore.rows ((idxK off h).view.read (Elt F) fI) hn hin)⟩])
          ∗ ((idxK off h).view.loc (V d (cV L) (jV L)) ↦[(idxK off h).view.set]{fullShare} fI))
        ∗ ((tblK).view.loc (V d (cV L) (jV L)) ↦[(tblK).view.set]{tokq L b.val} tblF m d (cV L))) : sProp 𝕄)
      ⊢ Transfers.Flight countersEmb (V d (cV L) (jV L)) (SemLoc.dma (gix b)) (default : HIx 1) N (Dg m d L fI b j) := by
  refine Transfers.Flight_mono countersEmb _ ?_
  iintro ⟨⟨Hs, Hi⟩, Ht⟩
  isplitl [Hs Hi]
  · isplitl [Hs]
    · iapply (Entails.of_eq (pointsTo_congr (slot_gather_eq m d L hpre b j off h e fr fI hfI hn hin)))
      iexact Hs
    · iapply (Entails.of_eq (idxWin_respell (F := F) d L off h j e fI).symm)
      iexact Hi
  · iexact Ht

/-! ## A written-back chunk holds the looked-up rows -/

omit [FloatOps F] in
theorem off3_e0r (k : Fin k0_t1_loop.trips) (b : Fin 10) :
    (k0_off3 L k (BitVec.ofNat 32 b.val)) 0 = 6400 * (wL L).val + 64 * (ch (rk k.val) b).val := by
  have hk : k.val < 10 := Nat.lt_of_lt_of_le k.isLt (Nat.le_trans trips_le (by decide))
  rw [rk_of_lt k.val hk]; exact off3_e0 L k b hk

theorem chunk_done (hpre : PreOK m) (b : Fin 10) (j : Fin 100) (off : Fin 2 → Nat) (h : ∀ a, off a + S64x128.size a ≤ S204800x128.size a)
    (e0 : off 0 = 6400 * (wL L).val + 64 * j.val) (e1 : off 1 = 0) (fo : Buf (Elt F) (outLoc d))
    (pay : S64x128.Idx → Elt F .f32) (hpay : pay = (slotB b).view.read (Elt F) (slotF m d L j)) :
    ((outK off h).view.loc (V d (cV L) (jV L)) ↦[(outK off h).view.set]{fullShare} (outK off h).view.writes (Elt F) fo [⟨Rect.whole S64x128, pay⟩] : sProp 𝕄)
      ⊢ outLoc d ↦[chunkSet (cn (wL L) j)]{fullShare} lookupF m d := by
  rw [pointsTo_congr (chunk_writeback_eq m d L hpre b j off h e0 e1 fo pay hpay)]
  exact Entails.of_eq (outWin_respell (F := F) d L off h (cn (wL L) j) (e0.trans (cn_val _ _).symm) e1 _).symm

/-! ## The row scratch rejoined; the ten read tokens rejoined -/

/-- The ten slots of the row scratch, each at contents of its own, are the scratch whole at some contents. -/
theorem slots_join (d : Dev nD) (L : grid0.Coords) :
    (bigSep Finset.univ fun b : Fin 10 => iprop(∃ f, (slotB b).view.loc (V d (cV L) (jV L)) ↦[(slotB b).view.set]{fullShare} f))
      ⊢ (iprop(∃ f, (V d (cV L) (jV L)).loc cc0_scratch2 ↦{fullShare} f) : sProp 𝕄) := by
  have e : (fun b : Fin 10 => (iprop(∃ f, (slotB b).view.loc (V d (cV L) (jV L)) ↦[(slotB b).view.set]{fullShare} f) : sProp 𝕄))
      = fun b : Fin 10 => iprop(∃ f : Buf (Elt F) ((V d (cV L) (jV L)).loc cc0_scratch2), (rV).view.loc (V d (cV L) (jV L)) ↦[slotSet b]{fullShare} f) :=
    funext fun b => by rw [set_slotB]
  have hj : ∀ fs : Fin 10 → Buf (Elt F) ((V d (cV L) (jV L)).loc cc0_scratch2),
      (bigSep Finset.univ fun b : Fin 10 => ((rV).view.loc (V d (cV L) (jV L)) ↦[slotSet b]{fullShare} fs b : sProp 𝕄))
        ⊢ iprop(∃ g, (rV).view.loc (V d (cV L) (jV L)) ↦{fullShare} g) := fun fs => by
    refine (pointsTo_biUnion_join (ℓ := (rV).view.loc (V d (cV L) (jV L))) Finset.univ slotSet fs (fs 0) slot_disjoint).trans ?_
    rw [slot_cover]
    iintro ⟨%g, -, Hg⟩
    iexists g; iexact Hg
  rw [e]
  refine (bigSep_exists_pi Finset.univ (fun (b : Fin 10) (f : Buf (Elt F) ((V d (cV L) (jV L)).loc cc0_scratch2)) =>
    ((rV).view.loc (V d (cV L) (jV L)) ↦[slotSet b]{fullShare} f : sProp 𝕄))).trans ?_
  iintro ⟨%fs, H⟩
  ihave H' := (hj fs) $$ H
  icases H' with ⟨%g, Hg⟩
  iexists g
  iapply (Entails.of_eq (pts_rV (F := F) d L g)); iexact Hg

omit [FloatOps F] in
/-- A read share of the shared table, held through the whole-table slice as its remainder after ten tokens and the ten tokens,
    is the share. -/
theorem tbl_toks_join (q : PosShare TreeShare) (f : Buf (Elt F) (shLoc d (cV L))) :
    iprop(((tblK).view.loc (V d (cV L) (jV L)) ↦[(tblK).view.set]{shareDrop q 10} f)
        ∗ ((tblK).view.loc (V d (cV L) (jV L)) ↦[(tblK).view.set]{shareTokN q 0} f)
        ∗ ((tblK).view.loc (V d (cV L) (jV L)) ↦[(tblK).view.set]{shareTokN q 1} f)
        ∗ ((tblK).view.loc (V d (cV L) (jV L)) ↦[(tblK).view.set]{shareTokN q 2} f)
        ∗ ((tblK).view.loc (V d (cV L) (jV L)) ↦[(tblK).view.set]{shareTokN q 3} f)
        ∗ ((tblK).view.loc (V d (cV L) (jV L)) ↦[(tblK).view.set]{shareTokN q 4} f)
        ∗ ((tblK).view.loc (V d (cV L) (jV L)) ↦[(tblK).view.set]{shareTokN q 5} f)
        ∗ ((tblK).view.loc (V d (cV L) (jV L)) ↦[(tblK).view.set]{shareTokN q 6} f)
        ∗ ((tblK).view.loc (V d (cV L) (jV L)) ↦[(tblK).view.set]{shareTokN q 7} f)
        ∗ ((tblK).view.loc (V d (cV L) (jV L)) ↦[(tblK).view.set]{shareTokN q 8} f)
        ∗ ((tblK).view.loc (V d (cV L) (jV L)) ↦[(tblK).view.set]{shareTokN q 9} f))
      ⊢ (shLoc d (cV L) ↦{q} f : sProp 𝕄) := by
  rw [set_tblK]
  exact (toks10_split (F := F) (ℓ := shLoc d (cV L)) (S := Finset.univ) (f := f) q).2

set_option maxHeartbeats 32000000 in
/-- The task on vector subcore `(L 0, L 1)` of device `d`. Subcore 0 first copies the two tables into the shared table, one
    above the other. Every subcore fetches its 6400 positions, meets the others at the barrier — where subcore 0 hands each
    subcore a read share of the filled table —, starts the gathers of its first ten chunks (one per slot, each through its own
    token of the read share), and then, round by round, waits for a slot's gather, writes the slot back to its chunk of the
    result, waits for the write-back and starts the slot's gather of the next round; the last round is written back without a
    next. Each chunk of the result ends at the stacked table's rows its positions name. -/
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (posPts m d (wL L) ∗ outChunks d (wL L) (m (outLoc d))
            ∗ (if (L 1).val = 0 then iprop(tblsShare m d (L 0).val ∗ ∃ f, shLoc d (cV L) ↦{fullShare} f) else iprop(emp)))
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__sc_embed L pV (Memref.isWhole_whole _) bV (Memref.isWhole_whole _) eV (Memref.isWhole_whole _) oV (Memref.isWhole_whole _)
            tV (Memref.isWhole_whole _) iV (Memref.isWhole_whole _) rV (Memref.isWhole_whole _) cc0_scratch3 cc0_scratch4 cc0_scoped0 cc0_scoped1 cc0_scoped2)
          fun _ => iprop((posPts m d (wL L) ∗ outChunks d (wL L) (lookupF m d) ∗ tblShare m d (cV L) (L 1).val
              ∗ (if (L 1).val = 0 then iprop(tblsShare m d (L 0).val ∗ shLoc d (cV L) ↦{shareDrop fullShare 16} tblF m d (cV L)) else iprop(emp)))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__sc_embed_eq_skeleton]; unfold cc0__sc_embed_skel
  rw [(K (F := F)).scopedBufs_V hF d (cV L) (jV L), SparseCore.Cfg.scopedSems0_V (Val := Elt F) d (cV L) (jV L), ownSems0_V, ownBufs_V, bigSep_fin23]
  unfold bkit
  by_cases hL : (L 1).val = 0
  case' pos =>
    rw [if_pos hL, if_pos hL]
    iintro ⟨#Hlv, ⟨⟨%κ, #Hinv⟩, Htoks, #Hrch, Hat, Hcred⟩, ⟨Hp, Hout, ⟨Hbs, Hes⟩, ⟨%ft, Hsh⟩⟩, ⟨⟨%fi, Hi⟩, ⟨%fr, Hr⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22⟩, HO⟩
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hp' := (Entails.of_eq (pts_posK (F := F) d L _).symm) $$ Hp
    ihave Hi' := (Entails.of_eq (pts_iV (F := F) d L _).symm) $$ Hi
    ihave Hr' := (Entails.of_eq (pts_rV (F := F) d L _).symm) $$ Hr
    -- subcore 0: the two tables into the shared table, one above the other
    ihave Hbs' := (Entails.of_eq (pts_bV (F := F) d L _ _).symm) $$ Hbs
    ihave Hes' := (Entails.of_eq (pts_eV (F := F) d L _ _).symm) $$ Hes
    ihave Hsh' := (tbl_split (F := F) d L ft).1 $$ Hsh
    icases Hsh' with ⟨Hlo, Hhi⟩
    have hc : Scalar.cmpi .ne (Scalar.extui (Scalar.cmpi .eq (BitVec.ofNat 32 (L 1).val) 0#32)) 0#32 = 1#1 := hc_zero _ hL
    sl_exec
    ihave Htblw := (tbl_filled (F := F) m d L ft ft _ _ rfl rfl) $$ [Hlo Hhi]
    · isplitl [Hlo]; · iexact Hlo
      iexact Hhi
    ihave Hpz := (pays_intro_zero (F := F) m d L hL) $$ Htblw
    icases Hpz with ⟨Hpays, Hdrop⟩
    ihave Hextra := (show iprop(((bV).view.loc (V d (cV L) (jV L)) ↦{shareTokN fullShare (L 0).val} m (baseLoc d)) ∗ ((eV).view.loc (V d (cV L) (jV L)) ↦{shareTokN fullShare (L 0).val} m (extLoc d))
        ∗ shLoc d (cV L) ↦{shareDrop fullShare 16} tblF m d (cV L)) ⊢ (iprop(tblsShare m d (L 0).val ∗ shLoc d (cV L) ↦{shareDrop fullShare 16} tblF m d (cV L)) : sProp 𝕄) from by
      iintro ⟨Hb, He, Hd⟩
      isplitl [Hb He]
      · isplitl [Hb]; · iexact Hb
        iexact He
      · iexact Hd) $$ [Hbs' Hes' Hdrop]
    · isplitl [Hbs']; · iexact Hbs'
      isplitl [Hes']; · iexact Hes'
      iexact Hdrop
    -- what the position scratch now holds, entry by entry
    generalize hfI0 : View.write (Elt F) (iV).view fi (_) Finset.univ = fI
    have hfI : ∀ y : S6400.Idx, fI y = m (posLoc d) ((posK L).view.emb y) := by
      subst hfI0; intro y; rw [View.write_whole_univ]; exact (View.read_apply _ _).trans (cast_eq _ _)
    have hin := hin_of_fI m d L hpre fI hfI

  case' neg =>
    rw [if_neg hL, if_neg hL]
    iintro ⟨#Hlv, ⟨⟨%κ, #Hinv⟩, Htoks, #Hrch, Hat, Hcred⟩, ⟨Hp, Hout, Hextra⟩, ⟨⟨%fi, Hi⟩, ⟨%fr, Hr⟩, Hbufs⟩, ⟨Hs0, Hs1, Hs2, Hs3, Hs4, Hs5, Hs6, Hs7, Hs8, Hs9, Hs10, Hs11, Hs12, Hs13, Hs14, Hs15, Hs16, Hs17, Hs18, Hs19, Hs20, Hs21, Hs22⟩, HO⟩
    have hO' : ∀ g, (O + oxV d (cV L)) g none = 0 := fun g => by rw [Pi.add_apply, Finsupp.add_apply, hO g, oxV_none]
    ihave Hmw1 := (show levAts (K (F := F)).L (K (F := F)).lev ⊢ Transfers.MayWaits (V d (cV L) (jV L)) (default : HIx 1) (O + oxV d (cV L)) from
      (K (F := F)).mayWaits_none (thr := V d (cV L) (jV L)) hO') $$ Hlv
    ihave Hmw2 := (show levAts (K (F := F)).L (K (F := F)).lev ⊢ Transfers.MayWaits (V d (cV L) (jV L)) (default : HIx 1) O from
      (K (F := F)).mayWaits_none (thr := V d (cV L) (jV L)) hO) $$ Hlv
    ihave Hp' := (Entails.of_eq (pts_posK (F := F) d L _).symm) $$ Hp
    ihave Hi' := (Entails.of_eq (pts_iV (F := F) d L _).symm) $$ Hi
    ihave Hr' := (Entails.of_eq (pts_rV (F := F) d L _).symm) $$ Hr
    have hc : ¬ (Scalar.cmpi .ne (Scalar.extui (Scalar.cmpi .eq (BitVec.ofNat 32 (L 1).val) 0#32)) 0#32 = 1#1) := hc_nonzero _ hL (L 1).isLt
    sl_exec
    -- a subcore other than 0 hands nothing over at the barrier
    ihave Hpays := (pays_intro_other (F := F) m d L hL) $$ []
    · iempintro
    -- what the position scratch now holds, entry by entry
    generalize hfI0 : View.write (Elt F) (iV).view fi (_) Finset.univ = fI
    have hfI : ∀ y : S6400.Idx, fI y = m (posLoc d) ((posK L).view.emb y) := by
      subst hfI0; intro y; rw [View.write_whole_univ]; exact (View.read_apply _ _).trans (cast_eq _ _)
    have hin := hin_of_fI m d L hpre fI hfI

  all_goals (
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := V d (cV L) (jV L)) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Htbl := (pays_elim (F := F) m d L) $$ Hgot

    ihave Htbl' := (Entails.of_eq (pts_tblK (F := F) d L _ _).symm) $$ Htbl
    ihave Ht := (toks10_split (F := F) (shareTokN fullShare (jV L).val)).1 $$ Htbl'
    icases Ht with ⟨Htd, Ht0, Ht1, Ht2, Ht3, Ht4, Ht5, Ht6, Ht7, Ht8, Ht9⟩
    ihave Hrs := (Entails.of_eq ((rPts_slotsB (F := F) d L _).trans (bigSep_fin10 _))) $$ Hr'
    icases Hrs with ⟨Hr0, Hr1, Hr2, Hr3, Hr4, Hr5, Hr6, Hr7, Hr8, Hr9⟩
    ihave Hiw := (Entails.of_eq ((iPts_pool (F := F) d L _).trans (SparseCore.bigSep_erase' (Finset.mem_univ (0 : Fin 10))))) $$ Hi'
    icases Hiw with ⟨Hiw0, Hpool⟩
    ihave Hiw0' := (Entails.of_eq (bigSep_fin10 _)) $$ Hiw0
    icases Hiw0' with ⟨Hi0, Hi1, Hi2, Hi3, Hi4, Hi5, Hi6, Hi7, Hi8, Hi9⟩
    ihave Hi0' := (Entails.of_eq (idxWin_respell (F := F) d L ![0] inb_S6400_S64_0 (ch 0 0) rfl _)) $$ Hi0
    ihave Hi1' := (Entails.of_eq (idxWin_respell (F := F) d L ![64] inb_S6400_S64_64 (ch 0 1) rfl _)) $$ Hi1
    ihave Hi2' := (Entails.of_eq (idxWin_respell (F := F) d L ![128] inb_S6400_S64_128 (ch 0 2) rfl _)) $$ Hi2
    ihave Hi3' := (Entails.of_eq (idxWin_respell (F := F) d L ![192] inb_S6400_S64_192 (ch 0 3) rfl _)) $$ Hi3
    ihave Hi4' := (Entails.of_eq (idxWin_respell (F := F) d L ![256] inb_S6400_S64_256 (ch 0 4) rfl _)) $$ Hi4
    ihave Hi5' := (Entails.of_eq (idxWin_respell (F := F) d L ![320] inb_S6400_S64_320 (ch 0 5) rfl _)) $$ Hi5
    ihave Hi6' := (Entails.of_eq (idxWin_respell (F := F) d L ![384] inb_S6400_S64_384 (ch 0 6) rfl _)) $$ Hi6
    ihave Hi7' := (Entails.of_eq (idxWin_respell (F := F) d L ![448] inb_S6400_S64_448 (ch 0 7) rfl _)) $$ Hi7
    ihave Hi8' := (Entails.of_eq (idxWin_respell (F := F) d L ![512] inb_S6400_S64_512 (ch 0 8) rfl _)) $$ Hi8
    ihave Hi9' := (Entails.of_eq (idxWin_respell (F := F) d L ![576] inb_S6400_S64_576 (ch 0 9) rfl _)) $$ Hi9
    sl_exec
    -- the ten gathers in flight, each restated at what it will deliver
    ihave Hf0 := (flight_canon m d L hpre fI hfI fr 0 (ch (rk 0) 0) ![0] inb_S6400_S64_0 rfl (by decide) (hin _ _) 262144) $$ [Hs0]
    · iexact Hs0
    ihave Hf1 := (flight_canon m d L hpre fI hfI fr 1 (ch (rk 0) 1) ![64] inb_S6400_S64_64 rfl (by decide) (hin _ _) 262144) $$ [Hs1]
    · iexact Hs1
    ihave Hf2 := (flight_canon m d L hpre fI hfI fr 2 (ch (rk 0) 2) ![128] inb_S6400_S64_128 rfl (by decide) (hin _ _) 262144) $$ [Hs2]
    · iexact Hs2
    ihave Hf3 := (flight_canon m d L hpre fI hfI fr 3 (ch (rk 0) 3) ![192] inb_S6400_S64_192 rfl (by decide) (hin _ _) 262144) $$ [Hs3]
    · iexact Hs3
    ihave Hf4 := (flight_canon m d L hpre fI hfI fr 4 (ch (rk 0) 4) ![256] inb_S6400_S64_256 rfl (by decide) (hin _ _) 262144) $$ [Hs4]
    · iexact Hs4
    ihave Hf5 := (flight_canon m d L hpre fI hfI fr 5 (ch (rk 0) 5) ![320] inb_S6400_S64_320 rfl (by decide) (hin _ _) 262144) $$ [Hs5]
    · iexact Hs5
    ihave Hf6 := (flight_canon m d L hpre fI hfI fr 6 (ch (rk 0) 6) ![384] inb_S6400_S64_384 rfl (by decide) (hin _ _) 262144) $$ [Hs6]
    · iexact Hs6
    ihave Hf7 := (flight_canon m d L hpre fI hfI fr 7 (ch (rk 0) 7) ![448] inb_S6400_S64_448 rfl (by decide) (hin _ _) 262144) $$ [Hs7]
    · iexact Hs7
    ihave Hf8 := (flight_canon m d L hpre fI hfI fr 8 (ch (rk 0) 8) ![512] inb_S6400_S64_512 rfl (by decide) (hin _ _) 262144) $$ [Hs8]
    · iexact Hs8
    ihave Hf9 := (flight_canon m d L hpre fI hfI fr 9 (ch (rk 0) 9) ![576] inb_S6400_S64_576 rfl (by decide) (hin _ _) 262144) $$ [Hs9]
    · iexact Hs9
    ihave Hfl := (Entails.of_eq (bigSep_fin10 (fun b : Fin 10 => Transfers.Flight countersEmb (V d (cV L) (jV L)) (SemLoc.dma (gix b)) (default : HIx 1) 262144 (Dg m d L fI b (ch (rk 0) b)))).symm) $$ [Hf0 Hf1 Hf2 Hf3 Hf4 Hf5 Hf6 Hf7 Hf8 Hf9]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      iexact Hf9
    ihave Hz := (Entails.of_eq (bigSep_fin10 (fun b : Fin 10 => ((tblK).view.loc (V d (cV L) (jV L)) ↦[(tblK).view.set \ (tblK).view.set]{tokq L b.val} tblF m d (cV L) : sProp 𝕄))).symm) $$ [Ht0 Ht1 Ht2 Ht3 Ht4 Ht5 Ht6 Ht7 Ht8 Ht9]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      iexact Ht9
    ihave Hw := (Entails.of_eq (bigSep_fin10 (fun b : Fin 10 => (semVal (dcell d (cV L) (jV L) (wix b)) 0 : sProp 𝕄))).symm) $$ [Hs10 Hs11 Hs12 Hs13 Hs14 Hs15 Hs16 Hs17 Hs18 Hs19]
    · isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      iexact Hs19
    ihave Hout' := (Entails.of_eq ((outChunks_rounds (F := F) d L _).trans (rounds_zero (fun k' f => outRound d L k' f) (m (outLoc d)) (lookupF m d)))) $$ Hout
    sl_for (inv m d L fI O W) $$ [Hmw2 Hfl Hz Hw Hpool Hout' HO]
    case region =>
      intro k _
      have hk9 : k.val < 9 := Nat.lt_of_lt_of_le k.isLt trips_le
      have hk10 : k.val < 10 := by omega
      unfold inv
      iintro ⟨Hmw, Hfl, Hz, Hw, Hpool, Hout, %W', %hW', HO⟩
      ihave Hfl' := (Entails.of_eq (bigSep_fin10 _)) $$ Hfl
      icases Hfl' with ⟨Hf0, Hf1, Hf2, Hf3, Hf4, Hf5, Hf6, Hf7, Hf8, Hf9⟩
      unfold Dg
      ihave Hz' := (Entails.of_eq (bigSep_fin10 _)) $$ Hz
      icases Hz' with ⟨Hz0, Hz1, Hz2, Hz3, Hz4, Hz5, Hz6, Hz7, Hz8, Hz9⟩
      ihave Hw' := (Entails.of_eq (bigSep_fin10 _)) $$ Hw
      icases Hw' with ⟨Hw0, Hw1, Hw2, Hw3, Hw4, Hw5, Hw6, Hw7, Hw8, Hw9⟩
      -- round k's chunks of the result, as the write-backs address them
      ihave Ho := (Entails.of_eq (rounds_take (fun k' f => outRound d L k' f) (m (outLoc d)) (lookupF m d) k.val hk10)) $$ Hout
      icases Ho with ⟨Hok, Horest⟩
      ihave Hok' := (Entails.of_eq (bigSep_fin10 _)) $$ Hok
      icases Hok' with ⟨Ho0, Ho1, Ho2, Ho3, Ho4, Ho5, Ho6, Ho7, Ho8, Ho9⟩
      ihave Ho0' := (Entails.of_eq (outWin_respell (F := F) d L (k0_off3 L k 0#32) (k0_off3_inb L k 0) (cn (wL L) (ch ⟨k.val, hk10⟩ 0)) ((off3_e0 L k 0 hk10).trans (cn_val _ _).symm) (off3_e1 L k 0) _)) $$ Ho0
      ihave Ho1' := (Entails.of_eq (outWin_respell (F := F) d L (k0_off3 L k 1#32) (k0_off3_inb L k 1) (cn (wL L) (ch ⟨k.val, hk10⟩ 1)) ((off3_e0 L k 1 hk10).trans (cn_val _ _).symm) (off3_e1 L k 1) _)) $$ Ho1
      ihave Ho2' := (Entails.of_eq (outWin_respell (F := F) d L (k0_off3 L k 2#32) (k0_off3_inb L k 2) (cn (wL L) (ch ⟨k.val, hk10⟩ 2)) ((off3_e0 L k 2 hk10).trans (cn_val _ _).symm) (off3_e1 L k 2) _)) $$ Ho2
      ihave Ho3' := (Entails.of_eq (outWin_respell (F := F) d L (k0_off3 L k 3#32) (k0_off3_inb L k 3) (cn (wL L) (ch ⟨k.val, hk10⟩ 3)) ((off3_e0 L k 3 hk10).trans (cn_val _ _).symm) (off3_e1 L k 3) _)) $$ Ho3
      ihave Ho4' := (Entails.of_eq (outWin_respell (F := F) d L (k0_off3 L k 4#32) (k0_off3_inb L k 4) (cn (wL L) (ch ⟨k.val, hk10⟩ 4)) ((off3_e0 L k 4 hk10).trans (cn_val _ _).symm) (off3_e1 L k 4) _)) $$ Ho4
      ihave Ho5' := (Entails.of_eq (outWin_respell (F := F) d L (k0_off3 L k 5#32) (k0_off3_inb L k 5) (cn (wL L) (ch ⟨k.val, hk10⟩ 5)) ((off3_e0 L k 5 hk10).trans (cn_val _ _).symm) (off3_e1 L k 5) _)) $$ Ho5
      ihave Ho6' := (Entails.of_eq (outWin_respell (F := F) d L (k0_off3 L k 6#32) (k0_off3_inb L k 6) (cn (wL L) (ch ⟨k.val, hk10⟩ 6)) ((off3_e0 L k 6 hk10).trans (cn_val _ _).symm) (off3_e1 L k 6) _)) $$ Ho6
      ihave Ho7' := (Entails.of_eq (outWin_respell (F := F) d L (k0_off3 L k 7#32) (k0_off3_inb L k 7) (cn (wL L) (ch ⟨k.val, hk10⟩ 7)) ((off3_e0 L k 7 hk10).trans (cn_val _ _).symm) (off3_e1 L k 7) _)) $$ Ho7
      ihave Ho8' := (Entails.of_eq (outWin_respell (F := F) d L (k0_off3 L k 8#32) (k0_off3_inb L k 8) (cn (wL L) (ch ⟨k.val, hk10⟩ 8)) ((off3_e0 L k 8 hk10).trans (cn_val _ _).symm) (off3_e1 L k 8) _)) $$ Ho8
      ihave Ho9' := (Entails.of_eq (outWin_respell (F := F) d L (k0_off3 L k 9#32) (k0_off3_inb L k 9) (cn (wL L) (ch ⟨k.val, hk10⟩ 9)) ((off3_e0 L k 9 hk10).trans (cn_val _ _).symm) (off3_e1 L k 9) _)) $$ Ho9
      -- round k + 1's windows of the position scratch, as the gathers address them
      have hne : rk (k.val + 1) ≠ rk k.val := by
        intro e; have e' := congrArg Fin.val e
        simp only [rk] at e'; rw [Nat.mod_eq_of_lt (by omega : k.val + 1 < 10), Nat.mod_eq_of_lt hk10] at e'; omega
      ihave Hp1 := (Entails.of_eq (SparseCore.bigSep_erase' (Finset.mem_erase.mpr ⟨hne, Finset.mem_univ _⟩))) $$ Hpool
      icases Hp1 with ⟨Hnext, Hpool⟩
      ihave Hnext' := (Entails.of_eq (bigSep_fin10 _)) $$ Hnext
      icases Hnext' with ⟨Hi0, Hi1, Hi2, Hi3, Hi4, Hi5, Hi6, Hi7, Hi8, Hi9⟩
      ihave Hi0' := (Entails.of_eq (idxWin_respell (F := F) d L (k0_off4 k 0#32) (k0_off4_inb k 0) (ch (rk (k.val + 1)) 0) (off4_e k 0) _)) $$ Hi0
      ihave Hi1' := (Entails.of_eq (idxWin_respell (F := F) d L (k0_off4 k 1#32) (k0_off4_inb k 1) (ch (rk (k.val + 1)) 1) (off4_e k 1) _)) $$ Hi1
      ihave Hi2' := (Entails.of_eq (idxWin_respell (F := F) d L (k0_off4 k 2#32) (k0_off4_inb k 2) (ch (rk (k.val + 1)) 2) (off4_e k 2) _)) $$ Hi2
      ihave Hi3' := (Entails.of_eq (idxWin_respell (F := F) d L (k0_off4 k 3#32) (k0_off4_inb k 3) (ch (rk (k.val + 1)) 3) (off4_e k 3) _)) $$ Hi3
      ihave Hi4' := (Entails.of_eq (idxWin_respell (F := F) d L (k0_off4 k 4#32) (k0_off4_inb k 4) (ch (rk (k.val + 1)) 4) (off4_e k 4) _)) $$ Hi4
      ihave Hi5' := (Entails.of_eq (idxWin_respell (F := F) d L (k0_off4 k 5#32) (k0_off4_inb k 5) (ch (rk (k.val + 1)) 5) (off4_e k 5) _)) $$ Hi5
      ihave Hi6' := (Entails.of_eq (idxWin_respell (F := F) d L (k0_off4 k 6#32) (k0_off4_inb k 6) (ch (rk (k.val + 1)) 6) (off4_e k 6) _)) $$ Hi6
      ihave Hi7' := (Entails.of_eq (idxWin_respell (F := F) d L (k0_off4 k 7#32) (k0_off4_inb k 7) (ch (rk (k.val + 1)) 7) (off4_e k 7) _)) $$ Hi7
      ihave Hi8' := (Entails.of_eq (idxWin_respell (F := F) d L (k0_off4 k 8#32) (k0_off4_inb k 8) (ch (rk (k.val + 1)) 8) (off4_e k 8) _)) $$ Hi8
      ihave Hi9' := (Entails.of_eq (idxWin_respell (F := F) d L (k0_off4 k 9#32) (k0_off4_inb k 9) (ch (rk (k.val + 1)) 9) (off4_e k 9) _)) $$ Hi9
      sl_exec

      -- the gathers of round k + 1 in flight, each restated at what it will deliver
      ihave Hg0 := (flight_canon m d L hpre fI hfI _ 0 (ch (rk (k.val + 1)) 0) (k0_off4 k 0#32) (k0_off4_inb k 0) (off4_e k 0) (by decide) (hin _ _) 262144) $$ [Hf0]
      · iexact Hf0
      ihave Hg1 := (flight_canon m d L hpre fI hfI _ 1 (ch (rk (k.val + 1)) 1) (k0_off4 k 1#32) (k0_off4_inb k 1) (off4_e k 1) (by decide) (hin _ _) 262144) $$ [Hf1]
      · iexact Hf1
      ihave Hg2 := (flight_canon m d L hpre fI hfI _ 2 (ch (rk (k.val + 1)) 2) (k0_off4 k 2#32) (k0_off4_inb k 2) (off4_e k 2) (by decide) (hin _ _) 262144) $$ [Hf2]
      · iexact Hf2
      ihave Hg3 := (flight_canon m d L hpre fI hfI _ 3 (ch (rk (k.val + 1)) 3) (k0_off4 k 3#32) (k0_off4_inb k 3) (off4_e k 3) (by decide) (hin _ _) 262144) $$ [Hf3]
      · iexact Hf3
      ihave Hg4 := (flight_canon m d L hpre fI hfI _ 4 (ch (rk (k.val + 1)) 4) (k0_off4 k 4#32) (k0_off4_inb k 4) (off4_e k 4) (by decide) (hin _ _) 262144) $$ [Hf4]
      · iexact Hf4
      ihave Hg5 := (flight_canon m d L hpre fI hfI _ 5 (ch (rk (k.val + 1)) 5) (k0_off4 k 5#32) (k0_off4_inb k 5) (off4_e k 5) (by decide) (hin _ _) 262144) $$ [Hf5]
      · iexact Hf5
      ihave Hg6 := (flight_canon m d L hpre fI hfI _ 6 (ch (rk (k.val + 1)) 6) (k0_off4 k 6#32) (k0_off4_inb k 6) (off4_e k 6) (by decide) (hin _ _) 262144) $$ [Hf6]
      · iexact Hf6
      ihave Hg7 := (flight_canon m d L hpre fI hfI _ 7 (ch (rk (k.val + 1)) 7) (k0_off4 k 7#32) (k0_off4_inb k 7) (off4_e k 7) (by decide) (hin _ _) 262144) $$ [Hf7]
      · iexact Hf7
      ihave Hg8 := (flight_canon m d L hpre fI hfI _ 8 (ch (rk (k.val + 1)) 8) (k0_off4 k 8#32) (k0_off4_inb k 8) (off4_e k 8) (by decide) (hin _ _) 262144) $$ [Hf8]
      · iexact Hf8
      ihave Hg9 := (flight_canon m d L hpre fI hfI _ 9 (ch (rk (k.val + 1)) 9) (k0_off4 k 9#32) (k0_off4_inb k 9) (off4_e k 9) (by decide) (hin _ _) 262144) $$ [Hf9]
      · iexact Hf9
      -- round k's chunks of the result hold the looked-up rows
      ihave Hd0 := (chunk_done m d L hpre 0 (ch (rk k.val) 0) (k0_off3 L k 0#32) (k0_off3_inb L k 0) (off3_e0r L k 0) (off3_e1 L k 0) _ _ rfl) $$ [Ho0']
      · iexact Ho0'
      ihave Hd1 := (chunk_done m d L hpre 1 (ch (rk k.val) 1) (k0_off3 L k 1#32) (k0_off3_inb L k 1) (off3_e0r L k 1) (off3_e1 L k 1) _ _ rfl) $$ [Ho1']
      · iexact Ho1'
      ihave Hd2 := (chunk_done m d L hpre 2 (ch (rk k.val) 2) (k0_off3 L k 2#32) (k0_off3_inb L k 2) (off3_e0r L k 2) (off3_e1 L k 2) _ _ rfl) $$ [Ho2']
      · iexact Ho2'
      ihave Hd3 := (chunk_done m d L hpre 3 (ch (rk k.val) 3) (k0_off3 L k 3#32) (k0_off3_inb L k 3) (off3_e0r L k 3) (off3_e1 L k 3) _ _ rfl) $$ [Ho3']
      · iexact Ho3'
      ihave Hd4 := (chunk_done m d L hpre 4 (ch (rk k.val) 4) (k0_off3 L k 4#32) (k0_off3_inb L k 4) (off3_e0r L k 4) (off3_e1 L k 4) _ _ rfl) $$ [Ho4']
      · iexact Ho4'
      ihave Hd5 := (chunk_done m d L hpre 5 (ch (rk k.val) 5) (k0_off3 L k 5#32) (k0_off3_inb L k 5) (off3_e0r L k 5) (off3_e1 L k 5) _ _ rfl) $$ [Ho5']
      · iexact Ho5'
      ihave Hd6 := (chunk_done m d L hpre 6 (ch (rk k.val) 6) (k0_off3 L k 6#32) (k0_off3_inb L k 6) (off3_e0r L k 6) (off3_e1 L k 6) _ _ rfl) $$ [Ho6']
      · iexact Ho6'
      ihave Hd7 := (chunk_done m d L hpre 7 (ch (rk k.val) 7) (k0_off3 L k 7#32) (k0_off3_inb L k 7) (off3_e0r L k 7) (off3_e1 L k 7) _ _ rfl) $$ [Ho7']
      · iexact Ho7'
      ihave Hd8 := (chunk_done m d L hpre 8 (ch (rk k.val) 8) (k0_off3 L k 8#32) (k0_off3_inb L k 8) (off3_e0r L k 8) (off3_e1 L k 8) _ _ rfl) $$ [Ho8']
      · iexact Ho8'
      ihave Hd9 := (chunk_done m d L hpre 9 (ch (rk k.val) 9) (k0_off3 L k 9#32) (k0_off3_inb L k 9) (off3_e0r L k 9) (off3_e1 L k 9) _ _ rfl) $$ [Ho9']
      · iexact Ho9'
      ihave Hdone := (Entails.of_eq ((bigSep_fin10 (fun b : Fin 10 => (outLoc d ↦[chunkSet (cn (wL L) (ch (rk k.val) b))]{fullShare} lookupF m d : sProp 𝕄))).symm.trans
          (congrArg (fun r => outRound d L r (lookupF m d)) (rk_of_lt k.val hk10)))) $$ [Hd0 Hd1 Hd2 Hd3 Hd4 Hd5 Hd6 Hd7 Hd8 Hd9]
      · isplitl [Hd0]; · iexact Hd0
        isplitl [Hd1]; · iexact Hd1
        isplitl [Hd2]; · iexact Hd2
        isplitl [Hd3]; · iexact Hd3
        isplitl [Hd4]; · iexact Hd4
        isplitl [Hd5]; · iexact Hd5
        isplitl [Hd6]; · iexact Hd6
        isplitl [Hd7]; · iexact Hd7
        isplitl [Hd8]; · iexact Hd8
        iexact Hd9
      ihave Hout2 := (Entails.of_eq (rounds_put (fun k' f => outRound d L k' f) (m (outLoc d)) (lookupF m d) k.val hk10)) $$ [Hdone Horest]
      · isplitl [Hdone]; · iexact Hdone
        iexact Horest
      -- round k's windows go back to the pool
      ihave Hback := (Entails.of_eq (bigSep_fin10 (fun b : Fin 10 => ((iV).view.loc (V d (cV L) (jV L)) ↦[idxSet (ch (rk k.val) b)]{fullShare} fI : sProp 𝕄))).symm) $$ [Hf0_dst_and Hf1_dst_and Hf2_dst_and Hf3_dst_and Hf4_dst_and Hf5_dst_and Hf6_dst_and Hf7_dst_and Hf8_dst_and Hf9_dst_and]
      · isplitl [Hf0_dst_and]; · iexact Hf0_dst_and
        isplitl [Hf1_dst_and]; · iexact Hf1_dst_and
        isplitl [Hf2_dst_and]; · iexact Hf2_dst_and
        isplitl [Hf3_dst_and]; · iexact Hf3_dst_and
        isplitl [Hf4_dst_and]; · iexact Hf4_dst_and
        isplitl [Hf5_dst_and]; · iexact Hf5_dst_and
        isplitl [Hf6_dst_and]; · iexact Hf6_dst_and
        isplitl [Hf7_dst_and]; · iexact Hf7_dst_and
        isplitl [Hf8_dst_and]; · iexact Hf8_dst_and
        iexact Hf9_dst_and
      ihave Hpool2 := (Entails.of_eq (pool_swap (R := fun k' : Fin 10 => bigSep Finset.univ fun b : Fin 10 => ((iV).view.loc (V d (cV L) (jV L)) ↦[idxSet (ch k' b)]{fullShare} fI : sProp 𝕄)) (rk k.val) (rk (k.val + 1)) hne.symm)) $$ [Hback Hpool]
      · isplitl [Hback]; · iexact Hback
        iexact Hpool
      sl_step
      isplitl [Hmw]; · iexact Hmw
      isplitl [Hg0 Hg1 Hg2 Hg3 Hg4 Hg5 Hg6 Hg7 Hg8 Hg9]
      · iapply (Entails.of_eq (bigSep_fin10 (fun b : Fin 10 => Transfers.Flight countersEmb (V d (cV L) (jV L)) (SemLoc.dma (gix b)) (default : HIx 1) 262144 (Dg m d L fI b (ch (rk (k.val + 1)) b)))).symm)
        isplitl [Hg0]; · iexact Hg0
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [Hg7]; · iexact Hg7
        isplitl [Hg8]; · iexact Hg8
        iexact Hg9
      isplitl [Hz0 Hz1 Hz2 Hz3 Hz4 Hz5 Hz6 Hz7 Hz8 Hz9]
      · iapply (Entails.of_eq (bigSep_fin10 (fun b : Fin 10 => ((tblK).view.loc (V d (cV L) (jV L)) ↦[(tblK).view.set \ (tblK).view.set]{tokq L b.val} tblF m d (cV L) : sProp 𝕄))).symm)
        isplitl [Hz0]; · iexact Hz0
        isplitl [Hz1]; · iexact Hz1
        isplitl [Hz2]; · iexact Hz2
        isplitl [Hz3]; · iexact Hz3
        isplitl [Hz4]; · iexact Hz4
        isplitl [Hz5]; · iexact Hz5
        isplitl [Hz6]; · iexact Hz6
        isplitl [Hz7]; · iexact Hz7
        isplitl [Hz8]; · iexact Hz8
        iexact Hz9
      isplitl [Hw0 Hw1 Hw2 Hw3 Hw4 Hw5 Hw6 Hw7 Hw8 Hw9]
      · iapply (Entails.of_eq (bigSep_fin10 (fun b : Fin 10 => (semVal (dcell d (cV L) (jV L) (wix b)) 0 : sProp 𝕄))).symm)
        isplitl [Hw0]; · iexact Hw0
        isplitl [Hw1]; · iexact Hw1
        isplitl [Hw2]; · iexact Hw2
        isplitl [Hw3]; · iexact Hw3
        isplitl [Hw4]; · iexact Hw4
        isplitl [Hw5]; · iexact Hw5
        isplitl [Hw6]; · iexact Hw6
        isplitl [Hw7]; · iexact Hw7
        isplitl [Hw8]; · iexact Hw8
        iexact Hw9
      isplitl [Hpool2]; · iexact Hpool2
      isplitl [Hout2]; · iexact Hout2
      iexists _; isplitr
      swap; · iexact HO
      ipureintro; intro p hp
      repeat (rcases Finset.mem_insert.mp hp with h | hp; · exact .inr (.inl (h ▸ rfl)))
      exact hW' p hp
    · unfold inv
      isplitl [Hmw2]; · iexact Hmw2
      isplitl [Hfl]; · iexact Hfl
      isplitl [Hz]; · iexact Hz
      isplitl [Hw]; · iexact Hw
      isplitl [Hpool]; · iexact Hpool
      isplitl [Hout']; · iexact Hout'
      iexists _; isplitr
      swap; · iexact HO
      ipureintro; intro p hp
      repeat (rcases Finset.mem_insert.mp hp with h | hp; · first | exact .inr (.inl (h ▸ rfl)) | exact .inr (.inr (h ▸ rfl)))
      exact .inl hp
    -- after the loop: the invariant at the ninth round
    iintro %u HI
    have eT : Scf.trips k0_t1_loop.lb k0_t1_loop.ub k0_t1_loop.st = 9 := trips_eq
    ihave HI' := (Entails.of_eq (congrArg (fun k => inv m d L fI O W k u) eT)) $$ HI
    unfold inv
    icases HI' with ⟨Hmw, Hfl, Hz, Hw, Hpool, Hout, %W', %hW', HO⟩
    ihave Hfl' := (Entails.of_eq (bigSep_fin10 _)) $$ Hfl
    icases Hfl' with ⟨Hf0, Hf1, Hf2, Hf3, Hf4, Hf5, Hf6, Hf7, Hf8, Hf9⟩
    unfold Dg
    ihave Hz' := (Entails.of_eq (bigSep_fin10 _)) $$ Hz
    icases Hz' with ⟨Hz0, Hz1, Hz2, Hz3, Hz4, Hz5, Hz6, Hz7, Hz8, Hz9⟩
    ihave Hw' := (Entails.of_eq (bigSep_fin10 _)) $$ Hw
    icases Hw' with ⟨Hw0, Hw1, Hw2, Hw3, Hw4, Hw5, Hw6, Hw7, Hw8, Hw9⟩
    -- the last round's chunks of the result, as the write-backs address them
    ihave Ho := (Entails.of_eq (rounds_take (fun k' f => outRound d L k' f) (m (outLoc d)) (lookupF m d) 9 (by decide))) $$ Hout
    icases Ho with ⟨Hok, Horest⟩
    ihave Hok' := (Entails.of_eq (bigSep_fin10 _)) $$ Hok
    icases Hok' with ⟨Ho0, Ho1, Ho2, Ho3, Ho4, Ho5, Ho6, Ho7, Ho8, Ho9⟩
    ihave Ho0' := (Entails.of_eq (outWin_respell (F := F) d L (k0_off5 L 5760#32) (k0_off5_inb L 0) (cn (wL L) (ch ⟨9, (show 9 < 10 by decide)⟩ 0)) ((off5_e0 L 0).trans (cn_val _ _).symm) (off5_e1 L 0) _)) $$ Ho0
    ihave Ho1' := (Entails.of_eq (outWin_respell (F := F) d L (k0_off5 L 5824#32) (k0_off5_inb L 1) (cn (wL L) (ch ⟨9, (show 9 < 10 by decide)⟩ 1)) ((off5_e0 L 1).trans (cn_val _ _).symm) (off5_e1 L 1) _)) $$ Ho1
    ihave Ho2' := (Entails.of_eq (outWin_respell (F := F) d L (k0_off5 L 5888#32) (k0_off5_inb L 2) (cn (wL L) (ch ⟨9, (show 9 < 10 by decide)⟩ 2)) ((off5_e0 L 2).trans (cn_val _ _).symm) (off5_e1 L 2) _)) $$ Ho2
    ihave Ho3' := (Entails.of_eq (outWin_respell (F := F) d L (k0_off5 L 5952#32) (k0_off5_inb L 3) (cn (wL L) (ch ⟨9, (show 9 < 10 by decide)⟩ 3)) ((off5_e0 L 3).trans (cn_val _ _).symm) (off5_e1 L 3) _)) $$ Ho3
    ihave Ho4' := (Entails.of_eq (outWin_respell (F := F) d L (k0_off5 L 6016#32) (k0_off5_inb L 4) (cn (wL L) (ch ⟨9, (show 9 < 10 by decide)⟩ 4)) ((off5_e0 L 4).trans (cn_val _ _).symm) (off5_e1 L 4) _)) $$ Ho4
    ihave Ho5' := (Entails.of_eq (outWin_respell (F := F) d L (k0_off5 L 6080#32) (k0_off5_inb L 5) (cn (wL L) (ch ⟨9, (show 9 < 10 by decide)⟩ 5)) ((off5_e0 L 5).trans (cn_val _ _).symm) (off5_e1 L 5) _)) $$ Ho5
    ihave Ho6' := (Entails.of_eq (outWin_respell (F := F) d L (k0_off5 L 6144#32) (k0_off5_inb L 6) (cn (wL L) (ch ⟨9, (show 9 < 10 by decide)⟩ 6)) ((off5_e0 L 6).trans (cn_val _ _).symm) (off5_e1 L 6) _)) $$ Ho6
    ihave Ho7' := (Entails.of_eq (outWin_respell (F := F) d L (k0_off5 L 6208#32) (k0_off5_inb L 7) (cn (wL L) (ch ⟨9, (show 9 < 10 by decide)⟩ 7)) ((off5_e0 L 7).trans (cn_val _ _).symm) (off5_e1 L 7) _)) $$ Ho7
    ihave Ho8' := (Entails.of_eq (outWin_respell (F := F) d L (k0_off5 L 6272#32) (k0_off5_inb L 8) (cn (wL L) (ch ⟨9, (show 9 < 10 by decide)⟩ 8)) ((off5_e0 L 8).trans (cn_val _ _).symm) (off5_e1 L 8) _)) $$ Ho8
    ihave Ho9' := (Entails.of_eq (outWin_respell (F := F) d L (k0_off5 L 6336#32) (k0_off5_inb L 9) (cn (wL L) (ch ⟨9, (show 9 < 10 by decide)⟩ 9)) ((off5_e0 L 9).trans (cn_val _ _).symm) (off5_e1 L 9) _)) $$ Ho9
    sl_exec
    -- the last round's chunks of the result hold the looked-up rows
    ihave Hd0 := (chunk_done m d L hpre 0 (ch (rk 9) 0) (k0_off5 L 5760#32) (k0_off5_inb L 0) (off5_e0 L 0) (off5_e1 L 0) _ _ rfl) $$ [Ho0']
    · iexact Ho0'
    ihave Hd1 := (chunk_done m d L hpre 1 (ch (rk 9) 1) (k0_off5 L 5824#32) (k0_off5_inb L 1) (off5_e0 L 1) (off5_e1 L 1) _ _ rfl) $$ [Ho1']
    · iexact Ho1'
    ihave Hd2 := (chunk_done m d L hpre 2 (ch (rk 9) 2) (k0_off5 L 5888#32) (k0_off5_inb L 2) (off5_e0 L 2) (off5_e1 L 2) _ _ rfl) $$ [Ho2']
    · iexact Ho2'
    ihave Hd3 := (chunk_done m d L hpre 3 (ch (rk 9) 3) (k0_off5 L 5952#32) (k0_off5_inb L 3) (off5_e0 L 3) (off5_e1 L 3) _ _ rfl) $$ [Ho3']
    · iexact Ho3'
    ihave Hd4 := (chunk_done m d L hpre 4 (ch (rk 9) 4) (k0_off5 L 6016#32) (k0_off5_inb L 4) (off5_e0 L 4) (off5_e1 L 4) _ _ rfl) $$ [Ho4']
    · iexact Ho4'
    ihave Hd5 := (chunk_done m d L hpre 5 (ch (rk 9) 5) (k0_off5 L 6080#32) (k0_off5_inb L 5) (off5_e0 L 5) (off5_e1 L 5) _ _ rfl) $$ [Ho5']
    · iexact Ho5'
    ihave Hd6 := (chunk_done m d L hpre 6 (ch (rk 9) 6) (k0_off5 L 6144#32) (k0_off5_inb L 6) (off5_e0 L 6) (off5_e1 L 6) _ _ rfl) $$ [Ho6']
    · iexact Ho6'
    ihave Hd7 := (chunk_done m d L hpre 7 (ch (rk 9) 7) (k0_off5 L 6208#32) (k0_off5_inb L 7) (off5_e0 L 7) (off5_e1 L 7) _ _ rfl) $$ [Ho7']
    · iexact Ho7'
    ihave Hd8 := (chunk_done m d L hpre 8 (ch (rk 9) 8) (k0_off5 L 6272#32) (k0_off5_inb L 8) (off5_e0 L 8) (off5_e1 L 8) _ _ rfl) $$ [Ho8']
    · iexact Ho8'
    ihave Hd9 := (chunk_done m d L hpre 9 (ch (rk 9) 9) (k0_off5 L 6336#32) (k0_off5_inb L 9) (off5_e0 L 9) (off5_e1 L 9) _ _ rfl) $$ [Ho9']
    · iexact Ho9'
    ihave Hdone := (Entails.of_eq ((bigSep_fin10 (fun b : Fin 10 => (outLoc d ↦[chunkSet (cn (wL L) (ch (rk 9) b))]{fullShare} lookupF m d : sProp 𝕄))).symm.trans
        (congrArg (fun r => outRound d L r (lookupF m d)) (rk_of_lt 9 (by decide))))) $$ [Hd0 Hd1 Hd2 Hd3 Hd4 Hd5 Hd6 Hd7 Hd8 Hd9]
    · isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      isplitl [Hd6]; · iexact Hd6
      isplitl [Hd7]; · iexact Hd7
      isplitl [Hd8]; · iexact Hd8
      iexact Hd9
    ihave Hout2 := (Entails.of_eq (rounds_put (fun k' f => outRound d L k' f) (m (outLoc d)) (lookupF m d) 9 (by decide))) $$ [Hdone Horest]
    · isplitl [Hdone]; · iexact Hdone
      iexact Horest
    ihave Hout3 := (Entails.of_eq ((bigSep_congr (s := (Finset.univ : Finset (Fin 10))) (Φ := fun k' : Fin 10 => outRound d L k' (if k'.val < 9 + 1 then lookupF m d else m (outLoc d)))
        (Ψ := fun k' : Fin 10 => outRound d L k' (lookupF m d)) fun k' _ => by rw [if_pos k'.isLt]).trans (outChunks_rounds (F := F) d L (lookupF m d)).symm)) $$ Hout2
    -- the last round's windows back to the pool, and the position scratch whole
    ihave Hback := (Entails.of_eq (bigSep_fin10 (fun b : Fin 10 => ((iV).view.loc (V d (cV L) (jV L)) ↦[idxSet (ch (rk 9) b)]{fullShare} fI : sProp 𝕄))).symm) $$ [Hf0_dst_and Hf1_dst_and Hf2_dst_and Hf3_dst_and Hf4_dst_and Hf5_dst_and Hf6_dst_and Hf7_dst_and Hf8_dst_and Hf9_dst_and]
    · isplitl [Hf0_dst_and]; · iexact Hf0_dst_and
      isplitl [Hf1_dst_and]; · iexact Hf1_dst_and
      isplitl [Hf2_dst_and]; · iexact Hf2_dst_and
      isplitl [Hf3_dst_and]; · iexact Hf3_dst_and
      isplitl [Hf4_dst_and]; · iexact Hf4_dst_and
      isplitl [Hf5_dst_and]; · iexact Hf5_dst_and
      isplitl [Hf6_dst_and]; · iexact Hf6_dst_and
      isplitl [Hf7_dst_and]; · iexact Hf7_dst_and
      isplitl [Hf8_dst_and]; · iexact Hf8_dst_and
      iexact Hf9_dst_and
    ihave Hiall := (Entails.of_eq ((SparseCore.bigSep_erase' (Finset.mem_univ (rk 9)) (Φ := fun k' : Fin 10 => bigSep Finset.univ fun b : Fin 10 => ((iV).view.loc (V d (cV L) (jV L)) ↦[idxSet (ch k' b)]{fullShare} fI : sProp 𝕄))).symm.trans
        ((iPts_pool (F := F) d L fI).symm.trans (pts_iV (F := F) d L fI)))) $$ [Hback Hpool]
    · isplitl [Hback]; · iexact Hback
      iexact Hpool
    -- the row scratch whole at some contents; the subcore's read share of the table whole
    ihave Hslots := (slots_join (F := F) d L) $$ [Hf0_dst Hf1_dst Hf2_dst Hf3_dst Hf4_dst Hf5_dst Hf6_dst Hf7_dst Hf8_dst Hf9_dst]
    · iapply (Entails.of_eq (bigSep_fin10 (fun b : Fin 10 => (iprop(∃ f, (slotB b).view.loc (V d (cV L) (jV L)) ↦[(slotB b).view.set]{fullShare} f) : sProp 𝕄))).symm)
      isplitl [Hf0_dst]; · iexists _; iexact Hf0_dst
      isplitl [Hf1_dst]; · iexists _; iexact Hf1_dst
      isplitl [Hf2_dst]; · iexists _; iexact Hf2_dst
      isplitl [Hf3_dst]; · iexists _; iexact Hf3_dst
      isplitl [Hf4_dst]; · iexists _; iexact Hf4_dst
      isplitl [Hf5_dst]; · iexists _; iexact Hf5_dst
      isplitl [Hf6_dst]; · iexists _; iexact Hf6_dst
      isplitl [Hf7_dst]; · iexists _; iexact Hf7_dst
      isplitl [Hf8_dst]; · iexists _; iexact Hf8_dst
      iexists _; iexact Hf9_dst
    ihave Htbl2 := (tbl_toks_join (F := F) d L (shareTokN fullShare (jV L).val) (tblF m d (cV L))) $$ [Htd Hz0 Hz1 Hz2 Hz3 Hz4 Hz5 Hz6 Hz7 Hz8 Hz9]
    · isplitl [Htd]; · iexact Htd
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      iexact Hz9
    sl_step
    isplitl [Hp' Hout3 Htbl2 Hextra]
    · isplitl [Hp']; · iapply (Entails.of_eq (pts_posK (F := F) d L _)); iexact Hp'
      isplitl [Hout3]; · iexact Hout3
      isplitl [Htbl2]; · iexact Htbl2
      iexact Hextra
    isplitl [Hiall Hslots Hbufs]
    · isplitl [Hiall]; · iexists _; iexact Hiall
      isplitl [Hslots]; · iexact Hslots
      iexact Hbufs
    isplitl [Hf0 Hf1 Hf2 Hf3 Hf4 Hf5 Hf6 Hf7 Hf8 Hf9 Hw0 Hw1 Hw2 Hw3 Hw4 Hw5 Hw6 Hw7 Hw8 Hw9 Hs20 Hs21 Hs22]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      isplitl [Hf6]; · iexact Hf6
      isplitl [Hf7]; · iexact Hf7
      isplitl [Hf8]; · iexact Hf8
      isplitl [Hf9]; · iexact Hf9
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      isplitl [Hw7]; · iexact Hw7
      isplitl [Hw8]; · iexact Hw8
      isplitl [Hw9]; · iexact Hw9
      isplitl [Hs20]; · iexact Hs20
      isplitl [Hs21]; · iexact Hs21
      iexact Hs22
    iexists _; isplitr
    swap; · iexact HO
    ipureintro; intro p hp
    repeat (rcases Finset.mem_insert.mp hp with h | hp; · exact .inr (.inl (h ▸ rfl)))
    exact hW' p hp
  )

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_embed (coordsV c s)
          pV (Memref.isWhole_whole _) bV (Memref.isWhole_whole _) eV (Memref.isWhole_whole _) oV (Memref.isWhole_whole _)
          tV (Memref.isWhole_whole _) iV (Memref.isWhole_whole _) rV (Memref.isWhole_whole _) cc0_scratch3 cc0_scratch4 cc0_scoped0 cc0_scoped1 cc0_scoped2) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hc : ((K (F := F)).core 0 c).val < 2 := c.isLt
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = oxV d ((K (F := F)).core 0 c) from if_pos hc,
    show (P m).x 0 (V d ((K (F := F)).core 0 c) ((K (F := F)).sub 0 i)) = bkit m d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.KB

end
-- ==== Proof.PreRange.lean ====
/-
  The precondition read back at the positions: a position array on which the printed domain predicate is true has
  every word, read as a natural number, at most 199. The predicate is the conjunction of three reductions by "and";
  only the third (the one over the positions) is opened: it says, at every index, that the word is at least 0 and
  at most 199 when read as a signed integer, and a signed integer in that range is the word's natural-number value.
-/
import proofs.«207546_g72756745994873_cont_9to1_m_541_11_alg».proof.Pre_input_domain
import proofs.«207546_g72756745994873_cont_9to1_m_541_11_alg».proof.Proof.Gen.Pre_input_domain
import Idealize.ShloMosaic.Lib.ReduceAll
import Idealize.ShloMosaic.Lib.ValueIdx

namespace Cert.PreRange

open Idealize.ShloMosaic Idealize.ShloMosaic.ValueIdx

/-- The scalar shape has one index. -/
instance : Subsingleton Cert.Pre_input_domain.S_.Idx := ⟨fun a b => funext fun d => d.elim0⟩

/-- A 32-bit word whose signed value lies in `0 … 199` has natural-number value at most 199. -/
theorem toNat_le_of_toInt (p : BitVec 32) (h0 : (0 : Int) ≤ p.toInt) (h1 : p.toInt ≤ 199) : p.toNat ≤ 199 := by
  have hlt : 2 * p.toNat < 2 ^ 32 := BitVec.toInt_pos_iff.1 h0
  rw [BitVec.toInt_eq_toNat_of_lt hlt] at h1
  omega

theorem pos_range {F : FTy → Type} [FloatOps F] [Cert.Pre_input_domain.Facts]
    (a0 : IVec Cert.Pre_input_domain.S204800 32) (a1 : FVec F Cert.Pre_input_domain.S20x128 .f32) (a2 : FVec F Cert.Pre_input_domain.S180x128 .f32)
    (h : Cert.Pre_input_domain.fn (F := F) a0 a1 a2 = (fun _ => 1#1)) :
    ∀ i : Cert.Pre_input_domain.S204800.Idx, (a0 i).toNat ≤ 199 := by
  intro i
  have h0 := congrFun h ValueIdx.ix0
  dsimp only [Cert.Pre_input_domain.fn] at h0
  -- the outer "and": the two tables' conjuncts on the left, the positions' reduction on the right
  obtain ⟨-, h3⟩ := IntOp.andi_eq_one.1 h0
  -- the reduction over all positions is 1: its operand is 1 at every index
  have hi := Host.reduce_andi_all _ _ _ _ _ h3 i
  -- the operand at an index: (0 ≤ p signed) and (p ≤ 199 signed)
  obtain ⟨hge, hle⟩ := IntOp.andi_eq_one.1 hi
  have hge' : (0#32 : BitVec 32).toInt ≤ (a0 i).toInt := IntOp.cmpi_sge.1 hge
  have hle' : (a0 i).toInt ≤ (199#32 : BitVec 32).toInt := IntOp.cmpi_sle.1 hle
  rw [show (0#32 : BitVec 32).toInt = 0 from by decide] at hge'
  rw [show (199#32 : BitVec 32).toInt = 199 from by decide] at hle'
  exact toNat_le_of_toInt _ hge' hle'

end Cert.PreRange
-- ==== Proof.RefRun.lean ====
/-
  The reference program's run. The program is an embedding lookup written with two row lookups and three
  selects: with the mask "position below 20", the base table is read at the position under the mask (else at 0), the
  extended table at the position less 20 off the mask (else at 0), and the mask chooses between the two rows. Each row
  lookup guards its gather with two range tests and reads a not-a-number pattern where a test fails. Here: (1) two facts
  about the operations — a reduction by "and" of an all-ones array is 1, and a gather of whole rows read at an index;
  (2) the program's result as a function `out` of its three arguments, and `out = lookup` (the shared specification) on
  positions in `0 … 199`, where every range test passes and the signed comparisons are the natural-number ones;
  (3) the program as the list of its operations, its run to the fold of that list, and the fold at the result buffer
  computed to `out`.
-/
import proofs.«207546_g72756745994873_cont_9to1_m_541_11_alg».proof.ReferenceIdeal
import proofs.«207546_g72756745994873_cont_9to1_m_541_11_alg».proof.Proof.Gen.ReferenceIdeal
import proofs.«207546_g72756745994873_cont_9to1_m_541_11_alg».proof.Proof.Spec
import Idealize.ShloMosaic.Lib.StableHlo.Run
import Idealize.ShloMosaic.Lib.ValueIdx
import Idealize.ShloMosaic.Lib.ReduceAll
import Idealize.ShloMosaic.PureOps.Reduce

noncomputable section

namespace Cert.RefOps

open Idealize.ShloMosaic Idealize.ShloMosaic.ValueIdx

/-! ## A reduction by "and" of an array of ones -/

/-- A left fold by "and" from 1 over words that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_ones f l _ (IntOp.andi_eq_one.2 ⟨hi, h a List.mem_cons_self⟩) fun n hn => h n (List.mem_cons_of_mem _ hn)

/-- A reduction by "and", from 1, of an array whose every element is 1 is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl]
  exact foldl_andi_ones x _ _ (hinit _) fun n _ => hx n

/-! ## A gather of whole rows of a rank-2 table, read at an index -/

section Rows
variable {α : Type}

/-- The dimension numbers of a row lookup `x[idx]` of a table `[N, C]` at start indices `[R, 1]`: the result's axis 1
    is the row's offset, the table's axis 0 is collapsed and is the one the start index names, slices are one row. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row lookup read at `(r, k)`: the table at row `idx[r, 0]`, read signed and cut into `0 … N − 1`, column `k`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r ⟨0, Nat.one_pos⟩)).toInt.toNat (N - 1), by omega⟩ k) := by
  -- the row coordinate: the start index, cut; no batching and no offset on the collapsed axis
  have h0 : (rowDims N R C wf).start (ix2 r k) idx (0 : Fin 2) + (rowDims N R C wf).batchCoord (ix2 r k) (0 : Fin 2)
      + (rowDims N R C wf).offCoord (ix2 r k) (0 : Fin 2) = min (idx (ix2 r ⟨0, Nat.one_pos⟩)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  -- the column coordinate: the result's own, the start index not naming that axis
  have h1 : (rowDims N R C wf).start (ix2 r k) idx (1 : Fin 2) + (rowDims N R C wf).batchCoord (ix2 r k) (1 : Fin 2)
      + (rowDims N R C wf).offCoord (ix2 r k) (1 : Fin 2) = k.val := by
    rw [GatherDims.batchCoord_eq_zero _ _ _ List.not_mem_nil]
    have hs : (rowDims N R C wf).start (ix2 r k) idx (1 : Fin 2) = 0 := by
      unfold GatherDims.start
      rw [dif_neg (show ¬ (1 : Fin 2) ∈ (rowDims N R C wf).startIndexMap from
        fun h => absurd (List.mem_singleton.1 h) (show ¬ ((1 : Fin 2) = (0 : Fin 2)) from by decide))]
    rw [hs]
    simp only [Nat.add_zero, Nat.zero_add]
    unfold GatherDims.offCoord
    rw [dif_pos (show (1 : Fin 2) ∈ (rowDims N R C wf).sKept from (GatherDims.mem_sKept _ _).2
      ⟨fun h => absurd (List.mem_singleton.1 h) (show ¬ ((1 : Fin 2) = (0 : Fin 2)) from by decide), List.not_mem_nil⟩)]
    rfl
  unfold Host.gather
  congr 1
  funext a
  refine Fin.ext ?_
  match a with
  | ⟨0, _⟩ => exact h0
  | ⟨1, _⟩ => exact h1

end Rows

end Cert.RefOps

namespace Cert.ReferenceIdeal.RefValue

open Cert.ReferenceIdeal Idealize.ShloMosaic Idealize.ShloMosaic.ValueIdx Cert.RefOps
open Facts₀ Facts

/-! ## Broadcasts of these shapes, read at an index -/

section Bcast
variable {α : Type}

theorem bcast_col_apply (h : S204800.BroadcastsInDim S204800x1 ![0]) (x : S204800.Idx → α) (j : S204800x1.Idx) :
    broadcastInDim S204800x1 ![0] h x j = x (ix1 (j 0)) := by
  show x _ = x _
  congr 1
  funext a
  match a with
  | ⟨0, _⟩ => rfl

theorem bcast_row_apply (h : S204800.BroadcastsInDim S204800x128 ![0]) (x : S204800.Idx → α) (j : S204800x128.Idx) :
    broadcastInDim S204800x128 ![0] h x j = x (ix1 (j 0)) := by
  show x _ = x _
  congr 1
  funext a
  match a with
  | ⟨0, _⟩ => rfl

theorem bcast_wide_apply (h : S204800x1.BroadcastsInDim S204800x128 ![0, 1]) (x : S204800x1.Idx → α) (j : S204800x128.Idx) :
    broadcastInDim S204800x128 ![0, 1] h x j = x (ix2 (j 0) ⟨0, Nat.one_pos⟩) := by
  show x _ = x _
  congr 1
  funext a
  match a with
  | ⟨0, _⟩ => rfl
  | ⟨1, _⟩ => rfl

end Bcast

/-! ## Words in range -/

section Words

theorem toInt_small (q : BitVec 32) (h : q.toNat < 2 ^ 31) : q.toInt = (q.toNat : Int) :=
  BitVec.toInt_eq_toNat_of_lt (by omega)

/-- A word in `0 … 2³¹ − 1` is not negative: the select on "negative" keeps it. -/
theorem select_neg_keep (q a : BitVec 32) (h : q.toNat < 2 ^ 31) :
    Scalar.select (IntOp.cmpi .slt q 0#32) a q = q := by
  have hn : ¬ IntOp.cmpi .slt q 0#32 = 1#1 := by
    rw [IntOp.cmpi_slt, toInt_small q h, show (0#32 : BitVec 32).toInt = 0 from by decide]
    omega
  exact if_neg hn

/-- A word in `0 … n` passes the two range tests against `0` and `n`. -/
theorem range_tests (q c : BitVec 32) (n : Nat) (hc : c.toInt = (n : Int)) (hn : n < 2 ^ 31) (h : q.toNat ≤ n) :
    IntOp.andi (IntOp.cmpi .sge q 0#32) (IntOp.cmpi .sle q c) = 1#1 := by
  have hq := toInt_small q (by omega)
  refine IntOp.andi_eq_one.2 ⟨IntOp.cmpi_sge.2 ?_, IntOp.cmpi_sle.2 ?_⟩
  · rw [hq, show (0#32 : BitVec 32).toInt = 0 from by decide]; omega
  · rw [hq, hc]; omega

end Words

end Cert.ReferenceIdeal.RefValue

namespace Cert.ReferenceIdeal.RefValue

open Cert.ReferenceIdeal Idealize.ShloMosaic Idealize.ShloMosaic.ValueIdx Cert.RefOps
open Facts₀ Facts

variable {F : FTy → Type} [FloatOps F] [Facts]

/-! ## The row lookup as the program computes it -/

/-- `jnp.take(table, idx, axis=0)` as the program spells it, for a table of `N` rows (`cN` the word `N`, `cN1` the word
    `N − 1`): a negative index is moved up by `N`; the rows are gathered at the index cut into range; and a row whose
    index fails either range test reads the quiet-NaN pattern instead. -/
def takeRows {N : Nat} (D : GatherDims ⟨2, ![N, 128]⟩ S204800x1 S204800x128) (cN cN1 : BitVec 32)
    (tbl : FVec F ⟨2, ![N, 128]⟩ .f32) (idx : IVec S204800 32) : FVec F S204800x128 .f32 :=
  let v1 : IVec S204800 1 := cmpi .slt idx (broadcastInDim S204800 ![] bcast_S_S204800 (constantI S_ 32 0#32))
  let v3 : IVec S204800 32 := addi idx (broadcastInDim S204800 ![] bcast_S_S204800 (constantI S_ 32 cN))
  let v4 : IVec S204800 32 := select v1 v3 idx
  let v5 : IVec S204800x1 32 := broadcastInDim S204800x1 ![0] bcast_S204800_S204800x1_0 v4
  let v7 : IVec S204800x1 1 := cmpi .sge v5 (broadcastInDim S204800x1 ![] bcast_S_S204800x1 (constantI S_ 32 0#32))
  let v9 : IVec S204800x1 32 := broadcastInDim S204800x1 ![0, 1] bcast_S1x1_S204800x1_0_1
    (broadcastInDim S1x1 ![1] bcast_S1_S1x1_1 (constantI S1 32 cN1))
  let v10 : IVec S204800x1 1 := cmpi .sle v5 v9
  let v11 : IVec S204800x1 1 := andi v7 v10
  let v12 : IVec S204800 1 := Host.reduce IntOp.andi v11 (constantI S_ 1 1#1) reducesTo_S204800x1_S204800_d1 h_S_
  let v13 : FVec F S204800x128 .f32 := Host.gather D tbl v5
  let v14 : IVec S204800x128 1 := broadcastInDim S204800x128 ![0] bcast_S204800_S204800x128_0 v12
  let v15 : FVec F S204800x128 .f32 := broadcastInDim S204800x128 ![] bcast_S_S204800x128 (constant S_ .f32 0x7FC00000#32)
  select v14 v13 v15

/-- With every index in `0 … N − 1` the lookup reads, at `(r, k)`, the table's row `idx[r]`, column `k`. -/
theorem takeRows_apply {N : Nat} (hN : 0 < N) (hN' : N < 2 ^ 31)
    (wf : GatherDims.WF ⟨2, ![N, 128]⟩ ⟨2, ![204800, 1]⟩ ⟨2, ![204800, 128]⟩ [1] [0] [] [0] [] 1 ![1, 128])
    (cN cN1 : BitVec 32) (hc : cN1.toInt = ((N - 1 : Nat) : Int))
    (tbl : FVec F ⟨2, ![N, 128]⟩ .f32) (idx : IVec S204800 32) (hidx : ∀ i, (idx i).toNat < N)
    (r : Fin 204800) (k : Fin 128) :
    takeRows (rowDims N 204800 128 wf) cN cN1 tbl idx (ix2 r k)
      = tbl (ix2 ⟨(idx (ix1 r)).toNat, hidx _⟩ k) := by
  -- no index is negative: the moved-up copy is never selected
  have hv4 : select (cmpi .slt idx (broadcastInDim S204800 ![] bcast_S_S204800 (constantI S_ 32 0#32)))
      (addi idx (broadcastInDim S204800 ![] bcast_S_S204800 (constantI S_ 32 cN))) idx = idx := by
    funext i
    exact select_neg_keep (idx i) _ (by have := hidx i; omega)
  unfold takeRows
  simp only [hv4]
  -- every row passes both range tests, so the reduction of the tests is 1 at every row
  have hv12 : ∀ i, Host.reduce IntOp.andi
      (andi (cmpi .sge (broadcastInDim S204800x1 ![0] bcast_S204800_S204800x1_0 idx)
          (broadcastInDim S204800x1 ![] bcast_S_S204800x1 (constantI S_ 32 0#32)))
        (cmpi .sle (broadcastInDim S204800x1 ![0] bcast_S204800_S204800x1_0 idx)
          (broadcastInDim S204800x1 ![0, 1] bcast_S1x1_S204800x1_0_1
            (broadcastInDim S1x1 ![1] bcast_S1_S1x1_1 (constantI S1 32 cN1)))))
      (constantI S_ 1 1#1) reducesTo_S204800x1_S204800_d1 h_S_ i = 1#1 := by
    intro i
    refine reduce_andi_ones _ _ _ _ (fun j => ?_) (fun _ => rfl) i
    show IntOp.andi (IntOp.cmpi .sge (broadcastInDim S204800x1 ![0] bcast_S204800_S204800x1_0 idx j) 0#32)
      (IntOp.cmpi .sle (broadcastInDim S204800x1 ![0] bcast_S204800_S204800x1_0 idx j) cN1) = 1#1
    rw [bcast_col_apply]
    exact range_tests _ _ (N - 1) hc (by omega) (by have := hidx (ix1 (j 0)); omega)
  rw [select_apply, bcast_row_apply, hv12, select_one]
  rw [gather_row_apply hN wf]
  -- the start index is the row's own index, already in range: the cut changes nothing
  have e : ∀ (h1 : min (broadcastInDim S204800x1 ![0] bcast_S204800_S204800x1_0 idx (ix2 r ⟨0, Nat.one_pos⟩)).toInt.toNat (N - 1) < N),
      (⟨_, h1⟩ : Fin N) = ⟨(idx (ix1 r)).toNat, hidx _⟩ := by
    intro h1
    refine Fin.ext ?_
    show min (broadcastInDim S204800x1 ![0] bcast_S204800_S204800x1_0 idx (ix2 r ⟨0, Nat.one_pos⟩)).toInt.toNat (N - 1)
      = (idx (ix1 r)).toNat
    rw [bcast_col_apply]
    show min (idx (ix1 r)).toInt.toNat (N - 1) = _
    rw [toInt_small _ (by have := hidx (ix1 r); omega)]
    have := hidx (ix1 r)
    omega
  rw [e]

end Cert.ReferenceIdeal.RefValue

namespace Cert.ReferenceIdeal.RefValue

open Cert.ReferenceIdeal Idealize.ShloMosaic Idealize.ShloMosaic.ValueIdx Cert.RefOps
open Facts₀ Facts

variable {F : FTy → Type} [FloatOps F] [Facts]

/-! ## The program's result as a function of its arguments -/

/-- The composed term of the program's operations: the mask "position below 20"; the base index (the position under the
    mask, else 0) and the extended index (0 under the mask, else the position less 20); the two row lookups; and the
    select between them by the mask spread along each row. -/
def out (pos : IVec S204800 32) (base : FVec F S20x128 .f32) (ext : FVec F S180x128 .f32) : FVec F S204800x128 .f32 :=
  let v1 : IVec S204800 1 := cmpi .slt pos (broadcastInDim S204800 ![] bcast_S_S204800 (constantI S_ 32 20#32))
  let v2 : IVec S204800 32 := select v1 pos (broadcastInDim S204800 ![] bcast_S_S204800 (id (constantI S_ 32 0#32)))
  let v4 : IVec S204800 32 := subi pos (broadcastInDim S204800 ![] bcast_S_S204800 (constantI S_ 32 20#32))
  let v5 : IVec S204800 32 := select v1 (broadcastInDim S204800 ![] bcast_S_S204800 (id (constantI S_ 32 0#32))) v4
  let v6 : FVec F S204800x128 .f32 := takeRows gather_S20x128_S204800x1_S204800x128_1_0_n_n_0_1_1128 20#32 19#32 base v2
  let v7 : FVec F S204800x128 .f32 := takeRows gather_S180x128_S204800x1_S204800x128_1_0_n_n_0_1_1128 180#32 179#32 ext v5
  let v8 : IVec S204800x1 1 := broadcastInDim S204800x1 ![0] bcast_S204800_S204800x1_0 v1
  select (broadcastInDim S204800x128 ![0, 1] bcast_S204800x1_S204800x128_0_1 v8) v6 v7

section Words

/-- For a position in `0 … 199` the signed test "below 20" is the test on its natural-number value. -/
theorem slt20_iff (p : BitVec 32) (h : p.toNat ≤ 199) : IntOp.cmpi .slt p 20#32 = 1#1 ↔ p.toNat < 20 := by
  rw [IntOp.cmpi_slt, toInt_small p (by omega), show (20#32 : BitVec 32).toInt = 20 from by decide]
  omega

/-- The base index is a row of the base table. -/
theorem baseIdx_lt (p : BitVec 32) (h : p.toNat ≤ 199) :
    (Scalar.select (IntOp.cmpi .slt p 20#32) p 0#32).toNat < 20 := by
  by_cases hm : IntOp.cmpi .slt p 20#32 = 1#1
  · rw [hm, select_one]; exact (slt20_iff p h).1 hm
  · rw [eq_zero_of_ne_one hm, select_zero]; decide

/-- A position in `20 … 199` less 20, as a word, is the difference of the natural numbers. -/
theorem toNat_sub20 (p : BitVec 32) (h : p.toNat ≤ 199) (h20 : ¬ p.toNat < 20) :
    (IntOp.subi p 20#32).toNat = p.toNat - 20 := by
  show (p - 20#32).toNat = _
  rw [BitVec.toNat_sub, show (20#32 : BitVec 32).toNat = 20 from by decide]
  omega

/-- The extended index is a row of the extended table. -/
theorem extIdx_lt (p : BitVec 32) (h : p.toNat ≤ 199) :
    (Scalar.select (IntOp.cmpi .slt p 20#32) 0#32 (IntOp.subi p 20#32)).toNat < 180 := by
  by_cases hm : IntOp.cmpi .slt p 20#32 = 1#1
  · rw [hm, select_one]; decide
  · rw [eq_zero_of_ne_one hm, select_zero, toNat_sub20 p h (fun hh => hm ((slt20_iff p h).2 hh))]
    omega

end Words

/-- On positions in `0 … 199` the program's result is the lookup in the stacked table. -/
theorem out_eq_lookup (pos : IVec S204800 32) (base : FVec F S20x128 .f32) (ext : FVec F S180x128 .f32)
    (hpos : ∀ i, (pos i).toNat ≤ 199) :
    out pos base ext = Cert.Spec.lookup pos base ext := by
  funext j
  obtain ⟨r, k, rfl⟩ : ∃ r k, j = ix2 r k := ⟨j 0, j 1, eq_ix2 j⟩
  have hp := hpos (ix1 r)
  unfold out
  simp only []
  rw [select_apply, bcast_wide_apply, bcast_col_apply]
  show Scalar.select (IntOp.cmpi .slt (pos (ix1 r)) 20#32) _ _ = Cert.Spec.stacked base ext (ix2 (Cert.Spec.rowOf (pos (ix1 r))) k)
  by_cases hm : IntOp.cmpi .slt (pos (ix1 r)) 20#32 = 1#1
  · have hlt : (pos (ix1 r)).toNat < 20 := (slt20_iff _ hp).1 hm
    rw [hm, select_one]
    rw [show (gather_S20x128_S204800x1_S204800x128_1_0_n_n_0_1_1128 : GatherDims S20x128 S204800x1 S204800x128) = rowDims 20 204800 128 gather_S20x128_S204800x1_S204800x128_1_0_n_n_0_1_1128_wf from rfl]
    rw [takeRows_apply (by decide) (by decide) gather_S20x128_S204800x1_S204800x128_1_0_n_n_0_1_1128_wf 20#32 19#32 (by decide) base
      (select (cmpi .slt pos (broadcastInDim S204800 ![] bcast_S_S204800 (constantI S_ 32 20#32))) pos (broadcastInDim S204800 ![] bcast_S_S204800 (id (constantI S_ 32 0#32))))
      (fun i => baseIdx_lt (pos i) (hpos i)) r k]
    rw [Cert.Spec.stacked_lt base ext (Cert.Spec.rowOf (pos (ix1 r))) k (show min (pos (ix1 r)).toNat 199 < 20 by omega)]
    congr 2
    refine Fin.ext ?_
    show (Scalar.select (IntOp.cmpi .slt (pos (ix1 r)) 20#32) (pos (ix1 r)) 0#32).toNat = min (pos (ix1 r)).toNat 199
    rw [hm, select_one]
    omega
  · have hge : ¬ (pos (ix1 r)).toNat < 20 := fun hh => hm ((slt20_iff _ hp).2 hh)
    rw [eq_zero_of_ne_one hm, select_zero]
    rw [show (gather_S180x128_S204800x1_S204800x128_1_0_n_n_0_1_1128 : GatherDims S180x128 S204800x1 S204800x128) = rowDims 180 204800 128 gather_S180x128_S204800x1_S204800x128_1_0_n_n_0_1_1128_wf from rfl]
    rw [takeRows_apply (by decide) (by decide) gather_S180x128_S204800x1_S204800x128_1_0_n_n_0_1_1128_wf 180#32 179#32 (by decide) ext
      (select (cmpi .slt pos (broadcastInDim S204800 ![] bcast_S_S204800 (constantI S_ 32 20#32))) (broadcastInDim S204800 ![] bcast_S_S204800 (id (constantI S_ 32 0#32))) (subi pos (broadcastInDim S204800 ![] bcast_S_S204800 (constantI S_ 32 20#32))))
      (fun i => extIdx_lt (pos i) (hpos i)) r k]
    rw [Cert.Spec.stacked_ge base ext (Cert.Spec.rowOf (pos (ix1 r))) k (show ¬ min (pos (ix1 r)).toNat 199 < 20 by omega)]
    congr 2
    refine Fin.ext ?_
    show (Scalar.select (IntOp.cmpi .slt (pos (ix1 r)) 20#32) 0#32 (IntOp.subi (pos (ix1 r)) 20#32)).toNat
      = min (pos (ix1 r)).toNat 199 - 20
    rw [eq_zero_of_ne_one hm, select_zero, toNat_sub20 _ hp hge]
    omega

end Cert.ReferenceIdeal.RefValue

namespace Cert.ReferenceIdeal.RefValue

open Cert.ReferenceIdeal Idealize.ShloMosaic Idealize.ShloMosaic.TcCoe Idealize.SL.Sem Idealize.ShloMosaic.StableHlo
open Facts₀ Facts

variable {F : FTy → Type} [FloatOps F] [Facts]

/-! ## The program as a straight line, and its run -/

/-- The program's 63 operations in the order they run: those of the entry function, and at each call the callee's
    own, over that call's buffers. -/
abbrev ops : List (HloOp τ sig (Elt F)) :=
  [
    nullary main_c (constantI S_ 32 20#32),
    unary main_c main_v0 (broadcastInDim S204800 ![] bcast_S_S204800 : (⟨S_, .i32⟩ : BufTy).Contents (Elt F) → (⟨S204800, .i32⟩ : BufTy).Contents (Elt F)),
    binary main_arg0 main_v0 main_v1 (cmpi .slt : (⟨S204800, .i32⟩ : BufTy).Contents (Elt F) → (⟨S204800, .i32⟩ : BufTy).Contents (Elt F) → (⟨S204800, .i1⟩ : BufTy).Contents (Elt F)),
    nullary main_c_0 (constantI S_ 32 0#32),
    TRef.unary (.of main_c_0 : TRef sig ⟨S_, .i32⟩) main_call0.v0 id,
    TRef.unary main_call0.v0 main_call0.v1 (broadcastInDim S204800 ![] bcast_S_S204800),
    TRef.ternary (.of main_v1 : TRef sig ⟨S204800, .i1⟩) (.of main_arg0 : TRef sig ⟨S204800, .i32⟩) main_call0.v1 main_call0.v2 select,
    nullary main_c_1 (constantI S_ 32 20#32),
    unary main_c_1 main_v3 (broadcastInDim S204800 ![] bcast_S_S204800 : (⟨S_, .i32⟩ : BufTy).Contents (Elt F) → (⟨S204800, .i32⟩ : BufTy).Contents (Elt F)),
    binary main_arg0 main_v3 main_v4 (subi : (⟨S204800, .i32⟩ : BufTy).Contents (Elt F) → (⟨S204800, .i32⟩ : BufTy).Contents (Elt F) → (⟨S204800, .i32⟩ : BufTy).Contents (Elt F)),
    nullary main_c_2 (constantI S_ 32 0#32),
    TRef.unary (.of main_c_2 : TRef sig ⟨S_, .i32⟩) main_call1.v0 id,
    TRef.unary main_call1.v0 main_call1.v1 (broadcastInDim S204800 ![] bcast_S_S204800),
    TRef.ternary (.of main_v1 : TRef sig ⟨S204800, .i1⟩) main_call1.v1 (.of main_v4 : TRef sig ⟨S204800, .i32⟩) main_call1.v2 select,
    TRef.nullary main_call2.c (constantI S_ 32 0#32),
    TRef.unary main_call2.c main_call2.v0 (broadcastInDim S204800 ![] bcast_S_S204800),
    TRef.binary (.of main_v2 : TRef sig ⟨S204800, .i32⟩) main_call2.v0 main_call2.v1 (cmpi .slt),
    TRef.nullary main_call2.c_0 (constantI S_ 32 20#32),
    TRef.unary main_call2.c_0 main_call2.v2 (broadcastInDim S204800 ![] bcast_S_S204800),
    TRef.binary (.of main_v2 : TRef sig ⟨S204800, .i32⟩) main_call2.v2 main_call2.v3 addi,
    TRef.ternary main_call2.v1 main_call2.v3 (.of main_v2 : TRef sig ⟨S204800, .i32⟩) main_call2.call0.v0 select,
    TRef.unary main_call2.call0.v0 main_call2.v5 (broadcastInDim S204800x1 ![0] bcast_S204800_S204800x1_0),
    TRef.nullary main_call2.c_1 (constantI S1 32 19#32),
    TRef.nullary main_call2.c_2 (constantI S_ 32 0#32),
    TRef.unary main_call2.c_2 main_call2.v6 (broadcastInDim S204800x1 ![] bcast_S_S204800x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S204800x1 ![0, 1] bcast_S1x1_S204800x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S204800x1_S204800_d1 h_S_),
    TRef.binary (.of main_arg1 : TRef sig ⟨S20x128, .f32⟩) main_call2.v5 main_call2.v13 (fun x i => Host.gather gather_S20x128_S204800x1_S204800x128_1_0_n_n_0_1_1128 x i),
    TRef.unary main_call2.v12 main_call2.v14 (broadcastInDim S204800x128 ![0] bcast_S204800_S204800x128_0),
    TRef.nullary main_call2.cst (constant S_ .f32 0x7FC00000#32),
    TRef.unary main_call2.cst main_call2.v15 (broadcastInDim S204800x128 ![] bcast_S_S204800x128),
    TRef.ternary main_call2.v14 main_call2.v13 main_call2.v15 main_call2.v16 select,
    TRef.nullary main_call3.c (constantI S_ 32 0#32),
    TRef.unary main_call3.c main_call3.v0 (broadcastInDim S204800 ![] bcast_S_S204800),
    TRef.binary (.of main_v5 : TRef sig ⟨S204800, .i32⟩) main_call3.v0 main_call3.v1 (cmpi .slt),
    TRef.nullary main_call3.c_0 (constantI S_ 32 180#32),
    TRef.unary main_call3.c_0 main_call3.v2 (broadcastInDim S204800 ![] bcast_S_S204800),
    TRef.binary (.of main_v5 : TRef sig ⟨S204800, .i32⟩) main_call3.v2 main_call3.v3 addi,
    TRef.ternary main_call3.v1 main_call3.v3 (.of main_v5 : TRef sig ⟨S204800, .i32⟩) main_call3.call0.v0 select,
    TRef.unary main_call3.call0.v0 main_call3.v5 (broadcastInDim S204800x1 ![0] bcast_S204800_S204800x1_0),
    TRef.nullary main_call3.c_1 (constantI S1 32 179#32),
    TRef.nullary main_call3.c_2 (constantI S_ 32 0#32),
    TRef.unary main_call3.c_2 main_call3.v6 (broadcastInDim S204800x1 ![] bcast_S_S204800x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S204800x1 ![0, 1] bcast_S1x1_S204800x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S204800x1_S204800_d1 h_S_),
    TRef.binary (.of main_arg2 : TRef sig ⟨S180x128, .f32⟩) main_call3.v5 main_call3.v13 (fun x i => Host.gather gather_S180x128_S204800x1_S204800x128_1_0_n_n_0_1_1128 x i),
    TRef.unary main_call3.v12 main_call3.v14 (broadcastInDim S204800x128 ![0] bcast_S204800_S204800x128_0),
    TRef.nullary main_call3.cst (constant S_ .f32 0x7FC00000#32),
    TRef.unary main_call3.cst main_call3.v15 (broadcastInDim S204800x128 ![] bcast_S_S204800x128),
    TRef.ternary main_call3.v14 main_call3.v13 main_call3.v15 main_call3.v16 select,
    unary main_v1 main_v8 (broadcastInDim S204800x1 ![0] bcast_S204800_S204800x1_0 : (⟨S204800, .i1⟩ : BufTy).Contents (Elt F) → (⟨S204800x1, .i1⟩ : BufTy).Contents (Elt F)),
    TRef.unary (.of main_v8 : TRef sig ⟨S204800x1, .i1⟩) main_call4.v0 (broadcastInDim S204800x128 ![0, 1] bcast_S204800x1_S204800x128_0_1),
    TRef.ternary main_call4.v0 (.of main_v6 : TRef sig ⟨S204800x128, .f32⟩) (.of main_v7 : TRef sig ⟨S204800x128, .f32⟩) main_call4.v1 select ]

set_option maxRecDepth 8192 in
set_option maxHeartbeats 1600000 in
/-- The entry function is that straight line: each call unfolds to the callee's operations and sequencing computes. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., ternary_bufs_sub ..⟩

/-- Every weakly fair execution of the program terminates, each buffer ending at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
set_option maxHeartbeats 1600000 in
/-- The fold at the result buffer is `out` of the three arguments: each operation's result is read at its own buffer,
    and the composed term is `out`'s, by computation (the reduction and the gather are kept folded meanwhile). -/
theorem out_eq (V : Valuation τ sig (Elt F)) :
    after ops V (main_v9 : DevRef τ sig)
      = out (V (main_arg0 : DevRef τ sig)) (V (main_arg1 : DevRef τ sig)) (V (main_arg2 : DevRef τ sig)) := by
  after_results_simp
  delta TRef.ofBuf TRef.toBuf
  simp only [cast_eq]
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

/-- From any memory whose positions lie in `0 … 199`, with zero counters: every weakly fair execution of the program
    terminates with the result buffer at the lookup in the stacked table and the three arguments unchanged. -/
theorem run
    (m : (ℓ : Loc Cert.ReferenceIdeal.nD Cert.ReferenceIdeal.τ Cert.ReferenceIdeal.sig) → Buf (Elt Ideal) ℓ) (ρ : Dev Cert.ReferenceIdeal.nD → PrngReg)
    (hpos : ∀ (c : Dev Cert.ReferenceIdeal.nD) (i : Cert.ReferenceIdeal.S204800.Idx),
        ((m ((c.tc : Thread Cert.ReferenceIdeal.nD Cert.ReferenceIdeal.τ).loc Cert.ReferenceIdeal.main_arg0)) i).toNat ≤ 199) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v9)
          = Cert.Spec.lookup (m ((c.tc : Thread _ _).loc Cert.ReferenceIdeal.main_arg0)) (m ((c.tc : Thread _ _).loc Cert.ReferenceIdeal.main_arg1)) (m ((c.tc : Thread _ _).loc Cert.ReferenceIdeal.main_arg2))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)) :=
  (θ_run defs _ _).mono (fun _ h c =>
      ⟨(h c main_v9).trans ((out_eq _).trans (out_eq_lookup _ _ _ (hpos c))),
        (h c main_arg0).trans (arg0_eq _), (h c main_arg1).trans (arg1_eq _), (h c main_arg2).trans (arg2_eq _)⟩)
    (run_main (F := Ideal) m ρ)

end Cert.ReferenceIdeal.RefValue

end
-- ==== Proof.lean ====
/-
  The certificate's five claims from the pieces. Both kernels' runs end, on every device, with the result at the lookup in
  the stacked table and the three arguments as they were (the launch theorem's post), given the subcores' task obligation;
  the reference's run ends at the same lookup of its own arguments. The precondition gives what both ask of the positions:
  each at most 199. A frame claim is a run's post with the result dropped; the algebraic claim names the lookup of the
  kernel's arguments as the common result, and the reference's lookup is that one because the two memories agree on the
  arguments.
-/
import proofs.«207546_g72756745994873_cont_9to1_m_541_11_alg».proof.Defs
import proofs.«207546_g72756745994873_cont_9to1_m_541_11_alg».proof.Proof.Gen.Kernel
import proofs.«207546_g72756745994873_cont_9to1_m_541_11_alg».proof.Proof.Gen.Kernel.Skeleton
import proofs.«207546_g72756745994873_cont_9to1_m_541_11_alg».proof.Proof.Gen.KernelIdeal
import proofs.«207546_g72756745994873_cont_9to1_m_541_11_alg».proof.Proof.Gen.KernelIdeal.Skeleton
import proofs.«207546_g72756745994873_cont_9to1_m_541_11_alg».proof.Proof.Gen.ReferenceIdeal
import proofs.«207546_g72756745994873_cont_9to1_m_541_11_alg».proof.Proof.Gen.Pre_input_domain
import proofs.«207546_g72756745994873_cont_9to1_m_541_11_alg».proof.Proof.KILaunch
import proofs.«207546_g72756745994873_cont_9to1_m_541_11_alg».proof.Proof.KBLaunch
import proofs.«207546_g72756745994873_cont_9to1_m_541_11_alg».proof.Proof.KIBody
import proofs.«207546_g72756745994873_cont_9to1_m_541_11_alg».proof.Proof.KBBody
import proofs.«207546_g72756745994873_cont_9to1_m_541_11_alg».proof.Proof.PreRange
import proofs.«207546_g72756745994873_cont_9to1_m_541_11_alg».proof.Proof.RefRun
import Idealize.ShloMosaic.Adequacy
import Idealize.ShloMosaic.Init

noncomputable section

namespace Cert.Proof

open Idealize.ShloMosaic Idealize.SL.Sem

/-! ## The precondition gives the positions' range -/

/-- The idealized kernel's precondition puts every position of every device in `0 … 199`. -/
theorem preOK_KI (m : (ℓ : Loc Cert.KernelIdeal.nD Cert.KernelIdeal.τ Cert.KernelIdeal.sig) → Buf (Elt Ideal) ℓ)
    (h : Cert.Pre_KernelIdeal m) : KI.PreOK m :=
  fun d j => Cert.PreRange.pos_range (F := Ideal) _ _ _ (h d) j

/-- The kernel's precondition puts every position of every device in `0 … 199`. -/
theorem preOK_KB (m : (ℓ : Loc Cert.Kernel.nD Cert.Kernel.τ Cert.Kernel.sig) → Buf (Elt Bits) ℓ)
    (h : Cert.Pre_Kernel m) : KB.PreOK m :=
  fun d j => Cert.PreRange.pos_range (F := Bits) _ _ _ (h d) j

/-- The reference's precondition puts every position of every device in `0 … 199`. -/
theorem pos_R (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (i : Cert.ReferenceIdeal.S204800.Idx) :
    ((m ((c.tc : Thread Cert.ReferenceIdeal.nD Cert.ReferenceIdeal.τ).loc Cert.ReferenceIdeal.main_arg0)) i).toNat ≤ 199 :=
  Cert.PreRange.pos_range (F := Ideal) _ _ _ (h c) i

/-! ## The claims, given the subcores' task obligations -/

section Claims

variable
  (oblI : ∀ (m : (ℓ : Loc Cert.KernelIdeal.nD Cert.KernelIdeal.τ Cert.KernelIdeal.sig) → Buf (Elt Ideal) ℓ), KI.PreOK m →
    (KI.K (F := Ideal)).TileObl (KI.D (F := Ideal)) KI.𝒱 (KI.P m) KI.v₀ 0)
  (oblB : ∀ (m : (ℓ : Loc Cert.Kernel.nD Cert.Kernel.τ Cert.Kernel.sig) → Buf (Elt Bits) ℓ), KB.PreOK m →
    (KB.K (F := Bits)).TileObl (KB.D (F := Bits)) KB.𝒱 (KB.P m) KB.v₀ 0)

include oblB in
/-- The kernel runs and its arguments end unchanged: the launch theorem's post with the result dropped. -/
theorem frame_KB : Cert.frame_Kernel := fun m g hpre =>
  (θ_run _ _ _).mono (fun _ h c => ⟨(h c).2.1, (h c).2.2.1, (h c).2.2.2⟩) (KB.run_main m g (oblB m (preOK_KB m hpre)))

include oblI in
/-- The idealized kernel runs and its arguments end unchanged: the launch theorem's post with the result dropped. -/
theorem frame_KI : Cert.frame_KernelIdeal := fun m g hpre =>
  (θ_run _ _ _).mono (fun _ h c => ⟨(h c).2.1, (h c).2.2.1, (h c).2.2.2⟩) (KI.run_main m g (oblI m (preOK_KI m hpre)))

/-- The reference runs and its arguments end unchanged: its run's post with the result dropped. -/
theorem frame_R : Cert.frame_ReferenceIdeal := fun m g hpre =>
  (θ_run _ _ _).mono (fun _ h c => (h c).2) (Cert.ReferenceIdeal.RefValue.run m g (pos_R m hpre))

include oblI in
/-- Both programs end at the lookup of the kernel's arguments in the stacked table: the kernel by the launch theorem; the
    reference at the lookup of its own arguments, which are the kernel's by the agreement of the two memories — and the
    reference's positions are in range because the kernel's are. -/
theorem algebraic : Cert.algebraic_KernelIdeal_ReferenceIdeal := fun m g m' g' hpre hagree =>
  ⟨fun c => KI.lookupF m c, KI.run_main m g (oblI m (preOK_KI m hpre)),
    (θ_run _ _ _).mono
      (fun _ h c => ⟨by rw [(h c).1, (hagree c).1, (hagree c).2.1, (hagree c).2.2]; rfl, (h c).2⟩)
      (Cert.ReferenceIdeal.RefValue.run m' g' (fun c i => by rw [(hagree c).1]; exact preOK_KI m hpre c i))⟩

include oblI oblB in
/-- The five claims together, under the generated witnesses of the programs' stated facts. -/
theorem claim_of : Cert.Claim :=
  ⟨Cert.Kernel.Gen.facts, Cert.KernelIdeal.Gen.facts, Cert.ReferenceIdeal.Gen.facts, Cert.Pre_input_domain.Gen.facts,
    frame_KB oblB, frame_KI oblI, frame_R, trivial, algebraic oblI⟩

end Claims

/-- The certificate's claim: the five claims with each kernel's task obligation proved (the subcore's body, at the word-level
    instance and at the ideal one). -/
theorem claim : Cert.Claim :=
  claim_of (fun m hpre => KI.tileObl m KI.facts hpre) (fun m hpre => KB.tileObl m KB.facts hpre)

end Cert.Proof

end
